-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S2x2048x1024 .f32) (main_arg1 : FVec F S3072x1024 .f32) (main_arg2 : FVec F S3072 .f32) (main_arg3 : FVec F S1024x1024 .f32) (main_arg4 : FVec F S1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S3072 .f32 := Host.absf main_arg2
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_c_3 : IVec S_ 1 := constantI S_ 1 1#1
  let main_v12 : IVec S_ 1 := (fun x v => Host.reduce IntOp.andi x v reducesTo_S3072_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S2x2048x1024 : Shape := ⟨3, ![2, 2048, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S4096x1024 : Shape := ⟨2, ![4096, 1024]⟩
abbrev S1024x3072 : Shape := ⟨2, ![1024, 3072]⟩
abbrev S1x3072 : Shape := ⟨2, ![1, 3072]⟩
abbrev S4096x3072 : Shape := ⟨2, ![4096, 3072]⟩
abbrev S512x1024 : Shape := ⟨2, ![512, 1024]⟩
abbrev S1024x512 : Shape := ⟨2, ![1024, 512]⟩
abbrev S1x512 : Shape := ⟨2, ![1, 512]⟩
abbrev S512x512 : Shape := ⟨2, ![512, 512]⟩
abbrev S2x2048x16x192 : Shape := ⟨4, ![2, 2048, 16, 192]⟩
abbrev S2x16x2048x192 : Shape := ⟨4, ![2, 16, 2048, 192]⟩
abbrev S2x16x2048x64 : Shape := ⟨4, ![2, 16, 2048, 64]⟩
abbrev S32x2048x64 : Shape := ⟨3, ![32, 2048, 64]⟩
abbrev S1x1024x64 : Shape := ⟨3, ![1, 1024, 64]⟩
abbrev S1x512x64 : Shape := ⟨3, ![1, 512, 64]⟩
abbrev S1024x1 : Shape := ⟨2, ![1024, 1]⟩
abbrev S1024x64 : Shape := ⟨2, ![1024, 64]⟩
abbrev S512x64 : Shape := ⟨2, ![512, 64]⟩
abbrev S64x512 : Shape := ⟨2, ![64, 512]⟩
abbrev S2x2048x16x64 : Shape := ⟨4, ![2, 2048, 16, 64]⟩
abbrev S1x1024 : Shape := ⟨2, ![1, 1024]⟩

abbrev nBuf : Space → Nat
  | .hbm => 25
  | .vmem => 27
  | .smem => 0
  | _ => 0

abbrev bufTy : (tb : Table) → Fin (tcTables nBuf tb) → BufTy
  | .hbm, ⟨0, _⟩ => ⟨S2x2048x1024, .f32⟩
  | .hbm, ⟨1, _⟩ => ⟨S3072x1024, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S4096x1024, .f32⟩
  | .hbm, ⟨6, _⟩ => ⟨S1024x3072, .f32⟩
  | .hbm, ⟨7, _⟩ => ⟨S1x3072, .f32⟩
  | .hbm, ⟨8, _⟩ => ⟨S4096x3072, .f32⟩
  | .hbm, ⟨9, _⟩ => ⟨S2x2048x16x192, .f32⟩
  | .hbm, ⟨10, _⟩ => ⟨S2x16x2048x192, .f32⟩
  | .hbm, ⟨11, _⟩ => ⟨S2x16x2048x64, .f32⟩
  | .hbm, ⟨12, _⟩ => ⟨S2x16x2048x64, .f32⟩
  | .hbm, ⟨13, _⟩ => ⟨S2x16x2048x64, .f32⟩
  | .hbm, ⟨14, _⟩ => ⟨S32x2048x64, .f32⟩
  | .hbm, ⟨15, _⟩ => ⟨S32x2048x64, .f32⟩
  | .hbm, ⟨16, _⟩ => ⟨S32x2048x64, .f32⟩
  | .hbm, ⟨17, _⟩ => ⟨S32x2048x64, .f32⟩
  | .hbm, ⟨18, _⟩ => ⟨S2x16x2048x64, .f32⟩
  | .hbm, ⟨19, _⟩ => ⟨S2x2048x16x64, .f32⟩
  | .hbm, ⟨20, _⟩ => ⟨S4096x1024, .f32⟩
  | .hbm, ⟨21, _⟩ => ⟨S1024x1024, .f32⟩
  | .hbm, ⟨22, _⟩ => ⟨S1x1024, .f32⟩
  | .hbm, ⟨23, _⟩ => ⟨S4096x1024, .f32⟩
  | .hbm, ⟨24, _⟩ => ⟨S2x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x512, .f32⟩
  | .local _ .vmem, ⟨3, _⟩ => ⟨S1024x512, .f32⟩
  | .local _ .vmem, ⟨4, _⟩ => ⟨S1x512, .f32⟩
  | .local _ .vmem, ⟨5, _⟩ => ⟨S1x512, .f32⟩
  | .local _ .vmem, ⟨6, _⟩ => ⟨S512x512, .f32⟩
  | .local _ .vmem, ⟨7, _⟩ => ⟨S512x512, .f32⟩
  | .local _ .vmem, ⟨8, _⟩ => ⟨S1x1024x64, .f32⟩
  | .local _ .vmem, ⟨9, _⟩ => ⟨S1x1024x64, .f32⟩
  | .local _ .vmem, ⟨10, _⟩ => ⟨S1x512x64, .f32⟩
  | .local _ .vmem, ⟨11, _⟩ => ⟨S1x512x64, .f32⟩
  | .local _ .vmem, ⟨12, _⟩ => ⟨S1x512x64, .f32⟩
  | .local _ .vmem, ⟨13, _⟩ => ⟨S1x512x64, .f32⟩
  | .local _ .vmem, ⟨14, _⟩ => ⟨S1x1024x64, .f32⟩
  | .local _ .vmem, ⟨15, _⟩ => ⟨S1x1024x64, .f32⟩
  | .local _ .vmem, ⟨16, _⟩ => ⟨S1024x1, .f32⟩
  | .local _ .vmem, ⟨17, _⟩ => ⟨S1024x1, .f32⟩
  | .local _ .vmem, ⟨18, _⟩ => ⟨S1024x64, .f32⟩
  | .local _ .vmem, ⟨19, _⟩ => ⟨S512x1024, .f32⟩
  | .local _ .vmem, ⟨20, _⟩ => ⟨S512x1024, .f32⟩
  | .local _ .vmem, ⟨21, _⟩ => ⟨S1024x512, .f32⟩
  | .local _ .vmem, ⟨22, _⟩ => ⟨S1024x512, .f32⟩
  | .local _ .vmem, ⟨23, _⟩ => ⟨S1x512, .f32⟩
  | .local _ .vmem, ⟨24, _⟩ => ⟨S1x512, .f32⟩
  | .local _ .vmem, ⟨25, _⟩ => ⟨S512x512, .f32⟩
  | .local _ .vmem, ⟨26, _⟩ => ⟨S512x512, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_scratch0 : Ref sig .tc := ⟨.vmem, 16, rfl⟩
abbrev cc1_scratch1 : Ref sig .tc := ⟨.vmem, 17, rfl⟩
abbrev cc1_scratch2 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg2_1 : Ref sig .tc := ⟨.vmem, 24, rfl⟩
abbrev cc2_stg3_0 : Ref sig .tc := ⟨.vmem, 25, rfl⟩
abbrev cc2_stg3_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨2, ![8, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨3, ![32, 2, 4], ![false, false, false]⟩

def k1_cond2 (i : grid1.Coords) : BitVec 1 :=
  let arg2 : BitVec 32 := BitVec.ofNat 32 (i 2).val
  let c3_i32 : BitVec 32 := 3#32
  let v45 : BitVec 1 := Scalar.cmpi .eq arg2 c3_i32
  let v46 : BitVec 32 := Scalar.extui v45
  let c0_i32_25 : BitVec 32 := 0#32
  let v47 : BitVec 1 := Scalar.cmpi .ne v46 c0_i32_25
  v47

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1024x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x512x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x512x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1x1024x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨2, ![8, 2], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S512x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

class Facts₀ : Prop where
  shapeCasts_S2x2048x1024_S4096x1024 : S2x2048x1024.ShapeCasts S4096x1024
  transposes_S3072x1024_S1024x3072_1_0 : S3072x1024.Transposes [1, 0] S1024x3072
  shapeCasts_S3072_S1x3072 : S3072.ShapeCasts S1x3072
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S512x512_S512x512_0_0 : ∀ a, (![0, 0] : Fin 2 → Nat) a + S512x512.size a ≤ S512x512.size a
  h_S512x512 : 0 < S512x512.numel
  shapeCasts_S4096x3072_S2x2048x16x192 : S4096x3072.ShapeCasts S2x2048x16x192
  transposes_S2x2048x16x192_S2x16x2048x192_0_2_1_3 : S2x2048x16x192.Transposes [0, 2, 1, 3] S2x16x2048x192
  slices_S2x16x2048x192_S2x16x2048x64_0_0_0_0 : S2x16x2048x192.Slices ![0, 0, 0, 0] S2x16x2048x64
  slices_S2x16x2048x192_S2x16x2048x64_0_0_0_64 : S2x16x2048x192.Slices ![0, 0, 0, 64] S2x16x2048x64
  slices_S2x16x2048x192_S2x16x2048x64_0_0_0_128 : S2x16x2048x192.Slices ![0, 0, 0, 128] S2x16x2048x64
  shapeCasts_S2x16x2048x64_S32x2048x64 : S2x16x2048x64.ShapeCasts S32x2048x64
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  transposes_S512x64_p1_0_S64x512 : S512x64.Transposes [1, 0] S64x512
  reduces_S1024x512_S1024 : S1024x512.Reduces [1] S1024
  shapeCasts_S1024_S1024x1 : S1024.ShapeCasts S1024x1
  broadcasts_S1024x1_S1024x512 : S1024x1.Broadcasts S1024x512
  broadcasts_S1024x1_S1024x64 : S1024x1.Broadcasts S1024x64
  shapeCasts_S1024x64_S1x1024x64 : S1024x64.ShapeCasts S1x1024x64
  shapeCasts_S32x2048x64_S2x16x2048x64 : S32x2048x64.ShapeCasts S2x16x2048x64
  transposes_S2x16x2048x64_S2x2048x16x64_0_2_1_3 : S2x16x2048x64.Transposes [0, 2, 1, 3] S2x2048x16x64
  shapeCasts_S2x2048x16x64_S4096x1024 : S2x2048x16x64.ShapeCasts S4096x1024
  transposes_S1024x1024_S1024x1024_1_0 : S1024x1024.Transposes [1, 0] S1024x1024
  shapeCasts_S1024_S1x1024 : S1024.ShapeCasts S1x1024
  shapeCasts_S4096x1024_S2x2048x1024 : S4096x1024.ShapeCasts S2x2048x1024
  dot_S512x1024_S1024x512_S512x512_1_0_0_1_n_n_wf : DotDims.WF S512x1024 S1024x512 S512x512 [1] [0] [0] [1] [] []
  dot_S1024x64_S64x512_S1024x512_1_0_0_1_n_n_wf : DotDims.WF S1024x64 S64x512 S1024x512 [1] [0] [0] [1] [] []
  dot_S1024x512_S512x64_S1024x64_1_0_0_1_n_n_wf : DotDims.WF S1024x512 S512x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S1024x3072.size a
  hwx0_1 : ∀ i : grid0.Coords, EltTy.bits .f32 = 32 ∨ (Rect.block (s := S1024x3072) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x3072.size a
  hwx0_2 : ∀ i : grid0.Coords, EltTy.bits .f32 = 32 ∨ (Rect.block (s := S1x3072) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S4096x3072.size a
  hwx0_3 : ∀ i : grid0.Coords, EltTy.bits .f32 = 32 ∨ (Rect.block (s := S4096x3072) S512x512.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x64.size a ≤ S32x2048x64.size a
  hwx1_0 : ∀ i : grid1.Coords, EltTy.bits .f32 = 32 ∨ (Rect.block (s := S32x2048x64) S1x1024x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x64.size a ≤ S32x2048x64.size a
  hwx1_1 : ∀ i : grid1.Coords, EltTy.bits .f32 = 32 ∨ (Rect.block (s := S32x2048x64) S1x512x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x64.size a ≤ S32x2048x64.size a
  hwx1_2 : ∀ i : grid1.Coords, EltTy.bits .f32 = 32 ∨ (Rect.block (s := S32x2048x64) S1x512x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x64.size a ≤ S32x2048x64.size a
  hwx1_3 : ∀ i : grid1.Coords, EltTy.bits .f32 = 32 ∨ (Rect.block (s := S32x2048x64) S1x1024x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S4096x1024.size a
  hwx2_0 : ∀ i : grid2.Coords, EltTy.bits .f32 = 32 ∨ (Rect.block (s := S4096x1024) S512x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x512.size a ≤ S1024x1024.size a
  hwx2_1 : ∀ i : grid2.Coords, EltTy.bits .f32 = 32 ∨ (Rect.block (s := S1024x1024) S1024x512.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x512.size a ≤ S1x1024.size a
  hwx2_2 : ∀ i : grid2.Coords, EltTy.bits .f32 = 32 ∨ (Rect.block (s := S1x1024) S1x512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x512.size a ≤ S4096x1024.size a
  hwx2_3 : ∀ i : grid2.Coords, EltTy.bits .f32 = 32 ∨ (Rect.block (s := S4096x1024) S512x512.size (cc2_transform_3 i) (hinb2_3 i)).WholeWords (EltTy.packing .f32)

variable [Facts₀]

def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf
def dot_S1024x64_S64x512_S1024x512_1_0_0_1_n_n : DotDims S1024x64 S64x512 S1024x512 where
  lhsContracting := [1]
  rhsContracting := [0]
  lhsNonContracting := [0]
  rhsNonContracting := [1]
  lhsBatch := []
  rhsBatch := []
  wf := dot_S1024x64_S64x512_S1024x512_1_0_0_1_n_n_wf
def dot_S1024x512_S512x64_S1024x64_1_0_0_1_n_n : DotDims S1024x512 S512x64 S1024x64 where
  lhsContracting := [1]
  rhsContracting := [0]
  lhsNonContracting := [0]
  rhsNonContracting := [1]
  lhsBatch := []
  rhsBatch := []
  wf := dot_S1024x512_S512x64_S1024x64_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v9) S1x1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S1x512x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S1x512x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v12) S1x1024x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v15) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v16) S1024x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v17) S1x512.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v18) S512x512.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S2x2048x1024 : Shape := ⟨3, ![2, 2048, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S2x2048x3072 : Shape := ⟨3, ![2, 2048, 3072]⟩
abbrev S1x1x3072 : Shape := ⟨3, ![1, 1, 3072]⟩
abbrev S2x2048x16x192 : Shape := ⟨4, ![2, 2048, 16, 192]⟩
abbrev S2x16x2048x192 : Shape := ⟨4, ![2, 16, 2048, 192]⟩
abbrev S2x16x2048x64 : Shape := ⟨4, ![2, 16, 2048, 64]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩
abbrev S2x2048x16x64 : Shape := ⟨4, ![2, 2048, 16, 64]⟩
abbrev S1x1x1024 : Shape := ⟨3, ![1, 1, 1024]⟩

abbrev nBuf : Space → Nat
  | .hbm => 39
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S3072x1024, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S2x2048x3072, .f32⟩
  | .hbm, ⟨6, _⟩ => ⟨S1x1x3072, .f32⟩
  | .hbm, ⟨7, _⟩ => ⟨S2x2048x3072, .f32⟩
  | .hbm, ⟨8, _⟩ => ⟨S2x2048x3072, .f32⟩
  | .hbm, ⟨9, _⟩ => ⟨S2x2048x16x192, .f32⟩
  | .hbm, ⟨10, _⟩ => ⟨S2x16x2048x192, .f32⟩
  | .hbm, ⟨11, _⟩ => ⟨S2x16x2048x64, .f32⟩
  | .hbm, ⟨12, _⟩ => ⟨S2x16x2048x64, .f32⟩
  | .hbm, ⟨13, _⟩ => ⟨S2x16x2048x64, .f32⟩
  | .hbm, ⟨14, _⟩ => ⟨S2x16x2048x2048, .f32⟩
  | .hbm, ⟨15, _⟩ => ⟨S_, .f32⟩
  | .hbm, ⟨16, _⟩ => ⟨S2x16x2048x2048, .f32⟩
  | .hbm, ⟨17, _⟩ => ⟨S2x16x2048x2048, .f32⟩
  | .hbm, ⟨18, _⟩ => ⟨S_, .f32⟩
  | .hbm, ⟨19, _⟩ => ⟨S2x16x2048, .f32⟩
  | .hbm, ⟨20, _⟩ => ⟨S_, .f32⟩
  | .hbm, ⟨21, _⟩ => ⟨S2x16x2048, .f32⟩
  | .hbm, ⟨22, _⟩ => ⟨S2x16x2048, .f32⟩
  | .hbm, ⟨23, _⟩ => ⟨S2x16x2048x1, .f32⟩
  | .hbm, ⟨24, _⟩ => ⟨S2x16x2048x2048, .f32⟩
  | .hbm, ⟨25, _⟩ => ⟨S2x16x2048x2048, .f32⟩
  | .hbm, ⟨26, _⟩ => ⟨S2x16x2048x2048, .f32⟩
  | .hbm, ⟨27, _⟩ => ⟨S_, .f32⟩
  | .hbm, ⟨28, _⟩ => ⟨S2x16x2048, .f32⟩
  | .hbm, ⟨29, _⟩ => ⟨S2x16x2048x1, .f32⟩
  | .hbm, ⟨30, _⟩ => ⟨S2x16x2048x2048, .f32⟩
  | .hbm, ⟨31, _⟩ => ⟨S2x16x2048x2048, .f32⟩
  | .hbm, ⟨32, _⟩ => ⟨S2x16x2048x64, .f32⟩
  | .hbm, ⟨33, _⟩ => ⟨S2x2048x16x64, .f32⟩
  | .hbm, ⟨34, _⟩ => ⟨S2x2048x1024, .f32⟩
  | .hbm, ⟨35, _⟩ => ⟨S2x2048x1024, .f32⟩
  | .hbm, ⟨36, _⟩ => ⟨S1x1x1024, .f32⟩
  | .hbm, ⟨37, _⟩ => ⟨S2x2048x1024, .f32⟩
  | .hbm, ⟨38, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩

abbrev nD : Nat := 1
abbrev τ : Topo := Topo.v7x

variable {F : FTy → Type} [FloatOps F]

class Facts₀ : Prop where
  bcast_S3072_S1x1x3072_2 : S3072.BroadcastsInDim S1x1x3072 (![2] : Fin 1 → Fin S1x1x3072.rank)
  bcast_S1x1x3072_S2x2048x3072_0_1_2 : S1x1x3072.BroadcastsInDim S2x2048x3072 (![0, 1, 2] : Fin 3 → Fin S2x2048x3072.rank)
  shapeCasts_S2x2048x3072_S2x2048x16x192 : S2x2048x3072.ShapeCasts S2x2048x16x192
  transposes_S2x2048x16x192_S2x16x2048x192_0_2_1_3 : S2x2048x16x192.Transposes [0, 2, 1, 3] S2x16x2048x192
  slices_S2x16x2048x192_S2x16x2048x64_0_0_0_0 : S2x16x2048x192.Slices ![0, 0, 0, 0] S2x16x2048x64
  slices_S2x16x2048x192_S2x16x2048x64_0_0_0_64 : S2x16x2048x192.Slices ![0, 0, 0, 64] S2x16x2048x64
  slices_S2x16x2048x192_S2x16x2048x64_0_0_0_128 : S2x16x2048x192.Slices ![0, 0, 0, 128] S2x16x2048x64
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  bcast_S1024_S1x1x1024_2 : S1024.BroadcastsInDim S1x1x1024 (![2] : Fin 1 → Fin S1x1x1024.rank)
  bcast_S1x1x1024_S2x2048x1024_0_1_2 : S1x1x1024.BroadcastsInDim S2x2048x1024 (![0, 1, 2] : Fin 3 → Fin S2x2048x1024.rank)
  dot_S2x2048x1024_S3072x1024_S2x2048x3072_2_1_01_0_n_n_wf : DotDims.WF S2x2048x1024 S3072x1024 S2x2048x3072 [2] [1] [0, 1] [0] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]
  dot_S2x2048x1024_S1024x1024_S2x2048x1024_2_1_01_0_n_n_wf : DotDims.WF S2x2048x1024 S1024x1024 S2x2048x1024 [2] [1] [0, 1] [0] [] []

variable [Facts₀]

def dot_S2x2048x1024_S3072x1024_S2x2048x3072_2_1_01_0_n_n : DotDims S2x2048x1024 S3072x1024 S2x2048x3072 where
  lhsContracting := [2]
  rhsContracting := [1]
  lhsNonContracting := [0, 1]
  rhsNonContracting := [0]
  lhsBatch := []
  rhsBatch := []
  wf := dot_S2x2048x1024_S3072x1024_S2x2048x3072_2_1_01_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf
def dot_S2x2048x1024_S1024x1024_S2x2048x1024_2_1_01_0_n_n : DotDims S2x2048x1024 S1024x1024 S2x2048x1024 where
  lhsContracting := [2]
  rhsContracting := [1]
  lhsNonContracting := [0, 1]
  rhsNonContracting := [0]
  lhsBatch := []
  rhsBatch := []
  wf := dot_S2x2048x1024_S1024x1024_S2x2048x1024_2_1_01_0_n_n_wf

class Facts : Prop extends Facts₀ where

variable [Facts]
-- ==== Proof.BAttnRuns.lean ====
/-
  The attention region, part one. One grid point handles a tile of 1024 queries of one (batch, head) pair against one
  block of 512 keys and values; the four points of a tile follow one another, and three scratch buffers carry the running
  row maximum, the running row sum and the running weighted sum of values from one to the next. The body's first branch
  (taken at a tile's first point) resets the three; its second branch (taken at the tile's last point) divides the weighted
  sum by the row sum into the result tile. Here: the two conditions as functions of the point, where the result window is
  idle and where it is written back, the buffers the body is called with, the region's invariant split into the three
  scratch buffers and the rest, and the body run once per case, with what each store leaves found by the run itself.
-/
import proofs.«174977_j37177236914546_2_alg».proof.Proof.Gen.Kernel.Launch
import proofs.«174977_j37177236914546_2_alg».proof.Proof.Gen.Kernel.Skeleton
import proofs.«174977_j37177236914546_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions -/

/-- The body's first branch: the key-value coordinate is 0. -/
abbrev condFirst (i : grid1.Coords) : Prop := (Scalar.cmpi .ne (Scalar.extui (Scalar.cmpi .eq (BitVec.ofNat 32 (i 2).val) 0#32)) 0#32) = 1#1
/-- It is taken exactly at the points ≡ 0 (mod 4): the key-value axis is the fastest of the grid and has 4 steps. -/
theorem hFirst : ∀ t : Fin cfg1.N, condFirst (grid1.coords t) ↔ t.val % 4 = 0 :=
  (by decide +kernel : ∀ t : Fin grid1.N, condFirst (grid1.coords t) ↔ t.val % 4 = 0)

/-- The body's second branch: the key-value coordinate is 3, the last. -/
abbrev condLast (i : grid1.Coords) : Prop := k1_cond2 i = 1#1
/-- It is taken exactly at the points ≡ 3 (mod 4). -/
theorem hLast : ∀ t : Fin cfg1.N, condLast (grid1.coords t) ↔ t.val % 4 = 3 :=
  (by decide +kernel : ∀ t : Fin grid1.N, condLast (grid1.coords t) ↔ t.val % 4 = 3)

/-! ## Where the result window is idle -/

theorem live_0 : ∀ t : Fin cfg1.N, cfg1.idle 0 (grid1.coords t) = false := fun _ => rfl
theorem live_1 : ∀ t : Fin cfg1.N, cfg1.idle 1 (grid1.coords t) = false := fun _ => rfl
theorem live_2 : ∀ t : Fin cfg1.N, cfg1.idle 2 (grid1.coords t) = false := fun _ => rfl
/-- Away from a tile's last point the body stores nothing into the result window, -/
theorem idle_3 : ∀ t : Fin cfg1.N, ¬condLast (grid1.coords t) → cfg1.idle 3 (grid1.coords t) = true := by decide +kernel
/-- and the window is not written back there; -/
theorem noFlush_3 : ∀ t : Fin cfg1.N, ¬condLast (grid1.coords t) → (cfg1.win 3).flush t = false := by decide +kernel
/-- at the last point it is live. -/
theorem live_3 : ∀ t : Fin cfg1.N, condLast (grid1.coords t) → cfg1.idle 3 (grid1.coords t) = false := by decide +kernel

/-! ## The buffers the body is called with -/

abbrev ms0 (t : Fin cfg1.N) : Memref sig .tc .vmem S1x1024x64 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S1x512x64 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S1x512x64 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S1x1024x64 .f32 := win1_3.stage (cfg1.slots t 3)
abbrev hs3 (t : Fin cfg1.N) : (ms3 t).IsWhole := hstage1_3 ((cfg1.slots t 3).cast nbuf1_3)
/-- The running maximum, the running sum and the running weighted sum: whole buffers of the kernel's own. -/
abbrev scM : Memref sig .tc .vmem S1024x1 .f32 := Memref.whole cc1_scratch0
abbrev scL : Memref sig .tc .vmem S1024x1 .f32 := Memref.whole cc1_scratch1
abbrev scA : Memref sig .tc .vmem S1024x64 .f32 := Memref.whole cc1_scratch2
/-- Views through which contents are stated (the choice of buffer does not matter). -/
abbrev VM : View sig .tc .vmem S1024x1 .f32 := scM.view
abbrev VL : View sig .tc .vmem S1024x1 .f32 := scL.view
abbrev VA : View sig .tc .vmem S1024x64 .f32 := scA.view
abbrev VO : View sig .tc .vmem S1x1024x64 .f32 := (Memref.whole cc1_stg3_0 : Memref sig .tc .vmem S1x1024x64 .f32).view

/-! ## The invariant, split -/

/-- The staging buffers of the two projection regions, each whole at some contents: scoped buffers this region never
    touches. -/
def Others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f))

/-- The region's plain invariant hands out the three scratch buffers at some contents, the other regions' staging
    buffers and the generator register, -/
theorem phiA_split (c : Dev nD) :
    (Pipeline.ΦA spec1 c : sProp 𝕄)
      ⊢ iprop(Others c ∗ (∃ d, owns (c : Thread nD τ) scM fullShare d) ∗ (∃ d, owns (c : Thread nD τ) scL fullShare d)
          ∗ (∃ d, owns (c : Thread nD τ) scA fullShare d) ∗ ∃ r, prngReg c r) := by
  unfold Pipeline.ΦA Others; rw [scopedRest1_eq]; simp only [scM, scL, scA, owns_whole]
  iintro ⟨⟨B0, B1, B2, B3, B4, B5, B6, B7, B8, B9, B10, B11, B12, B13, B14, B15, B16, B17, B18⟩, Hg⟩
  isplitl [B0 B1 B2 B3 B4 B5 B6 B7 B11 B12 B13 B14 B15 B16 B17 B18]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B11]; · iexact B11
    isplitl [B12]; · iexact B12
    isplitl [B13]; · iexact B13
    isplitl [B14]; · iexact B14
    isplitl [B15]; · iexact B15
    isplitl [B16]; · iexact B16
    isplitl [B17]; · iexact B17
    iexact B18
  isplitl [B8]; · iexact B8
  isplitl [B9]; · iexact B9
  isplitl [B10]; · iexact B10
  iexact Hg

/-- and takes them back. -/
theorem phiA_join (c : Dev nD) :
    iprop(Others c ∗ (∃ d, owns (c : Thread nD τ) scM fullShare d) ∗ (∃ d, owns (c : Thread nD τ) scL fullShare d)
          ∗ (∃ d, owns (c : Thread nD τ) scA fullShare d) ∗ ∃ r, prngReg c r)
      ⊢ (Pipeline.ΦA spec1 c : sProp 𝕄) := by
  unfold Pipeline.ΦA Others; rw [scopedRest1_eq]; simp only [scM, scL, scA, owns_whole]
  iintro ⟨⟨B0, B1, B2, B3, B4, B5, B6, B7, B11, B12, B13, B14, B15, B16, B17, B18⟩, B8, B9, B10, Hg⟩
  isplitr [Hg]
  swap; · iexact Hg
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [B8]; · iexact B8
  isplitl [B9]; · iexact B9
  isplitl [B10]; · iexact B10
  isplitl [B11]; · iexact B11
  isplitl [B12]; · iexact B12
  isplitl [B13]; · iexact B13
  isplitl [B14]; · iexact B14
  isplitl [B15]; · iexact B15
  isplitl [B16]; · iexact B16
  isplitl [B17]; · iexact B17
  iexact B18

/-! ## The body, case by case -/

-- (the runs' proof terms are large)
set_option maxHeartbeats 4000000 in
/-- AT A TILE'S FIRST POINT (first branch taken, second not): from the three input buffers at `x0 x1 x2`, the result
    buffer at `xi` and the scratch buffers at anything, the body runs to its return with the inputs and the result buffer
    as they were and each scratch buffer with the run's pieces written — the pieces are the witnesses. -/
noncomputable def runFirst (c : Dev nD) (i : grid1.Coords) (a3 : Memref sig .tc .vmem S1x1024x64 .f32) (h3 : a3.IsWhole) (a4 : Memref sig .tc .vmem S1x512x64 .f32) (h4 : a4.IsWhole) (a5 : Memref sig .tc .vmem S1x512x64 .f32) (h5 : a5.IsWhole) (a6 : Memref sig .tc .vmem S1x1024x64 .f32) (h6 : a6.IsWhole) (a7 : Memref sig .tc .vmem S1024x1 .f32) (h7 : a7.IsWhole) (a8 : Memref sig .tc .vmem S1024x1 .f32) (h8 : a8.IsWhole) (a9 : Memref sig .tc .vmem S1024x64 .f32) (h9 : a9.IsWhole) (hc0 : condFirst i) (hc1 : ¬condLast i)
    (x0 : Vec F S1x1024x64 .f32) (x1 : Vec F S1x512x64 .f32) (x2 : Vec F S1x512x64 .f32) :
    Σ' (LM : List (View.Piece (Elt F) S1024x1 .f32)) (LL : List (View.Piece (Elt F) S1024x1 .f32)), { LA : List (View.Piece (Elt F) S1024x64 .f32) //
      ∀ (xi : Vec F S1x1024x64 .f32) (E : Set ℕ) (K : PUnit → sProp 𝕄),
        iprop(owns (c : Thread nD τ) a3 fullShare x0 ∗ owns (c : Thread nD τ) a4 fullShare x1 ∗ owns (c : Thread nD τ) a5 fullShare x2 ∗ owns (c : Thread nD τ) a6 fullShare xi
            ∗ (∃ d, owns (c : Thread nD τ) a7 fullShare d) ∗ (∃ d, owns (c : Thread nD τ) a8 fullShare d) ∗ (∃ d, owns (c : Thread nD τ) a9 fullShare d)
            ∗ (iprop(owns (c : Thread nD τ) a3 fullShare x0 ∗ owns (c : Thread nD τ) a4 fullShare x1 ∗ owns (c : Thread nD τ) a5 fullShare x2 ∗ owns (c : Thread nD τ) a6 fullShare xi
                ∗ (∃ f, a7.view.loc (c : Thread nD τ) ↦[a7.view.set]{fullShare} a7.view.writes (Elt F) f LM) ∗ (∃ f, a8.view.loc (c : Thread nD τ) ↦[a8.view.set]{fullShare} a8.view.writes (Elt F) f LL) ∗ (∃ f, a9.view.loc (c : Thread nD τ) ↦[a9.view.set]{fullShare} a9.view.writes (Elt F) f LA)) -∗ K ⟨⟩))
          ⊢ wp frame (wpE (defs₀ (F := F)) Variants.none c none) E (cc1__attn_kernel i a3 h3 a4 h4 a5 h5 a6 h6 a7 h7 a8 h8 a9 h9) K } := by
  refine ⟨?_, ?_, ?_, fun xi E K => ?run⟩
  case run =>
    simp only [cc1__attn_kernel_eq_skeleton]; unfold cc1__attn_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%dM, %fM, -, HM⟩, ⟨%dL, %fL, -, HL⟩, ⟨%dA, %fA, -, HA⟩, Hk⟩
    obtain rfl := h3.eq_unread hf0; obtain rfl := h4.eq_unread hf1; obtain rfl := h5.eq_unread hf2; obtain rfl := h6.eq_unread hf3
    sl_exec (disch := first | exact hc0 | exact hc1)
    sl_step
    iapply Hk
    isplitl [H0]
    · iexists _; isplitr; · ipureintro; exact h3.read_unread _
      iexact H0
    isplitl [H1]
    · iexists _; isplitr; · ipureintro; exact h4.read_unread _
      iexact H1
    isplitl [H2]
    · iexists _; isplitr; · ipureintro; exact h5.read_unread _
      iexact H2
    isplitl [H3]
    · iexists _; isplitr; · ipureintro; exact h6.read_unread _
      iexact H3
    isplitl [HM]; · iexists _; iexact HM
    isplitl [HL]; · iexists _; iexact HL
    iexists _; iexact HA

set_option maxHeartbeats 4000000 in
/-- AT A TILE'S MIDDLE POINTS (neither branch taken): the same, the scratch buffers entered at what the point before
    left (`xm xl xa`). -/
noncomputable def runMid (c : Dev nD) (i : grid1.Coords) (a3 : Memref sig .tc .vmem S1x1024x64 .f32) (h3 : a3.IsWhole) (a4 : Memref sig .tc .vmem S1x512x64 .f32) (h4 : a4.IsWhole) (a5 : Memref sig .tc .vmem S1x512x64 .f32) (h5 : a5.IsWhole) (a6 : Memref sig .tc .vmem S1x1024x64 .f32) (h6 : a6.IsWhole) (a7 : Memref sig .tc .vmem S1024x1 .f32) (h7 : a7.IsWhole) (a8 : Memref sig .tc .vmem S1024x1 .f32) (h8 : a8.IsWhole) (a9 : Memref sig .tc .vmem S1024x64 .f32) (h9 : a9.IsWhole) (hc0 : ¬condFirst i) (hc1 : ¬condLast i)
    (x0 : Vec F S1x1024x64 .f32) (x1 : Vec F S1x512x64 .f32) (x2 : Vec F S1x512x64 .f32)
    (xm : Vec F S1024x1 .f32) (xl : Vec F S1024x1 .f32) (xa : Vec F S1024x64 .f32) :
    Σ' (LM : List (View.Piece (Elt F) S1024x1 .f32)) (LL : List (View.Piece (Elt F) S1024x1 .f32)), { LA : List (View.Piece (Elt F) S1024x64 .f32) //
      ∀ (xi : Vec F S1x1024x64 .f32) (E : Set ℕ) (K : PUnit → sProp 𝕄),
        iprop(owns (c : Thread nD τ) a3 fullShare x0 ∗ owns (c : Thread nD τ) a4 fullShare x1 ∗ owns (c : Thread nD τ) a5 fullShare x2 ∗ owns (c : Thread nD τ) a6 fullShare xi
            ∗ owns (c : Thread nD τ) a7 fullShare xm ∗ owns (c : Thread nD τ) a8 fullShare xl ∗ owns (c : Thread nD τ) a9 fullShare xa
            ∗ (iprop(owns (c : Thread nD τ) a3 fullShare x0 ∗ owns (c : Thread nD τ) a4 fullShare x1 ∗ owns (c : Thread nD τ) a5 fullShare x2 ∗ owns (c : Thread nD τ) a6 fullShare xi
                ∗ (∃ f, a7.view.loc (c : Thread nD τ) ↦[a7.view.set]{fullShare} a7.view.writes (Elt F) f LM) ∗ (∃ f, a8.view.loc (c : Thread nD τ) ↦[a8.view.set]{fullShare} a8.view.writes (Elt F) f LL) ∗ (∃ f, a9.view.loc (c : Thread nD τ) ↦[a9.view.set]{fullShare} a9.view.writes (Elt F) f LA)) -∗ K ⟨⟩))
          ⊢ wp frame (wpE (defs₀ (F := F)) Variants.none c none) E (cc1__attn_kernel i a3 h3 a4 h4 a5 h5 a6 h6 a7 h7 a8 h8 a9 h9) K } := by
  refine ⟨?_, ?_, ?_, fun xi E K => ?run⟩
  case run =>
    simp only [cc1__attn_kernel_eq_skeleton]; unfold cc1__attn_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%fM, %hfM, HM⟩, ⟨%fL, %hfL, HL⟩, ⟨%fA, %hfA, HA⟩, Hk⟩
    obtain rfl := h3.eq_unread hf0; obtain rfl := h4.eq_unread hf1; obtain rfl := h5.eq_unread hf2; obtain rfl := h6.eq_unread hf3
    obtain rfl := h7.eq_unread hfM; obtain rfl := h8.eq_unread hfL; obtain rfl := h9.eq_unread hfA
    sl_exec (disch := first | exact hc0 | exact hc1)
    sl_step
    iapply Hk
    isplitl [H0]
    · iexists _; isplitr; · ipureintro; exact h3.read_unread _
      iexact H0
    isplitl [H1]
    · iexists _; isplitr; · ipureintro; exact h4.read_unread _
      iexact H1
    isplitl [H2]
    · iexists _; isplitr; · ipureintro; exact h5.read_unread _
      iexact H2
    isplitl [H3]
    · iexists _; isplitr; · ipureintro; exact h6.read_unread _
      iexact H3
    isplitl [HM]; · iexists _; iexact HM
    isplitl [HL]; · iexists _; iexact HL
    iexists _; iexact HA

set_option maxHeartbeats 4000000 in
/-- AT A TILE'S LAST POINT (second branch taken, first not): the scratch buffers entered at what the point before left,
    the result buffer at anything and left with the run's pieces written. -/
noncomputable def runLast (c : Dev nD) (i : grid1.Coords) (a3 : Memref sig .tc .vmem S1x1024x64 .f32) (h3 : a3.IsWhole) (a4 : Memref sig .tc .vmem S1x512x64 .f32) (h4 : a4.IsWhole) (a5 : Memref sig .tc .vmem S1x512x64 .f32) (h5 : a5.IsWhole) (a6 : Memref sig .tc .vmem S1x1024x64 .f32) (h6 : a6.IsWhole) (a7 : Memref sig .tc .vmem S1024x1 .f32) (h7 : a7.IsWhole) (a8 : Memref sig .tc .vmem S1024x1 .f32) (h8 : a8.IsWhole) (a9 : Memref sig .tc .vmem S1024x64 .f32) (h9 : a9.IsWhole) (hc0 : ¬condFirst i) (hc1 : condLast i)
    (x0 : Vec F S1x1024x64 .f32) (x1 : Vec F S1x512x64 .f32) (x2 : Vec F S1x512x64 .f32)
    (xm : Vec F S1024x1 .f32) (xl : Vec F S1024x1 .f32) (xa : Vec F S1024x64 .f32) :
    Σ' (LO : List (View.Piece (Elt F) S1x1024x64 .f32)) (LM : List (View.Piece (Elt F) S1024x1 .f32)) (LL : List (View.Piece (Elt F) S1024x1 .f32)), { LA : List (View.Piece (Elt F) S1024x64 .f32) //
      ∀ (E : Set ℕ) (K : PUnit → sProp 𝕄),
        iprop(owns (c : Thread nD τ) a3 fullShare x0 ∗ owns (c : Thread nD τ) a4 fullShare x1 ∗ owns (c : Thread nD τ) a5 fullShare x2 ∗ (∃ d, owns (c : Thread nD τ) a6 fullShare d)
            ∗ owns (c : Thread nD τ) a7 fullShare xm ∗ owns (c : Thread nD τ) a8 fullShare xl ∗ owns (c : Thread nD τ) a9 fullShare xa
            ∗ (iprop(owns (c : Thread nD τ) a3 fullShare x0 ∗ owns (c : Thread nD τ) a4 fullShare x1 ∗ owns (c : Thread nD τ) a5 fullShare x2 ∗ (∃ f, a6.view.loc (c : Thread nD τ) ↦[a6.view.set]{fullShare} a6.view.writes (Elt F) f LO)
                ∗ (∃ f, a7.view.loc (c : Thread nD τ) ↦[a7.view.set]{fullShare} a7.view.writes (Elt F) f LM) ∗ (∃ f, a8.view.loc (c : Thread nD τ) ↦[a8.view.set]{fullShare} a8.view.writes (Elt F) f LL) ∗ (∃ f, a9.view.loc (c : Thread nD τ) ↦[a9.view.set]{fullShare} a9.view.writes (Elt F) f LA)) -∗ K ⟨⟩))
          ⊢ wp frame (wpE (defs₀ (F := F)) Variants.none c none) E (cc1__attn_kernel i a3 h3 a4 h4 a5 h5 a6 h6 a7 h7 a8 h8 a9 h9) K } := by
  refine ⟨?_, ?_, ?_, ?_, fun E K => ?run⟩
  case run =>
    simp only [cc1__attn_kernel_eq_skeleton]; unfold cc1__attn_kernel_skel
    simp only [k1_part1_eq_skeleton]; unfold k1_part1_skel
    unfold owns
    iintro ⟨⟨%f0, %hf0, H0⟩, ⟨%f1, %hf1, H1⟩, ⟨%f2, %hf2, H2⟩, ⟨%d3, %f3, -, H3⟩, ⟨%fM, %hfM, HM⟩, ⟨%fL, %hfL, HL⟩, ⟨%fA, %hfA, HA⟩, Hk⟩
    obtain rfl := h3.eq_unread hf0; obtain rfl := h4.eq_unread hf1; obtain rfl := h5.eq_unread hf2
    obtain rfl := h7.eq_unread hfM; obtain rfl := h8.eq_unread hfL; obtain rfl := h9.eq_unread hfA
    sl_exec (disch := first | exact hc0 | exact hc1)
    sl_step
    iapply Hk
    isplitl [H0]
    · iexists _; isplitr; · ipureintro; exact h3.read_unread _
      iexact H0
    isplitl [H1]
    · iexists _; isplitr; · ipureintro; exact h4.read_unread _
      iexact H1
    isplitl [H2]
    · iexists _; isplitr; · ipureintro; exact h5.read_unread _
      iexact H2
    isplitl [H3]; · iexists _; iexact H3
    isplitl [HM]; · iexists _; iexact HM
    isplitl [HL]; · iexists _; iexact HL
    iexists _; iexact HA

/-! ## Every stored piece list tiles its buffer (each buffer is stored whole) -/

theorem coverFirstM (c : Dev nD) (i : grid1.Coords) (a3 : Memref sig .tc .vmem S1x1024x64 .f32) (h3 : a3.IsWhole) (a4 : Memref sig .tc .vmem S1x512x64 .f32) (h4 : a4.IsWhole) (a5 : Memref sig .tc .vmem S1x512x64 .f32) (h5 : a5.IsWhole) (a6 : Memref sig .tc .vmem S1x1024x64 .f32) (h6 : a6.IsWhole) (a7 : Memref sig .tc .vmem S1024x1 .f32) (h7 : a7.IsWhole) (a8 : Memref sig .tc .vmem S1024x1 .f32) (h8 : a8.IsWhole) (a9 : Memref sig .tc .vmem S1024x64 .f32) (h9 : a9.IsWhole) (hc0 : condFirst i) (hc1 : ¬condLast i) (x0 : Vec F S1x1024x64 .f32) (x1 : Vec F S1x512x64 .f32) (x2 : Vec F S1x512x64 .f32) (y : S1024x1.Idx) :
    ∃ pc ∈ (runFirst c i a3 h3 a4 h4 a5 h5 a6 h6 a7 h7 a8 h8 a9 h9 hc0 hc1 x0 x1 x2).1, y ∈ pc.1.set :=
  View.cover_of_tiledL _ S1024x1.size (by sl_kernel_rfl) y
theorem coverFirstL (c : Dev nD) (i : grid1.Coords) (a3 : Memref sig .tc .vmem S1x1024x64 .f32) (h3 : a3.IsWhole) (a4 : Memref sig .tc .vmem S1x512x64 .f32) (h4 : a4.IsWhole) (a5 : Memref sig .tc .vmem S1x512x64 .f32) (h5 : a5.IsWhole) (a6 : Memref sig .tc .vmem S1x1024x64 .f32) (h6 : a6.IsWhole) (a7 : Memref sig .tc .vmem S1024x1 .f32) (h7 : a7.IsWhole) (a8 : Memref sig .tc .vmem S1024x1 .f32) (h8 : a8.IsWhole) (a9 : Memref sig .tc .vmem S1024x64 .f32) (h9 : a9.IsWhole) (hc0 : condFirst i) (hc1 : ¬condLast i) (x0 : Vec F S1x1024x64 .f32) (x1 : Vec F S1x512x64 .f32) (x2 : Vec F S1x512x64 .f32) (y : S1024x1.Idx) :
    ∃ pc ∈ (runFirst c i a3 h3 a4 h4 a5 h5 a6 h6 a7 h7 a8 h8 a9 h9 hc0 hc1 x0 x1 x2).2.1, y ∈ pc.1.set :=
  View.cover_of_tiledL _ S1024x1.size (by sl_kernel_rfl) y
theorem coverFirstA (c : Dev nD) (i : grid1.Coords) (a3 : Memref sig .tc .vmem S1x1024x64 .f32) (h3 : a3.IsWhole) (a4 : Memref sig .tc .vmem S1x512x64 .f32) (h4 : a4.IsWhole) (a5 : Memref sig .tc .vmem S1x512x64 .f32) (h5 : a5.IsWhole) (a6 : Memref sig .tc .vmem S1x1024x64 .f32) (h6 : a6.IsWhole) (a7 : Memref sig .tc .vmem S1024x1 .f32) (h7 : a7.IsWhole) (a8 : Memref sig .tc .vmem S1024x1 .f32) (h8 : a8.IsWhole) (a9 : Memref sig .tc .vmem S1024x64 .f32) (h9 : a9.IsWhole) (hc0 : condFirst i) (hc1 : ¬condLast i) (x0 : Vec F S1x1024x64 .f32) (x1 : Vec F S1x512x64 .f32) (x2 : Vec F S1x512x64 .f32) (y : S1024x64.Idx) :
    ∃ pc ∈ (runFirst c i a3 h3 a4 h4 a5 h5 a6 h6 a7 h7 a8 h8 a9 h9 hc0 hc1 x0 x1 x2).2.2.1, y ∈ pc.1.set :=
  View.cover_of_tiledL _ S1024x64.size (by sl_kernel_rfl) y
theorem coverMidM (c : Dev nD) (i : grid1.Coords) (a3 : Memref sig .tc .vmem S1x1024x64 .f32) (h3 : a3.IsWhole) (a4 : Memref sig .tc .vmem S1x512x64 .f32) (h4 : a4.IsWhole) (a5 : Memref sig .tc .vmem S1x512x64 .f32) (h5 : a5.IsWhole) (a6 : Memref sig .tc .vmem S1x1024x64 .f32) (h6 : a6.IsWhole) (a7 : Memref sig .tc .vmem S1024x1 .f32) (h7 : a7.IsWhole) (a8 : Memref sig .tc .vmem S1024x1 .f32) (h8 : a8.IsWhole) (a9 : Memref sig .tc .vmem S1024x64 .f32) (h9 : a9.IsWhole) (hc0 : ¬condFirst i) (hc1 : ¬condLast i) (x0 : Vec F S1x1024x64 .f32) (x1 : Vec F S1x512x64 .f32) (x2 : Vec F S1x512x64 .f32) (xm : Vec F S1024x1 .f32) (xl : Vec F S1024x1 .f32) (xa : Vec F S1024x64 .f32) (y : S1024x1.Idx) :
    ∃ pc ∈ (runMid c i a3 h3 a4 h4 a5 h5 a6 h6 a7 h7 a8 h8 a9 h9 hc0 hc1 x0 x1 x2 xm xl xa).1, y ∈ pc.1.set :=
  View.cover_of_tiledL _ S1024x1.size (by sl_kernel_rfl) y
theorem coverMidL (c : Dev nD) (i : grid1.Coords) (a3 : Memref sig .tc .vmem S1x1024x64 .f32) (h3 : a3.IsWhole) (a4 : Memref sig .tc .vmem S1x512x64 .f32) (h4 : a4.IsWhole) (a5 : Memref sig .tc .vmem S1x512x64 .f32) (h5 : a5.IsWhole) (a6 : Memref sig .tc .vmem S1x1024x64 .f32) (h6 : a6.IsWhole) (a7 : Memref sig .tc .vmem S1024x1 .f32) (h7 : a7.IsWhole) (a8 : Memref sig .tc .vmem S1024x1 .f32) (h8 : a8.IsWhole) (a9 : Memref sig .tc .vmem S1024x64 .f32) (h9 : a9.IsWhole) (hc0 : ¬condFirst i) (hc1 : ¬condLast i) (x0 : Vec F S1x1024x64 .f32) (x1 : Vec F S1x512x64 .f32) (x2 : Vec F S1x512x64 .f32) (xm : Vec F S1024x1 .f32) (xl : Vec F S1024x1 .f32) (xa : Vec F S1024x64 .f32) (y : S1024x1.Idx) :
    ∃ pc ∈ (runMid c i a3 h3 a4 h4 a5 h5 a6 h6 a7 h7 a8 h8 a9 h9 hc0 hc1 x0 x1 x2 xm xl xa).2.1, y ∈ pc.1.set :=
  View.cover_of_tiledL _ S1024x1.size (by sl_kernel_rfl) y
theorem coverMidA (c : Dev nD) (i : grid1.Coords) (a3 : Memref sig .tc .vmem S1x1024x64 .f32) (h3 : a3.IsWhole) (a4 : Memref sig .tc .vmem S1x512x64 .f32) (h4 : a4.IsWhole) (a5 : Memref sig .tc .vmem S1x512x64 .f32) (h5 : a5.IsWhole) (a6 : Memref sig .tc .vmem S1x1024x64 .f32) (h6 : a6.IsWhole) (a7 : Memref sig .tc .vmem S1024x1 .f32) (h7 : a7.IsWhole) (a8 : Memref sig .tc .vmem S1024x1 .f32) (h8 : a8.IsWhole) (a9 : Memref sig .tc .vmem S1024x64 .f32) (h9 : a9.IsWhole) (hc0 : ¬condFirst i) (hc1 : ¬condLast i) (x0 : Vec F S1x1024x64 .f32) (x1 : Vec F S1x512x64 .f32) (x2 : Vec F S1x512x64 .f32) (xm : Vec F S1024x1 .f32) (xl : Vec F S1024x1 .f32) (xa : Vec F S1024x64 .f32) (y : S1024x64.Idx) :
    ∃ pc ∈ (runMid c i a3 h3 a4 h4 a5 h5 a6 h6 a7 h7 a8 h8 a9 h9 hc0 hc1 x0 x1 x2 xm xl xa).2.2.1, y ∈ pc.1.set :=
  View.cover_of_tiledL _ S1024x64.size (by sl_kernel_rfl) y
theorem coverLastO (c : Dev nD) (i : grid1.Coords) (a3 : Memref sig .tc .vmem S1x1024x64 .f32) (h3 : a3.IsWhole) (a4 : Memref sig .tc .vmem S1x512x64 .f32) (h4 : a4.IsWhole) (a5 : Memref sig .tc .vmem S1x512x64 .f32) (h5 : a5.IsWhole) (a6 : Memref sig .tc .vmem S1x1024x64 .f32) (h6 : a6.IsWhole) (a7 : Memref sig .tc .vmem S1024x1 .f32) (h7 : a7.IsWhole) (a8 : Memref sig .tc .vmem S1024x1 .f32) (h8 : a8.IsWhole) (a9 : Memref sig .tc .vmem S1024x64 .f32) (h9 : a9.IsWhole) (hc0 : ¬condFirst i) (hc1 : condLast i) (x0 : Vec F S1x1024x64 .f32) (x1 : Vec F S1x512x64 .f32) (x2 : Vec F S1x512x64 .f32) (xm : Vec F S1024x1 .f32) (xl : Vec F S1024x1 .f32) (xa : Vec F S1024x64 .f32) (y : S1x1024x64.Idx) :
    ∃ pc ∈ (runLast c i a3 h3 a4 h4 a5 h5 a6 h6 a7 h7 a8 h8 a9 h9 hc0 hc1 x0 x1 x2 xm xl xa).1, y ∈ pc.1.set :=
  View.cover_of_tiledL _ S1x1024x64.size (by sl_kernel_rfl) y
theorem coverLastM (c : Dev nD) (i : grid1.Coords) (a3 : Memref sig .tc .vmem S1x1024x64 .f32) (h3 : a3.IsWhole) (a4 : Memref sig .tc .vmem S1x512x64 .f32) (h4 : a4.IsWhole) (a5 : Memref sig .tc .vmem S1x512x64 .f32) (h5 : a5.IsWhole) (a6 : Memref sig .tc .vmem S1x1024x64 .f32) (h6 : a6.IsWhole) (a7 : Memref sig .tc .vmem S1024x1 .f32) (h7 : a7.IsWhole) (a8 : Memref sig .tc .vmem S1024x1 .f32) (h8 : a8.IsWhole) (a9 : Memref sig .tc .vmem S1024x64 .f32) (h9 : a9.IsWhole) (hc0 : ¬condFirst i) (hc1 : condLast i) (x0 : Vec F S1x1024x64 .f32) (x1 : Vec F S1x512x64 .f32) (x2 : Vec F S1x512x64 .f32) (xm : Vec F S1024x1 .f32) (xl : Vec F S1024x1 .f32) (xa : Vec F S1024x64 .f32) (y : S1024x1.Idx) :
    ∃ pc ∈ (runLast c i a3 h3 a4 h4 a5 h5 a6 h6 a7 h7 a8 h8 a9 h9 hc0 hc1 x0 x1 x2 xm xl xa).2.1, y ∈ pc.1.set :=
  View.cover_of_tiledL _ S1024x1.size (by sl_kernel_rfl) y
theorem coverLastL (c : Dev nD) (i : grid1.Coords) (a3 : Memref sig .tc .vmem S1x1024x64 .f32) (h3 : a3.IsWhole) (a4 : Memref sig .tc .vmem S1x512x64 .f32) (h4 : a4.IsWhole) (a5 : Memref sig .tc .vmem S1x512x64 .f32) (h5 : a5.IsWhole) (a6 : Memref sig .tc .vmem S1x1024x64 .f32) (h6 : a6.IsWhole) (a7 : Memref sig .tc .vmem S1024x1 .f32) (h7 : a7.IsWhole) (a8 : Memref sig .tc .vmem S1024x1 .f32) (h8 : a8.IsWhole) (a9 : Memref sig .tc .vmem S1024x64 .f32) (h9 : a9.IsWhole) (hc0 : ¬condFirst i) (hc1 : condLast i) (x0 : Vec F S1x1024x64 .f32) (x1 : Vec F S1x512x64 .f32) (x2 : Vec F S1x512x64 .f32) (xm : Vec F S1024x1 .f32) (xl : Vec F S1024x1 .f32) (xa : Vec F S1024x64 .f32) (y : S1024x1.Idx) :
    ∃ pc ∈ (runLast c i a3 h3 a4 h4 a5 h5 a6 h6 a7 h7 a8 h8 a9 h9 hc0 hc1 x0 x1 x2 xm xl xa).2.2.1, y ∈ pc.1.set :=
  View.cover_of_tiledL _ S1024x1.size (by sl_kernel_rfl) y
theorem coverLastA (c : Dev nD) (i : grid1.Coords) (a3 : Memref sig .tc .vmem S1x1024x64 .f32) (h3 : a3.IsWhole) (a4 : Memref sig .tc .vmem S1x512x64 .f32) (h4 : a4.IsWhole) (a5 : Memref sig .tc .vmem S1x512x64 .f32) (h5 : a5.IsWhole) (a6 : Memref sig .tc .vmem S1x1024x64 .f32) (h6 : a6.IsWhole) (a7 : Memref sig .tc .vmem S1024x1 .f32) (h7 : a7.IsWhole) (a8 : Memref sig .tc .vmem S1024x1 .f32) (h8 : a8.IsWhole) (a9 : Memref sig .tc .vmem S1024x64 .f32) (h9 : a9.IsWhole) (hc0 : ¬condFirst i) (hc1 : condLast i) (x0 : Vec F S1x1024x64 .f32) (x1 : Vec F S1x512x64 .f32) (x2 : Vec F S1x512x64 .f32) (xm : Vec F S1024x1 .f32) (xl : Vec F S1024x1 .f32) (xa : Vec F S1024x64 .f32) (y : S1024x64.Idx) :
    ∃ pc ∈ (runLast c i a3 h3 a4 h4 a5 h5 a6 h6 a7 h7 a8 h8 a9 h9 hc0 hc1 x0 x1 x2 xm xl xa).2.2.2.1, y ∈ pc.1.set :=
  View.cover_of_tiledL _ S1024x64.size (by sl_kernel_rfl) y

end Cert.Kernel.Attn

end
-- ==== Proof.BAttn.lean ====
/-
  The attention region, part two. What the three scratch buffers — running row maximum, running row sum, running weighted
  sum of values — hold after each grid point, by recursion along the points: reset and first block at a tile's first point,
  one more block of keys and values at each later point; the result tile at a tile's last point, the weighted sum divided by
  the row sum. The region's invariant holds the scratch buffers at exactly these contents between points; with it the
  body obligation holds at every point, by cases on the point's place in its tile.
-/
import proofs.«174977_j37177236914546_2_alg».proof.Proof.Gen.Kernel.Launch
import proofs.«174977_j37177236914546_2_alg».proof.Proof.Gen.Kernel.Skeleton
import proofs.«174977_j37177236914546_2_alg».proof.Proof.Gen.Kernel.Points
import proofs.«174977_j37177236914546_2_alg».proof.Proof.BAttnRuns
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks -/

/-- Window `w`'s block at point `t`, read off its array as the region finds it: for the queries the tile's 1024 rows of
    the (batch, head) pair, for keys and values the point's 512 rows, for the result the tile's 1024 rows. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before_in_0 {c : Dev nD} (dat : Dat τ (Elt F) Unit ℕ (UR sig nD τ) ℕ cfg1 c)
    (hA : dat.A 0 = V c (Pipeline.arrRef spec1 0)) (hafter : ∀ t, dat.after 0 t = blk V c 0 t) (t : Fin cfg1.N) (d) :
    dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem before_in_1 {c : Dev nD} (dat : Dat τ (Elt F) Unit ℕ (UR sig nD τ) ℕ cfg1 c)
    (hA : dat.A 1 = V c (Pipeline.arrRef spec1 1)) (hafter : ∀ t, dat.after 1 t = blk V c 1 t) (t : Fin cfg1.N) (d) :
    dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem before_in_2 {c : Dev nD} (dat : Dat τ (Elt F) Unit ℕ (UR sig nD τ) ℕ cfg1 c)
    (hA : dat.A 2 = V c (Pipeline.arrRef spec1 2)) (hafter : ∀ t, dat.after 2 t = blk V c 2 t) (t : Fin cfg1.N) (d) :
    dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-! ## The scratch contents after a point -/

/-- Running maximum, running sum, running weighted sum. -/
abbrev St (F : FTy → Type) [FloatOps F] : Type := Vec F S1024x1 .f32 × Vec F S1024x1 .f32 × Vec F S1024x64 .f32

/-- Three lists of stored pieces read back as buffer contents. -/
def stOf (LM : List (View.Piece (Elt F) S1024x1 .f32)) (LL : List (View.Piece (Elt F) S1024x1 .f32)) (LA : List (View.Piece (Elt F) S1024x64 .f32)) : St F :=
  (VM.read (Elt F) (VM.writes (Elt F) VM.junk LM), VL.read (Elt F) (VL.writes (Elt F) VL.junk LL), VA.read (Elt F) (VA.writes (Elt F) VA.junk LA))

/-- The three cases' runs at a point of the grid, on the buffers the pipeline passes there and the point's blocks. -/
def rFirst (c : Dev nD) (t : Fin cfg1.N) (h0 : t.val % 4 = 0) :=
  runFirst (F := F) c (grid1.coords t) (ms0 t) (hs0 t) (ms1 t) (hs1 t) (ms2 t) (hs2 t) (ms3 t) (hs3 t) scM (Memref.isWhole_whole _) scL (Memref.isWhole_whole _) scA (Memref.isWhole_whole _)
    ((hFirst t).mpr h0) (fun h => by have := (hLast t).mp h; omega) (blk V c 0 t) (blk V c 1 t) (blk V c 2 t)
def rMid (c : Dev nD) (t : Fin cfg1.N) (h0 : ¬t.val % 4 = 0) (h1 : ¬t.val % 4 = 3) (s : St F) :=
  runMid (F := F) c (grid1.coords t) (ms0 t) (hs0 t) (ms1 t) (hs1 t) (ms2 t) (hs2 t) (ms3 t) (hs3 t) scM (Memref.isWhole_whole _) scL (Memref.isWhole_whole _) scA (Memref.isWhole_whole _)
    (fun h => h0 ((hFirst t).mp h)) (fun h => h1 ((hLast t).mp h)) (blk V c 0 t) (blk V c 1 t) (blk V c 2 t) s.1 s.2.1 s.2.2
def rLast (c : Dev nD) (t : Fin cfg1.N) (h0 : ¬t.val % 4 = 0) (h1 : t.val % 4 = 3) (s : St F) :=
  runLast (F := F) c (grid1.coords t) (ms0 t) (hs0 t) (ms1 t) (hs1 t) (ms2 t) (hs2 t) (ms3 t) (hs3 t) scM (Memref.isWhole_whole _) scL (Memref.isWhole_whole _) scA (Memref.isWhole_whole _)
    (fun h => h0 ((hFirst t).mp h)) ((hLast t).mpr h1) (blk V c 0 t) (blk V c 1 t) (blk V c 2 t) s.1 s.2.1 s.2.2

def stFirst (c : Dev nD) (t : Fin cfg1.N) (h0 : t.val % 4 = 0) : St F :=
  stOf (rFirst V c t h0).1 (rFirst V c t h0).2.1 (rFirst V c t h0).2.2.1
def stMid (c : Dev nD) (t : Fin cfg1.N) (h0 : ¬t.val % 4 = 0) (h1 : ¬t.val % 4 = 3) (s : St F) : St F :=
  stOf (rMid V c t h0 h1 s).1 (rMid V c t h0 h1 s).2.1 (rMid V c t h0 h1 s).2.2.1
def stLast (c : Dev nD) (t : Fin cfg1.N) (h0 : ¬t.val % 4 = 0) (h1 : t.val % 4 = 3) (s : St F) : St F :=
  stOf (rLast V c t h0 h1 s).2.1 (rLast V c t h0 h1 s).2.2.1 (rLast V c t h0 h1 s).2.2.2.1
/-- The result tile a last point leaves. -/
def outLast (c : Dev nD) (t : Fin cfg1.N) (h0 : ¬t.val % 4 = 0) (h1 : t.val % 4 = 3) (s : St F) : Vec F S1x1024x64 .f32 :=
  VO.read (Elt F) (VO.writes (Elt F) VO.junk (rLast V c t h0 h1 s).1)

/-- THE RECURSION along the points: a tile's first point starts afresh, every other point continues from the point before. -/
def stAt (c : Dev nD) : (n : ℕ) → n < cfg1.N → St F
  | 0, hn => stFirst V c ⟨0, hn⟩ (Nat.zero_mod _)
  | n + 1, hn =>
    if h0 : (n + 1) % 4 = 0 then stFirst V c ⟨n + 1, hn⟩ h0
    else if h1 : (n + 1) % 4 = 3 then stLast V c ⟨n + 1, hn⟩ h0 h1 (stAt c n (Nat.lt_of_succ_lt hn))
    else stMid V c ⟨n + 1, hn⟩ h0 h1 (stAt c n (Nat.lt_of_succ_lt hn))

theorem stAt_first (c : Dev nD) (t : Fin cfg1.N) (h0 : t.val % 4 = 0) : stAt V c t.val t.isLt = stFirst V c t h0 := by
  obtain ⟨n, hn⟩ := t
  cases n with
  | zero => rfl
  | succ n =>
    have h0' : (n + 1) % 4 = 0 := h0
    simp only [stAt]; rw [dif_pos h0']

theorem stAt_mid (c : Dev nD) (t : Fin cfg1.N) (h0 : ¬t.val % 4 = 0) (h1 : ¬t.val % 4 = 3) :
    stAt V c t.val t.isLt = stMid V c t h0 h1 (stAt V c (t.val - 1) (Nat.lt_of_le_of_lt (Nat.sub_le _ _) t.isLt)) := by
  obtain ⟨n, hn⟩ := t
  cases n with
  | zero => exact absurd (Nat.zero_mod _) h0
  | succ n =>
    have h0' : ¬(n + 1) % 4 = 0 := h0
    have h1' : ¬(n + 1) % 4 = 3 := h1
    simp only [stAt]; rw [dif_neg h0', dif_neg h1']; rfl

theorem stAt_last (c : Dev nD) (t : Fin cfg1.N) (h0 : ¬t.val % 4 = 0) (h1 : t.val % 4 = 3) :
    stAt V c t.val t.isLt = stLast V c t h0 h1 (stAt V c (t.val - 1) (Nat.lt_of_le_of_lt (Nat.sub_le _ _) t.isLt)) := by
  obtain ⟨n, hn⟩ := t
  cases n with
  | zero => exact absurd (Nat.zero_mod _) h0
  | succ n =>
    have h0' : ¬(n + 1) % 4 = 0 := h0
    have h1' : (n + 1) % 4 = 3 := h1
    simp only [stAt]; rw [dif_neg h0', dif_pos h1']; rfl

/-- What the result window's buffer holds after point `t`: the tile at a last point; elsewhere the window is idle and
    nothing consults this value. -/
def outAt (c : Dev nD) (t : Fin cfg1.N) : Vec F S1x1024x64 .f32 :=
  if h1 : t.val % 4 = 3 then
    outLast V c t (by omega) h1 (stAt V c (t.val - 1) (Nat.lt_of_le_of_lt (Nat.sub_le _ _) t.isLt))
  else VO.read (Elt F) VO.junk

/-! ## The invariant -/

/-- Before the first point the plain invariant; after `n` points the three scratch buffers at the recursion's contents,
    beside the other regions' buffers and the generator register. -/
def PhiS (c : Dev nD) : (n : ℕ) → n ≤ cfg1.N → sProp 𝕄
  | 0, _ => Pipeline.ΦA spec1 c
  | n + 1, hn => iprop(Others c ∗ owns (c : Thread nD τ) scM fullShare (stAt V c n hn).1 ∗ owns (c : Thread nD τ) scL fullShare (stAt V c n hn).2.1
      ∗ owns (c : Thread nD τ) scA fullShare (stAt V c n hn).2.2 ∗ ∃ r, prngReg c r)

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(Others c ∗ owns (c : Thread nD τ) scM fullShare (stAt V c n hn).1 ∗ owns (c : Thread nD τ) scL fullShare (stAt V c n hn).2.1
      ∗ owns (c : Thread nD τ) scA fullShare (stAt V c n hn).2.2 ∗ ∃ r, prngReg c r) := rfl
theorem PhiS_pos (c : Dev nD) (n : ℕ) (h : n ≤ cfg1.N) (hz : n ≠ 0) :
    PhiS V c n h = iprop(Others c ∗ owns (c : Thread nD τ) scM fullShare (stAt V c (n - 1) (by omega)).1 ∗ owns (c : Thread nD τ) scL fullShare (stAt V c (n - 1) (by omega)).2.1
      ∗ owns (c : Thread nD τ) scA fullShare (stAt V c (n - 1) (by omega)).2.2 ∗ ∃ r, prngReg c r) := by
  obtain ⟨k, rfl⟩ := Nat.exists_eq_succ_of_ne_zero hz
  rfl

/-! ## The proof data -/

def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => outAt V c t
  Φ t := PhiS V c t.val (Nat.le_of_lt_succ t.isLt)
  q _ := fullShare
  owed _ := 0

theorem A_eq (c : Dev nD) (w : Fin cfg1.W) : (dat V c).A w = V c (Pipeline.arrRef spec1 w) := by dsimp only [dat]
theorem q_eq (c : Dev nD) (w : Fin cfg1.W) : (dat V c).q w = fullShare := rfl
theorem owed_eq (c : Dev nD) (t) : (dat V c).owed t = 0 := rfl
theorem rec0 (c : Dev nD) : (dat V c).recorded 0 = Set.univ := rfl
theorem Phi_castSucc (c : Dev nD) (t : Fin cfg1.N) : (dat V c).Φ t.castSucc = PhiS V c t.val (Nat.le_of_lt t.isLt) := by
  dsimp only [dat]; simp only [Fin.coe_castSucc]
theorem after_0 (c : Dev nD) (t : Fin cfg1.N) : (dat V c).after 0 t = blk V c 0 t := by dsimp only [dat]
theorem after_1 (c : Dev nD) (t : Fin cfg1.N) : (dat V c).after 1 t = blk V c 1 t := by dsimp only [dat]
theorem after_2 (c : Dev nD) (t : Fin cfg1.N) : (dat V c).after 2 t = blk V c 2 t := by dsimp only [dat]
theorem after_3 (c : Dev nD) (t : Fin cfg1.N) : (dat V c).after 3 t = outAt V c t := by dsimp only [dat]
theorem before_0 (c : Dev nD) (t : Fin cfg1.N) (d) : (dat V c).before 0 t d = blk V c 0 t :=
  before_in_0 V (dat V c) (A_eq V c 0) (after_0 V c) t d
theorem before_1 (c : Dev nD) (t : Fin cfg1.N) (d) : (dat V c).before 1 t d = blk V c 1 t :=
  before_in_1 V (dat V c) (A_eq V c 1) (after_1 V c) t d
theorem before_2 (c : Dev nD) (t : Fin cfg1.N) (d) : (dat V c).before 2 t d = blk V c 2 t :=
  before_in_2 V (dat V c) (A_eq V c 2) (after_2 V c) t d

/-! ## The body obligation -/

/-- What the body is called with at point `t`: the invariant, the core's dues, each window's current buffer. -/
def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d)))

/-- What it returns: each window's buffer as the proof data say, an idle window's as it was. -/
def bodyPost (c : Dev nD) (t : Fin cfg1.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t)

set_option maxHeartbeats 4800000 in
/-- The body at any point. The input buffers hold the point's blocks. At a tile's first point the scratch buffers are
    taken at whatever they hold (the body resets them); at every other point at what the point before left. The result
    window is idle except at a tile's last point, where its buffer is taken at anything and returned at the tile. The
    scratch buffers go back into the invariant at this point's contents. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms0 t) fullShare ((dat V c).after 0 t) from by
    unfold Dat.leavesExact; rw [live_0 t], after_0]
  rw [show (dat V c).leavesExact 1 t = owns (c : Thread nD τ) (ms1 t) fullShare ((dat V c).after 1 t) from by
    unfold Dat.leavesExact; rw [live_1 t], after_1]
  rw [show (dat V c).leavesExact 2 t = owns (c : Thread nD τ) (ms2 t) fullShare ((dat V c).after 2 t) from by
    unfold Dat.leavesExact; rw [live_2 t], after_2]
  have hN : t.val < 256 := lt_of_lt_of_eq t.isLt (show cfg1.N = 256 from N_1)
  by_cases h0 : t.val % 4 = 0
  · have h1 : ¬t.val % 4 = 3 := by omega
    rw [Dat.leavesExact_idle (dat V c) 3 t (idle_3 t (fun h => h1 ((hLast t).mp h))) (noFlush_3 t (fun h => h1 ((hLast t).mp h)))]
    rw [stAt_first V c t h0]
    unfold stFirst stOf; (try dsimp only)
    by_cases hz : t.val = 0
    · rw [Phi_castSucc V c t, PhiS_zero V c _ _ hz]
      iintro ⟨HP, Ho, ⟨%d0, H0⟩, ⟨%d1, H1⟩, ⟨%d2, H2⟩, ⟨%d3, H3⟩⟩
      ihave HP' := (phiA_split c) $$ HP
      icases HP' with ⟨Hoth, HM, HL, HA, Hg⟩
      iapply ((rFirst V c t h0).2.2.2 _ Set.univ _)
      isplitl [H0]; · iexact H0
      isplitl [H1]; · iexact H1
      isplitl [H2]; · iexact H2
      isplitl [H3]; · iexact H3
      isplitl [HM]; · iexact HM
      isplitl [HL]; · iexact HL
      isplitl [HA]; · iexact HA
      iintro ⟨H0, H1, H2, H3, ⟨%eM, HM⟩, ⟨%eL, HL⟩, ⟨%eA, HA⟩⟩
      isplitl [Hoth HM HL HA Hg]
      · isplitl [Hoth]; · iexact Hoth
        isplitl [HM]
        · unfold owns; iexists _; isplitr
          swap; · iexact HM
          ipureintro; exact View.read_writes_of_cover _ _ _ _ _ (coverFirstM c _ _ _ _ _ _ _ _ _ _ _ _ _ _ _ _ _ _ _ _)
        isplitl [HL]
        · unfold owns; iexists _; isplitr
          swap; · iexact HL
          ipureintro; exact View.read_writes_of_cover _ _ _ _ _ (coverFirstL c _ _ _ _ _ _ _ _ _ _ _ _ _ _ _ _ _ _ _ _)
        isplitl [HA]
        · unfold owns; iexists _; isplitr
          swap; · iexact HA
          ipureintro; exact View.read_writes_of_cover _ _ _ _ _ (coverFirstA c _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [Phi_castSucc V c t, PhiS_pos V c _ _ hz]
      iintro ⟨⟨Hoth, HM, HL, HA, Hg⟩, Ho, ⟨%d0, H0⟩, ⟨%d1, H1⟩, ⟨%d2, H2⟩, ⟨%d3, H3⟩⟩
      iapply ((rFirst V c t h0).2.2.2 _ Set.univ _)
      isplitl [H0]; · iexact H0
      isplitl [H1]; · iexact H1
      isplitl [H2]; · iexact H2
      isplitl [H3]; · iexact H3
      isplitl [HM]; · iexists _; iexact HM
      isplitl [HL]; · iexists _; iexact HL
      isplitl [HA]; · iexists _; iexact HA
      iintro ⟨H0, H1, H2, H3, ⟨%eM, HM⟩, ⟨%eL, HL⟩, ⟨%eA, HA⟩⟩
      isplitl [Hoth HM HL HA Hg]
      · isplitl [Hoth]; · iexact Hoth
        isplitl [HM]
        · unfold owns; iexists _; isplitr
          swap; · iexact HM
          ipureintro; exact View.read_writes_of_cover _ _ _ _ _ (coverFirstM c _ _ _ _ _ _ _ _ _ _ _ _ _ _ _ _ _ _ _ _)
        isplitl [HL]
        · unfold owns; iexists _; isplitr
          swap; · iexact HL
          ipureintro; exact View.read_writes_of_cover _ _ _ _ _ (coverFirstL c _ _ _ _ _ _ _ _ _ _ _ _ _ _ _ _ _ _ _ _)
        isplitl [HA]
        · unfold owns; iexists _; isplitr
          swap; · iexact HA
          ipureintro; exact View.read_writes_of_cover _ _ _ _ _ (coverFirstA c _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 4 = 3
    · rw [show (dat V c).leavesExact 3 t = owns (c : Thread nD τ) (ms3 t) fullShare ((dat V c).after 3 t) from by
        unfold Dat.leavesExact; rw [live_3 t ((hLast t).mpr h1)], after_3]
      rw [stAt_last V c t h0 h1]
      unfold outAt; rw [dif_pos h1]
      unfold stLast outLast stOf; (try dsimp only)
      rw [Phi_castSucc V c t, PhiS_pos V c _ _ hz]
      iintro ⟨⟨Hoth, HM, HL, HA, Hg⟩, Ho, ⟨%d0, H0⟩, ⟨%d1, H1⟩, ⟨%d2, H2⟩, ⟨%d3, H3⟩⟩
      iapply ((rLast V c t h0 h1 _).2.2.2.2 Set.univ _)
      isplitl [H0]; · iexact H0
      isplitl [H1]; · iexact H1
      isplitl [H2]; · iexact H2
      isplitl [H3]; · iexists _; iexact H3
      isplitl [HM]; · iexact HM
      isplitl [HL]; · iexact HL
      isplitl [HA]; · iexact HA
      iintro ⟨H0, H1, H2, ⟨%e3, H3⟩, ⟨%eM, HM⟩, ⟨%eL, HL⟩, ⟨%eA, HA⟩⟩
      isplitl [Hoth HM HL HA Hg]
      · isplitl [Hoth]; · iexact Hoth
        isplitl [HM]
        · unfold owns; iexists _; isplitr
          swap; · iexact HM
          ipureintro; exact View.read_writes_of_cover _ _ _ _ _ (coverLastM c _ _ _ _ _ _ _ _ _ _ _ _ _ _ _ _ _ _ _ _ _ _ _)
        isplitl [HL]
        · unfold owns; iexists _; isplitr
          swap; · iexact HL
          ipureintro; exact View.read_writes_of_cover _ _ _ _ _ (coverLastL c _ _ _ _ _ _ _ _ _ _ _ _ _ _ _ _ _ _ _ _ _ _ _)
        isplitl [HA]
        · unfold owns; iexists _; isplitr
          swap; · iexact HA
          ipureintro; exact View.read_writes_of_cover _ _ _ _ _ (coverLastA c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverLastO c _ _ _ _ _ _ _ _ _ _ _ _ _ _ _ _ _ _ _ _ _ _ _)
    · rw [Dat.leavesExact_idle (dat V c) 3 t (idle_3 t (fun h => h1 ((hLast t).mp h))) (noFlush_3 t (fun h => h1 ((hLast t).mp h)))]
      rw [stAt_mid V c t h0 h1]
      unfold stMid stOf; (try dsimp only)
      rw [Phi_castSucc V c t, PhiS_pos V c _ _ hz]
      iintro ⟨⟨Hoth, HM, HL, HA, Hg⟩, Ho, ⟨%d0, H0⟩, ⟨%d1, H1⟩, ⟨%d2, H2⟩, ⟨%d3, H3⟩⟩
      iapply ((rMid V c t h0 h1 _).2.2.2 _ Set.univ _)
      isplitl [H0]; · iexact H0
      isplitl [H1]; · iexact H1
      isplitl [H2]; · iexact H2
      isplitl [H3]; · iexact H3
      isplitl [HM]; · iexact HM
      isplitl [HL]; · iexact HL
      isplitl [HA]; · iexact HA
      iintro ⟨H0, H1, H2, H3, ⟨%eM, HM⟩, ⟨%eL, HL⟩, ⟨%eA, HA⟩⟩
      isplitl [Hoth HM HL HA Hg]
      · isplitl [Hoth]; · iexact Hoth
        isplitl [HM]
        · unfold owns; iexists _; isplitr
          swap; · iexact HM
          ipureintro; exact View.read_writes_of_cover _ _ _ _ _ (coverMidM c _ _ _ _ _ _ _ _ _ _ _ _ _ _ _ _ _ _ _ _ _ _ _)
        isplitl [HL]
        · unfold owns; iexists _; isplitr
          swap; · iexact HL
          ipureintro; exact View.read_writes_of_cover _ _ _ _ _ (coverMidL c _ _ _ _ _ _ _ _ _ _ _ _ _ _ _ _ _ _ _ _ _ _ _)
        isplitl [HA]
        · unfold owns; iexists _; isplitr
          swap; · iexact HA
          ipureintro; exact View.read_writes_of_cover _ _ _ _ _ (coverMidA c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The body obligation at every point. -/
theorem body_obligation (c : Dev nD) : BodyObligation (dat (F := F) V c) (defs₀ (F := F)) Variants.none () Set.univ := fun t => by
  rw [bigSep_W1, bigSep_W1]
  exact sound_body V c t

/-! ## The interface's two entailments -/

theorem hin (c : Dev nD) : Pipeline.ΦA spec1 c ⊢ (dat V c).Φ 0 := by
  rw [show (dat V c).Φ 0 = PhiS V c 0 (Nat.zero_le _) from rfl, PhiS_zero V c 0 _ rfl]

theorem hout (c : Dev nD) : (dat V c).Φ (Fin.last cfg1.N) ⊢ Pipeline.ΦA spec1 c := by
  rw [show (dat V c).Φ (Fin.last cfg1.N) = PhiS V c cfg1.N (Nat.le_refl _) from rfl,
    PhiS_pos V c _ _ (by rw [show cfg1.N = 256 from N_1]; decide)]
  refine .trans ?_ (phiA_join c)
  iintro ⟨Ho, HM, HL, HA, Hg⟩
  isplitl [Ho]; · iexact Ho
  isplitl [HM]; · iexists _; iexact HM
  isplitl [HL]; · iexists _; iexact HL
  isplitl [HA]; · iexists _; iexact HA
  iexact Hg

end Cert.Kernel.Attn

end
-- ==== Proof.BLin0.lean ====
/-
  The projection tiles of the first matrix product (rows of the input times columns of the transposed weight, plus the
  bias row): per grid point, what the body leaves in the 512 × 512 result tile as a function of the point's three input
  blocks, the body's triple, the proof data of the region and the body obligation at every point.
-/
import proofs.«174977_j37177236914546_2_alg».proof.Proof.Gen.Kernel.Launch
import proofs.«174977_j37177236914546_2_alg».proof.Proof.Gen.Kernel.Skeleton
import proofs.«174977_j37177236914546_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Lin0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents on entering the region: every statement below is made at an arbitrary such valuation
variable (V : (c : Dev nD) → (b : Ref sig .tc) → Buf (Elt F) ((c : Thread nD τ).loc b))

/-! ## The blocks -/

/-- Window `w`'s block at grid point `t`: the rectangle of its array that the point's block index selects, read off
    the array as the region finds it. For the row operand this is 512 consecutive rows, for the weight 512 consecutive
    columns, for the bias the same 512 columns of its single row, for the result one 512 × 512 tile. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds the point's block whether or not the block was fetched at this very point:
    when it was not, the block index has not moved since the point before, whose block is then this one. Stated window
    by window: the windows are uncut, so a block and its cut agree only at a literal window. -/
theorem before_in_0 {c : Dev nD} (dat : Dat τ (Elt F) Unit ℕ (UR sig nD τ) ℕ cfg0 c)
    (hA : dat.A 0 = V c (Pipeline.arrRef spec0 0)) (hafter : ∀ t, dat.after 0 t = blk V c 0 t) (t : Fin cfg0.N) (d) :
    dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem before_in_1 {c : Dev nD} (dat : Dat τ (Elt F) Unit ℕ (UR sig nD τ) ℕ cfg0 c)
    (hA : dat.A 1 = V c (Pipeline.arrRef spec0 1)) (hafter : ∀ t, dat.after 1 t = blk V c 1 t) (t : Fin cfg0.N) (d) :
    dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem before_in_2 {c : Dev nD} (dat : Dat τ (Elt F) Unit ℕ (UR sig nD τ) ℕ cfg0 c)
    (hA : dat.A 2 = V c (Pipeline.arrRef spec0 2)) (hafter : ∀ t, dat.after 2 t = blk V c 2 t) (t : Fin cfg0.N) (d) :
    dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-! ## What the body leaves in the result tile -/

abbrev rX : Rect S512x1024 := Rect.unit (s := S512x1024) ![0, 0] S512x1024.size inb_S512x1024_S512x1024_0_0
abbrev rW : Rect S1024x512 := Rect.unit (s := S1024x512) ![0, 0] S1024x512.size inb_S1024x512_S1024x512_0_0
abbrev rB : Rect S1x512 := Rect.unit (s := S1x512) ![0, 0] S1x512.size inb_S1x512_S1x512_0_0
abbrev rO : Rect S512x512 := Rect.unit (s := S512x512) ![0, 0] S512x512.size inb_S512x512_S512x512_0_0

/-- The result tile after the body: its one store, of the rows times the columns plus the bias row, covering the
    whole tile. -/
def tile (x : Vec F S512x1024 .f32) (w : Vec F S1024x512 .f32) (b : Vec F S1x512 .f32) : Vec F S512x512 .f32 :=
  View.canon [⟨rO, k0_pay1 (View.ld x rX) (View.ld w rW) (View.ld b rB)⟩]

/-- The one store's rectangle is the whole tile. -/
theorem tile_cover (p : Vec F S512x512 .f32) (y : S512x512.Idx) :
    ∃ pc ∈ ([⟨rO, p⟩] : List (View.Piece (Elt F) S512x512 .f32)), y ∈ pc.1.set :=
  View.cover_of_tiled [⟨rO, p⟩] S512x512.size (by rfl) y

/-! ## The body's triple -/

set_option maxHeartbeats 1000000 in
/-- From the three input buffers held whole at `x`, `w`, `b` and the result buffer held at anything, the body runs to its
    return with the inputs as they were and the result buffer at `tile x w b`. -/
theorem sound_kernel (c : Dev nD) (E : Set ℕ) (i : grid0.Coords)
    (a2 : Memref sig .tc .vmem S512x1024 .f32) (h2 : a2.IsWhole) (a3 : Memref sig .tc .vmem S1024x512 .f32) (h3 : a3.IsWhole)
    (a4 : Memref sig .tc .vmem S1x512 .f32) (h4 : a4.IsWhole) (a5 : Memref sig .tc .vmem S512x512 .f32) (h5 : a5.IsWhole)
    (x : Vec F S512x1024 .f32) (w : Vec F S1024x512 .f32) (b : Vec F S1x512 .f32) (K : PUnit → sProp 𝕄) :
    iprop(owns (c : Thread nD τ) a2 fullShare x ∗ owns (c : Thread nD τ) a3 fullShare w ∗ owns (c : Thread nD τ) a4 fullShare b
        ∗ (∃ d, owns (c : Thread nD τ) a5 fullShare d)
        ∗ (iprop(owns (c : Thread nD τ) a2 fullShare x ∗ owns (c : Thread nD τ) a3 fullShare w ∗ owns (c : Thread nD τ) a4 fullShare b
            ∗ owns (c : Thread nD τ) a5 fullShare (tile x w b)) -∗ K ⟨⟩))
      ⊢ wp frame (wpE (defs₀ (F := F)) Variants.none c none) E (cc0__linear_kernel i a2 h2 a3 h3 a4 h4 a5 h5) K := by
  simp only [cc0__linear_kernel_eq_skeleton]; unfold cc0__linear_kernel_skel
  unfold owns
  iintro ⟨⟨%f2, %hf2, H2⟩, ⟨%f3, %hf3, H3⟩, ⟨%f4, %hf4, H4⟩, ⟨%d5, %f5, -, H5⟩, Hk⟩
  subst hf2; subst hf3; subst hf4
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (tile_cover _)

/-! ## The proof data -/

/-- The region's proof data on core `c`: the arrays as found; after the body at point `t` each input buffer still at
    its block and the result buffer at the tile of the point's blocks; the invariant the scoped rest and the generator
    register, untouched; nothing owed; full shares. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => tile (blk V c 0 t) (blk V c 1 t) (blk V c 2 t)
  Φ _ := Pipeline.ΦA spec0 c
  q _ := fullShare
  owed _ := 0

theorem A_eq (c : Dev nD) (w : Fin cfg0.W) : (dat V c).A w = V c (Pipeline.arrRef spec0 w) := by
  dsimp only [dat]
theorem after_0 (c : Dev nD) (t : Fin cfg0.N) : (dat V c).after 0 t = blk V c 0 t := by dsimp only [dat]
theorem after_1 (c : Dev nD) (t : Fin cfg0.N) : (dat V c).after 1 t = blk V c 1 t := by dsimp only [dat]
theorem after_2 (c : Dev nD) (t : Fin cfg0.N) : (dat V c).after 2 t = blk V c 2 t := by dsimp only [dat]
theorem after_3 (c : Dev nD) (t : Fin cfg0.N) :
    (dat V c).after 3 t = tile (blk V c 0 t) (blk V c 1 t) (blk V c 2 t) := by dsimp only [dat]

theorem before_0 (c : Dev nD) (t : Fin cfg0.N) (d) : (dat V c).before 0 t d = blk V c 0 t :=
  before_in_0 V (dat V c) (A_eq V c 0) (after_0 V c) t d
theorem before_1 (c : Dev nD) (t : Fin cfg0.N) (d) : (dat V c).before 1 t d = blk V c 1 t :=
  before_in_1 V (dat V c) (A_eq V c 1) (after_1 V c) t d
theorem before_2 (c : Dev nD) (t : Fin cfg0.N) (d) : (dat V c).before 2 t d = blk V c 2 t :=
  before_in_2 V (dat V c) (A_eq V c 2) (after_2 V c) t d

/-! ## The body obligation -/

/-- What the body is called with at point `t`: the invariant, the core's dues, each window's current buffer. -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

/-- What it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

/-- The body at any point: the input buffers hold the point's blocks, so the triple applies; the invariant and the
    dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ _ _ _ _ _ _ _ _ _ (blk V c 0 t) (blk V c 1 t) (blk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation at every point. -/
theorem body_obligation (c : Dev nD) : BodyObligation (dat (F := F) V c) (defs₀ (F := F)) Variants.none () Set.univ := fun t => by
  rw [bigSep_W0, bigSep_W0]
  exact sound_body V c t

end Cert.Kernel.Lin0

end
-- ==== Proof.BLin2.lean ====
/-
  The tiles of the output projection (rows of the attention result times columns of the transposed output weight, plus
  the bias row): per grid point, what the body leaves in the 512 × 512 result tile as a function of the point's three
  input blocks, the body's triple, the proof data of the region and the body obligation at every point.
-/
import proofs.«174977_j37177236914546_2_alg».proof.Proof.Gen.Kernel.Launch
import proofs.«174977_j37177236914546_2_alg».proof.Proof.Gen.Kernel.Skeleton
import proofs.«174977_j37177236914546_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Lin2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents on entering the region: every statement below is made at an arbitrary such valuation
variable (V : (c : Dev nD) → (b : Ref sig .tc) → Buf (Elt F) ((c : Thread nD τ).loc b))

/-! ## The blocks -/

/-- Window `w`'s block at grid point `t`: the rectangle of its array that the point's block index selects, read off
    the array as the region finds it. For the row operand this is 512 consecutive rows, for the weight 512 consecutive
    columns, for the bias the same 512 columns of its single row, for the result one 512 × 512 tile. -/
def blk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds the point's block whether or not the block was fetched at this very point:
    when it was not, the block index has not moved since the point before, whose block is then this one. Stated window
    by window: the windows are uncut, so a block and its cut agree only at a literal window. -/
theorem before_in_0 {c : Dev nD} (dat : Dat τ (Elt F) Unit ℕ (UR sig nD τ) ℕ cfg2 c)
    (hA : dat.A 0 = V c (Pipeline.arrRef spec2 0)) (hafter : ∀ t, dat.after 0 t = blk V c 0 t) (t : Fin cfg2.N) (d) :
    dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem before_in_1 {c : Dev nD} (dat : Dat τ (Elt F) Unit ℕ (UR sig nD τ) ℕ cfg2 c)
    (hA : dat.A 1 = V c (Pipeline.arrRef spec2 1)) (hafter : ∀ t, dat.after 1 t = blk V c 1 t) (t : Fin cfg2.N) (d) :
    dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem before_in_2 {c : Dev nD} (dat : Dat τ (Elt F) Unit ℕ (UR sig nD τ) ℕ cfg2 c)
    (hA : dat.A 2 = V c (Pipeline.arrRef spec2 2)) (hafter : ∀ t, dat.after 2 t = blk V c 2 t) (t : Fin cfg2.N) (d) :
    dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-! ## What the body leaves in the result tile -/

abbrev rX : Rect S512x1024 := Rect.unit (s := S512x1024) ![0, 0] S512x1024.size inb_S512x1024_S512x1024_0_0
abbrev rW : Rect S1024x512 := Rect.unit (s := S1024x512) ![0, 0] S1024x512.size inb_S1024x512_S1024x512_0_0
abbrev rB : Rect S1x512 := Rect.unit (s := S1x512) ![0, 0] S1x512.size inb_S1x512_S1x512_0_0
abbrev rO : Rect S512x512 := Rect.unit (s := S512x512) ![0, 0] S512x512.size inb_S512x512_S512x512_0_0

/-- The result tile after the body: its one store, of the rows times the columns plus the bias row, covering the
    whole tile. -/
def tile (x : Vec F S512x1024 .f32) (w : Vec F S1024x512 .f32) (b : Vec F S1x512 .f32) : Vec F S512x512 .f32 :=
  View.canon [⟨rO, k2_pay1 (View.ld x rX) (View.ld w rW) (View.ld b rB)⟩]

/-- The one store's rectangle is the whole tile. -/
theorem tile_cover (p : Vec F S512x512 .f32) (y : S512x512.Idx) :
    ∃ pc ∈ ([⟨rO, p⟩] : List (View.Piece (Elt F) S512x512 .f32)), y ∈ pc.1.set :=
  View.cover_of_tiled [⟨rO, p⟩] S512x512.size (by rfl) y

/-! ## The body's triple -/

set_option maxHeartbeats 1000000 in
/-- From the three input buffers held whole at `x`, `w`, `b` and the result buffer held at anything, the body runs to its
    return with the inputs as they were and the result buffer at `tile x w b`. -/
theorem sound_kernel (c : Dev nD) (E : Set ℕ) (i : grid2.Coords)
    (a2 : Memref sig .tc .vmem S512x1024 .f32) (h2 : a2.IsWhole) (a3 : Memref sig .tc .vmem S1024x512 .f32) (h3 : a3.IsWhole)
    (a4 : Memref sig .tc .vmem S1x512 .f32) (h4 : a4.IsWhole) (a5 : Memref sig .tc .vmem S512x512 .f32) (h5 : a5.IsWhole)
    (x : Vec F S512x1024 .f32) (w : Vec F S1024x512 .f32) (b : Vec F S1x512 .f32) (K : PUnit → sProp 𝕄) :
    iprop(owns (c : Thread nD τ) a2 fullShare x ∗ owns (c : Thread nD τ) a3 fullShare w ∗ owns (c : Thread nD τ) a4 fullShare b
        ∗ (∃ d, owns (c : Thread nD τ) a5 fullShare d)
        ∗ (iprop(owns (c : Thread nD τ) a2 fullShare x ∗ owns (c : Thread nD τ) a3 fullShare w ∗ owns (c : Thread nD τ) a4 fullShare b
            ∗ owns (c : Thread nD τ) a5 fullShare (tile x w b)) -∗ K ⟨⟩))
      ⊢ wp frame (wpE (defs₀ (F := F)) Variants.none c none) E (cc2__linear_kernel i a2 h2 a3 h3 a4 h4 a5 h5) K := by
  simp only [cc2__linear_kernel_eq_skeleton]; unfold cc2__linear_kernel_skel
  unfold owns
  iintro ⟨⟨%f2, %hf2, H2⟩, ⟨%f3, %hf3, H3⟩, ⟨%f4, %hf4, H4⟩, ⟨%d5, %f5, -, H5⟩, Hk⟩
  subst hf2; subst hf3; subst hf4
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (tile_cover _)

/-! ## The proof data -/

/-- The region's proof data on core `c`: the arrays as found; after the body at point `t` each input buffer still at
    its block and the result buffer at the tile of the point's blocks; the invariant the scoped rest and the generator
    register, untouched; nothing owed; full shares. -/
def dat (c : Dev nD) : Dat τ (Elt F) Unit ℕ (UR sig nD τ) ℕ cfg2 c where
  A w := V c (Pipeline.arrRef spec2 w)
  after w t := match w with
    | ⟨0, _⟩ => blk V c 0 t
    | ⟨1, _⟩ => blk V c 1 t
    | ⟨2, _⟩ => blk V c 2 t
    | ⟨3, _⟩ => tile (blk V c 0 t) (blk V c 1 t) (blk V c 2 t)
  Φ _ := Pipeline.ΦA spec2 c
  q _ := fullShare
  owed _ := 0

theorem A_eq (c : Dev nD) (w : Fin cfg2.W) : (dat V c).A w = V c (Pipeline.arrRef spec2 w) := by
  dsimp only [dat]
theorem after_0 (c : Dev nD) (t : Fin cfg2.N) : (dat V c).after 0 t = blk V c 0 t := by dsimp only [dat]
theorem after_1 (c : Dev nD) (t : Fin cfg2.N) : (dat V c).after 1 t = blk V c 1 t := by dsimp only [dat]
theorem after_2 (c : Dev nD) (t : Fin cfg2.N) : (dat V c).after 2 t = blk V c 2 t := by dsimp only [dat]
theorem after_3 (c : Dev nD) (t : Fin cfg2.N) :
    (dat V c).after 3 t = tile (blk V c 0 t) (blk V c 1 t) (blk V c 2 t) := by dsimp only [dat]

theorem before_0 (c : Dev nD) (t : Fin cfg2.N) (d) : (dat V c).before 0 t d = blk V c 0 t :=
  before_in_0 V (dat V c) (A_eq V c 0) (after_0 V c) t d
theorem before_1 (c : Dev nD) (t : Fin cfg2.N) (d) : (dat V c).before 1 t d = blk V c 1 t :=
  before_in_1 V (dat V c) (A_eq V c 1) (after_1 V c) t d
theorem before_2 (c : Dev nD) (t : Fin cfg2.N) (d) : (dat V c).before 2 t d = blk V c 2 t :=
  before_in_2 V (dat V c) (A_eq V c 2) (after_2 V c) t d

/-! ## The body obligation -/

/-- What the body is called with at point `t`: the invariant, the core's dues, each window's current buffer. -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d)))

/-- What it returns. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t))

/-- The body at any point: the input buffers hold the point's blocks, so the triple applies; the invariant and the
    dues pass through unread. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ _ _ _ _ _ _ _ _ _ (blk V c 0 t) (blk V c 1 t) (blk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation at every point. -/
theorem body_obligation (c : Dev nD) : BodyObligation (dat (F := F) V c) (defs₀ (F := F)) Variants.none () Set.univ := fun t => by
  rw [bigSep_W2, bigSep_W2]
  exact sound_body V c t

end Cert.Kernel.Lin2

end
-- ==== Proof.BRun.lean ====
/-
  The whole program from the accounts of its three kernel regions.

  The program is seven items in a row: a stretch of tensor operations, the first projection, a second stretch, the
  attention, a third stretch, the second projection, and a closing reshape. Between two items every unscoped buffer
  of the core holds a definite value; these eight valuations are a fold from the launch memory: a stretch maps the
  valuation through its operations, a region replaces its four arrays by what its write-backs leave and keeps every
  other buffer. Each region's account is then an entry from the valuation before it and an exit to the valuation
  after it, the stretches run between them, and every fair run of the program from the launch memory ends with every
  unscoped buffer at the last valuation. Read at an argument the last valuation is the launch memory (nothing writes
  an argument); read at the result it is the reshape of what the second projection leaves in its output array.

  The attention region enters as a parameter: its account at an arbitrary entry valuation, with the two entailments
  that tie its invariant at the first and last point to the scoped rest and the generator register.
-/
import proofs.«174977_j37177236914546_2_alg».proof.Proof.BLin0
import proofs.«174977_j37177236914546_2_alg».proof.Proof.BLin2
import proofs.«174977_j37177236914546_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A core's buffer contents as a region reads them: one value per TensorCore reference. -/
abbrev Entry (F : FTy → Type) : Type := (c : Dev nD) → (b : Ref sig .tc) → Buf (Elt F) ((c : Thread nD τ).loc b)

/-! ## The attention region's account, as a parameter -/

/-- The account of the attention region at an arbitrary entry valuation \`V\`: its arrays are \`V\`'s, it holds them at
    the full share, it owes nothing at any point and bounds nothing at the first, its body meets the obligation at
    every point, and its invariant at the first point follows from, and at the last point gives back, the scoped
    buffers no window stages together with the generator register. -/
structure AttnAcct where
  dat : (V : Entry F) → (c : Dev nD) → Dat τ (Elt F) Unit ℕ (UR sig nD τ) ℕ cfg1 c
  A_eq : ∀ V c w, (dat V c).A w = V c (Pipeline.arrRef spec1 w)
  q_eq : ∀ V c w, (dat V c).q w = fullShare
  owed_eq : ∀ V c t, (dat V c).owed t = 0
  rec0 : ∀ V c, (dat V c).recorded 0 = Set.univ
  body : ∀ V c, BodyObligation (dat V c) (defs₀ (F := F)) Variants.none () Set.univ
  hin : ∀ V c, (Pipeline.ΦA spec1 c : sProp 𝕄) ⊢ (dat V c).Φ 0
  hout : ∀ V c, (dat V c).Φ (Fin.last cfg1.N) ⊢ (Pipeline.ΦA spec1 c : sProp 𝕄)

variable (At : AttnAcct (F := F)) (m : (ℓ : Loc nD τ sig) → Buf (Elt F) ℓ) (ρ : Dev nD → PrngReg)

/-! ## The eight valuations -/

/-- At launch. -/
abbrev W0 : Dev nD → Valuation τ sig (Elt F) := fun c b => m (c, b)
/-- After the first stretch. -/
abbrev W1 : Dev nD → Valuation τ sig (Elt F) := fun c => StableHlo.after hostOps0 (W0 m c)
/-- What the first projection is entered with. -/
abbrev ent0 : Entry F := fun c b => W1 m c b
/-- After the first projection: its four arrays at what the write-backs of all 48 points leave, the rest as entered. -/
def W2 (c : Dev nD) : Valuation τ sig (Elt F) :=
  Pipeline.withArrays spec0 c (W1 m c) fun w => (Lin0.dat (ent0 m) c).arrAt w cfg0.N
/-- After the second stretch. -/
abbrev W3 : Dev nD → Valuation τ sig (Elt F) := fun c => StableHlo.after hostOps1 (W2 m c)
/-- What the attention is entered with. -/
abbrev ent1 : Entry F := fun c b => W3 m c b
/-- After the attention: its four arrays at what the write-backs of all 256 points leave, the rest as entered. -/
def W4 (c : Dev nD) : Valuation τ sig (Elt F) :=
  Pipeline.withArrays spec1 c (W3 m c) fun w => (At.dat (ent1 m) c).arrAt w cfg1.N
/-- After the third stretch. -/
abbrev W5 : Dev nD → Valuation τ sig (Elt F) := fun c => StableHlo.after hostOps2 (W4 At m c)
/-- What the second projection is entered with. -/
abbrev ent2 : Entry F := fun c b => W5 At m c b
/-- After the second projection: its four arrays at what the write-backs of all 16 points leave, the rest as entered. -/
def W6 (c : Dev nD) : Valuation τ sig (Elt F) :=
  Pipeline.withArrays spec2 c (W5 At m c) fun w => (Lin2.dat (ent2 At m) c).arrAt w cfg2.N
/-- After the closing reshape: the end. -/
abbrev W7 : Dev nD → Valuation τ sig (Elt F) := fun c => StableHlo.after hostOps3 (W6 At m c)

/-! Each region's exit valuation at one of its arrays, and off them. -/

theorem W2_arr (c : Dev nD) (w : Fin cfg0.W) :
    W2 m c (Proc.devRef .tc (Pipeline.arrRef spec0 w)) = (Lin0.dat (ent0 m) c).arrAt w cfg0.N := by
  unfold W2; exact Pipeline.withArrays_arr spec0 launch0.win.arr_inj c _ _ w
theorem W2_off (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem W4_arr (c : Dev nD) (w : Fin cfg1.W) :
    W4 At m c (Proc.devRef .tc (Pipeline.arrRef spec1 w)) = (At.dat (ent1 m) c).arrAt w cfg1.N := by
  unfold W4; exact Pipeline.withArrays_arr spec1 launch1.win.arr_inj c _ _ w
theorem W4_off (c : Dev nD) (b : Ref sig .tc) (hb : ∀ w, Pipeline.arrRef spec1 w ≠ b) :
    W4 At m c (Proc.devRef .tc b) = W3 m c (Proc.devRef .tc b) := by
  unfold W4; exact Pipeline.withArrays_of_ne spec1 c _ _ b hb
theorem W6_arr (c : Dev nD) (w : Fin cfg2.W) :
    W6 At m c (Proc.devRef .tc (Pipeline.arrRef spec2 w)) = (Lin2.dat (ent2 At m) c).arrAt w cfg2.N := by
  unfold W6; exact Pipeline.withArrays_arr spec2 launch2.win.arr_inj c _ _ w
theorem W6_off (c : Dev nD) (b : Ref sig .tc) (hb : ∀ w, Pipeline.arrRef spec2 w ≠ b) :
    W6 At m c (Proc.devRef .tc b) = W5 At m c (Proc.devRef .tc b) := by
  unfold W6; exact Pipeline.withArrays_of_ne spec2 c _ _ b hb

/-- The exit valuations read at the TensorCore's references. -/
abbrev ext0 : Entry F := fun c b => W2 m c b
abbrev ext1 : Entry F := fun c b => W4 At m c b
abbrev ext2 : Entry F := fun c b => W6 At m c b

/-- A reference that is none of a region's arrays is not in their image. -/
theorem off_image {W : Nat} {f : Fin W → Ref sig .tc} {b : Ref sig .tc} (hb : b ∉ Finset.univ.image f) (w : Fin W) : f w ≠ b :=
  fun e => hb (Finset.mem_image.mpr ⟨w, Finset.mem_univ _, e⟩)

/-! ## What rides beside the buffers, and four small entailments every region's record is made of -/

/-- No core owes another anything and no wait records a level. -/
abbrev L : GSem nD τ sig → Finset Unit := fun _ => ∅
abbrev lv : GSem nD τ sig → Unit → ℕ := fun _ _ => 0

/-- Beside the buffers a core holds its generator register, at some state, and its dues, which are none. -/
abbrev R (c : Dev nD) : sProp 𝕄 :=
  iprop((∃ r, prngReg c r) ∗ ∃ W, owes (c : Thread nD τ) (0 : CellTallies nD τ sig Unit) W)

/-- Owing nothing, with the recorded pairs unknown, meets an account's dues at its first point when the account owes
    nothing there and bounds the recorded pairs by everything. -/
theorem dues_in (c : Dev nD) {cfg : Cfg sig Λ₀} (d : Dat τ (Elt F) Unit ℕ (UR sig nD τ) ℕ cfg c)
    (h0 : d.owed 0 = 0) (hr : d.recorded 0 = Set.univ) :
    (iprop(∃ W, owes (c : Thread nD τ) (0 : CellTallies nD τ sig Unit) W) : sProp 𝕄) ⊢ d.owesAt () 0 := by
  unfold Pipeline.Dat.owesAt Pipeline.owesWithin Pipeline.Dat.bound
  rw [h0, hr]
  iintro ⟨%W, HO⟩
  iexists W
  isplitr; · ipureintro; exact fun _ _ => Or.inl trivial
  iexact HO

/-- An account that owes nothing at its last point leaves the core owing nothing. -/
theorem dues_out (c : Dev nD) {cfg : Cfg sig Λ₀} (d : Dat τ (Elt F) Unit ℕ (UR sig nD τ) ℕ cfg c)
    (hN : d.owed (Fin.last cfg.N) = 0) :
    d.owesAt () (Fin.last cfg.N) ⊢ (iprop(∃ W, owes (c : Thread nD τ) (0 : CellTallies nD τ sig Unit) W) : sProp 𝕄) := by
  unfold Pipeline.Dat.owesAt Pipeline.owesWithin
  rw [hN]
  iintro ⟨%W, -, HO⟩
  iexists W
  iexact HO

/-- A pipeline without prefetched tables holds them all for nothing. -/
theorem no_tables (c : Dev nD) (pre : Pipeline.Prefetch sig) (hK : pre.K = 0) (q : Fin pre.K → PosShare TreeShare)
    (V : pre.Contents (Elt F)) : (BI.emp : sProp 𝕄) ⊢ Pipeline.prefHeld pre c q V := by
  unfold Pipeline.prefHeld
  have : IsEmpty (Fin pre.K) := by rw [hK]; infer_instance
  rw [Finset.univ_eq_empty, BI.bigSep_empty]

/-- ENTRY. From the buffers and \`R\`: the buffers split into the region's arrays \`A\` and the rest \`Zr\` (\`hs\`), the
    tables cost nothing (\`hp\`), the dues are the account's at its first point (\`ho\`), and the generator register goes on
    into the invariant. The region's own semaphores (none) and the level facts are not used. -/
theorem enter (c : Dev nD) {H A Zr Pf Ow S Lv : sProp 𝕄} (hs : H ⊢ iprop(A ∗ Zr)) (hp : (BI.emp : sProp 𝕄) ⊢ Pf)
    (ho : (iprop(∃ W, owes (c : Thread nD τ) (0 : CellTallies nD τ sig Unit) W) : sProp 𝕄) ⊢ Ow) :
    iprop((H ∗ R c) ∗ S ∗ Lv) ⊢ |={Set.univ}=> iprop(A ∗ Pf ∗ Ow ∗ (∃ r, prngReg c r) ∗ Zr) := by
  iintro ⟨⟨Hh, Hp, HO⟩, -, -⟩
  ihave Hsp := hs $$ Hh
  icases Hsp with ⟨Ha, Hz⟩
  imodintro
  isplitl [Ha]; · iexact Ha
  isplitr; · iapply hp; iempintro
  isplitl [HO]; · iapply ho; iexact HO
  isplitl [Hp]; · iexact Hp
  iexact Hz

/-- EXIT. The arrays at their final contents and the rest join into the buffers at the exit valuation (\`hj\`), the
    account's last dues are none (\`ho\`), and the generator register comes back out of the invariant. -/
theorem leave (c : Dev nD) {A Zr Ow H' : sProp 𝕄} (hj : iprop(A ∗ Zr) ⊢ H')
    (ho : Ow ⊢ (iprop(∃ W, owes (c : Thread nD τ) (0 : CellTallies nD τ sig Unit) W) : sProp 𝕄)) :
    iprop(A ∗ Ow ∗ (∃ r, prngReg c r) ∗ Zr) ⊢ |={Set.univ}=> iprop(H' ∗ R c) := by
  iintro ⟨Ha, HO, Hp, Hz⟩
  imodintro
  isplitl [Ha Hz]
  · iapply hj; isplitl [Ha] <;> iassumption
  isplitl [Hp]; · iexact Hp
  iapply ho; iexact HO

/-- The last thread state beside the dues: the same three parts, grouped the other way. -/
theorem regroup (H P O : sProp 𝕄) : iprop(H ∗ P ∗ O) ⊢ iprop((H ∗ P) ∗ O) := by
  iintro ⟨Hh, Hp, HO⟩
  isplitl [Hh Hp]
  · isplitl [Hh]; · iexact Hh
    iexact Hp
  iexact HO

/-- The class invariant from the generator register, anything at all, and the scoped buffers no window stages. -/
theorem inv_in {gr W : Nat} (win : Fin W → Pipeline.WinSpec sig gr) (c : Dev nD) (P : sProp 𝕄) :
    iprop((∃ r, prngReg c r) ∗ P ∗ Pipeline.scopedRest win c) ⊢ (Pipeline.ΦA win c : sProp 𝕄) := by
  unfold Pipeline.ΦA
  iintro ⟨Hp, -, Hr⟩
  isplitl [Hr]; · iexact Hr
  iexact Hp

/-- The class invariant gives back the generator register and those scoped buffers; a region with no semaphore of
    its own has nothing else to return. -/
theorem inv_out {gr W : Nat} (win : Fin W → Pipeline.WinSpec sig gr) (c : Dev nD) :
    (Pipeline.ΦA win c : sProp 𝕄)
      ⊢ iprop((∃ r, prngReg c r) ∗ Pipeline.ownSems0 (fun k : PEmpty => (k.elim : SemLoc sig)) c ∗ Pipeline.scopedRest win c) := by
  rw [Pipeline.ownSems0_none]
  unfold Pipeline.ΦA
  iintro ⟨Hr, Hp⟩
  isplitl [Hp]; · iexact Hp
  isplitr; · iempintro
  iexact Hr

/-! ## Every region's account at its entry valuation, and the stretches as segments -/

/-- The three accounts, each at the valuation its region is entered with. -/
def pdats : (p : Fin 3) → (c : Dev nD) → Dat τ (Elt F) Unit ℕ (UR sig nD τ) ℕ (Pipeline.pin (pcfgs (F := F)) adm p) c
  | ⟨0, _⟩ => fun c => Lin0.dat (ent0 m) c
  | ⟨1, _⟩ => fun c => At.dat (ent1 m) c
  | ⟨2, _⟩ => fun c => Lin2.dat (ent2 At m) c

/-- A stretch of tensor operations from the valuation \`W\`: it runs to the valuation mapped through its operations,
    \`R\` untouched. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The thread state between two items: every unscoped buffer at the valuation, and \`R\`. -/
abbrev at_ (W : Dev nD → Valuation τ sig (Elt F)) (c : Dev nD) : sProp 𝕄 :=
  iprop(StableHlo.held (c : Thread nD τ) (Pipeline.ucRefs τ sig) (W c) ∗ R c)

/-! ## The three regions -/

set_option backward.isDefEq.respectTransparency.types false in
/-- The first projection: entered at \`W1\`, left at \`W2\`. -/
def reg0 : Pipeline.RegionSeg (pcfgs (F := F)) adm (pdats At m) () defs₀ Variants.none L lv 0 where
  win := launch0.win.to₀
  block_pos := launch0.block_pos
  stage_whole := launch0.stage_whole
  K := PEmpty
  osem k := k.elim
  ho := Pipeline.OwnSemFacts.none _
  hbody c := (Lin0.body_obligation (ent0 m) c).loose
  hwaits := Pipeline.hwaits_of_owed_zero _ _ _ _ L lv 0 fun _ _ => rfl
  pre := at_ (W1 m)
  post := at_ (W2 m)
  X c := iprop(∃ r, prngReg c r)
  Y c := iprop(∃ r, prngReg c r)
  Z c := Pipeline.unscopedRest (Ix := Unit) (Name := ℕ) (U := UR sig nD τ) (Lvl := ℕ) spec0 c (ent0 m c)
  hentry c := by
    have hs := Pipeline.arrays_of_unscopedBufs (p := 0) (pcfgs (F := F)) adm (pdats At m) launch0.win launch0.arr_whole c
      ((pdats At m 0 c).share_full fun _ => rfl) (ent0 m c) fun _ => rfl
    rw [Pipeline.unscopedBufs_held] at hs
    exact enter c hs (no_tables c _ rfl _ _) (dues_in c (pdats At m 0 c) rfl rfl)
  hin c := inv_in spec0 c _
  hout c := inv_out spec0 c
  hexit c := by
    have hj := Pipeline.unscopedBufs_of_arrays (p := 0) (pcfgs (F := F)) adm (Ix := Unit) (Name := ℕ) (U := UR sig nD τ) (Lvl := ℕ)
      launch0.win launch0.arr_whole c (pdats At m) ((pdats At m 0 c).share_full fun _ => rfl)
      (ent0 m c) (ext0 m c) ((pdats At m 0 c).arrAt · cfg0.N) (fun w => (W2_arr m c w).symm)
      (fun b hb => W2_off m c b (off_image hb))
    rw [Pipeline.unscopedBufs_held] at hj
    exact leave c hj (dues_out c (pdats At m 0 c) rfl)

set_option backward.isDefEq.respectTransparency.types false in
/-- The attention: entered at \`W3\`, left at \`W4\`. Its invariant at the two ends is the class invariant through the
    account's two entailments. -/
def reg1 : Pipeline.RegionSeg (pcfgs (F := F)) adm (pdats At m) () defs₀ Variants.none L lv 1 where
  win := launch1.win.to₀
  block_pos := launch1.block_pos
  stage_whole := launch1.stage_whole
  K := PEmpty
  osem k := k.elim
  ho := Pipeline.OwnSemFacts.none _
  hbody c := (At.body (ent1 m) c).loose
  hwaits := Pipeline.hwaits_of_owed_zero _ _ _ _ L lv 1 fun c t => At.owed_eq (ent1 m) c t
  pre := at_ (W3 m)
  post := at_ (W4 At m)
  X c := iprop(∃ r, prngReg c r)
  Y c := iprop(∃ r, prngReg c r)
  Z c := Pipeline.unscopedRest (Ix := Unit) (Name := ℕ) (U := UR sig nD τ) (Lvl := ℕ) spec1 c (ent1 m c)
  hentry c := by
    have hs := Pipeline.arrays_of_unscopedBufs (p := 1) (pcfgs (F := F)) adm (pdats At m) launch1.win launch1.arr_whole c
      ((pdats At m 1 c).share_full fun w => At.q_eq (ent1 m) c w) (ent1 m c) fun w => At.A_eq (ent1 m) c w
    rw [Pipeline.unscopedBufs_held] at hs
    exact enter c hs (no_tables c _ rfl _ _) (dues_in c (pdats At m 1 c) (At.owed_eq (ent1 m) c 0) (At.rec0 (ent1 m) c))
  hin c := (inv_in spec1 c _).trans (At.hin (ent1 m) c)
  hout c := (At.hout (ent1 m) c).trans (inv_out spec1 c)
  hexit c := by
    have hj := Pipeline.unscopedBufs_of_arrays (p := 1) (pcfgs (F := F)) adm (Ix := Unit) (Name := ℕ) (U := UR sig nD τ) (Lvl := ℕ)
      launch1.win launch1.arr_whole c (pdats At m) ((pdats At m 1 c).share_full fun w => At.q_eq (ent1 m) c w)
      (ent1 m c) (ext1 At m c) ((pdats At m 1 c).arrAt · cfg1.N) (fun w => (W4_arr At m c w).symm)
      (fun b hb => W4_off At m c b (off_image hb))
    rw [Pipeline.unscopedBufs_held] at hj
    exact leave c hj (dues_out c (pdats At m 1 c) (At.owed_eq (ent1 m) c _))

set_option backward.isDefEq.respectTransparency.types false in
/-- The second projection: entered at \`W5\`, left at \`W6\`. -/
def reg2 : Pipeline.RegionSeg (pcfgs (F := F)) adm (pdats At m) () defs₀ Variants.none L lv 2 where
  win := launch2.win.to₀
  block_pos := launch2.block_pos
  stage_whole := launch2.stage_whole
  K := PEmpty
  osem k := k.elim
  ho := Pipeline.OwnSemFacts.none _
  hbody c := (Lin2.body_obligation (ent2 At m) c).loose
  hwaits := Pipeline.hwaits_of_owed_zero _ _ _ _ L lv 2 fun _ _ => rfl
  pre := at_ (W5 At m)
  post := at_ (W6 At m)
  X c := iprop(∃ r, prngReg c r)
  Y c := iprop(∃ r, prngReg c r)
  Z c := Pipeline.unscopedRest (Ix := Unit) (Name := ℕ) (U := UR sig nD τ) (Lvl := ℕ) spec2 c (ent2 At m c)
  hentry c := by
    have hs := Pipeline.arrays_of_unscopedBufs (p := 2) (pcfgs (F := F)) adm (pdats At m) launch2.win launch2.arr_whole c
      ((pdats At m 2 c).share_full fun _ => rfl) (ent2 At m c) fun _ => rfl
    rw [Pipeline.unscopedBufs_held] at hs
    exact enter c hs (no_tables c _ rfl _ _) (dues_in c (pdats At m 2 c) rfl rfl)
  hin c := inv_in spec2 c _
  hout c := inv_out spec2 c
  hexit c := by
    have hj := Pipeline.unscopedBufs_of_arrays (p := 2) (pcfgs (F := F)) adm (Ix := Unit) (Name := ℕ) (U := UR sig nD τ) (Lvl := ℕ)
      launch2.win launch2.arr_whole c (pdats At m) ((pdats At m 2 c).share_full fun _ => rfl)
      (ent2 At m c) (ext2 At m c) ((pdats At m 2 c).arrAt · cfg2.N) (fun w => (W6_arr At m c w).symm)
      (fun b hb => W6_off At m c b (off_image hb))
    rw [Pipeline.unscopedBufs_held] at hj
    exact leave c hj (dues_out c (pdats At m 2 c) rfl)

/-! ## The program as its seven items, and its run -/

/-- The seven items in order, each stretch from the valuation before it. -/
abbrev items : List (Pipeline.Seg (pcfgs (F := F)) adm (pdats At m) () defs₀ Variants.none L lv) :=
  [ .host (stretch hostOps0 hostOps0_sub hostOps0_fresh (W0 m)),
    .region (reg0 At m),
    .host (stretch hostOps1 hostOps1_sub hostOps1_fresh (W2 m)),
    .region (reg1 At m),
    .host (stretch hostOps2 hostOps2_sub hostOps2_fresh (W4 At m)),
    .region (reg2 At m),
    .host (stretch hostOps3 hostOps3_sub hostOps3_fresh (W6 At m)) ]

/-- The program is the run of the seven items: both sides are the same chain of fragments. -/
theorem main_run (c : Dev nD) : main (F := F) c = Pipeline.Seg.run (items At m) := (main_chain c).trans (by chain_rfl)

/-- An unscoped TensorCore reference is among the buffers the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN. From any memory with every semaphore counter at zero, every weakly fair execution of the program on the
    TensorCores terminates without fault, and at the end every unscoped buffer of every core holds the last valuation. -/
theorem run_full : θ_run defs (onTc (τ := τ) (main (F := F))) ⟨m, fun _ => 0, ρ⟩
    (fun r => ∀ c : Dev nD, ∀ b ∈ Pipeline.ucRefs τ sig, r.2.mem ((c : Thread nD τ).1, b) = W7 At m c b) :=
  Pipeline.θ_run_regions_kit (pcfgs (F := F)) adm (pdats At m) () cellOf_inj emb₁ defs₀ Variants.none L lv m ρ main (items At m)
    (fun c Q => by rw [main_run At m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := at_ (W0 m))
    (Tₙ := fun c => iprop(StableHlo.held (c : Thread nD τ) (Pipeline.ucRefs τ sig) (W7 At m c) ∗ ∃ r, prngReg c r))
    (hch := ⟨fun _ => .rfl, fun _ => .rfl, fun _ => .rfl, fun _ => .rfl, fun _ => .rfl, fun _ => .rfl, fun _ => .rfl,
      fun c => (regroup _ _ _ : iprop(StableHlo.held (c : Thread nD τ) (Pipeline.ucRefs τ sig) (W7 At m c) ∗ R c) ⊢ _)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem ((c : Thread nD τ).1, b) = W7 At m c b)
    (hfin := fun c s' => by
      iintro ⟨⟨Hh, -⟩, HSI⟩
      unfold StableHlo.held
      imodintro
      iapply (pointsTo_read_all (Pipeline.ucRefs τ sig) (fun b => ((c : Thread nD τ).1, b)) (W7 At m c) s')
      isplitl [Hh] <;> iassumption)
    (hQ := fun s h => h)

/-! ## The last valuation at the arguments and at the result -/

/-- A reference that no stretch writes and that is no region's array holds at the end what the launch memory holds. -/
theorem W7_launch (c : Dev nD) (r : Ref sig .tc)
    (h0 : r ∉ hostOps0_W) (h1 : r ∉ hostOps1_W) (h2 : r ∉ hostOps2_W) (h3 : r ∉ hostOps3_W)
    (a0 : ∀ w, Pipeline.arrRef spec0 w ≠ r) (a1 : ∀ w, Pipeline.arrRef spec1 w ≠ r) (a2 : ∀ w, Pipeline.arrRef spec2 w ≠ r) :
    W7 At m c (Proc.devRef .tc r) = m ((c : Thread nD τ).loc r) :=
  calc W7 At m c (Proc.devRef .tc r)
    _ = W6 At m c (Proc.devRef .tc r) := StableHlo.after_of_writes_sub hostOps3 _ hostOps3_writes h3
    _ = W5 At m c (Proc.devRef .tc r) := W6_off At m c r a2
    _ = W4 At m c (Proc.devRef .tc r) := StableHlo.after_of_writes_sub hostOps2 _ hostOps2_writes h2
    _ = W3 m c (Proc.devRef .tc r) := W4_off At m c r a1
    _ = W2 m c (Proc.devRef .tc r) := StableHlo.after_of_writes_sub hostOps1 _ hostOps1_writes h1
    _ = W1 m c (Proc.devRef .tc r) := W2_off m c r a0
    _ = W0 m c (Proc.devRef .tc r) := StableHlo.after_of_writes_sub hostOps0 _ hostOps0_writes h0
    _ = m ((c : Thread nD τ).loc r) := rfl

theorem W7_main_arg0 (c : Dev nD) : W7 At m c (Proc.devRef .tc main_arg0) = m ((c : Thread nD τ).loc main_arg0) :=
  W7_launch At m c main_arg0 (by decide) (by decide) (by decide) (by decide) (by decide) (by decide) (by decide)
theorem W7_main_arg1 (c : Dev nD) : W7 At m c (Proc.devRef .tc main_arg1) = m ((c : Thread nD τ).loc main_arg1) :=
  W7_launch At m c main_arg1 (by decide) (by decide) (by decide) (by decide) (by decide) (by decide) (by decide)
theorem W7_main_arg2 (c : Dev nD) : W7 At m c (Proc.devRef .tc main_arg2) = m ((c : Thread nD τ).loc main_arg2) :=
  W7_launch At m c main_arg2 (by decide) (by decide) (by decide) (by decide) (by decide) (by decide) (by decide)
theorem W7_main_arg3 (c : Dev nD) : W7 At m c (Proc.devRef .tc main_arg3) = m ((c : Thread nD τ).loc main_arg3) :=
  W7_launch At m c main_arg3 (by decide) (by decide) (by decide) (by decide) (by decide) (by decide) (by decide)
theorem W7_main_arg4 (c : Dev nD) : W7 At m c (Proc.devRef .tc main_arg4) = m ((c : Thread nD τ).loc main_arg4) :=
  W7_launch At m c main_arg4 (by decide) (by decide) (by decide) (by decide) (by decide) (by decide) (by decide)

/-- The second projection's output array after all its points. -/
theorem W6_main_v18 (c : Dev nD) : W6 At m c (Proc.devRef .tc main_v18) = (Lin2.dat (ent2 At m) c).arrAt 3 cfg2.N :=
  W6_arr At m c 3

/-- The result buffer at the end: the closing reshape of the second projection's output array. -/
theorem result_eq (c : Dev nD) : W7 At m c (Proc.devRef .tc main_v19)
    = fun i => shapeCast S2x2048x1024 (W6 At m c (Proc.devRef .tc main_v18)) shapeCasts_S4096x1024_S2x2048x1024 i := by
  show StableHlo.after hostOps3 (W6 At m c) (Proc.devRef .tc main_v19) = _
  simp only [StableHlo.after_cons, StableHlo.after_nil]
  rw [StableHlo.reshape_result]
  rfl

/-- The same with the output array named: the result is the reshape of what the write-backs of the second projection's
    16 points leave in its fourth array. -/
theorem result_arr (c : Dev nD) : W7 At m c (Proc.devRef .tc main_v19)
    = fun i => shapeCast S2x2048x1024 (s := S4096x1024) ((Lin2.dat (ent2 At m) c).arrAt 3 cfg2.N) shapeCasts_S4096x1024_S2x2048x1024 i := by
  rw [result_eq, W6_main_v18]

/-- The run, read at the result and the five arguments: the post the program's two value claims state. -/
theorem run_result : θ_run defs (onTc (τ := τ) (main (F := F))) ⟨m, fun _ => 0, ρ⟩ (fun r => ∀ c : Dev nD,
      r.2.mem ((c.tc : Thread nD τ).loc main_v19) = W7 At m c (Proc.devRef .tc main_v19)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run _ _ _).mono (fun r h c =>
    ⟨h c _ (mem_uc main_v19 (by decide)),
     (h c _ (mem_uc main_arg0 (by decide))).trans (W7_main_arg0 At m c),
     (h c _ (mem_uc main_arg1 (by decide))).trans (W7_main_arg1 At m c),
     (h c _ (mem_uc main_arg2 (by decide))).trans (W7_main_arg2 At m c),
     (h c _ (mem_uc main_arg3 (by decide))).trans (W7_main_arg3 At m c),
     (h c _ (mem_uc main_arg4 (by decide))).trans (W7_main_arg4 At m c)⟩) (run_full At m ρ)

include At in
/-- The frame: every argument ends as launched. -/
theorem run_frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run _ _ _).mono (fun r h c => (h c).2) (run_result At m ρ)

/-- info: 'Cert.Kernel.Run.run_full' depends on axioms: [propext, Classical.choice, Quot.sound] -/
#guard_msgs in #print axioms run_full
/-- info: 'Cert.Kernel.Run.run_result' depends on axioms: [propext, Classical.choice, Quot.sound] -/
#guard_msgs in #print axioms run_result

end Cert.Kernel.Run

end
-- ==== Proof.BFrame.lean ====
/-
  The program's run with the attention region's account filled in: every fair run from the launch memory ends, faults
  nowhere, leaves the five argument arrays as launched, and leaves the result array at the last boundary's contents.
-/
import proofs.«174977_j37177236914546_2_alg».proof.Proof.BAttn
import proofs.«174977_j37177236914546_2_alg».proof.Proof.BRun

noncomputable section

namespace Cert.Kernel.Run

open Cert.Kernel Cert.Kernel.Gen
open Idealize.ShloMosaic Idealize.ShloMosaic.TcCoe
open Idealize.SL Idealize.SL.Sem
open Idealize.ShloMosaic.Pipeline (Dat BodyObligation)

variable {F : FTy → Type} [FloatOps F]

/-- The attention region's account: its proof data at any entry valuation, the body obligation at every point, and the
    two entailments tying its invariant before the first and after the last point to the plain one. -/
def attnAcct : AttnAcct (F := F) where
  dat := Attn.dat
  A_eq := Attn.A_eq
  q_eq := Attn.q_eq
  owed_eq := Attn.owed_eq
  rec0 := Attn.rec0
  body := Attn.body_obligation
  hin := Attn.hin
  hout := Attn.hout

/-- Every argument array ends as launched. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  run_frame (attnAcct (F := F)) m ρ

/-- The same run with the result array named. -/
theorem result (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v19) = W7 (attnAcct (F := F)) m c (Proc.devRef .tc main_v19)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  run_result (attnAcct (F := F)) m ρ

end Cert.Kernel.Run

end
-- ==== Proof.IAttnRuns.lean ====
/-
  The attention region, part one. One grid point handles a tile of 1024 queries of one (batch, head) pair against one
  block of 512 keys and values; the four points of a tile follow one another, and three scratch buffers carry the running
  row maximum, the running row sum and the running weighted sum of values from one to the next. The body's first branch
  (taken at a tile's first point) resets the three; its second branch (taken at the tile's last point) divides the weighted
  sum by the row sum into the result tile. Here: the two conditions as functions of the point, where the result window is
  idle and where it is written back, the buffers the body is called with, the region's invariant split into the three
  scratch buffers and the rest, and the body run once per case, with what each store leaves found by the run itself.
-/
import proofs.«174977_j37177236914546_2_alg».proof.Proof.Gen.KernelIdeal.Launch
import proofs.«174977_j37177236914546_2_alg».proof.Proof.Gen.KernelIdeal.Skeleton
import proofs.«174977_j37177236914546_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions -/

/-- The body's first branch: the key-value coordinate is 0. -/
abbrev condFirst (i : grid1.Coords) : Prop := (Scalar.cmpi .ne (Scalar.extui (Scalar.cmpi .eq (BitVec.ofNat 32 (i 2).val) 0#32)) 0#32) = 1#1
/-- It is taken exactly at the points ≡ 0 (mod 4): the key-value axis is the fastest of the grid and has 4 steps. -/
theorem hFirst : ∀ t : Fin cfg1.N, condFirst (grid1.coords t) ↔ t.val % 4 = 0 :=
  (by decide +kernel : ∀ t : Fin grid1.N, condFirst (grid1.coords t) ↔ t.val % 4 = 0)

/-- The body's second branch: the key-value coordinate is 3, the last. -/
abbrev condLast (i : grid1.Coords) : Prop := k1_cond2 i = 1#1
/-- It is taken exactly at the points ≡ 3 (mod 4). -/
theorem hLast : ∀ t : Fin cfg1.N, condLast (grid1.coords t) ↔ t.val % 4 = 3 :=
  (by decide +kernel : ∀ t : Fin grid1.N, condLast (grid1.coords t) ↔ t.val % 4 = 3)

/-! ## Where the result window is idle -/

theorem live_0 : ∀ t : Fin cfg1.N, cfg1.idle 0 (grid1.coords t) = false := fun _ => rfl
theorem live_1 : ∀ t : Fin cfg1.N, cfg1.idle 1 (grid1.coords t) = false := fun _ => rfl
theorem live_2 : ∀ t : Fin cfg1.N, cfg1.idle 2 (grid1.coords t) = false := fun _ => rfl
/-- Away from a tile's last point the body stores nothing into the result window, -/
theorem idle_3 : ∀ t : Fin cfg1.N, ¬condLast (grid1.coords t) → cfg1.idle 3 (grid1.coords t) = true := by decide +kernel
/-- and the window is not written back there; -/
theorem noFlush_3 : ∀ t : Fin cfg1.N, ¬condLast (grid1.coords t) → (cfg1.win 3).flush t = false := by decide +kernel
/-- at the last point it is live. -/
theorem live_3 : ∀ t : Fin cfg1.N, condLast (grid1.coords t) → cfg1.idle 3 (grid1.coords t) = false := by decide +kernel

/-! ## The buffers the body is called with -/

abbrev ms0 (t : Fin cfg1.N) : Memref sig .tc .vmem S1x1024x64 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S1x512x64 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S1x512x64 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S1x1024x64 .f32 := win1_3.stage (cfg1.slots t 3)
abbrev hs3 (t : Fin cfg1.N) : (ms3 t).IsWhole := hstage1_3 ((cfg1.slots t 3).cast nbuf1_3)
/-- The running maximum, the running sum and the running weighted sum: whole buffers of the kernel's own. -/
abbrev scM : Memref sig .tc .vmem S1024x1 .f32 := Memref.whole cc1_scratch0
abbrev scL : Memref sig .tc .vmem S1024x1 .f32 := Memref.whole cc1_scratch1
abbrev scA : Memref sig .tc .vmem S1024x64 .f32 := Memref.whole cc1_scratch2
/-- Views through which contents are stated (the choice of buffer does not matter). -/
abbrev VM : View sig .tc .vmem S1024x1 .f32 := scM.view
abbrev VL : View sig .tc .vmem S1024x1 .f32 := scL.view
abbrev VA : View sig .tc .vmem S1024x64 .f32 := scA.view
abbrev VO : View sig .tc .vmem S1x1024x64 .f32 := (Memref.whole cc1_stg3_0 : Memref sig .tc .vmem S1x1024x64 .f32).view

/-! ## The invariant, split -/

/-- The staging buffers of the two projection regions, each whole at some contents: scoped buffers this region never
    touches. -/
def Others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f))

/-- The region's plain invariant hands out the three scratch buffers at some contents, the other regions' staging
    buffers and the generator register, -/
theorem phiA_split (c : Dev nD) :
    (Pipeline.ΦA spec1 c : sProp 𝕄)
      ⊢ iprop(Others c ∗ (∃ d, owns (c : Thread nD τ) scM fullShare d) ∗ (∃ d, owns (c : Thread nD τ) scL fullShare d)
          ∗ (∃ d, owns (c : Thread nD τ) scA fullShare d) ∗ ∃ r, prngReg c r) := by
  unfold Pipeline.ΦA Others; rw [scopedRest1_eq]; simp only [scM, scL, scA, owns_whole]
  iintro ⟨⟨B0, B1, B2, B3, B4, B5, B6, B7, B8, B9, B10, B11, B12, B13, B14, B15, B16, B17, B18⟩, Hg⟩
  isplitl [B0 B1 B2 B3 B4 B5 B6 B7 B11 B12 B13 B14 B15 B16 B17 B18]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B11]; · iexact B11
    isplitl [B12]; · iexact B12
    isplitl [B13]; · iexact B13
    isplitl [B14]; · iexact B14
    isplitl [B15]; · iexact B15
    isplitl [B16]; · iexact B16
    isplitl [B17]; · iexact B17
    iexact B18
  isplitl [B8]; · iexact B8
  isplitl [B9]; · iexact B9
  isplitl [B10]; · iexact B10
  iexact Hg

/-- and takes them back. -/
theorem phiA_join (c : Dev nD) :
    iprop(Others c ∗ (∃ d, owns (c : Thread nD τ) scM fullShare d) ∗ (∃ d, owns (c : Thread nD τ) scL fullShare d)
          ∗ (∃ d, owns (c : Thread nD τ) scA fullShare d) ∗ ∃ r, prngReg c r)
      ⊢ (Pipeline.ΦA spec1 c : sProp 𝕄) := by
  unfold Pipeline.ΦA Others; rw [scopedRest1_eq]; simp only [scM, scL, scA, owns_whole]
  iintro ⟨⟨B0, B1, B2, B3, B4, B5, B6, B7, B11, B12, B13, B14, B15, B16, B17, B18⟩, B8, B9, B10, Hg⟩
  isplitr [Hg]
  swap; · iexact Hg
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [B8]; · iexact B8
  isplitl [B9]; · iexact B9
  isplitl [B10]; · iexact B10
  isplitl [B11]; · iexact B11
  isplitl [B12]; · iexact B12
  isplitl [B13]; · iexact B13
  isplitl [B14]; · iexact B14
  isplitl [B15]; · iexact B15
  isplitl [B16]; · iexact B16
  isplitl [B17]; · iexact B17
  iexact B18

/-! ## The body, case by case -/

-- (the runs' proof terms are large)
set_option maxHeartbeats 4000000 in
/-- AT A TILE'S FIRST POINT (first branch taken, second not): from the three input buffers at `x0 x1 x2`, the result
    buffer at `xi` and the scratch buffers at anything, the body runs to its return with the inputs and the result buffer
    as they were and each scratch buffer with the run's pieces written — the pieces are the witnesses. -/
noncomputable def runFirst (c : Dev nD) (i : grid1.Coords) (a3 : Memref sig .tc .vmem S1x1024x64 .f32) (h3 : a3.IsWhole) (a4 : Memref sig .tc .vmem S1x512x64 .f32) (h4 : a4.IsWhole) (a5 : Memref sig .tc .vmem S1x512x64 .f32) (h5 : a5.IsWhole) (a6 : Memref sig .tc .vmem S1x1024x64 .f32) (h6 : a6.IsWhole) (a7 : Memref sig .tc .vmem S1024x1 .f32) (h7 : a7.IsWhole) (a8 : Memref sig .tc .vmem S1024x1 .f32) (h8 : a8.IsWhole) (a9 : Memref sig .tc .vmem S1024x64 .f32) (h9 : a9.IsWhole) (hc0 : condFirst i) (hc1 : ¬condLast i)
    (x0 : Vec F S1x1024x64 .f32) (x1 : Vec F S1x512x64 .f32) (x2 : Vec F S1x512x64 .f32) :
    Σ' (LM : List (View.Piece (Elt F) S1024x1 .f32)) (LL : List (View.Piece (Elt F) S1024x1 .f32)), { LA : List (View.Piece (Elt F) S1024x64 .f32) //
      ∀ (xi : Vec F S1x1024x64 .f32) (E : Set ℕ) (K : PUnit → sProp 𝕄),
        iprop(owns (c : Thread nD τ) a3 fullShare x0 ∗ owns (c : Thread nD τ) a4 fullShare x1 ∗ owns (c : Thread nD τ) a5 fullShare x2 ∗ owns (c : Thread nD τ) a6 fullShare xi
            ∗ (∃ d, owns (c : Thread nD τ) a7 fullShare d) ∗ (∃ d, owns (c : Thread nD τ) a8 fullShare d) ∗ (∃ d, owns (c : Thread nD τ) a9 fullShare d)
            ∗ (iprop(owns (c : Thread nD τ) a3 fullShare x0 ∗ owns (c : Thread nD τ) a4 fullShare x1 ∗ owns (c : Thread nD τ) a5 fullShare x2 ∗ owns (c : Thread nD τ) a6 fullShare xi
                ∗ (∃ f, a7.view.loc (c : Thread nD τ) ↦[a7.view.set]{fullShare} a7.view.writes (Elt F) f LM) ∗ (∃ f, a8.view.loc (c : Thread nD τ) ↦[a8.view.set]{fullShare} a8.view.writes (Elt F) f LL) ∗ (∃ f, a9.view.loc (c : Thread nD τ) ↦[a9.view.set]{fullShare} a9.view.writes (Elt F) f LA)) -∗ K ⟨⟩))
          ⊢ wp frame (wpE (defs₀ (F := F)) Variants.none c none) E (cc1__attn_kernel i a3 h3 a4 h4 a5 h5 a6 h6 a7 h7 a8 h8 a9 h9) K } := by
  refine ⟨?_, ?_, ?_, fun xi E K => ?run⟩
  case run =>
    simp only [cc1__attn_kernel_eq_skeleton]; unfold cc1__attn_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%dM, %fM, -, HM⟩, ⟨%dL, %fL, -, HL⟩, ⟨%dA, %fA, -, HA⟩, Hk⟩
    obtain rfl := h3.eq_unread hf0; obtain rfl := h4.eq_unread hf1; obtain rfl := h5.eq_unread hf2; obtain rfl := h6.eq_unread hf3
    sl_exec (disch := first | exact hc0 | exact hc1)
    sl_step
    iapply Hk
    isplitl [H0]
    · iexists _; isplitr; · ipureintro; exact h3.read_unread _
      iexact H0
    isplitl [H1]
    · iexists _; isplitr; · ipureintro; exact h4.read_unread _
      iexact H1
    isplitl [H2]
    · iexists _; isplitr; · ipureintro; exact h5.read_unread _
      iexact H2
    isplitl [H3]
    · iexists _; isplitr; · ipureintro; exact h6.read_unread _
      iexact H3
    isplitl [HM]; · iexists _; iexact HM
    isplitl [HL]; · iexists _; iexact HL
    iexists _; iexact HA

set_option maxHeartbeats 4000000 in
/-- AT A TILE'S MIDDLE POINTS (neither branch taken): the same, the scratch buffers entered at what the point before
    left (`xm xl xa`). -/
noncomputable def runMid (c : Dev nD) (i : grid1.Coords) (a3 : Memref sig .tc .vmem S1x1024x64 .f32) (h3 : a3.IsWhole) (a4 : Memref sig .tc .vmem S1x512x64 .f32) (h4 : a4.IsWhole) (a5 : Memref sig .tc .vmem S1x512x64 .f32) (h5 : a5.IsWhole) (a6 : Memref sig .tc .vmem S1x1024x64 .f32) (h6 : a6.IsWhole) (a7 : Memref sig .tc .vmem S1024x1 .f32) (h7 : a7.IsWhole) (a8 : Memref sig .tc .vmem S1024x1 .f32) (h8 : a8.IsWhole) (a9 : Memref sig .tc .vmem S1024x64 .f32) (h9 : a9.IsWhole) (hc0 : ¬condFirst i) (hc1 : ¬condLast i)
    (x0 : Vec F S1x1024x64 .f32) (x1 : Vec F S1x512x64 .f32) (x2 : Vec F S1x512x64 .f32)
    (xm : Vec F S1024x1 .f32) (xl : Vec F S1024x1 .f32) (xa : Vec F S1024x64 .f32) :
    Σ' (LM : List (View.Piece (Elt F) S1024x1 .f32)) (LL : List (View.Piece (Elt F) S1024x1 .f32)), { LA : List (View.Piece (Elt F) S1024x64 .f32) //
      ∀ (xi : Vec F S1x1024x64 .f32) (E : Set ℕ) (K : PUnit → sProp 𝕄),
        iprop(owns (c : Thread nD τ) a3 fullShare x0 ∗ owns (c : Thread nD τ) a4 fullShare x1 ∗ owns (c : Thread nD τ) a5 fullShare x2 ∗ owns (c : Thread nD τ) a6 fullShare xi
            ∗ owns (c : Thread nD τ) a7 fullShare xm ∗ owns (c : Thread nD τ) a8 fullShare xl ∗ owns (c : Thread nD τ) a9 fullShare xa
            ∗ (iprop(owns (c : Thread nD τ) a3 fullShare x0 ∗ owns (c : Thread nD τ) a4 fullShare x1 ∗ owns (c : Thread nD τ) a5 fullShare x2 ∗ owns (c : Thread nD τ) a6 fullShare xi
                ∗ (∃ f, a7.view.loc (c : Thread nD τ) ↦[a7.view.set]{fullShare} a7.view.writes (Elt F) f LM) ∗ (∃ f, a8.view.loc (c : Thread nD τ) ↦[a8.view.set]{fullShare} a8.view.writes (Elt F) f LL) ∗ (∃ f, a9.view.loc (c : Thread nD τ) ↦[a9.view.set]{fullShare} a9.view.writes (Elt F) f LA)) -∗ K ⟨⟩))
          ⊢ wp frame (wpE (defs₀ (F := F)) Variants.none c none) E (cc1__attn_kernel i a3 h3 a4 h4 a5 h5 a6 h6 a7 h7 a8 h8 a9 h9) K } := by
  refine ⟨?_, ?_, ?_, fun xi E K => ?run⟩
  case run =>
    simp only [cc1__attn_kernel_eq_skeleton]; unfold cc1__attn_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%fM, %hfM, HM⟩, ⟨%fL, %hfL, HL⟩, ⟨%fA, %hfA, HA⟩, Hk⟩
    obtain rfl := h3.eq_unread hf0; obtain rfl := h4.eq_unread hf1; obtain rfl := h5.eq_unread hf2; obtain rfl := h6.eq_unread hf3
    obtain rfl := h7.eq_unread hfM; obtain rfl := h8.eq_unread hfL; obtain rfl := h9.eq_unread hfA
    sl_exec (disch := first | exact hc0 | exact hc1)
    sl_step
    iapply Hk
    isplitl [H0]
    · iexists _; isplitr; · ipureintro; exact h3.read_unread _
      iexact H0
    isplitl [H1]
    · iexists _; isplitr; · ipureintro; exact h4.read_unread _
      iexact H1
    isplitl [H2]
    · iexists _; isplitr; · ipureintro; exact h5.read_unread _
      iexact H2
    isplitl [H3]
    · iexists _; isplitr; · ipureintro; exact h6.read_unread _
      iexact H3
    isplitl [HM]; · iexists _; iexact HM
    isplitl [HL]; · iexists _; iexact HL
    iexists _; iexact HA

set_option maxHeartbeats 4000000 in
/-- AT A TILE'S LAST POINT (second branch taken, first not): the scratch buffers entered at what the point before left,
    the result buffer at anything and left with the run's pieces written. -/
noncomputable def runLast (c : Dev nD) (i : grid1.Coords) (a3 : Memref sig .tc .vmem S1x1024x64 .f32) (h3 : a3.IsWhole) (a4 : Memref sig .tc .vmem S1x512x64 .f32) (h4 : a4.IsWhole) (a5 : Memref sig .tc .vmem S1x512x64 .f32) (h5 : a5.IsWhole) (a6 : Memref sig .tc .vmem S1x1024x64 .f32) (h6 : a6.IsWhole) (a7 : Memref sig .tc .vmem S1024x1 .f32) (h7 : a7.IsWhole) (a8 : Memref sig .tc .vmem S1024x1 .f32) (h8 : a8.IsWhole) (a9 : Memref sig .tc .vmem S1024x64 .f32) (h9 : a9.IsWhole) (hc0 : ¬condFirst i) (hc1 : condLast i)
    (x0 : Vec F S1x1024x64 .f32) (x1 : Vec F S1x512x64 .f32) (x2 : Vec F S1x512x64 .f32)
    (xm : Vec F S1024x1 .f32) (xl : Vec F S1024x1 .f32) (xa : Vec F S1024x64 .f32) :
    Σ' (LO : List (View.Piece (Elt F) S1x1024x64 .f32)) (LM : List (View.Piece (Elt F) S1024x1 .f32)) (LL : List (View.Piece (Elt F) S1024x1 .f32)), { LA : List (View.Piece (Elt F) S1024x64 .f32) //
      ∀ (E : Set ℕ) (K : PUnit → sProp 𝕄),
        iprop(owns (c : Thread nD τ) a3 fullShare x0 ∗ owns (c : Thread nD τ) a4 fullShare x1 ∗ owns (c : Thread nD τ) a5 fullShare x2 ∗ (∃ d, owns (c : Thread nD τ) a6 fullShare d)
            ∗ owns (c : Thread nD τ) a7 fullShare xm ∗ owns (c : Thread nD τ) a8 fullShare xl ∗ owns (c : Thread nD τ) a9 fullShare xa
            ∗ (iprop(owns (c : Thread nD τ) a3 fullShare x0 ∗ owns (c : Thread nD τ) a4 fullShare x1 ∗ owns (c : Thread nD τ) a5 fullShare x2 ∗ (∃ f, a6.view.loc (c : Thread nD τ) ↦[a6.view.set]{fullShare} a6.view.writes (Elt F) f LO)
                ∗ (∃ f, a7.view.loc (c : Thread nD τ) ↦[a7.view.set]{fullShare} a7.view.writes (Elt F) f LM) ∗ (∃ f, a8.view.loc (c : Thread nD τ) ↦[a8.view.set]{fullShare} a8.view.writes (Elt F) f LL) ∗ (∃ f, a9.view.loc (c : Thread nD τ) ↦[a9.view.set]{fullShare} a9.view.writes (Elt F) f LA)) -∗ K ⟨⟩))
          ⊢ wp frame (wpE (defs₀ (F := F)) Variants.none c none) E (cc1__attn_kernel i a3 h3 a4 h4 a5 h5 a6 h6 a7 h7 a8 h8 a9 h9) K } := by
  refine ⟨?_, ?_, ?_, ?_, fun E K => ?run⟩
  case run =>
    simp only [cc1__attn_kernel_eq_skeleton]; unfold cc1__attn_kernel_skel
    simp only [k1_part1_eq_skeleton]; unfold k1_part1_skel
    unfold owns
    iintro ⟨⟨%f0, %hf0, H0⟩, ⟨%f1, %hf1, H1⟩, ⟨%f2, %hf2, H2⟩, ⟨%d3, %f3, -, H3⟩, ⟨%fM, %hfM, HM⟩, ⟨%fL, %hfL, HL⟩, ⟨%fA, %hfA, HA⟩, Hk⟩
    obtain rfl := h3.eq_unread hf0; obtain rfl := h4.eq_unread hf1; obtain rfl := h5.eq_unread hf2
    obtain rfl := h7.eq_unread hfM; obtain rfl := h8.eq_unread hfL; obtain rfl := h9.eq_unread hfA
    sl_exec (disch := first | exact hc0 | exact hc1)
    sl_step
    iapply Hk
    isplitl [H0]
    · iexists _; isplitr; · ipureintro; exact h3.read_unread _
      iexact H0
    isplitl [H1]
    · iexists _; isplitr; · ipureintro; exact h4.read_unread _
      iexact H1
    isplitl [H2]
    · iexists _; isplitr; · ipureintro; exact h5.read_unread _
      iexact H2
    isplitl [H3]; · iexists _; iexact H3
    isplitl [HM]; · iexists _; iexact HM
    isplitl [HL]; · iexists _; iexact HL
    iexists _; iexact HA

/-! ## Every stored piece list tiles its buffer (each buffer is stored whole) -/

theorem coverFirstM (c : Dev nD) (i : grid1.Coords) (a3 : Memref sig .tc .vmem S1x1024x64 .f32) (h3 : a3.IsWhole) (a4 : Memref sig .tc .vmem S1x512x64 .f32) (h4 : a4.IsWhole) (a5 : Memref sig .tc .vmem S1x512x64 .f32) (h5 : a5.IsWhole) (a6 : Memref sig .tc .vmem S1x1024x64 .f32) (h6 : a6.IsWhole) (a7 : Memref sig .tc .vmem S1024x1 .f32) (h7 : a7.IsWhole) (a8 : Memref sig .tc .vmem S1024x1 .f32) (h8 : a8.IsWhole) (a9 : Memref sig .tc .vmem S1024x64 .f32) (h9 : a9.IsWhole) (hc0 : condFirst i) (hc1 : ¬condLast i) (x0 : Vec F S1x1024x64 .f32) (x1 : Vec F S1x512x64 .f32) (x2 : Vec F S1x512x64 .f32) (y : S1024x1.Idx) :
    ∃ pc ∈ (runFirst c i a3 h3 a4 h4 a5 h5 a6 h6 a7 h7 a8 h8 a9 h9 hc0 hc1 x0 x1 x2).1, y ∈ pc.1.set :=
  View.cover_of_tiledL _ S1024x1.size (by sl_kernel_rfl) y
theorem coverFirstL (c : Dev nD) (i : grid1.Coords) (a3 : Memref sig .tc .vmem S1x1024x64 .f32) (h3 : a3.IsWhole) (a4 : Memref sig .tc .vmem S1x512x64 .f32) (h4 : a4.IsWhole) (a5 : Memref sig .tc .vmem S1x512x64 .f32) (h5 : a5.IsWhole) (a6 : Memref sig .tc .vmem S1x1024x64 .f32) (h6 : a6.IsWhole) (a7 : Memref sig .tc .vmem S1024x1 .f32) (h7 : a7.IsWhole) (a8 : Memref sig .tc .vmem S1024x1 .f32) (h8 : a8.IsWhole) (a9 : Memref sig .tc .vmem S1024x64 .f32) (h9 : a9.IsWhole) (hc0 : condFirst i) (hc1 : ¬condLast i) (x0 : Vec F S1x1024x64 .f32) (x1 : Vec F S1x512x64 .f32) (x2 : Vec F S1x512x64 .f32) (y : S1024x1.Idx) :
    ∃ pc ∈ (runFirst c i a3 h3 a4 h4 a5 h5 a6 h6 a7 h7 a8 h8 a9 h9 hc0 hc1 x0 x1 x2).2.1, y ∈ pc.1.set :=
  View.cover_of_tiledL _ S1024x1.size (by sl_kernel_rfl) y
theorem coverFirstA (c : Dev nD) (i : grid1.Coords) (a3 : Memref sig .tc .vmem S1x1024x64 .f32) (h3 : a3.IsWhole) (a4 : Memref sig .tc .vmem S1x512x64 .f32) (h4 : a4.IsWhole) (a5 : Memref sig .tc .vmem S1x512x64 .f32) (h5 : a5.IsWhole) (a6 : Memref sig .tc .vmem S1x1024x64 .f32) (h6 : a6.IsWhole) (a7 : Memref sig .tc .vmem S1024x1 .f32) (h7 : a7.IsWhole) (a8 : Memref sig .tc .vmem S1024x1 .f32) (h8 : a8.IsWhole) (a9 : Memref sig .tc .vmem S1024x64 .f32) (h9 : a9.IsWhole) (hc0 : condFirst i) (hc1 : ¬condLast i) (x0 : Vec F S1x1024x64 .f32) (x1 : Vec F S1x512x64 .f32) (x2 : Vec F S1x512x64 .f32) (y : S1024x64.Idx) :
    ∃ pc ∈ (runFirst c i a3 h3 a4 h4 a5 h5 a6 h6 a7 h7 a8 h8 a9 h9 hc0 hc1 x0 x1 x2).2.2.1, y ∈ pc.1.set :=
  View.cover_of_tiledL _ S1024x64.size (by sl_kernel_rfl) y
theorem coverMidM (c : Dev nD) (i : grid1.Coords) (a3 : Memref sig .tc .vmem S1x1024x64 .f32) (h3 : a3.IsWhole) (a4 : Memref sig .tc .vmem S1x512x64 .f32) (h4 : a4.IsWhole) (a5 : Memref sig .tc .vmem S1x512x64 .f32) (h5 : a5.IsWhole) (a6 : Memref sig .tc .vmem S1x1024x64 .f32) (h6 : a6.IsWhole) (a7 : Memref sig .tc .vmem S1024x1 .f32) (h7 : a7.IsWhole) (a8 : Memref sig .tc .vmem S1024x1 .f32) (h8 : a8.IsWhole) (a9 : Memref sig .tc .vmem S1024x64 .f32) (h9 : a9.IsWhole) (hc0 : ¬condFirst i) (hc1 : ¬condLast i) (x0 : Vec F S1x1024x64 .f32) (x1 : Vec F S1x512x64 .f32) (x2 : Vec F S1x512x64 .f32) (xm : Vec F S1024x1 .f32) (xl : Vec F S1024x1 .f32) (xa : Vec F S1024x64 .f32) (y : S1024x1.Idx) :
    ∃ pc ∈ (runMid c i a3 h3 a4 h4 a5 h5 a6 h6 a7 h7 a8 h8 a9 h9 hc0 hc1 x0 x1 x2 xm xl xa).1, y ∈ pc.1.set :=
  View.cover_of_tiledL _ S1024x1.size (by sl_kernel_rfl) y
theorem coverMidL (c : Dev nD) (i : grid1.Coords) (a3 : Memref sig .tc .vmem S1x1024x64 .f32) (h3 : a3.IsWhole) (a4 : Memref sig .tc .vmem S1x512x64 .f32) (h4 : a4.IsWhole) (a5 : Memref sig .tc .vmem S1x512x64 .f32) (h5 : a5.IsWhole) (a6 : Memref sig .tc .vmem S1x1024x64 .f32) (h6 : a6.IsWhole) (a7 : Memref sig .tc .vmem S1024x1 .f32) (h7 : a7.IsWhole) (a8 : Memref sig .tc .vmem S1024x1 .f32) (h8 : a8.IsWhole) (a9 : Memref sig .tc .vmem S1024x64 .f32) (h9 : a9.IsWhole) (hc0 : ¬condFirst i) (hc1 : ¬condLast i) (x0 : Vec F S1x1024x64 .f32) (x1 : Vec F S1x512x64 .f32) (x2 : Vec F S1x512x64 .f32) (xm : Vec F S1024x1 .f32) (xl : Vec F S1024x1 .f32) (xa : Vec F S1024x64 .f32) (y : S1024x1.Idx) :
    ∃ pc ∈ (runMid c i a3 h3 a4 h4 a5 h5 a6 h6 a7 h7 a8 h8 a9 h9 hc0 hc1 x0 x1 x2 xm xl xa).2.1, y ∈ pc.1.set :=
  View.cover_of_tiledL _ S1024x1.size (by sl_kernel_rfl) y
theorem coverMidA (c : Dev nD) (i : grid1.Coords) (a3 : Memref sig .tc .vmem S1x1024x64 .f32) (h3 : a3.IsWhole) (a4 : Memref sig .tc .vmem S1x512x64 .f32) (h4 : a4.IsWhole) (a5 : Memref sig .tc .vmem S1x512x64 .f32) (h5 : a5.IsWhole) (a6 : Memref sig .tc .vmem S1x1024x64 .f32) (h6 : a6.IsWhole) (a7 : Memref sig .tc .vmem S1024x1 .f32) (h7 : a7.IsWhole) (a8 : Memref sig .tc .vmem S1024x1 .f32) (h8 : a8.IsWhole) (a9 : Memref sig .tc .vmem S1024x64 .f32) (h9 : a9.IsWhole) (hc0 : ¬condFirst i) (hc1 : ¬condLast i) (x0 : Vec F S1x1024x64 .f32) (x1 : Vec F S1x512x64 .f32) (x2 : Vec F S1x512x64 .f32) (xm : Vec F S1024x1 .f32) (xl : Vec F S1024x1 .f32) (xa : Vec F S1024x64 .f32) (y : S1024x64.Idx) :
    ∃ pc ∈ (runMid c i a3 h3 a4 h4 a5 h5 a6 h6 a7 h7 a8 h8 a9 h9 hc0 hc1 x0 x1 x2 xm xl xa).2.2.1, y ∈ pc.1.set :=
  View.cover_of_tiledL _ S1024x64.size (by sl_kernel_rfl) y
theorem coverLastO (c : Dev nD) (i : grid1.Coords) (a3 : Memref sig .tc .vmem S1x1024x64 .f32) (h3 : a3.IsWhole) (a4 : Memref sig .tc .vmem S1x512x64 .f32) (h4 : a4.IsWhole) (a5 : Memref sig .tc .vmem S1x512x64 .f32) (h5 : a5.IsWhole) (a6 : Memref sig .tc .vmem S1x1024x64 .f32) (h6 : a6.IsWhole) (a7 : Memref sig .tc .vmem S1024x1 .f32) (h7 : a7.IsWhole) (a8 : Memref sig .tc .vmem S1024x1 .f32) (h8 : a8.IsWhole) (a9 : Memref sig .tc .vmem S1024x64 .f32) (h9 : a9.IsWhole) (hc0 : ¬condFirst i) (hc1 : condLast i) (x0 : Vec F S1x1024x64 .f32) (x1 : Vec F S1x512x64 .f32) (x2 : Vec F S1x512x64 .f32) (xm : Vec F S1024x1 .f32) (xl : Vec F S1024x1 .f32) (xa : Vec F S1024x64 .f32) (y : S1x1024x64.Idx) :
    ∃ pc ∈ (runLast c i a3 h3 a4 h4 a5 h5 a6 h6 a7 h7 a8 h8 a9 h9 hc0 hc1 x0 x1 x2 xm xl xa).1, y ∈ pc.1.set :=
  View.cover_of_tiledL _ S1x1024x64.size (by sl_kernel_rfl) y
theorem coverLastM (c : Dev nD) (i : grid1.Coords) (a3 : Memref sig .tc .vmem S1x1024x64 .f32) (h3 : a3.IsWhole) (a4 : Memref sig .tc .vmem S1x512x64 .f32) (h4 : a4.IsWhole) (a5 : Memref sig .tc .vmem S1x512x64 .f32) (h5 : a5.IsWhole) (a6 : Memref sig .tc .vmem S1x1024x64 .f32) (h6 : a6.IsWhole) (a7 : Memref sig .tc .vmem S1024x1 .f32) (h7 : a7.IsWhole) (a8 : Memref sig .tc .vmem S1024x1 .f32) (h8 : a8.IsWhole) (a9 : Memref sig .tc .vmem S1024x64 .f32) (h9 : a9.IsWhole) (hc0 : ¬condFirst i) (hc1 : condLast i) (x0 : Vec F S1x1024x64 .f32) (x1 : Vec F S1x512x64 .f32) (x2 : Vec F S1x512x64 .f32) (xm : Vec F S1024x1 .f32) (xl : Vec F S1024x1 .f32) (xa : Vec F S1024x64 .f32) (y : S1024x1.Idx) :
    ∃ pc ∈ (runLast c i a3 h3 a4 h4 a5 h5 a6 h6 a7 h7 a8 h8 a9 h9 hc0 hc1 x0 x1 x2 xm xl xa).2.1, y ∈ pc.1.set :=
  View.cover_of_tiledL _ S1024x1.size (by sl_kernel_rfl) y
theorem coverLastL (c : Dev nD) (i : grid1.Coords) (a3 : Memref sig .tc .vmem S1x1024x64 .f32) (h3 : a3.IsWhole) (a4 : Memref sig .tc .vmem S1x512x64 .f32) (h4 : a4.IsWhole) (a5 : Memref sig .tc .vmem S1x512x64 .f32) (h5 : a5.IsWhole) (a6 : Memref sig .tc .vmem S1x1024x64 .f32) (h6 : a6.IsWhole) (a7 : Memref sig .tc .vmem S1024x1 .f32) (h7 : a7.IsWhole) (a8 : Memref sig .tc .vmem S1024x1 .f32) (h8 : a8.IsWhole) (a9 : Memref sig .tc .vmem S1024x64 .f32) (h9 : a9.IsWhole) (hc0 : ¬condFirst i) (hc1 : condLast i) (x0 : Vec F S1x1024x64 .f32) (x1 : Vec F S1x512x64 .f32) (x2 : Vec F S1x512x64 .f32) (xm : Vec F S1024x1 .f32) (xl : Vec F S1024x1 .f32) (xa : Vec F S1024x64 .f32) (y : S1024x1.Idx) :
    ∃ pc ∈ (runLast c i a3 h3 a4 h4 a5 h5 a6 h6 a7 h7 a8 h8 a9 h9 hc0 hc1 x0 x1 x2 xm xl xa).2.2.1, y ∈ pc.1.set :=
  View.cover_of_tiledL _ S1024x1.size (by sl_kernel_rfl) y
theorem coverLastA (c : Dev nD) (i : grid1.Coords) (a3 : Memref sig .tc .vmem S1x1024x64 .f32) (h3 : a3.IsWhole) (a4 : Memref sig .tc .vmem S1x512x64 .f32) (h4 : a4.IsWhole) (a5 : Memref sig .tc .vmem S1x512x64 .f32) (h5 : a5.IsWhole) (a6 : Memref sig .tc .vmem S1x1024x64 .f32) (h6 : a6.IsWhole) (a7 : Memref sig .tc .vmem S1024x1 .f32) (h7 : a7.IsWhole) (a8 : Memref sig .tc .vmem S1024x1 .f32) (h8 : a8.IsWhole) (a9 : Memref sig .tc .vmem S1024x64 .f32) (h9 : a9.IsWhole) (hc0 : ¬condFirst i) (hc1 : condLast i) (x0 : Vec F S1x1024x64 .f32) (x1 : Vec F S1x512x64 .f32) (x2 : Vec F S1x512x64 .f32) (xm : Vec F S1024x1 .f32) (xl : Vec F S1024x1 .f32) (xa : Vec F S1024x64 .f32) (y : S1024x64.Idx) :
    ∃ pc ∈ (runLast c i a3 h3 a4 h4 a5 h5 a6 h6 a7 h7 a8 h8 a9 h9 hc0 hc1 x0 x1 x2 xm xl xa).2.2.2.1, y ∈ pc.1.set :=
  View.cover_of_tiledL _ S1024x64.size (by sl_kernel_rfl) y

end Cert.KernelIdeal.Attn

end
-- ==== Proof.IAttn.lean ====
/-
  The attention region, part two. What the three scratch buffers — running row maximum, running row sum, running weighted
  sum of values — hold after each grid point, by recursion along the points: reset and first block at a tile's first point,
  one more block of keys and values at each later point; the result tile at a tile's last point, the weighted sum divided by
  the row sum. The region's invariant holds the scratch buffers at exactly these contents between points; with it the
  body obligation holds at every point, by cases on the point's place in its tile.
-/
import proofs.«174977_j37177236914546_2_alg».proof.Proof.Gen.KernelIdeal.Launch
import proofs.«174977_j37177236914546_2_alg».proof.Proof.Gen.KernelIdeal.Skeleton
import proofs.«174977_j37177236914546_2_alg».proof.Proof.Gen.KernelIdeal.Points
import proofs.«174977_j37177236914546_2_alg».proof.Proof.IAttnRuns
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks -/

/-- Window `w`'s block at point `t`, read off its array as the region finds it: for the queries the tile's 1024 rows of
    the (batch, head) pair, for keys and values the point's 512 rows, for the result the tile's 1024 rows. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before_in_0 {c : Dev nD} (dat : Dat τ (Elt F) Unit ℕ (UR sig nD τ) ℕ cfg1 c)
    (hA : dat.A 0 = V c (Pipeline.arrRef spec1 0)) (hafter : ∀ t, dat.after 0 t = blk V c 0 t) (t : Fin cfg1.N) (d) :
    dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem before_in_1 {c : Dev nD} (dat : Dat τ (Elt F) Unit ℕ (UR sig nD τ) ℕ cfg1 c)
    (hA : dat.A 1 = V c (Pipeline.arrRef spec1 1)) (hafter : ∀ t, dat.after 1 t = blk V c 1 t) (t : Fin cfg1.N) (d) :
    dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem before_in_2 {c : Dev nD} (dat : Dat τ (Elt F) Unit ℕ (UR sig nD τ) ℕ cfg1 c)
    (hA : dat.A 2 = V c (Pipeline.arrRef spec1 2)) (hafter : ∀ t, dat.after 2 t = blk V c 2 t) (t : Fin cfg1.N) (d) :
    dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-! ## The scratch contents after a point -/

/-- Running maximum, running sum, running weighted sum. -/
abbrev St (F : FTy → Type) [FloatOps F] : Type := Vec F S1024x1 .f32 × Vec F S1024x1 .f32 × Vec F S1024x64 .f32

/-- Three lists of stored pieces read back as buffer contents. -/
def stOf (LM : List (View.Piece (Elt F) S1024x1 .f32)) (LL : List (View.Piece (Elt F) S1024x1 .f32)) (LA : List (View.Piece (Elt F) S1024x64 .f32)) : St F :=
  (VM.read (Elt F) (VM.writes (Elt F) VM.junk LM), VL.read (Elt F) (VL.writes (Elt F) VL.junk LL), VA.read (Elt F) (VA.writes (Elt F) VA.junk LA))

/-- The three cases' runs at a point of the grid, on the buffers the pipeline passes there and the point's blocks. -/
def rFirst (c : Dev nD) (t : Fin cfg1.N) (h0 : t.val % 4 = 0) :=
  runFirst (F := F) c (grid1.coords t) (ms0 t) (hs0 t) (ms1 t) (hs1 t) (ms2 t) (hs2 t) (ms3 t) (hs3 t) scM (Memref.isWhole_whole _) scL (Memref.isWhole_whole _) scA (Memref.isWhole_whole _)
    ((hFirst t).mpr h0) (fun h => by have := (hLast t).mp h; omega) (blk V c 0 t) (blk V c 1 t) (blk V c 2 t)
def rMid (c : Dev nD) (t : Fin cfg1.N) (h0 : ¬t.val % 4 = 0) (h1 : ¬t.val % 4 = 3) (s : St F) :=
  runMid (F := F) c (grid1.coords t) (ms0 t) (hs0 t) (ms1 t) (hs1 t) (ms2 t) (hs2 t) (ms3 t) (hs3 t) scM (Memref.isWhole_whole _) scL (Memref.isWhole_whole _) scA (Memref.isWhole_whole _)
    (fun h => h0 ((hFirst t).mp h)) (fun h => h1 ((hLast t).mp h)) (blk V c 0 t) (blk V c 1 t) (blk V c 2 t) s.1 s.2.1 s.2.2
def rLast (c : Dev nD) (t : Fin cfg1.N) (h0 : ¬t.val % 4 = 0) (h1 : t.val % 4 = 3) (s : St F) :=
  runLast (F := F) c (grid1.coords t) (ms0 t) (hs0 t) (ms1 t) (hs1 t) (ms2 t) (hs2 t) (ms3 t) (hs3 t) scM (Memref.isWhole_whole _) scL (Memref.isWhole_whole _) scA (Memref.isWhole_whole _)
    (fun h => h0 ((hFirst t).mp h)) ((hLast t).mpr h1) (blk V c 0 t) (blk V c 1 t) (blk V c 2 t) s.1 s.2.1 s.2.2

def stFirst (c : Dev nD) (t : Fin cfg1.N) (h0 : t.val % 4 = 0) : St F :=
  stOf (rFirst V c t h0).1 (rFirst V c t h0).2.1 (rFirst V c t h0).2.2.1
def stMid (c : Dev nD) (t : Fin cfg1.N) (h0 : ¬t.val % 4 = 0) (h1 : ¬t.val % 4 = 3) (s : St F) : St F :=
  stOf (rMid V c t h0 h1 s).1 (rMid V c t h0 h1 s).2.1 (rMid V c t h0 h1 s).2.2.1
def stLast (c : Dev nD) (t : Fin cfg1.N) (h0 : ¬t.val % 4 = 0) (h1 : t.val % 4 = 3) (s : St F) : St F :=
  stOf (rLast V c t h0 h1 s).2.1 (rLast V c t h0 h1 s).2.2.1 (rLast V c t h0 h1 s).2.2.2.1
/-- The result tile a last point leaves. -/
def outLast (c : Dev nD) (t : Fin cfg1.N) (h0 : ¬t.val % 4 = 0) (h1 : t.val % 4 = 3) (s : St F) : Vec F S1x1024x64 .f32 :=
  VO.read (Elt F) (VO.writes (Elt F) VO.junk (rLast V c t h0 h1 s).1)

/-- THE RECURSION along the points: a tile's first point starts afresh, every other point continues from the point before. -/
def stAt (c : Dev nD) : (n : ℕ) → n < cfg1.N → St F
  | 0, hn => stFirst V c ⟨0, hn⟩ (Nat.zero_mod _)
  | n + 1, hn =>
    if h0 : (n + 1) % 4 = 0 then stFirst V c ⟨n + 1, hn⟩ h0
    else if h1 : (n + 1) % 4 = 3 then stLast V c ⟨n + 1, hn⟩ h0 h1 (stAt c n (Nat.lt_of_succ_lt hn))
    else stMid V c ⟨n + 1, hn⟩ h0 h1 (stAt c n (Nat.lt_of_succ_lt hn))

theorem stAt_first (c : Dev nD) (t : Fin cfg1.N) (h0 : t.val % 4 = 0) : stAt V c t.val t.isLt = stFirst V c t h0 := by
  obtain ⟨n, hn⟩ := t
  cases n with
  | zero => rfl
  | succ n =>
    have h0' : (n + 1) % 4 = 0 := h0
    simp only [stAt]; rw [dif_pos h0']

theorem stAt_mid (c : Dev nD) (t : Fin cfg1.N) (h0 : ¬t.val % 4 = 0) (h1 : ¬t.val % 4 = 3) :
    stAt V c t.val t.isLt = stMid V c t h0 h1 (stAt V c (t.val - 1) (Nat.lt_of_le_of_lt (Nat.sub_le _ _) t.isLt)) := by
  obtain ⟨n, hn⟩ := t
  cases n with
  | zero => exact absurd (Nat.zero_mod _) h0
  | succ n =>
    have h0' : ¬(n + 1) % 4 = 0 := h0
    have h1' : ¬(n + 1) % 4 = 3 := h1
    simp only [stAt]; rw [dif_neg h0', dif_neg h1']; rfl

theorem stAt_last (c : Dev nD) (t : Fin cfg1.N) (h0 : ¬t.val % 4 = 0) (h1 : t.val % 4 = 3) :
    stAt V c t.val t.isLt = stLast V c t h0 h1 (stAt V c (t.val - 1) (Nat.lt_of_le_of_lt (Nat.sub_le _ _) t.isLt)) := by
  obtain ⟨n, hn⟩ := t
  cases n with
  | zero => exact absurd (Nat.zero_mod _) h0
  | succ n =>
    have h0' : ¬(n + 1) % 4 = 0 := h0
    have h1' : (n + 1) % 4 = 3 := h1
    simp only [stAt]; rw [dif_neg h0', dif_pos h1']; rfl

/-- What the result window's buffer holds after point `t`: the tile at a last point; elsewhere the window is idle and
    nothing consults this value. -/
def outAt (c : Dev nD) (t : Fin cfg1.N) : Vec F S1x1024x64 .f32 :=
  if h1 : t.val % 4 = 3 then
    outLast V c t (by omega) h1 (stAt V c (t.val - 1) (Nat.lt_of_le_of_lt (Nat.sub_le _ _) t.isLt))
  else VO.read (Elt F) VO.junk

/-! ## The invariant -/

/-- Before the first point the plain invariant; after `n` points the three scratch buffers at the recursion's contents,
    beside the other regions' buffers and the generator register. -/
def PhiS (c : Dev nD) : (n : ℕ) → n ≤ cfg1.N → sProp 𝕄
  | 0, _ => Pipeline.ΦA spec1 c
  | n + 1, hn => iprop(Others c ∗ owns (c : Thread nD τ) scM fullShare (stAt V c n hn).1 ∗ owns (c : Thread nD τ) scL fullShare (stAt V c n hn).2.1
      ∗ owns (c : Thread nD τ) scA fullShare (stAt V c n hn).2.2 ∗ ∃ r, prngReg c r)

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(Others c ∗ owns (c : Thread nD τ) scM fullShare (stAt V c n hn).1 ∗ owns (c : Thread nD τ) scL fullShare (stAt V c n hn).2.1
      ∗ owns (c : Thread nD τ) scA fullShare (stAt V c n hn).2.2 ∗ ∃ r, prngReg c r) := rfl
theorem PhiS_pos (c : Dev nD) (n : ℕ) (h : n ≤ cfg1.N) (hz : n ≠ 0) :
    PhiS V c n h = iprop(Others c ∗ owns (c : Thread nD τ) scM fullShare (stAt V c (n - 1) (by omega)).1 ∗ owns (c : Thread nD τ) scL fullShare (stAt V c (n - 1) (by omega)).2.1
      ∗ owns (c : Thread nD τ) scA fullShare (stAt V c (n - 1) (by omega)).2.2 ∗ ∃ r, prngReg c r) := by
  obtain ⟨k, rfl⟩ := Nat.exists_eq_succ_of_ne_zero hz
  rfl

/-! ## The proof data -/

def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => outAt V c t
  Φ t := PhiS V c t.val (Nat.le_of_lt_succ t.isLt)
  q _ := fullShare
  owed _ := 0

theorem A_eq (c : Dev nD) (w : Fin cfg1.W) : (dat V c).A w = V c (Pipeline.arrRef spec1 w) := by dsimp only [dat]
theorem q_eq (c : Dev nD) (w : Fin cfg1.W) : (dat V c).q w = fullShare := rfl
theorem owed_eq (c : Dev nD) (t) : (dat V c).owed t = 0 := rfl
theorem rec0 (c : Dev nD) : (dat V c).recorded 0 = Set.univ := rfl
theorem Phi_castSucc (c : Dev nD) (t : Fin cfg1.N) : (dat V c).Φ t.castSucc = PhiS V c t.val (Nat.le_of_lt t.isLt) := by
  dsimp only [dat]; simp only [Fin.coe_castSucc]
theorem after_0 (c : Dev nD) (t : Fin cfg1.N) : (dat V c).after 0 t = blk V c 0 t := by dsimp only [dat]
theorem after_1 (c : Dev nD) (t : Fin cfg1.N) : (dat V c).after 1 t = blk V c 1 t := by dsimp only [dat]
theorem after_2 (c : Dev nD) (t : Fin cfg1.N) : (dat V c).after 2 t = blk V c 2 t := by dsimp only [dat]
theorem after_3 (c : Dev nD) (t : Fin cfg1.N) : (dat V c).after 3 t = outAt V c t := by dsimp only [dat]
theorem before_0 (c : Dev nD) (t : Fin cfg1.N) (d) : (dat V c).before 0 t d = blk V c 0 t :=
  before_in_0 V (dat V c) (A_eq V c 0) (after_0 V c) t d
theorem before_1 (c : Dev nD) (t : Fin cfg1.N) (d) : (dat V c).before 1 t d = blk V c 1 t :=
  before_in_1 V (dat V c) (A_eq V c 1) (after_1 V c) t d
theorem before_2 (c : Dev nD) (t : Fin cfg1.N) (d) : (dat V c).before 2 t d = blk V c 2 t :=
  before_in_2 V (dat V c) (A_eq V c 2) (after_2 V c) t d

/-! ## The body obligation -/

/-- What the body is called with at point `t`: the invariant, the core's dues, each window's current buffer. -/
def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d)))

/-- What it returns: each window's buffer as the proof data say, an idle window's as it was. -/
def bodyPost (c : Dev nD) (t : Fin cfg1.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t)

set_option maxHeartbeats 4800000 in
/-- The body at any point. The input buffers hold the point's blocks. At a tile's first point the scratch buffers are
    taken at whatever they hold (the body resets them); at every other point at what the point before left. The result
    window is idle except at a tile's last point, where its buffer is taken at anything and returned at the tile. The
    scratch buffers go back into the invariant at this point's contents. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms0 t) fullShare ((dat V c).after 0 t) from by
    unfold Dat.leavesExact; rw [live_0 t], after_0]
  rw [show (dat V c).leavesExact 1 t = owns (c : Thread nD τ) (ms1 t) fullShare ((dat V c).after 1 t) from by
    unfold Dat.leavesExact; rw [live_1 t], after_1]
  rw [show (dat V c).leavesExact 2 t = owns (c : Thread nD τ) (ms2 t) fullShare ((dat V c).after 2 t) from by
    unfold Dat.leavesExact; rw [live_2 t], after_2]
  have hN : t.val < 256 := lt_of_lt_of_eq t.isLt (show cfg1.N = 256 from N_1)
  by_cases h0 : t.val % 4 = 0
  · have h1 : ¬t.val % 4 = 3 := by omega
    rw [Dat.leavesExact_idle (dat V c) 3 t (idle_3 t (fun h => h1 ((hLast t).mp h))) (noFlush_3 t (fun h => h1 ((hLast t).mp h)))]
    rw [stAt_first V c t h0]
    unfold stFirst stOf; (try dsimp only)
    by_cases hz : t.val = 0
    · rw [Phi_castSucc V c t, PhiS_zero V c _ _ hz]
      iintro ⟨HP, Ho, ⟨%d0, H0⟩, ⟨%d1, H1⟩, ⟨%d2, H2⟩, ⟨%d3, H3⟩⟩
      ihave HP' := (phiA_split c) $$ HP
      icases HP' with ⟨Hoth, HM, HL, HA, Hg⟩
      iapply ((rFirst V c t h0).2.2.2 _ Set.univ _)
      isplitl [H0]; · iexact H0
      isplitl [H1]; · iexact H1
      isplitl [H2]; · iexact H2
      isplitl [H3]; · iexact H3
      isplitl [HM]; · iexact HM
      isplitl [HL]; · iexact HL
      isplitl [HA]; · iexact HA
      iintro ⟨H0, H1, H2, H3, ⟨%eM, HM⟩, ⟨%eL, HL⟩, ⟨%eA, HA⟩⟩
      isplitl [Hoth HM HL HA Hg]
      · isplitl [Hoth]; · iexact Hoth
        isplitl [HM]
        · unfold owns; iexists _; isplitr
          swap; · iexact HM
          ipureintro; exact View.read_writes_of_cover _ _ _ _ _ (coverFirstM c _ _ _ _ _ _ _ _ _ _ _ _ _ _ _ _ _ _ _ _)
        isplitl [HL]
        · unfold owns; iexists _; isplitr
          swap; · iexact HL
          ipureintro; exact View.read_writes_of_cover _ _ _ _ _ (coverFirstL c _ _ _ _ _ _ _ _ _ _ _ _ _ _ _ _ _ _ _ _)
        isplitl [HA]
        · unfold owns; iexists _; isplitr
          swap; · iexact HA
          ipureintro; exact View.read_writes_of_cover _ _ _ _ _ (coverFirstA c _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [Phi_castSucc V c t, PhiS_pos V c _ _ hz]
      iintro ⟨⟨Hoth, HM, HL, HA, Hg⟩, Ho, ⟨%d0, H0⟩, ⟨%d1, H1⟩, ⟨%d2, H2⟩, ⟨%d3, H3⟩⟩
      iapply ((rFirst V c t h0).2.2.2 _ Set.univ _)
      isplitl [H0]; · iexact H0
      isplitl [H1]; · iexact H1
      isplitl [H2]; · iexact H2
      isplitl [H3]; · iexact H3
      isplitl [HM]; · iexists _; iexact HM
      isplitl [HL]; · iexists _; iexact HL
      isplitl [HA]; · iexists _; iexact HA
      iintro ⟨H0, H1, H2, H3, ⟨%eM, HM⟩, ⟨%eL, HL⟩, ⟨%eA, HA⟩⟩
      isplitl [Hoth HM HL HA Hg]
      · isplitl [Hoth]; · iexact Hoth
        isplitl [HM]
        · unfold owns; iexists _; isplitr
          swap; · iexact HM
          ipureintro; exact View.read_writes_of_cover _ _ _ _ _ (coverFirstM c _ _ _ _ _ _ _ _ _ _ _ _ _ _ _ _ _ _ _ _)
        isplitl [HL]
        · unfold owns; iexists _; isplitr
          swap; · iexact HL
          ipureintro; exact View.read_writes_of_cover _ _ _ _ _ (coverFirstL c _ _ _ _ _ _ _ _ _ _ _ _ _ _ _ _ _ _ _ _)
        isplitl [HA]
        · unfold owns; iexists _; isplitr
          swap; · iexact HA
          ipureintro; exact View.read_writes_of_cover _ _ _ _ _ (coverFirstA c _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 4 = 3
    · rw [show (dat V c).leavesExact 3 t = owns (c : Thread nD τ) (ms3 t) fullShare ((dat V c).after 3 t) from by
        unfold Dat.leavesExact; rw [live_3 t ((hLast t).mpr h1)], after_3]
      rw [stAt_last V c t h0 h1]
      unfold outAt; rw [dif_pos h1]
      unfold stLast outLast stOf; (try dsimp only)
      rw [Phi_castSucc V c t, PhiS_pos V c _ _ hz]
      iintro ⟨⟨Hoth, HM, HL, HA, Hg⟩, Ho, ⟨%d0, H0⟩, ⟨%d1, H1⟩, ⟨%d2, H2⟩, ⟨%d3, H3⟩⟩
      iapply ((rLast V c t h0 h1 _).2.2.2.2 Set.univ _)
      isplitl [H0]; · iexact H0
      isplitl [H1]; · iexact H1
      isplitl [H2]; · iexact H2
      isplitl [H3]; · iexists _; iexact H3
      isplitl [HM]; · iexact HM
      isplitl [HL]; · iexact HL
      isplitl [HA]; · iexact HA
      iintro ⟨H0, H1, H2, ⟨%e3, H3⟩, ⟨%eM, HM⟩, ⟨%eL, HL⟩, ⟨%eA, HA⟩⟩
      isplitl [Hoth HM HL HA Hg]
      · isplitl [Hoth]; · iexact Hoth
        isplitl [HM]
        · unfold owns; iexists _; isplitr
          swap; · iexact HM
          ipureintro; exact View.read_writes_of_cover _ _ _ _ _ (coverLastM c _ _ _ _ _ _ _ _ _ _ _ _ _ _ _ _ _ _ _ _ _ _ _)
        isplitl [HL]
        · unfold owns; iexists _; isplitr
          swap; · iexact HL
          ipureintro; exact View.read_writes_of_cover _ _ _ _ _ (coverLastL c _ _ _ _ _ _ _ _ _ _ _ _ _ _ _ _ _ _ _ _ _ _ _)
        isplitl [HA]
        · unfold owns; iexists _; isplitr
          swap; · iexact HA
          ipureintro; exact View.read_writes_of_cover _ _ _ _ _ (coverLastA c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverLastO c _ _ _ _ _ _ _ _ _ _ _ _ _ _ _ _ _ _ _ _ _ _ _)
    · rw [Dat.leavesExact_idle (dat V c) 3 t (idle_3 t (fun h => h1 ((hLast t).mp h))) (noFlush_3 t (fun h => h1 ((hLast t).mp h)))]
      rw [stAt_mid V c t h0 h1]
      unfold stMid stOf; (try dsimp only)
      rw [Phi_castSucc V c t, PhiS_pos V c _ _ hz]
      iintro ⟨⟨Hoth, HM, HL, HA, Hg⟩, Ho, ⟨%d0, H0⟩, ⟨%d1, H1⟩, ⟨%d2, H2⟩, ⟨%d3, H3⟩⟩
      iapply ((rMid V c t h0 h1 _).2.2.2 _ Set.univ _)
      isplitl [H0]; · iexact H0
      isplitl [H1]; · iexact H1
      isplitl [H2]; · iexact H2
      isplitl [H3]; · iexact H3
      isplitl [HM]; · iexact HM
      isplitl [HL]; · iexact HL
      isplitl [HA]; · iexact HA
      iintro ⟨H0, H1, H2, H3, ⟨%eM, HM⟩, ⟨%eL, HL⟩, ⟨%eA, HA⟩⟩
      isplitl [Hoth HM HL HA Hg]
      · isplitl [Hoth]; · iexact Hoth
        isplitl [HM]
        · unfold owns; iexists _; isplitr
          swap; · iexact HM
          ipureintro; exact View.read_writes_of_cover _ _ _ _ _ (coverMidM c _ _ _ _ _ _ _ _ _ _ _ _ _ _ _ _ _ _ _ _ _ _ _)
        isplitl [HL]
        · unfold owns; iexists _; isplitr
          swap; · iexact HL
          ipureintro; exact View.read_writes_of_cover _ _ _ _ _ (coverMidL c _ _ _ _ _ _ _ _ _ _ _ _ _ _ _ _ _ _ _ _ _ _ _)
        isplitl [HA]
        · unfold owns; iexists _; isplitr
          swap; · iexact HA
          ipureintro; exact View.read_writes_of_cover _ _ _ _ _ (coverMidA c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The body obligation at every point. -/
theorem body_obligation (c : Dev nD) : BodyObligation (dat (F := F) V c) (defs₀ (F := F)) Variants.none () Set.univ := fun t => by
  rw [bigSep_W1, bigSep_W1]
  exact sound_body V c t

/-! ## The interface's two entailments -/

theorem hin (c : Dev nD) : Pipeline.ΦA spec1 c ⊢ (dat V c).Φ 0 := by
  rw [show (dat V c).Φ 0 = PhiS V c 0 (Nat.zero_le _) from rfl, PhiS_zero V c 0 _ rfl]

theorem hout (c : Dev nD) : (dat V c).Φ (Fin.last cfg1.N) ⊢ Pipeline.ΦA spec1 c := by
  rw [show (dat V c).Φ (Fin.last cfg1.N) = PhiS V c cfg1.N (Nat.le_refl _) from rfl,
    PhiS_pos V c _ _ (by rw [show cfg1.N = 256 from N_1]; decide)]
  refine .trans ?_ (phiA_join c)
  iintro ⟨Ho, HM, HL, HA, Hg⟩
  isplitl [Ho]; · iexact Ho
  isplitl [HM]; · iexists _; iexact HM
  isplitl [HL]; · iexists _; iexact HL
  isplitl [HA]; · iexists _; iexact HA
  iexact Hg

end Cert.KernelIdeal.Attn

end
-- ==== Proof.ILin0.lean ====
/-
  The projection tiles of the first matrix product (rows of the input times columns of the transposed weight, plus the
  bias row): per grid point, what the body leaves in the 512 × 512 result tile as a function of the point's three input
  blocks, the body's triple, the proof data of the region and the body obligation at every point.
-/
import proofs.«174977_j37177236914546_2_alg».proof.Proof.Gen.KernelIdeal.Launch
import proofs.«174977_j37177236914546_2_alg».proof.Proof.Gen.KernelIdeal.Skeleton
import proofs.«174977_j37177236914546_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Lin0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents on entering the region: every statement below is made at an arbitrary such valuation
variable (V : (c : Dev nD) → (b : Ref sig .tc) → Buf (Elt F) ((c : Thread nD τ).loc b))

/-! ## The blocks -/

/-- Window `w`'s block at grid point `t`: the rectangle of its array that the point's block index selects, read off
    the array as the region finds it. For the row operand this is 512 consecutive rows, for the weight 512 consecutive
    columns, for the bias the same 512 columns of its single row, for the result one 512 × 512 tile. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds the point's block whether or not the block was fetched at this very point:
    when it was not, the block index has not moved since the point before, whose block is then this one. Stated window
    by window: the windows are uncut, so a block and its cut agree only at a literal window. -/
theorem before_in_0 {c : Dev nD} (dat : Dat τ (Elt F) Unit ℕ (UR sig nD τ) ℕ cfg0 c)
    (hA : dat.A 0 = V c (Pipeline.arrRef spec0 0)) (hafter : ∀ t, dat.after 0 t = blk V c 0 t) (t : Fin cfg0.N) (d) :
    dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem before_in_1 {c : Dev nD} (dat : Dat τ (Elt F) Unit ℕ (UR sig nD τ) ℕ cfg0 c)
    (hA : dat.A 1 = V c (Pipeline.arrRef spec0 1)) (hafter : ∀ t, dat.after 1 t = blk V c 1 t) (t : Fin cfg0.N) (d) :
    dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem before_in_2 {c : Dev nD} (dat : Dat τ (Elt F) Unit ℕ (UR sig nD τ) ℕ cfg0 c)
    (hA : dat.A 2 = V c (Pipeline.arrRef spec0 2)) (hafter : ∀ t, dat.after 2 t = blk V c 2 t) (t : Fin cfg0.N) (d) :
    dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-! ## What the body leaves in the result tile -/

abbrev rX : Rect S512x1024 := Rect.unit (s := S512x1024) ![0, 0] S512x1024.size inb_S512x1024_S512x1024_0_0
abbrev rW : Rect S1024x512 := Rect.unit (s := S1024x512) ![0, 0] S1024x512.size inb_S1024x512_S1024x512_0_0
abbrev rB : Rect S1x512 := Rect.unit (s := S1x512) ![0, 0] S1x512.size inb_S1x512_S1x512_0_0
abbrev rO : Rect S512x512 := Rect.unit (s := S512x512) ![0, 0] S512x512.size inb_S512x512_S512x512_0_0

/-- The result tile after the body: its one store, of the rows times the columns plus the bias row, covering the
    whole tile. -/
def tile (x : Vec F S512x1024 .f32) (w : Vec F S1024x512 .f32) (b : Vec F S1x512 .f32) : Vec F S512x512 .f32 :=
  View.canon [⟨rO, k0_pay1 (View.ld x rX) (View.ld w rW) (View.ld b rB)⟩]

/-- The one store's rectangle is the whole tile. -/
theorem tile_cover (p : Vec F S512x512 .f32) (y : S512x512.Idx) :
    ∃ pc ∈ ([⟨rO, p⟩] : List (View.Piece (Elt F) S512x512 .f32)), y ∈ pc.1.set :=
  View.cover_of_tiled [⟨rO, p⟩] S512x512.size (by rfl) y

/-! ## The body's triple -/

set_option maxHeartbeats 1000000 in
/-- From the three input buffers held whole at `x`, `w`, `b` and the result buffer held at anything, the body runs to its
    return with the inputs as they were and the result buffer at `tile x w b`. -/
theorem sound_kernel (c : Dev nD) (E : Set ℕ) (i : grid0.Coords)
    (a2 : Memref sig .tc .vmem S512x1024 .f32) (h2 : a2.IsWhole) (a3 : Memref sig .tc .vmem S1024x512 .f32) (h3 : a3.IsWhole)
    (a4 : Memref sig .tc .vmem S1x512 .f32) (h4 : a4.IsWhole) (a5 : Memref sig .tc .vmem S512x512 .f32) (h5 : a5.IsWhole)
    (x : Vec F S512x1024 .f32) (w : Vec F S1024x512 .f32) (b : Vec F S1x512 .f32) (K : PUnit → sProp 𝕄) :
    iprop(owns (c : Thread nD τ) a2 fullShare x ∗ owns (c : Thread nD τ) a3 fullShare w ∗ owns (c : Thread nD τ) a4 fullShare b
        ∗ (∃ d, owns (c : Thread nD τ) a5 fullShare d)
        ∗ (iprop(owns (c : Thread nD τ) a2 fullShare x ∗ owns (c : Thread nD τ) a3 fullShare w ∗ owns (c : Thread nD τ) a4 fullShare b
            ∗ owns (c : Thread nD τ) a5 fullShare (tile x w b)) -∗ K ⟨⟩))
      ⊢ wp frame (wpE (defs₀ (F := F)) Variants.none c none) E (cc0__linear_kernel i a2 h2 a3 h3 a4 h4 a5 h5) K := by
  simp only [cc0__linear_kernel_eq_skeleton]; unfold cc0__linear_kernel_skel
  unfold owns
  iintro ⟨⟨%f2, %hf2, H2⟩, ⟨%f3, %hf3, H3⟩, ⟨%f4, %hf4, H4⟩, ⟨%d5, %f5, -, H5⟩, Hk⟩
  subst hf2; subst hf3; subst hf4
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (tile_cover _)

/-! ## The proof data -/

/-- The region's proof data on core `c`: the arrays as found; after the body at point `t` each input buffer still at
    its block and the result buffer at the tile of the point's blocks; the invariant the scoped rest and the generator
    register, untouched; nothing owed; full shares. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => tile (blk V c 0 t) (blk V c 1 t) (blk V c 2 t)
  Φ _ := Pipeline.ΦA spec0 c
  q _ := fullShare
  owed _ := 0

theorem A_eq (c : Dev nD) (w : Fin cfg0.W) : (dat V c).A w = V c (Pipeline.arrRef spec0 w) := by
  dsimp only [dat]
theorem after_0 (c : Dev nD) (t : Fin cfg0.N) : (dat V c).after 0 t = blk V c 0 t := by dsimp only [dat]
theorem after_1 (c : Dev nD) (t : Fin cfg0.N) : (dat V c).after 1 t = blk V c 1 t := by dsimp only [dat]
theorem after_2 (c : Dev nD) (t : Fin cfg0.N) : (dat V c).after 2 t = blk V c 2 t := by dsimp only [dat]
theorem after_3 (c : Dev nD) (t : Fin cfg0.N) :
    (dat V c).after 3 t = tile (blk V c 0 t) (blk V c 1 t) (blk V c 2 t) := by dsimp only [dat]

theorem before_0 (c : Dev nD) (t : Fin cfg0.N) (d) : (dat V c).before 0 t d = blk V c 0 t :=
  before_in_0 V (dat V c) (A_eq V c 0) (after_0 V c) t d
theorem before_1 (c : Dev nD) (t : Fin cfg0.N) (d) : (dat V c).before 1 t d = blk V c 1 t :=
  before_in_1 V (dat V c) (A_eq V c 1) (after_1 V c) t d
theorem before_2 (c : Dev nD) (t : Fin cfg0.N) (d) : (dat V c).before 2 t d = blk V c 2 t :=
  before_in_2 V (dat V c) (A_eq V c 2) (after_2 V c) t d

/-! ## The body obligation -/

/-- What the body is called with at point `t`: the invariant, the core's dues, each window's current buffer. -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

/-- What it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

/-- The body at any point: the input buffers hold the point's blocks, so the triple applies; the invariant and the
    dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ _ _ _ _ _ _ _ _ _ (blk V c 0 t) (blk V c 1 t) (blk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation at every point. -/
theorem body_obligation (c : Dev nD) : BodyObligation (dat (F := F) V c) (defs₀ (F := F)) Variants.none () Set.univ := fun t => by
  rw [bigSep_W0, bigSep_W0]
  exact sound_body V c t

end Cert.KernelIdeal.Lin0

end
-- ==== Proof.ILin2.lean ====
/-
  The tiles of the output projection (rows of the attention result times columns of the transposed output weight, plus
  the bias row): per grid point, what the body leaves in the 512 × 512 result tile as a function of the point's three
  input blocks, the body's triple, the proof data of the region and the body obligation at every point.
-/
import proofs.«174977_j37177236914546_2_alg».proof.Proof.Gen.KernelIdeal.Launch
import proofs.«174977_j37177236914546_2_alg».proof.Proof.Gen.KernelIdeal.Skeleton
import proofs.«174977_j37177236914546_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Lin2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents on entering the region: every statement below is made at an arbitrary such valuation
variable (V : (c : Dev nD) → (b : Ref sig .tc) → Buf (Elt F) ((c : Thread nD τ).loc b))

/-! ## The blocks -/

/-- Window `w`'s block at grid point `t`: the rectangle of its array that the point's block index selects, read off
    the array as the region finds it. For the row operand this is 512 consecutive rows, for the weight 512 consecutive
    columns, for the bias the same 512 columns of its single row, for the result one 512 × 512 tile. -/
def blk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds the point's block whether or not the block was fetched at this very point:
    when it was not, the block index has not moved since the point before, whose block is then this one. Stated window
    by window: the windows are uncut, so a block and its cut agree only at a literal window. -/
theorem before_in_0 {c : Dev nD} (dat : Dat τ (Elt F) Unit ℕ (UR sig nD τ) ℕ cfg2 c)
    (hA : dat.A 0 = V c (Pipeline.arrRef spec2 0)) (hafter : ∀ t, dat.after 0 t = blk V c 0 t) (t : Fin cfg2.N) (d) :
    dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem before_in_1 {c : Dev nD} (dat : Dat τ (Elt F) Unit ℕ (UR sig nD τ) ℕ cfg2 c)
    (hA : dat.A 1 = V c (Pipeline.arrRef spec2 1)) (hafter : ∀ t, dat.after 1 t = blk V c 1 t) (t : Fin cfg2.N) (d) :
    dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem before_in_2 {c : Dev nD} (dat : Dat τ (Elt F) Unit ℕ (UR sig nD τ) ℕ cfg2 c)
    (hA : dat.A 2 = V c (Pipeline.arrRef spec2 2)) (hafter : ∀ t, dat.after 2 t = blk V c 2 t) (t : Fin cfg2.N) (d) :
    dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-! ## What the body leaves in the result tile -/

abbrev rX : Rect S512x1024 := Rect.unit (s := S512x1024) ![0, 0] S512x1024.size inb_S512x1024_S512x1024_0_0
abbrev rW : Rect S1024x512 := Rect.unit (s := S1024x512) ![0, 0] S1024x512.size inb_S1024x512_S1024x512_0_0
abbrev rB : Rect S1x512 := Rect.unit (s := S1x512) ![0, 0] S1x512.size inb_S1x512_S1x512_0_0
abbrev rO : Rect S512x512 := Rect.unit (s := S512x512) ![0, 0] S512x512.size inb_S512x512_S512x512_0_0

/-- The result tile after the body: its one store, of the rows times the columns plus the bias row, covering the
    whole tile. -/
def tile (x : Vec F S512x1024 .f32) (w : Vec F S1024x512 .f32) (b : Vec F S1x512 .f32) : Vec F S512x512 .f32 :=
  View.canon [⟨rO, k2_pay1 (View.ld x rX) (View.ld w rW) (View.ld b rB)⟩]

/-- The one store's rectangle is the whole tile. -/
theorem tile_cover (p : Vec F S512x512 .f32) (y : S512x512.Idx) :
    ∃ pc ∈ ([⟨rO, p⟩] : List (View.Piece (Elt F) S512x512 .f32)), y ∈ pc.1.set :=
  View.cover_of_tiled [⟨rO, p⟩] S512x512.size (by rfl) y

/-! ## The body's triple -/

set_option maxHeartbeats 1000000 in
/-- From the three input buffers held whole at `x`, `w`, `b` and the result buffer held at anything, the body runs to its
    return with the inputs as they were and the result buffer at `tile x w b`. -/
theorem sound_kernel (c : Dev nD) (E : Set ℕ) (i : grid2.Coords)
    (a2 : Memref sig .tc .vmem S512x1024 .f32) (h2 : a2.IsWhole) (a3 : Memref sig .tc .vmem S1024x512 .f32) (h3 : a3.IsWhole)
    (a4 : Memref sig .tc .vmem S1x512 .f32) (h4 : a4.IsWhole) (a5 : Memref sig .tc .vmem S512x512 .f32) (h5 : a5.IsWhole)
    (x : Vec F S512x1024 .f32) (w : Vec F S1024x512 .f32) (b : Vec F S1x512 .f32) (K : PUnit → sProp 𝕄) :
    iprop(owns (c : Thread nD τ) a2 fullShare x ∗ owns (c : Thread nD τ) a3 fullShare w ∗ owns (c : Thread nD τ) a4 fullShare b
        ∗ (∃ d, owns (c : Thread nD τ) a5 fullShare d)
        ∗ (iprop(owns (c : Thread nD τ) a2 fullShare x ∗ owns (c : Thread nD τ) a3 fullShare w ∗ owns (c : Thread nD τ) a4 fullShare b
            ∗ owns (c : Thread nD τ) a5 fullShare (tile x w b)) -∗ K ⟨⟩))
      ⊢ wp frame (wpE (defs₀ (F := F)) Variants.none c none) E (cc2__linear_kernel i a2 h2 a3 h3 a4 h4 a5 h5) K := by
  simp only [cc2__linear_kernel_eq_skeleton]; unfold cc2__linear_kernel_skel
  unfold owns
  iintro ⟨⟨%f2, %hf2, H2⟩, ⟨%f3, %hf3, H3⟩, ⟨%f4, %hf4, H4⟩, ⟨%d5, %f5, -, H5⟩, Hk⟩
  subst hf2; subst hf3; subst hf4
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (tile_cover _)

/-! ## The proof data -/

/-- The region's proof data on core `c`: the arrays as found; after the body at point `t` each input buffer still at
    its block and the result buffer at the tile of the point's blocks; the invariant the scoped rest and the generator
    register, untouched; nothing owed; full shares. -/
def dat (c : Dev nD) : Dat τ (Elt F) Unit ℕ (UR sig nD τ) ℕ cfg2 c where
  A w := V c (Pipeline.arrRef spec2 w)
  after w t := match w with
    | ⟨0, _⟩ => blk V c 0 t
    | ⟨1, _⟩ => blk V c 1 t
    | ⟨2, _⟩ => blk V c 2 t
    | ⟨3, _⟩ => tile (blk V c 0 t) (blk V c 1 t) (blk V c 2 t)
  Φ _ := Pipeline.ΦA spec2 c
  q _ := fullShare
  owed _ := 0

theorem A_eq (c : Dev nD) (w : Fin cfg2.W) : (dat V c).A w = V c (Pipeline.arrRef spec2 w) := by
  dsimp only [dat]
theorem after_0 (c : Dev nD) (t : Fin cfg2.N) : (dat V c).after 0 t = blk V c 0 t := by dsimp only [dat]
theorem after_1 (c : Dev nD) (t : Fin cfg2.N) : (dat V c).after 1 t = blk V c 1 t := by dsimp only [dat]
theorem after_2 (c : Dev nD) (t : Fin cfg2.N) : (dat V c).after 2 t = blk V c 2 t := by dsimp only [dat]
theorem after_3 (c : Dev nD) (t : Fin cfg2.N) :
    (dat V c).after 3 t = tile (blk V c 0 t) (blk V c 1 t) (blk V c 2 t) := by dsimp only [dat]

theorem before_0 (c : Dev nD) (t : Fin cfg2.N) (d) : (dat V c).before 0 t d = blk V c 0 t :=
  before_in_0 V (dat V c) (A_eq V c 0) (after_0 V c) t d
theorem before_1 (c : Dev nD) (t : Fin cfg2.N) (d) : (dat V c).before 1 t d = blk V c 1 t :=
  before_in_1 V (dat V c) (A_eq V c 1) (after_1 V c) t d
theorem before_2 (c : Dev nD) (t : Fin cfg2.N) (d) : (dat V c).before 2 t d = blk V c 2 t :=
  before_in_2 V (dat V c) (A_eq V c 2) (after_2 V c) t d

/-! ## The body obligation -/

/-- What the body is called with at point `t`: the invariant, the core's dues, each window's current buffer. -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d)))

/-- What it returns. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t))

/-- The body at any point: the input buffers hold the point's blocks, so the triple applies; the invariant and the
    dues pass through unread. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ _ _ _ _ _ _ _ _ _ (blk V c 0 t) (blk V c 1 t) (blk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation at every point. -/
theorem body_obligation (c : Dev nD) : BodyObligation (dat (F := F) V c) (defs₀ (F := F)) Variants.none () Set.univ := fun t => by
  rw [bigSep_W2, bigSep_W2]
  exact sound_body V c t

end Cert.KernelIdeal.Lin2

end
-- ==== Proof.IRun.lean ====
/-
  The whole program from the accounts of its three kernel regions.

  The program is seven items in a row: a stretch of tensor operations, the first projection, a second stretch, the
  attention, a third stretch, the second projection, and a closing reshape. Between two items every unscoped buffer
  of the core holds a definite value; these eight valuations are a fold from the launch memory: a stretch maps the
  valuation through its operations, a region replaces its four arrays by what its write-backs leave and keeps every
  other buffer. Each region's account is then an entry from the valuation before it and an exit to the valuation
  after it, the stretches run between them, and every fair run of the program from the launch memory ends with every
  unscoped buffer at the last valuation. Read at an argument the last valuation is the launch memory (nothing writes
  an argument); read at the result it is the reshape of what the second projection leaves in its output array.

  The attention region enters as a parameter: its account at an arbitrary entry valuation, with the two entailments
  that tie its invariant at the first and last point to the scoped rest and the generator register.
-/
import proofs.«174977_j37177236914546_2_alg».proof.Proof.ILin0
import proofs.«174977_j37177236914546_2_alg».proof.Proof.ILin2
import proofs.«174977_j37177236914546_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A core's buffer contents as a region reads them: one value per TensorCore reference. -/
abbrev Entry (F : FTy → Type) : Type := (c : Dev nD) → (b : Ref sig .tc) → Buf (Elt F) ((c : Thread nD τ).loc b)

/-! ## The attention region's account, as a parameter -/

/-- The account of the attention region at an arbitrary entry valuation \`V\`: its arrays are \`V\`'s, it holds them at
    the full share, it owes nothing at any point and bounds nothing at the first, its body meets the obligation at
    every point, and its invariant at the first point follows from, and at the last point gives back, the scoped
    buffers no window stages together with the generator register. -/
structure AttnAcct where
  dat : (V : Entry F) → (c : Dev nD) → Dat τ (Elt F) Unit ℕ (UR sig nD τ) ℕ cfg1 c
  A_eq : ∀ V c w, (dat V c).A w = V c (Pipeline.arrRef spec1 w)
  q_eq : ∀ V c w, (dat V c).q w = fullShare
  owed_eq : ∀ V c t, (dat V c).owed t = 0
  rec0 : ∀ V c, (dat V c).recorded 0 = Set.univ
  body : ∀ V c, BodyObligation (dat V c) (defs₀ (F := F)) Variants.none () Set.univ
  hin : ∀ V c, (Pipeline.ΦA spec1 c : sProp 𝕄) ⊢ (dat V c).Φ 0
  hout : ∀ V c, (dat V c).Φ (Fin.last cfg1.N) ⊢ (Pipeline.ΦA spec1 c : sProp 𝕄)

variable (At : AttnAcct (F := F)) (m : (ℓ : Loc nD τ sig) → Buf (Elt F) ℓ) (ρ : Dev nD → PrngReg)

/-! ## The eight valuations -/

/-- At launch. -/
abbrev W0 : Dev nD → Valuation τ sig (Elt F) := fun c b => m (c, b)
/-- After the first stretch. -/
abbrev W1 : Dev nD → Valuation τ sig (Elt F) := fun c => StableHlo.after hostOps0 (W0 m c)
/-- What the first projection is entered with. -/
abbrev ent0 : Entry F := fun c b => W1 m c b
/-- After the first projection: its four arrays at what the write-backs of all 48 points leave, the rest as entered. -/
def W2 (c : Dev nD) : Valuation τ sig (Elt F) :=
  Pipeline.withArrays spec0 c (W1 m c) fun w => (Lin0.dat (ent0 m) c).arrAt w cfg0.N
/-- After the second stretch. -/
abbrev W3 : Dev nD → Valuation τ sig (Elt F) := fun c => StableHlo.after hostOps1 (W2 m c)
/-- What the attention is entered with. -/
abbrev ent1 : Entry F := fun c b => W3 m c b
/-- After the attention: its four arrays at what the write-backs of all 256 points leave, the rest as entered. -/
def W4 (c : Dev nD) : Valuation τ sig (Elt F) :=
  Pipeline.withArrays spec1 c (W3 m c) fun w => (At.dat (ent1 m) c).arrAt w cfg1.N
/-- After the third stretch. -/
abbrev W5 : Dev nD → Valuation τ sig (Elt F) := fun c => StableHlo.after hostOps2 (W4 At m c)
/-- What the second projection is entered with. -/
abbrev ent2 : Entry F := fun c b => W5 At m c b
/-- After the second projection: its four arrays at what the write-backs of all 16 points leave, the rest as entered. -/
def W6 (c : Dev nD) : Valuation τ sig (Elt F) :=
  Pipeline.withArrays spec2 c (W5 At m c) fun w => (Lin2.dat (ent2 At m) c).arrAt w cfg2.N
/-- After the closing reshape: the end. -/
abbrev W7 : Dev nD → Valuation τ sig (Elt F) := fun c => StableHlo.after hostOps3 (W6 At m c)

/-! Each region's exit valuation at one of its arrays, and off them. -/

theorem W2_arr (c : Dev nD) (w : Fin cfg0.W) :
    W2 m c (Proc.devRef .tc (Pipeline.arrRef spec0 w)) = (Lin0.dat (ent0 m) c).arrAt w cfg0.N := by
  unfold W2; exact Pipeline.withArrays_arr spec0 launch0.win.arr_inj c _ _ w
theorem W2_off (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem W4_arr (c : Dev nD) (w : Fin cfg1.W) :
    W4 At m c (Proc.devRef .tc (Pipeline.arrRef spec1 w)) = (At.dat (ent1 m) c).arrAt w cfg1.N := by
  unfold W4; exact Pipeline.withArrays_arr spec1 launch1.win.arr_inj c _ _ w
theorem W4_off (c : Dev nD) (b : Ref sig .tc) (hb : ∀ w, Pipeline.arrRef spec1 w ≠ b) :
    W4 At m c (Proc.devRef .tc b) = W3 m c (Proc.devRef .tc b) := by
  unfold W4; exact Pipeline.withArrays_of_ne spec1 c _ _ b hb
theorem W6_arr (c : Dev nD) (w : Fin cfg2.W) :
    W6 At m c (Proc.devRef .tc (Pipeline.arrRef spec2 w)) = (Lin2.dat (ent2 At m) c).arrAt w cfg2.N := by
  unfold W6; exact Pipeline.withArrays_arr spec2 launch2.win.arr_inj c _ _ w
theorem W6_off (c : Dev nD) (b : Ref sig .tc) (hb : ∀ w, Pipeline.arrRef spec2 w ≠ b) :
    W6 At m c (Proc.devRef .tc b) = W5 At m c (Proc.devRef .tc b) := by
  unfold W6; exact Pipeline.withArrays_of_ne spec2 c _ _ b hb

/-- The exit valuations read at the TensorCore's references. -/
abbrev ext0 : Entry F := fun c b => W2 m c b
abbrev ext1 : Entry F := fun c b => W4 At m c b
abbrev ext2 : Entry F := fun c b => W6 At m c b

/-- A reference that is none of a region's arrays is not in their image. -/
theorem off_image {W : Nat} {f : Fin W → Ref sig .tc} {b : Ref sig .tc} (hb : b ∉ Finset.univ.image f) (w : Fin W) : f w ≠ b :=
  fun e => hb (Finset.mem_image.mpr ⟨w, Finset.mem_univ _, e⟩)

/-! ## What rides beside the buffers, and four small entailments every region's record is made of -/

/-- No core owes another anything and no wait records a level. -/
abbrev L : GSem nD τ sig → Finset Unit := fun _ => ∅
abbrev lv : GSem nD τ sig → Unit → ℕ := fun _ _ => 0

/-- Beside the buffers a core holds its generator register, at some state, and its dues, which are none. -/
abbrev R (c : Dev nD) : sProp 𝕄 :=
  iprop((∃ r, prngReg c r) ∗ ∃ W, owes (c : Thread nD τ) (0 : CellTallies nD τ sig Unit) W)

/-- Owing nothing, with the recorded pairs unknown, meets an account's dues at its first point when the account owes
    nothing there and bounds the recorded pairs by everything. -/
theorem dues_in (c : Dev nD) {cfg : Cfg sig Λ₀} (d : Dat τ (Elt F) Unit ℕ (UR sig nD τ) ℕ cfg c)
    (h0 : d.owed 0 = 0) (hr : d.recorded 0 = Set.univ) :
    (iprop(∃ W, owes (c : Thread nD τ) (0 : CellTallies nD τ sig Unit) W) : sProp 𝕄) ⊢ d.owesAt () 0 := by
  unfold Pipeline.Dat.owesAt Pipeline.owesWithin Pipeline.Dat.bound
  rw [h0, hr]
  iintro ⟨%W, HO⟩
  iexists W
  isplitr; · ipureintro; exact fun _ _ => Or.inl trivial
  iexact HO

/-- An account that owes nothing at its last point leaves the core owing nothing. -/
theorem dues_out (c : Dev nD) {cfg : Cfg sig Λ₀} (d : Dat τ (Elt F) Unit ℕ (UR sig nD τ) ℕ cfg c)
    (hN : d.owed (Fin.last cfg.N) = 0) :
    d.owesAt () (Fin.last cfg.N) ⊢ (iprop(∃ W, owes (c : Thread nD τ) (0 : CellTallies nD τ sig Unit) W) : sProp 𝕄) := by
  unfold Pipeline.Dat.owesAt Pipeline.owesWithin
  rw [hN]
  iintro ⟨%W, -, HO⟩
  iexists W
  iexact HO

/-- A pipeline without prefetched tables holds them all for nothing. -/
theorem no_tables (c : Dev nD) (pre : Pipeline.Prefetch sig) (hK : pre.K = 0) (q : Fin pre.K → PosShare TreeShare)
    (V : pre.Contents (Elt F)) : (BI.emp : sProp 𝕄) ⊢ Pipeline.prefHeld pre c q V := by
  unfold Pipeline.prefHeld
  have : IsEmpty (Fin pre.K) := by rw [hK]; infer_instance
  rw [Finset.univ_eq_empty, BI.bigSep_empty]

/-- ENTRY. From the buffers and \`R\`: the buffers split into the region's arrays \`A\` and the rest \`Zr\` (\`hs\`), the
    tables cost nothing (\`hp\`), the dues are the account's at its first point (\`ho\`), and the generator register goes on
    into the invariant. The region's own semaphores (none) and the level facts are not used. -/
theorem enter (c : Dev nD) {H A Zr Pf Ow S Lv : sProp 𝕄} (hs : H ⊢ iprop(A ∗ Zr)) (hp : (BI.emp : sProp 𝕄) ⊢ Pf)
    (ho : (iprop(∃ W, owes (c : Thread nD τ) (0 : CellTallies nD τ sig Unit) W) : sProp 𝕄) ⊢ Ow) :
    iprop((H ∗ R c) ∗ S ∗ Lv) ⊢ |={Set.univ}=> iprop(A ∗ Pf ∗ Ow ∗ (∃ r, prngReg c r) ∗ Zr) := by
  iintro ⟨⟨Hh, Hp, HO⟩, -, -⟩
  ihave Hsp := hs $$ Hh
  icases Hsp with ⟨Ha, Hz⟩
  imodintro
  isplitl [Ha]; · iexact Ha
  isplitr; · iapply hp; iempintro
  isplitl [HO]; · iapply ho; iexact HO
  isplitl [Hp]; · iexact Hp
  iexact Hz

/-- EXIT. The arrays at their final contents and the rest join into the buffers at the exit valuation (\`hj\`), the
    account's last dues are none (\`ho\`), and the generator register comes back out of the invariant. -/
theorem leave (c : Dev nD) {A Zr Ow H' : sProp 𝕄} (hj : iprop(A ∗ Zr) ⊢ H')
    (ho : Ow ⊢ (iprop(∃ W, owes (c : Thread nD τ) (0 : CellTallies nD τ sig Unit) W) : sProp 𝕄)) :
    iprop(A ∗ Ow ∗ (∃ r, prngReg c r) ∗ Zr) ⊢ |={Set.univ}=> iprop(H' ∗ R c) := by
  iintro ⟨Ha, HO, Hp, Hz⟩
  imodintro
  isplitl [Ha Hz]
  · iapply hj; isplitl [Ha] <;> iassumption
  isplitl [Hp]; · iexact Hp
  iapply ho; iexact HO

/-- The last thread state beside the dues: the same three parts, grouped the other way. -/
theorem regroup (H P O : sProp 𝕄) : iprop(H ∗ P ∗ O) ⊢ iprop((H ∗ P) ∗ O) := by
  iintro ⟨Hh, Hp, HO⟩
  isplitl [Hh Hp]
  · isplitl [Hh]; · iexact Hh
    iexact Hp
  iexact HO

/-- The class invariant from the generator register, anything at all, and the scoped buffers no window stages. -/
theorem inv_in {gr W : Nat} (win : Fin W → Pipeline.WinSpec sig gr) (c : Dev nD) (P : sProp 𝕄) :
    iprop((∃ r, prngReg c r) ∗ P ∗ Pipeline.scopedRest win c) ⊢ (Pipeline.ΦA win c : sProp 𝕄) := by
  unfold Pipeline.ΦA
  iintro ⟨Hp, -, Hr⟩
  isplitl [Hr]; · iexact Hr
  iexact Hp

/-- The class invariant gives back the generator register and those scoped buffers; a region with no semaphore of
    its own has nothing else to return. -/
theorem inv_out {gr W : Nat} (win : Fin W → Pipeline.WinSpec sig gr) (c : Dev nD) :
    (Pipeline.ΦA win c : sProp 𝕄)
      ⊢ iprop((∃ r, prngReg c r) ∗ Pipeline.ownSems0 (fun k : PEmpty => (k.elim : SemLoc sig)) c ∗ Pipeline.scopedRest win c) := by
  rw [Pipeline.ownSems0_none]
  unfold Pipeline.ΦA
  iintro ⟨Hr, Hp⟩
  isplitl [Hp]; · iexact Hp
  isplitr; · iempintro
  iexact Hr

/-! ## Every region's account at its entry valuation, and the stretches as segments -/

/-- The three accounts, each at the valuation its region is entered with. -/
def pdats : (p : Fin 3) → (c : Dev nD) → Dat τ (Elt F) Unit ℕ (UR sig nD τ) ℕ (Pipeline.pin (pcfgs (F := F)) adm p) c
  | ⟨0, _⟩ => fun c => Lin0.dat (ent0 m) c
  | ⟨1, _⟩ => fun c => At.dat (ent1 m) c
  | ⟨2, _⟩ => fun c => Lin2.dat (ent2 At m) c

/-- A stretch of tensor operations from the valuation \`W\`: it runs to the valuation mapped through its operations,
    \`R\` untouched. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The thread state between two items: every unscoped buffer at the valuation, and \`R\`. -/
abbrev at_ (W : Dev nD → Valuation τ sig (Elt F)) (c : Dev nD) : sProp 𝕄 :=
  iprop(StableHlo.held (c : Thread nD τ) (Pipeline.ucRefs τ sig) (W c) ∗ R c)

/-! ## The three regions -/

set_option backward.isDefEq.respectTransparency.types false in
/-- The first projection: entered at \`W1\`, left at \`W2\`. -/
def reg0 : Pipeline.RegionSeg (pcfgs (F := F)) adm (pdats At m) () defs₀ Variants.none L lv 0 where
  win := launch0.win.to₀
  block_pos := launch0.block_pos
  stage_whole := launch0.stage_whole
  K := PEmpty
  osem k := k.elim
  ho := Pipeline.OwnSemFacts.none _
  hbody c := (Lin0.body_obligation (ent0 m) c).loose
  hwaits := Pipeline.hwaits_of_owed_zero _ _ _ _ L lv 0 fun _ _ => rfl
  pre := at_ (W1 m)
  post := at_ (W2 m)
  X c := iprop(∃ r, prngReg c r)
  Y c := iprop(∃ r, prngReg c r)
  Z c := Pipeline.unscopedRest (Ix := Unit) (Name := ℕ) (U := UR sig nD τ) (Lvl := ℕ) spec0 c (ent0 m c)
  hentry c := by
    have hs := Pipeline.arrays_of_unscopedBufs (p := 0) (pcfgs (F := F)) adm (pdats At m) launch0.win launch0.arr_whole c
      ((pdats At m 0 c).share_full fun _ => rfl) (ent0 m c) fun _ => rfl
    rw [Pipeline.unscopedBufs_held] at hs
    exact enter c hs (no_tables c _ rfl _ _) (dues_in c (pdats At m 0 c) rfl rfl)
  hin c := inv_in spec0 c _
  hout c := inv_out spec0 c
  hexit c := by
    have hj := Pipeline.unscopedBufs_of_arrays (p := 0) (pcfgs (F := F)) adm (Ix := Unit) (Name := ℕ) (U := UR sig nD τ) (Lvl := ℕ)
      launch0.win launch0.arr_whole c (pdats At m) ((pdats At m 0 c).share_full fun _ => rfl)
      (ent0 m c) (ext0 m c) ((pdats At m 0 c).arrAt · cfg0.N) (fun w => (W2_arr m c w).symm)
      (fun b hb => W2_off m c b (off_image hb))
    rw [Pipeline.unscopedBufs_held] at hj
    exact leave c hj (dues_out c (pdats At m 0 c) rfl)

set_option backward.isDefEq.respectTransparency.types false in
/-- The attention: entered at \`W3\`, left at \`W4\`. Its invariant at the two ends is the class invariant through the
    account's two entailments. -/
def reg1 : Pipeline.RegionSeg (pcfgs (F := F)) adm (pdats At m) () defs₀ Variants.none L lv 1 where
  win := launch1.win.to₀
  block_pos := launch1.block_pos
  stage_whole := launch1.stage_whole
  K := PEmpty
  osem k := k.elim
  ho := Pipeline.OwnSemFacts.none _
  hbody c := (At.body (ent1 m) c).loose
  hwaits := Pipeline.hwaits_of_owed_zero _ _ _ _ L lv 1 fun c t => At.owed_eq (ent1 m) c t
  pre := at_ (W3 m)
  post := at_ (W4 At m)
  X c := iprop(∃ r, prngReg c r)
  Y c := iprop(∃ r, prngReg c r)
  Z c := Pipeline.unscopedRest (Ix := Unit) (Name := ℕ) (U := UR sig nD τ) (Lvl := ℕ) spec1 c (ent1 m c)
  hentry c := by
    have hs := Pipeline.arrays_of_unscopedBufs (p := 1) (pcfgs (F := F)) adm (pdats At m) launch1.win launch1.arr_whole c
      ((pdats At m 1 c).share_full fun w => At.q_eq (ent1 m) c w) (ent1 m c) fun w => At.A_eq (ent1 m) c w
    rw [Pipeline.unscopedBufs_held] at hs
    exact enter c hs (no_tables c _ rfl _ _) (dues_in c (pdats At m 1 c) (At.owed_eq (ent1 m) c 0) (At.rec0 (ent1 m) c))
  hin c := (inv_in spec1 c _).trans (At.hin (ent1 m) c)
  hout c := (At.hout (ent1 m) c).trans (inv_out spec1 c)
  hexit c := by
    have hj := Pipeline.unscopedBufs_of_arrays (p := 1) (pcfgs (F := F)) adm (Ix := Unit) (Name := ℕ) (U := UR sig nD τ) (Lvl := ℕ)
      launch1.win launch1.arr_whole c (pdats At m) ((pdats At m 1 c).share_full fun w => At.q_eq (ent1 m) c w)
      (ent1 m c) (ext1 At m c) ((pdats At m 1 c).arrAt · cfg1.N) (fun w => (W4_arr At m c w).symm)
      (fun b hb => W4_off At m c b (off_image hb))
    rw [Pipeline.unscopedBufs_held] at hj
    exact leave c hj (dues_out c (pdats At m 1 c) (At.owed_eq (ent1 m) c _))

set_option backward.isDefEq.respectTransparency.types false in
/-- The second projection: entered at \`W5\`, left at \`W6\`. -/
def reg2 : Pipeline.RegionSeg (pcfgs (F := F)) adm (pdats At m) () defs₀ Variants.none L lv 2 where
  win := launch2.win.to₀
  block_pos := launch2.block_pos
  stage_whole := launch2.stage_whole
  K := PEmpty
  osem k := k.elim
  ho := Pipeline.OwnSemFacts.none _
  hbody c := (Lin2.body_obligation (ent2 At m) c).loose
  hwaits := Pipeline.hwaits_of_owed_zero _ _ _ _ L lv 2 fun _ _ => rfl
  pre := at_ (W5 At m)
  post := at_ (W6 At m)
  X c := iprop(∃ r, prngReg c r)
  Y c := iprop(∃ r, prngReg c r)
  Z c := Pipeline.unscopedRest (Ix := Unit) (Name := ℕ) (U := UR sig nD τ) (Lvl := ℕ) spec2 c (ent2 At m c)
  hentry c := by
    have hs := Pipeline.arrays_of_unscopedBufs (p := 2) (pcfgs (F := F)) adm (pdats At m) launch2.win launch2.arr_whole c
      ((pdats At m 2 c).share_full fun _ => rfl) (ent2 At m c) fun _ => rfl
    rw [Pipeline.unscopedBufs_held] at hs
    exact enter c hs (no_tables c _ rfl _ _) (dues_in c (pdats At m 2 c) rfl rfl)
  hin c := inv_in spec2 c _
  hout c := inv_out spec2 c
  hexit c := by
    have hj := Pipeline.unscopedBufs_of_arrays (p := 2) (pcfgs (F := F)) adm (Ix := Unit) (Name := ℕ) (U := UR sig nD τ) (Lvl := ℕ)
      launch2.win launch2.arr_whole c (pdats At m) ((pdats At m 2 c).share_full fun _ => rfl)
      (ent2 At m c) (ext2 At m c) ((pdats At m 2 c).arrAt · cfg2.N) (fun w => (W6_arr At m c w).symm)
      (fun b hb => W6_off At m c b (off_image hb))
    rw [Pipeline.unscopedBufs_held] at hj
    exact leave c hj (dues_out c (pdats At m 2 c) rfl)

/-! ## The program as its seven items, and its run -/

/-- The seven items in order, each stretch from the valuation before it. -/
abbrev items : List (Pipeline.Seg (pcfgs (F := F)) adm (pdats At m) () defs₀ Variants.none L lv) :=
  [ .host (stretch hostOps0 hostOps0_sub hostOps0_fresh (W0 m)),
    .region (reg0 At m),
    .host (stretch hostOps1 hostOps1_sub hostOps1_fresh (W2 m)),
    .region (reg1 At m),
    .host (stretch hostOps2 hostOps2_sub hostOps2_fresh (W4 At m)),
    .region (reg2 At m),
    .host (stretch hostOps3 hostOps3_sub hostOps3_fresh (W6 At m)) ]

/-- The program is the run of the seven items: both sides are the same chain of fragments. -/
theorem main_run (c : Dev nD) : main (F := F) c = Pipeline.Seg.run (items At m) := (main_chain c).trans (by chain_rfl)

/-- An unscoped TensorCore reference is among the buffers the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN. From any memory with every semaphore counter at zero, every weakly fair execution of the program on the
    TensorCores terminates without fault, and at the end every unscoped buffer of every core holds the last valuation. -/
theorem run_full : θ_run defs (onTc (τ := τ) (main (F := F))) ⟨m, fun _ => 0, ρ⟩
    (fun r => ∀ c : Dev nD, ∀ b ∈ Pipeline.ucRefs τ sig, r.2.mem ((c : Thread nD τ).1, b) = W7 At m c b) :=
  Pipeline.θ_run_regions_kit (pcfgs (F := F)) adm (pdats At m) () cellOf_inj emb₁ defs₀ Variants.none L lv m ρ main (items At m)
    (fun c Q => by rw [main_run At m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := at_ (W0 m))
    (Tₙ := fun c => iprop(StableHlo.held (c : Thread nD τ) (Pipeline.ucRefs τ sig) (W7 At m c) ∗ ∃ r, prngReg c r))
    (hch := ⟨fun _ => .rfl, fun _ => .rfl, fun _ => .rfl, fun _ => .rfl, fun _ => .rfl, fun _ => .rfl, fun _ => .rfl,
      fun c => (regroup _ _ _ : iprop(StableHlo.held (c : Thread nD τ) (Pipeline.ucRefs τ sig) (W7 At m c) ∗ R c) ⊢ _)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem ((c : Thread nD τ).1, b) = W7 At m c b)
    (hfin := fun c s' => by
      iintro ⟨⟨Hh, -⟩, HSI⟩
      unfold StableHlo.held
      imodintro
      iapply (pointsTo_read_all (Pipeline.ucRefs τ sig) (fun b => ((c : Thread nD τ).1, b)) (W7 At m c) s')
      isplitl [Hh] <;> iassumption)
    (hQ := fun s h => h)

/-! ## The last valuation at the arguments and at the result -/

/-- A reference that no stretch writes and that is no region's array holds at the end what the launch memory holds. -/
theorem W7_launch (c : Dev nD) (r : Ref sig .tc)
    (h0 : r ∉ hostOps0_W) (h1 : r ∉ hostOps1_W) (h2 : r ∉ hostOps2_W) (h3 : r ∉ hostOps3_W)
    (a0 : ∀ w, Pipeline.arrRef spec0 w ≠ r) (a1 : ∀ w, Pipeline.arrRef spec1 w ≠ r) (a2 : ∀ w, Pipeline.arrRef spec2 w ≠ r) :
    W7 At m c (Proc.devRef .tc r) = m ((c : Thread nD τ).loc r) :=
  calc W7 At m c (Proc.devRef .tc r)
    _ = W6 At m c (Proc.devRef .tc r) := StableHlo.after_of_writes_sub hostOps3 _ hostOps3_writes h3
    _ = W5 At m c (Proc.devRef .tc r) := W6_off At m c r a2
    _ = W4 At m c (Proc.devRef .tc r) := StableHlo.after_of_writes_sub hostOps2 _ hostOps2_writes h2
    _ = W3 m c (Proc.devRef .tc r) := W4_off At m c r a1
    _ = W2 m c (Proc.devRef .tc r) := StableHlo.after_of_writes_sub hostOps1 _ hostOps1_writes h1
    _ = W1 m c (Proc.devRef .tc r) := W2_off m c r a0
    _ = W0 m c (Proc.devRef .tc r) := StableHlo.after_of_writes_sub hostOps0 _ hostOps0_writes h0
    _ = m ((c : Thread nD τ).loc r) := rfl

theorem W7_main_arg0 (c : Dev nD) : W7 At m c (Proc.devRef .tc main_arg0) = m ((c : Thread nD τ).loc main_arg0) :=
  W7_launch At m c main_arg0 (by decide) (by decide) (by decide) (by decide) (by decide) (by decide) (by decide)
theorem W7_main_arg1 (c : Dev nD) : W7 At m c (Proc.devRef .tc main_arg1) = m ((c : Thread nD τ).loc main_arg1) :=
  W7_launch At m c main_arg1 (by decide) (by decide) (by decide) (by decide) (by decide) (by decide) (by decide)
theorem W7_main_arg2 (c : Dev nD) : W7 At m c (Proc.devRef .tc main_arg2) = m ((c : Thread nD τ).loc main_arg2) :=
  W7_launch At m c main_arg2 (by decide) (by decide) (by decide) (by decide) (by decide) (by decide) (by decide)
theorem W7_main_arg3 (c : Dev nD) : W7 At m c (Proc.devRef .tc main_arg3) = m ((c : Thread nD τ).loc main_arg3) :=
  W7_launch At m c main_arg3 (by decide) (by decide) (by decide) (by decide) (by decide) (by decide) (by decide)
theorem W7_main_arg4 (c : Dev nD) : W7 At m c (Proc.devRef .tc main_arg4) = m ((c : Thread nD τ).loc main_arg4) :=
  W7_launch At m c main_arg4 (by decide) (by decide) (by decide) (by decide) (by decide) (by decide) (by decide)

/-- The second projection's output array after all its points. -/
theorem W6_main_v18 (c : Dev nD) : W6 At m c (Proc.devRef .tc main_v18) = (Lin2.dat (ent2 At m) c).arrAt 3 cfg2.N :=
  W6_arr At m c 3

/-- The result buffer at the end: the closing reshape of the second projection's output array. -/
theorem result_eq (c : Dev nD) : W7 At m c (Proc.devRef .tc main_v19)
    = fun i => shapeCast S2x2048x1024 (W6 At m c (Proc.devRef .tc main_v18)) shapeCasts_S4096x1024_S2x2048x1024 i := by
  show StableHlo.after hostOps3 (W6 At m c) (Proc.devRef .tc main_v19) = _
  simp only [StableHlo.after_cons, StableHlo.after_nil]
  rw [StableHlo.reshape_result]
  rfl

/-- The same with the output array named: the result is the reshape of what the write-backs of the second projection's
    16 points leave in its fourth array. -/
theorem result_arr (c : Dev nD) : W7 At m c (Proc.devRef .tc main_v19)
    = fun i => shapeCast S2x2048x1024 (s := S4096x1024) ((Lin2.dat (ent2 At m) c).arrAt 3 cfg2.N) shapeCasts_S4096x1024_S2x2048x1024 i := by
  rw [result_eq, W6_main_v18]

/-- The run, read at the result and the five arguments: the post the program's two value claims state. -/
theorem run_result : θ_run defs (onTc (τ := τ) (main (F := F))) ⟨m, fun _ => 0, ρ⟩ (fun r => ∀ c : Dev nD,
      r.2.mem ((c.tc : Thread nD τ).loc main_v19) = W7 At m c (Proc.devRef .tc main_v19)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run _ _ _).mono (fun r h c =>
    ⟨h c _ (mem_uc main_v19 (by decide)),
     (h c _ (mem_uc main_arg0 (by decide))).trans (W7_main_arg0 At m c),
     (h c _ (mem_uc main_arg1 (by decide))).trans (W7_main_arg1 At m c),
     (h c _ (mem_uc main_arg2 (by decide))).trans (W7_main_arg2 At m c),
     (h c _ (mem_uc main_arg3 (by decide))).trans (W7_main_arg3 At m c),
     (h c _ (mem_uc main_arg4 (by decide))).trans (W7_main_arg4 At m c)⟩) (run_full At m ρ)

include At in
/-- The frame: every argument ends as launched. -/
theorem run_frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run _ _ _).mono (fun r h c => (h c).2) (run_result At m ρ)

/-- info: 'Cert.KernelIdeal.Run.run_full' depends on axioms: [propext, Classical.choice, Quot.sound] -/
#guard_msgs in #print axioms run_full
/-- info: 'Cert.KernelIdeal.Run.run_result' depends on axioms: [propext, Classical.choice, Quot.sound] -/
#guard_msgs in #print axioms run_result

end Cert.KernelIdeal.Run

end
-- ==== Proof.IFrame.lean ====
/-
  The program's run with the attention region's account filled in: every fair run from the launch memory ends, faults
  nowhere, leaves the five argument arrays as launched, and leaves the result array at the last boundary's contents.
-/
import proofs.«174977_j37177236914546_2_alg».proof.Proof.IAttn
import proofs.«174977_j37177236914546_2_alg».proof.Proof.IRun

noncomputable section

namespace Cert.KernelIdeal.Run

open Cert.KernelIdeal Cert.KernelIdeal.Gen
open Idealize.ShloMosaic Idealize.ShloMosaic.TcCoe
open Idealize.SL Idealize.SL.Sem
open Idealize.ShloMosaic.Pipeline (Dat BodyObligation)

variable {F : FTy → Type} [FloatOps F]

/-- The attention region's account: its proof data at any entry valuation, the body obligation at every point, and the
    two entailments tying its invariant before the first and after the last point to the plain one. -/
def attnAcct : AttnAcct (F := F) where
  dat := Attn.dat
  A_eq := Attn.A_eq
  q_eq := Attn.q_eq
  owed_eq := Attn.owed_eq
  rec0 := Attn.rec0
  body := Attn.body_obligation
  hin := Attn.hin
  hout := Attn.hout

/-- Every argument array ends as launched. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  run_frame (attnAcct (F := F)) m ρ

/-- The same run with the result array named. -/
theorem result (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v19) = W7 (attnAcct (F := F)) m c (Proc.devRef .tc main_v19)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  run_result (attnAcct (F := F)) m ρ

end Cert.KernelIdeal.Run

end
-- ==== Proof.AttnSpec.lean ====
/-
  A multi-head self-attention layer on the extended reals, cut at the three places where its arrays are
  re-laid: three functions, each given index by index over literal shapes.

  * `proj y W b` — the fused query/key/value projection, already split into heads: over [2, 2048, 16, 192],
    entry (n, s, h, j) is `(Σ_d y[n, s, d] · W[h·192 + j, d]) + b[h·192 + j]`: row `h·192 + j` of the
    [3072, 1024] weight belongs to head `h`, whose 192 columns are its 64 query, 64 key and 64 value columns.
  * `attn q k v` — softmax attention of one head's rows, normalised before the weighted sum: over
    [2, 16, 2048, 64], entry (n, h, s, d) is `Σ_t (exp (sc t - M) / L) · v[n, h, t, d]` with the score
    `sc t = (Σ_e q[n, h, s, e] · k[n, h, t, e]) · c` (`c` the word of 1/8), `M` the row's maximum folded from
    the word of −∞ and clamped below by it once more, and `L = 0 + Σ_u exp (sc u - M)` (the word of 0).
  * `outp a W b` — the output projection of the heads laid side by side: over [2, 2048, 1024], entry (n, s, e)
    is `(Σ_j a[n, s, j / 64, j % 64] · W[e, j]) + b[e]`.

  Between them sit pure re-layings, the same in any program that computes the layer this way: a swap of the
  two middle axes, three slices of width 64 along the last axis, and the swap back (`toHeads`, `slice0`,
  `slice64`, `slice128`, `fromHeads`); `layer` composes the five arrays into the result.

  No float word is evaluated here: the scale, −∞ and 0 stay the extended reals their words denote.
-/
import Idealize.ShloMosaic.PureOps.Ideal
import Idealize.ShloMosaic.Lib.ValueIdx

noncomputable section

open scoped BigOperators

namespace Cert.AttnSpec

open Idealize.ShloMosaic Idealize.ShloMosaic.ValueIdx

/-! ## The fused projection, split into heads -/

/-- Row `h·192 + j` of the fused weight: column `j` of head `h`. -/
abbrev row192 (h : Fin 16) (j : Fin 192) : Fin 3072 :=
  ⟨h.val * 192 + j.val, by have := h.isLt; have := j.isLt; omega⟩

/-- Entry (n, s, h, j) of the projection: the row `y[n, s, ·]` against row `h·192 + j` of the weight, plus that row's bias. -/
def projAt (y : (⟨3, ![2, 2048, 1024]⟩ : Shape).Idx → EReal) (W : (⟨2, ![3072, 1024]⟩ : Shape).Idx → EReal)
    (b : (⟨1, ![3072]⟩ : Shape).Idx → EReal) (n : Fin 2) (s : Fin 2048) (h : Fin 16) (j : Fin 192) : EReal :=
  (∑ d : Fin 1024, y (ix3 n s d) * W (ix2 (row192 h j) d)) + b (ix1 (row192 h j))

/-- The projection as an array over [2, 2048, 16, 192]. -/
def proj (y : (⟨3, ![2, 2048, 1024]⟩ : Shape).Idx → EReal) (W : (⟨2, ![3072, 1024]⟩ : Shape).Idx → EReal)
    (b : (⟨1, ![3072]⟩ : Shape).Idx → EReal) : (⟨4, ![2, 2048, 16, 192]⟩ : Shape).Idx → EReal :=
  fun i => projAt y W b ⟨(i 0).val, (i 0).isLt⟩ ⟨(i 1).val, (i 1).isLt⟩ ⟨(i 2).val, (i 2).isLt⟩ ⟨(i 3).val, (i 3).isLt⟩

theorem proj_apply (y : (⟨3, ![2, 2048, 1024]⟩ : Shape).Idx → EReal) (W : (⟨2, ![3072, 1024]⟩ : Shape).Idx → EReal)
    (b : (⟨1, ![3072]⟩ : Shape).Idx → EReal) (n : Fin 2) (s : Fin 2048) (h : Fin 16) (j : Fin 192) :
    proj y W b (ix4 n s h j)
      = (∑ d : Fin 1024, y (ix3 n s d) * W (ix2 (row192 h j) d)) + b (ix1 (row192 h j)) := rfl

/-! ## One head's attention -/

/-- The score of query row `s` against key row `t` in head (n, h): their product over the 64 columns, times the word of 1/8. -/
def score (q k : (⟨4, ![2, 16, 2048, 64]⟩ : Shape).Idx → EReal) (n : Fin 2) (h : Fin 16) (s t : Fin 2048) : EReal :=
  (∑ e : Fin 64, q (ix4 n h s e) * k (ix4 n h t e)) * Ideal.ofBits .f32 0x3E000000#32

/-- The row's maximum: folded over the 2048 keys from the word of −∞, then clamped below by that word once more. -/
def rowMax (q k : (⟨4, ![2, 16, 2048, 64]⟩ : Shape).Idx → EReal) (n : Fin 2) (h : Fin 16) (s : Fin 2048) : EReal :=
  max (Ideal.ofBits .f32 0xFF800000#32)
    ((Finset.univ : Finset (Fin 2048)).fold max (Ideal.ofBits .f32 0xFF800000#32) (fun t => score q k n h s t))

/-- The row's normaliser: the word of 0 plus the sum over the keys of `exp (score - maximum)`. -/
def rowSum (q k : (⟨4, ![2, 16, 2048, 64]⟩ : Shape).Idx → EReal) (n : Fin 2) (h : Fin 16) (s : Fin 2048) : EReal :=
  Ideal.ofBits .f32 0x00000000#32 + ∑ u : Fin 2048, Ideal.exp (score q k n h s u - rowMax q k n h s)

/-- Entry (n, h, s, d): each weight divided by the normaliser, then the weighted sum of column `d` of the values. -/
def attnAt (q k v : (⟨4, ![2, 16, 2048, 64]⟩ : Shape).Idx → EReal) (n : Fin 2) (h : Fin 16) (s : Fin 2048) (d : Fin 64) : EReal :=
  ∑ t : Fin 2048, Ideal.div (Ideal.exp (score q k n h s t - rowMax q k n h s)) (rowSum q k n h s) * v (ix4 n h t d)

/-- Attention as an array over [2, 16, 2048, 64]. -/
def attn (q k v : (⟨4, ![2, 16, 2048, 64]⟩ : Shape).Idx → EReal) : (⟨4, ![2, 16, 2048, 64]⟩ : Shape).Idx → EReal :=
  fun i => attnAt q k v ⟨(i 0).val, (i 0).isLt⟩ ⟨(i 1).val, (i 1).isLt⟩ ⟨(i 2).val, (i 2).isLt⟩ ⟨(i 3).val, (i 3).isLt⟩

theorem attn_apply (q k v : (⟨4, ![2, 16, 2048, 64]⟩ : Shape).Idx → EReal) (n : Fin 2) (h : Fin 16) (s : Fin 2048) (d : Fin 64) :
    attn q k v (ix4 n h s d)
      = ∑ t : Fin 2048, Ideal.div (Ideal.exp (score q k n h s t - rowMax q k n h s)) (rowSum q k n h s) * v (ix4 n h t d) := rfl

/-! ## The output projection -/

/-- Column `j` of the heads laid side by side is column `j % 64` of head `j / 64`. -/
abbrev headOf (j : Fin 1024) : Fin 16 := ⟨j.val / 64, by have := j.isLt; omega⟩
abbrev colOf (j : Fin 1024) : Fin 64 := ⟨j.val % 64, by omega⟩

/-- Entry (n, s, e): the 1024 head columns of position (n, s) against row `e` of the weight, plus its bias. -/
def outpAt (a : (⟨4, ![2, 2048, 16, 64]⟩ : Shape).Idx → EReal) (W : (⟨2, ![1024, 1024]⟩ : Shape).Idx → EReal)
    (b : (⟨1, ![1024]⟩ : Shape).Idx → EReal) (n : Fin 2) (s : Fin 2048) (e : Fin 1024) : EReal :=
  (∑ j : Fin 1024, a (ix4 n s (headOf j) (colOf j)) * W (ix2 e j)) + b (ix1 e)

/-- The output projection as an array over [2, 2048, 1024]. -/
def outp (a : (⟨4, ![2, 2048, 16, 64]⟩ : Shape).Idx → EReal) (W : (⟨2, ![1024, 1024]⟩ : Shape).Idx → EReal)
    (b : (⟨1, ![1024]⟩ : Shape).Idx → EReal) : (⟨3, ![2, 2048, 1024]⟩ : Shape).Idx → EReal :=
  fun i => outpAt a W b ⟨(i 0).val, (i 0).isLt⟩ ⟨(i 1).val, (i 1).isLt⟩ ⟨(i 2).val, (i 2).isLt⟩

theorem outp_apply (a : (⟨4, ![2, 2048, 16, 64]⟩ : Shape).Idx → EReal) (W : (⟨2, ![1024, 1024]⟩ : Shape).Idx → EReal)
    (b : (⟨1, ![1024]⟩ : Shape).Idx → EReal) (n : Fin 2) (s : Fin 2048) (e : Fin 1024) :
    outp a W b (ix3 n s e)
      = (∑ j : Fin 1024, a (ix4 n s (headOf j) (colOf j)) * W (ix2 e j)) + b (ix1 e) := rfl

/-! ## The re-layings between the stages, and the layer -/

/-- Heads before positions: the two middle axes of [2, 2048, 16, 192] swapped. -/
def toHeads (x : (⟨4, ![2, 2048, 16, 192]⟩ : Shape).Idx → EReal)
    (h : (⟨4, ![2, 2048, 16, 192]⟩ : Shape).Transposes [0, 2, 1, 3] ⟨4, ![2, 16, 2048, 192]⟩) :
    (⟨4, ![2, 16, 2048, 192]⟩ : Shape).Idx → EReal :=
  transpose ⟨4, ![2, 16, 2048, 192]⟩ [0, 2, 1, 3] x h

/-- A head's first 64 columns: its queries. -/
def slice0 (x : (⟨4, ![2, 16, 2048, 192]⟩ : Shape).Idx → EReal)
    (h : (⟨4, ![2, 16, 2048, 192]⟩ : Shape).Slices ![0, 0, 0, 0] ⟨4, ![2, 16, 2048, 64]⟩) :
    (⟨4, ![2, 16, 2048, 64]⟩ : Shape).Idx → EReal :=
  extractStridedSlice ⟨4, ![2, 16, 2048, 64]⟩ ![0, 0, 0, 0] x h

/-- Columns 64 to 127: its keys. -/
def slice64 (x : (⟨4, ![2, 16, 2048, 192]⟩ : Shape).Idx → EReal)
    (h : (⟨4, ![2, 16, 2048, 192]⟩ : Shape).Slices ![0, 0, 0, 64] ⟨4, ![2, 16, 2048, 64]⟩) :
    (⟨4, ![2, 16, 2048, 64]⟩ : Shape).Idx → EReal :=
  extractStridedSlice ⟨4, ![2, 16, 2048, 64]⟩ ![0, 0, 0, 64] x h

/-- Columns 128 to 191: its values. -/
def slice128 (x : (⟨4, ![2, 16, 2048, 192]⟩ : Shape).Idx → EReal)
    (h : (⟨4, ![2, 16, 2048, 192]⟩ : Shape).Slices ![0, 0, 0, 128] ⟨4, ![2, 16, 2048, 64]⟩) :
    (⟨4, ![2, 16, 2048, 64]⟩ : Shape).Idx → EReal :=
  extractStridedSlice ⟨4, ![2, 16, 2048, 64]⟩ ![0, 0, 0, 128] x h

/-- Positions before heads again: the two middle axes of [2, 16, 2048, 64] swapped. -/
def fromHeads (x : (⟨4, ![2, 16, 2048, 64]⟩ : Shape).Idx → EReal)
    (h : (⟨4, ![2, 16, 2048, 64]⟩ : Shape).Transposes [0, 2, 1, 3] ⟨4, ![2, 2048, 16, 64]⟩) :
    (⟨4, ![2, 2048, 16, 64]⟩ : Shape).Idx → EReal :=
  transpose ⟨4, ![2, 2048, 16, 64]⟩ [0, 2, 1, 3] x h

/-- The layer: project, bring the heads forward, cut queries, keys and values, attend, bring the positions
    forward again, project out. The shape facts of the re-layings are arguments; any proofs of them give the same array. -/
def layer (y : (⟨3, ![2, 2048, 1024]⟩ : Shape).Idx → EReal) (W : (⟨2, ![3072, 1024]⟩ : Shape).Idx → EReal)
    (b : (⟨1, ![3072]⟩ : Shape).Idx → EReal) (Wo : (⟨2, ![1024, 1024]⟩ : Shape).Idx → EReal)
    (bo : (⟨1, ![1024]⟩ : Shape).Idx → EReal)
    (hT : (⟨4, ![2, 2048, 16, 192]⟩ : Shape).Transposes [0, 2, 1, 3] ⟨4, ![2, 16, 2048, 192]⟩)
    (h0 : (⟨4, ![2, 16, 2048, 192]⟩ : Shape).Slices ![0, 0, 0, 0] ⟨4, ![2, 16, 2048, 64]⟩)
    (h64 : (⟨4, ![2, 16, 2048, 192]⟩ : Shape).Slices ![0, 0, 0, 64] ⟨4, ![2, 16, 2048, 64]⟩)
    (h128 : (⟨4, ![2, 16, 2048, 192]⟩ : Shape).Slices ![0, 0, 0, 128] ⟨4, ![2, 16, 2048, 64]⟩)
    (hT' : (⟨4, ![2, 16, 2048, 64]⟩ : Shape).Transposes [0, 2, 1, 3] ⟨4, ![2, 2048, 16, 64]⟩) :
    (⟨3, ![2, 2048, 1024]⟩ : Shape).Idx → EReal :=
  outp (fromHeads (attn (slice0 (toHeads (proj y W b) hT) h0) (slice64 (toHeads (proj y W b) hT) h64)
    (slice128 (toHeads (proj y W b) hT) h128)) hT') Wo bo

end Cert.AttnSpec

end
-- ==== Proof.RefStages.lean ====
/-
  The plain program is the layer: its operations, read at an index, are the three stages of the specification with the
  specification's re-layings between them.

  The program's stages are functions of its five argument arrays. Read at an index, operations 0 to 4 (a product with
  the fused weight, a bias, a cast of 3072 columns to 16 × 192) are `proj`; operations 9 to 23 (scores of the query
  slice against the key slice, the scale, a maximum over the keys taken from −∞, exponentials, their sum taken from 0,
  a division, a product with the value slice) are `attn` of the three slices; operations 25 to 29 (a cast of 16 × 64
  columns to 1024, a product with the output weight, a bias) are `outp`. Operations 5 to 8 and 24 are the transposes and
  slices themselves. Each stage lemma identifies the index functions the operations compose — which entry of which
  operand an entry reads — with an index built from coordinates, and rewrites with the operations' readings in order.
-/
import proofs.«174977_j37177236914546_2_alg».proof.Proof.Gen.ReferenceIdeal.Read
import proofs.«174977_j37177236914546_2_alg».proof.Proof.AttnSpec

noncomputable section

open scoped BigOperators

namespace Cert.RefStages

open Cert.ReferenceIdeal Cert.ReferenceIdeal.Gen Cert.ReferenceIdeal.Read Idealize.ShloMosaic Idealize.ShloMosaic.ValueIdx Cert.AttnSpec

/-! ## The projection -/

/-- The plain program's first five operations — the product with the fused weight, the bias broadcast along the
    rows, their sum, and the cast of the 3072 columns to 16 heads of 192 — are the projection split into heads:
    flat column `h·192 + j` of position (n, s) is entry (n, s, h, j). -/
theorem ref_proj (x0 : (⟨S2x2048x1024, .f32⟩ : BufTy).Contents (Elt Ideal)) (x1 : (⟨S3072x1024, .f32⟩ : BufTy).Contents (Elt Ideal))
    (x2 : (⟨S3072, .f32⟩ : BufTy).Contents (Elt Ideal)) :
    val_main_v4 (F := Ideal) x0 x1 x2 = proj x0 x1 x2 := by
  funext i
  obtain ⟨n, s, h, j, rfl⟩ : ∃ (n : Fin 2) (s : Fin 2048) (h : Fin 16) (j : Fin 192), i = ix4 n s h j :=
    ⟨i 0, i 1, i 2, i 3, eq_ix4 i⟩
  have e4 : idx_main_v4 (ix4 n s h j) = ix3 n s (row192 h j) := funext fun a => Fin.ext (by
    have := n.isLt; have := s.isLt; have := h.isLt; have := j.isLt
    match a with
    | ⟨0, _⟩ => show (((n.val * 2048 + s.val) * 16 + h.val) * 192 + j.val) / 6291456 = n.val; omega
    | ⟨1, _⟩ => show (((n.val * 2048 + s.val) * 16 + h.val) * 192 + j.val) / 3072 % 2048 = s.val; omega
    | ⟨2, _⟩ => show (((n.val * 2048 + s.val) * 16 + h.val) * 192 + j.val) % 3072 = h.val * 192 + j.val; omega)
  have el : ∀ k : Fin 1024, lidx_main_v0 (ix3 n s (row192 h j)) k = ix3 n s k := fun k => funext fun a => Fin.ext (by
    match a with
    | ⟨0, _⟩ => rfl
    | ⟨1, _⟩ => rfl
    | ⟨2, _⟩ => rfl)
  have er : ∀ k : Fin 1024, ridx_main_v0 (ix3 n s (row192 h j)) k = ix2 (row192 h j) k := fun k => funext fun a => Fin.ext (by
    match a with
    | ⟨0, _⟩ => rfl
    | ⟨1, _⟩ => rfl)
  have e1 : idx_main_v1 (idx_main_v2 (ix3 n s (row192 h j))) = ix1 (row192 h j) := funext fun a => Fin.ext (by
    match a with
    | ⟨0, _⟩ => rfl)
  rw [val_main_v4_apply, e4, val_main_v3_apply, val_main_v0_apply, val_main_v2_apply, val_main_v1_apply, e1, proj_apply]
  simp only [el, er, Ideal.addf_def]

/-! ## Attention -/

section Attn

variable (x0 : (⟨S2x2048x1024, .f32⟩ : BufTy).Contents (Elt Ideal)) (x1 : (⟨S3072x1024, .f32⟩ : BufTy).Contents (Elt Ideal))
  (x2 : (⟨S3072, .f32⟩ : BufTy).Contents (Elt Ideal))

/-- The scaled product of the query and key slices, at (n, h, s, t), is the score of query row `s` against key row `t`. -/
theorem ref_score (n : Fin 2) (h : Fin 16) (s t : Fin 2048) :
    val_main_v11 (F := Ideal) x0 x1 x2 (ix4 n h s t) = score (val_main_v6 (F := Ideal) x0 x1 x2) (val_main_v7 (F := Ideal) x0 x1 x2) n h s t := by
  have el : ∀ e : Fin 64, lidx_main_v9 (ix4 n h s t) e = ix4 n h s e := fun e => funext fun a => Fin.ext (by
    match a with
    | ⟨0, _⟩ => rfl
    | ⟨1, _⟩ => rfl
    | ⟨2, _⟩ => rfl
    | ⟨3, _⟩ => rfl)
  have er : ∀ e : Fin 64, ridx_main_v9 (ix4 n h s t) e = ix4 n h t e := fun e => funext fun a => Fin.ext (by
    match a with
    | ⟨0, _⟩ => rfl
    | ⟨1, _⟩ => rfl
    | ⟨2, _⟩ => rfl
    | ⟨3, _⟩ => rfl)
  rw [val_main_v11_apply, val_main_v9_apply, val_main_v10_apply, val_main_cst_apply]
  unfold score
  simp only [el, er, Ideal.mulf_def, Ideal.ofBits_def]

/-- The reduction of a score row by `max` from −∞, clamped below by −∞ once more, is the row's maximum:
    the fold runs over the last axis, whose coordinate is the key row. -/
theorem ref_rowMax (n : Fin 2) (h : Fin 16) (s : Fin 2048) :
    val_main_v14 (F := Ideal) x0 x1 x2 (ix3 n h s) = rowMax (val_main_v6 (F := Ideal) x0 x1 x2) (val_main_v7 (F := Ideal) x0 x1 x2) n h s := by
  have hr : S2x16x2048x2048.Reduces [3] S2x16x2048 := by decide
  have hl : ∀ t : Fin 2048, hr.lift (ix3 n h s) t = ix4 n h s t := fun t => funext fun c => Fin.ext (by
    match c with
    | ⟨0, _⟩ => rfl
    | ⟨1, _⟩ => rfl
    | ⟨2, _⟩ => rfl
    | ⟨3, _⟩ => rfl)
  have hf : (val_main_v11 (F := Ideal) x0 x1 x2 ∘ hr.lift (ix3 n h s))
      = fun t : Fin 2048 => score (val_main_v6 (F := Ideal) x0 x1 x2) (val_main_v7 (F := Ideal) x0 x1 x2) n h s t :=
    funext fun t : Fin 2048 =>
      (congrArg (val_main_v11 (F := Ideal) x0 x1 x2) (hl t)).trans (ref_score x0 x1 x2 n h s t)
  rw [val_main_v14_apply, val_main_v13_apply, val_main_cst_1_apply]
  unfold val_main_v12
  rw [Host.reduce_eq_fold_single FloatOps.maximumf _ _ reducesTo_S2x16x2048x2048_S2x16x2048_d3 hr h_S_, hf]
  rfl

/-- The exponential of a score less the row's maximum. -/
theorem ref_weight (n : Fin 2) (h : Fin 16) (s t : Fin 2048) :
    val_main_v18 (F := Ideal) x0 x1 x2 (ix4 n h s t)
      = Ideal.exp (score (val_main_v6 (F := Ideal) x0 x1 x2) (val_main_v7 (F := Ideal) x0 x1 x2) n h s t - rowMax (val_main_v6 (F := Ideal) x0 x1 x2) (val_main_v7 (F := Ideal) x0 x1 x2) n h s) := by
  have e16 : idx_main_v15 (idx_main_v16 (ix4 n h s t)) = ix3 n h s := funext fun a => Fin.ext (by
    match a with
    | ⟨0, _⟩ => rfl
    | ⟨1, _⟩ => rfl
    | ⟨2, _⟩ => rfl)
  rw [val_main_v18_apply, val_main_v17_apply, val_main_v16_apply, val_main_v15_apply, e16, ref_score, ref_rowMax]
  simp only [Ideal.hostUnary_exp_def, Ideal.subf_def]

/-- The sum of a row's weights, started from 0, is the row's normaliser. -/
theorem ref_rowSum (n : Fin 2) (h : Fin 16) (s : Fin 2048) :
    val_main_v19 (F := Ideal) x0 x1 x2 (ix3 n h s) = rowSum (val_main_v6 (F := Ideal) x0 x1 x2) (val_main_v7 (F := Ideal) x0 x1 x2) n h s := by
  have e19 : ∀ u : Fin 2048, idx_main_v19 (ix3 n h s) u = ix4 n h s u := fun u => funext fun a => Fin.ext (by
    match a with
    | ⟨0, _⟩ => rfl
    | ⟨1, _⟩ => rfl
    | ⟨2, _⟩ => rfl
    | ⟨3, _⟩ => rfl)
  rw [val_main_v19_apply, val_main_cst_2_apply]
  unfold rowSum
  simp only [e19, ref_weight, Ideal.ofBits_def]

/-- Operations 9 to 23 of the plain program — scores, their scaling, the row maximum, the exponentials, the row sum,
    the division and the product with the value slice — are softmax attention of the three slices. -/
theorem ref_attn : val_main_v23 (F := Ideal) x0 x1 x2 = attn (val_main_v6 (F := Ideal) x0 x1 x2) (val_main_v7 (F := Ideal) x0 x1 x2) (val_main_v8 (F := Ideal) x0 x1 x2) := by
  funext i
  obtain ⟨n, h, s, d, rfl⟩ : ∃ (n : Fin 2) (h : Fin 16) (s : Fin 2048) (d : Fin 64), i = ix4 n h s d :=
    ⟨i 0, i 1, i 2, i 3, eq_ix4 i⟩
  have el : ∀ t : Fin 2048, lidx_main_v23 (ix4 n h s d) t = ix4 n h s t := fun t => funext fun a => Fin.ext (by
    match a with
    | ⟨0, _⟩ => rfl
    | ⟨1, _⟩ => rfl
    | ⟨2, _⟩ => rfl
    | ⟨3, _⟩ => rfl)
  have er : ∀ t : Fin 2048, ridx_main_v23 (ix4 n h s d) t = ix4 n h t d := fun t => funext fun a => Fin.ext (by
    match a with
    | ⟨0, _⟩ => rfl
    | ⟨1, _⟩ => rfl
    | ⟨2, _⟩ => rfl
    | ⟨3, _⟩ => rfl)
  have e21 : ∀ t : Fin 2048, idx_main_v20 (idx_main_v21 (ix4 n h s t)) = ix3 n h s := fun t => funext fun a => Fin.ext (by
    match a with
    | ⟨0, _⟩ => rfl
    | ⟨1, _⟩ => rfl
    | ⟨2, _⟩ => rfl)
  rw [val_main_v23_apply, attn_apply]
  refine Finset.sum_congr rfl fun t _ => ?_
  rw [el t, er t, val_main_v22_apply, val_main_v21_apply, val_main_v20_apply, e21 t, ref_weight, ref_rowSum]
  simp only [Ideal.hostDivf_def]

end Attn

/-! ## The output projection -/

/-- Operations 25 to 29 — the cast of 16 heads of 64 columns to 1024 columns, the product with the output weight and the
    bias — are the output projection of the array of heads: flat column `j` is column `j % 64` of head `j / 64`. -/
theorem ref_outp (x0 : (⟨S2x2048x1024, .f32⟩ : BufTy).Contents (Elt Ideal)) (x1 : (⟨S3072x1024, .f32⟩ : BufTy).Contents (Elt Ideal))
    (x2 : (⟨S3072, .f32⟩ : BufTy).Contents (Elt Ideal)) (x3 : (⟨S1024x1024, .f32⟩ : BufTy).Contents (Elt Ideal))
    (x4 : (⟨S1024, .f32⟩ : BufTy).Contents (Elt Ideal)) :
    val_main_v29 (F := Ideal) x0 x1 x2 x3 x4 = outp (val_main_v24 (F := Ideal) x0 x1 x2) x3 x4 := by
  funext i
  obtain ⟨n, s, e, rfl⟩ : ∃ (n : Fin 2) (s : Fin 2048) (e : Fin 1024), i = ix3 n s e := ⟨i 0, i 1, i 2, eq_ix3 i⟩
  have el : ∀ j : Fin 1024, lidx_main_v26 (ix3 n s e) j = ix3 n s j := fun j => funext fun a => Fin.ext (by
    match a with
    | ⟨0, _⟩ => rfl
    | ⟨1, _⟩ => rfl
    | ⟨2, _⟩ => rfl)
  have er : ∀ j : Fin 1024, ridx_main_v26 (ix3 n s e) j = ix2 e j := fun j => funext fun a => Fin.ext (by
    match a with
    | ⟨0, _⟩ => rfl
    | ⟨1, _⟩ => rfl)
  have e25 : ∀ j : Fin 1024, idx_main_v25 (ix3 n s j) = ix4 n s (headOf j) (colOf j) := fun j => funext fun a => Fin.ext (by
    have := n.isLt; have := s.isLt; have := j.isLt
    match a with
    | ⟨0, _⟩ => show ((n.val * 2048 + s.val) * 1024 + j.val) / 2097152 = n.val; omega
    | ⟨1, _⟩ => show ((n.val * 2048 + s.val) * 1024 + j.val) / 1024 % 2048 = s.val; omega
    | ⟨2, _⟩ => show ((n.val * 2048 + s.val) * 1024 + j.val) / 64 % 16 = j.val / 64; omega
    | ⟨3, _⟩ => show ((n.val * 2048 + s.val) * 1024 + j.val) % 64 = j.val % 64; omega)
  have e27 : idx_main_v27 (idx_main_v28 (ix3 n s e)) = ix1 e := funext fun a => Fin.ext (by
    match a with
    | ⟨0, _⟩ => rfl)
  rw [val_main_v29_apply, val_main_v26_apply, val_main_v28_apply, val_main_v27_apply, e27, outp_apply]
  simp only [el, er, val_main_v25_apply, e25, Ideal.addf_def]

/-! ## The whole program -/

section Layer

variable (x0 : (⟨S2x2048x1024, .f32⟩ : BufTy).Contents (Elt Ideal)) (x1 : (⟨S3072x1024, .f32⟩ : BufTy).Contents (Elt Ideal))
  (x2 : (⟨S3072, .f32⟩ : BufTy).Contents (Elt Ideal)) (x3 : (⟨S1024x1024, .f32⟩ : BufTy).Contents (Elt Ideal))
  (x4 : (⟨S1024, .f32⟩ : BufTy).Contents (Elt Ideal))

/-- The array of heads is the projection with its two middle axes swapped. -/
theorem ref_toHeads : val_main_v5 (F := Ideal) x0 x1 x2
    = toHeads (val_main_v4 (F := Ideal) x0 x1 x2) transposes_S2x2048x16x192_S2x16x2048x192_0_2_1_3 := rfl
/-- The queries are its first 64 columns … -/
theorem ref_slice0 : val_main_v6 (F := Ideal) x0 x1 x2
    = slice0 (val_main_v5 (F := Ideal) x0 x1 x2) slices_S2x16x2048x192_S2x16x2048x64_0_0_0_0 := rfl
/-- … the keys the next 64 … -/
theorem ref_slice64 : val_main_v7 (F := Ideal) x0 x1 x2
    = slice64 (val_main_v5 (F := Ideal) x0 x1 x2) slices_S2x16x2048x192_S2x16x2048x64_0_0_0_64 := rfl
/-- … and the values the last 64. -/
theorem ref_slice128 : val_main_v8 (F := Ideal) x0 x1 x2
    = slice128 (val_main_v5 (F := Ideal) x0 x1 x2) slices_S2x16x2048x192_S2x16x2048x64_0_0_0_128 := rfl
/-- The attention output with positions before heads again. -/
theorem ref_fromHeads : val_main_v24 (F := Ideal) x0 x1 x2
    = fromHeads (val_main_v23 (F := Ideal) x0 x1 x2) transposes_S2x16x2048x64_S2x2048x16x64_0_2_1_3 := rfl

/-- The plain program's last stage is the layer of its five arguments. -/
theorem ref_layer : val_main_v29 (F := Ideal) x0 x1 x2 x3 x4
    = layer x0 x1 x2 x3 x4 transposes_S2x2048x16x192_S2x16x2048x192_0_2_1_3 slices_S2x16x2048x192_S2x16x2048x64_0_0_0_0
        slices_S2x16x2048x192_S2x16x2048x64_0_0_0_64 slices_S2x16x2048x192_S2x16x2048x64_0_0_0_128
        transposes_S2x16x2048x64_S2x2048x16x64_0_2_1_3 := by
  rw [ref_outp, ref_fromHeads, ref_attn, ref_slice0, ref_slice64, ref_slice128, ref_toHeads, ref_proj]
  rfl

end Layer

/-- What the plain program's run leaves in its result buffer: the layer of the five argument arrays as the run found them. -/
theorem ref_result (m : (ℓ : Loc nD τ sig) → Buf (Elt Ideal) ℓ) (c : Dev nD) :
    Cert.ReferenceIdeal.Value.res_main_v29 m c
      = layer (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) transposes_S2x2048x16x192_S2x16x2048x192_0_2_1_3
          slices_S2x16x2048x192_S2x16x2048x64_0_0_0_0 slices_S2x16x2048x192_S2x16x2048x64_0_0_0_64
          slices_S2x16x2048x192_S2x16x2048x64_0_0_0_128 transposes_S2x16x2048x64_S2x2048x16x64_0_2_1_3 := by
  rw [val_main_v29_eq]
  exact ref_layer _ _ _ _ _

end Cert.RefStages

end
-- ==== Proof.IRunEntries.lean ====
/-
  What each kernel region is entered with, as values: every array a region reads is the term its stretch of tensor
  operations computes from the arrays before it. The first projection reads the reshaped input, the transposed weight and
  the reshaped bias; the attention reads three slices of the first projection's output regrouped by head; the second
  projection reads the attention's output regrouped back, the transposed second weight and the reshaped second bias.
  An argument read at any boundary is the launch memory's: nothing writes an argument.
-/
import proofs.«174977_j37177236914546_2_alg».proof.Proof.IRun

set_option maxRecDepth 16384

noncomputable section

namespace Cert.KernelIdeal.Run

open Cert.KernelIdeal Cert.KernelIdeal.Gen
open Idealize.ShloMosaic Idealize.ShloMosaic.TcCoe Idealize.ShloMosaic.Tactic
open Idealize.ShloMosaic.StableHlo (after_cons after_nil)
open Idealize.ShloMosaic.Pipeline (Dat Cfg)

variable {F : FTy → Type} [FloatOps F]

variable (At : AttnAcct (F := F)) (m : (ℓ : Loc nD τ sig) → Buf (Elt F) ℓ)

/-! ## The regions' output arrays, by name -/

/-- The first projection's output array after all its points. -/
theorem W2_main_v3 (c : Dev nD) : W2 m c (Proc.devRef .tc main_v3) = (Lin0.dat (ent0 m) c).arrAt 3 cfg0.N :=
  W2_arr m c 3
/-- The attention's output array after all its points. -/
theorem W4_main_v12 (c : Dev nD) : W4 At m c (Proc.devRef .tc main_v12) = (At.dat (ent1 m) c).arrAt 3 cfg1.N :=
  W4_arr At m c 3

/-! ## An argument read after the attention is the launch memory's -/

theorem W4_launch (c : Dev nD) (r : Ref sig .tc) (h0 : r ∉ hostOps0_W) (h1 : r ∉ hostOps1_W)
    (a0 : ∀ w, Pipeline.arrRef spec0 w ≠ r) (a1 : ∀ w, Pipeline.arrRef spec1 w ≠ r) :
    W4 At m c (Proc.devRef .tc r) = m ((c : Thread nD τ).loc r) :=
  calc W4 At m c (Proc.devRef .tc r)
    _ = W3 m c (Proc.devRef .tc r) := W4_off At m c r a1
    _ = W2 m c (Proc.devRef .tc r) := StableHlo.after_of_writes_sub hostOps1 _ hostOps1_writes h1
    _ = W1 m c (Proc.devRef .tc r) := W2_off m c r a0
    _ = W0 m c (Proc.devRef .tc r) := StableHlo.after_of_writes_sub hostOps0 _ hostOps0_writes h0
    _ = m ((c : Thread nD τ).loc r) := rfl

theorem W4_main_arg3 (c : Dev nD) : W4 At m c (Proc.devRef .tc main_arg3) = m ((c : Thread nD τ).loc main_arg3) :=
  W4_launch At m c main_arg3 (by decide) (by decide) (by decide) (by decide)
theorem W4_main_arg4 (c : Dev nD) : W4 At m c (Proc.devRef .tc main_arg4) = m ((c : Thread nD τ).loc main_arg4) :=
  W4_launch At m c main_arg4 (by decide) (by decide) (by decide) (by decide)

/-! ## The first projection's three operands -/

/-- The rows: the input with its two leading axes merged. -/
theorem ent0_main_v0 (c : Dev nD) : ent0 m c main_v0
    = shapeCast S4096x1024 (s := S2x2048x1024) (m ((c : Thread nD τ).loc main_arg0)) shapeCasts_S2x2048x1024_S4096x1024 := by
  show StableHlo.after hostOps0 (W0 m c) (Proc.devRef .tc main_v0) = _
  after_results
  try rfl

/-- The weight, transposed. -/
theorem ent0_main_v1 (c : Dev nD) : ent0 m c main_v1
    = transpose S1024x3072 (s := S3072x1024) [1, 0] (m ((c : Thread nD τ).loc main_arg1)) transposes_S3072x1024_S1024x3072_1_0 := by
  show StableHlo.after hostOps0 (W0 m c) (Proc.devRef .tc main_v1) = _
  after_results
  try rfl

/-- The bias, as a single row. -/
theorem ent0_main_v2 (c : Dev nD) : ent0 m c main_v2
    = shapeCast S1x3072 (s := S3072) (m ((c : Thread nD τ).loc main_arg2)) shapeCasts_S3072_S1x3072 := by
  show StableHlo.after hostOps0 (W0 m c) (Proc.devRef .tc main_v2) = _
  after_results
  try rfl

/-! ## The attention's three operands: the first projection's output split by head, then its three 64-column slices -/

theorem ent1_main_v9 (c : Dev nD) : ent1 m c main_v9
    = shapeCast S32x2048x64 (s := S2x16x2048x64)
        (extractStridedSlice S2x16x2048x64 (s := S2x16x2048x192) ![0, 0, 0, 0]
          (transpose S2x16x2048x192 (s := S2x2048x16x192) [0, 2, 1, 3]
            (shapeCast S2x2048x16x192 (s := S4096x3072) ((Lin0.dat (ent0 m) c).arrAt 3 cfg0.N) shapeCasts_S4096x3072_S2x2048x16x192)
            transposes_S2x2048x16x192_S2x16x2048x192_0_2_1_3)
          slices_S2x16x2048x192_S2x16x2048x64_0_0_0_0)
        shapeCasts_S2x16x2048x64_S32x2048x64 := by
  show StableHlo.after hostOps1 (W2 m c) (Proc.devRef .tc main_v9) = _
  after_results
  rw [W2_main_v3]
  try rfl

theorem ent1_main_v10 (c : Dev nD) : ent1 m c main_v10
    = shapeCast S32x2048x64 (s := S2x16x2048x64)
        (extractStridedSlice S2x16x2048x64 (s := S2x16x2048x192) ![0, 0, 0, 64]
          (transpose S2x16x2048x192 (s := S2x2048x16x192) [0, 2, 1, 3]
            (shapeCast S2x2048x16x192 (s := S4096x3072) ((Lin0.dat (ent0 m) c).arrAt 3 cfg0.N) shapeCasts_S4096x3072_S2x2048x16x192)
            transposes_S2x2048x16x192_S2x16x2048x192_0_2_1_3)
          slices_S2x16x2048x192_S2x16x2048x64_0_0_0_64)
        shapeCasts_S2x16x2048x64_S32x2048x64 := by
  show StableHlo.after hostOps1 (W2 m c) (Proc.devRef .tc main_v10) = _
  after_results
  rw [W2_main_v3]
  try rfl

theorem ent1_main_v11 (c : Dev nD) : ent1 m c main_v11
    = shapeCast S32x2048x64 (s := S2x16x2048x64)
        (extractStridedSlice S2x16x2048x64 (s := S2x16x2048x192) ![0, 0, 0, 128]
          (transpose S2x16x2048x192 (s := S2x2048x16x192) [0, 2, 1, 3]
            (shapeCast S2x2048x16x192 (s := S4096x3072) ((Lin0.dat (ent0 m) c).arrAt 3 cfg0.N) shapeCasts_S4096x3072_S2x2048x16x192)
            transposes_S2x2048x16x192_S2x16x2048x192_0_2_1_3)
          slices_S2x16x2048x192_S2x16x2048x64_0_0_0_128)
        shapeCasts_S2x16x2048x64_S32x2048x64 := by
  show StableHlo.after hostOps1 (W2 m c) (Proc.devRef .tc main_v11) = _
  after_results
  rw [W2_main_v3]
  try rfl

/-! ## The second projection's three operands -/

/-- The rows: the attention's output regrouped from head-major back to position-major, heads merged into columns. -/
theorem ent2_main_v15 (c : Dev nD) : ent2 At m c main_v15
    = shapeCast S4096x1024 (s := S2x2048x16x64)
        (transpose S2x2048x16x64 (s := S2x16x2048x64) [0, 2, 1, 3]
          (shapeCast S2x16x2048x64 (s := S32x2048x64) ((At.dat (ent1 m) c).arrAt 3 cfg1.N) shapeCasts_S32x2048x64_S2x16x2048x64)
          transposes_S2x16x2048x64_S2x2048x16x64_0_2_1_3)
        shapeCasts_S2x2048x16x64_S4096x1024 := by
  show StableHlo.after hostOps2 (W4 At m c) (Proc.devRef .tc main_v15) = _
  after_results
  rw [W4_main_v12]
  try rfl

/-- The second weight, transposed. -/
theorem ent2_main_v16 (c : Dev nD) : ent2 At m c main_v16
    = transpose S1024x1024 (s := S1024x1024) [1, 0] (m ((c : Thread nD τ).loc main_arg3)) transposes_S1024x1024_S1024x1024_1_0 := by
  show StableHlo.after hostOps2 (W4 At m c) (Proc.devRef .tc main_v16) = _
  after_results
  rw [W4_main_arg3]
  try rfl

/-- The second bias, as a single row. -/
theorem ent2_main_v17 (c : Dev nD) : ent2 At m c main_v17
    = shapeCast S1x1024 (s := S1024) (m ((c : Thread nD τ).loc main_arg4)) shapeCasts_S1024_S1x1024 := by
  show StableHlo.after hostOps2 (W4 At m c) (Proc.devRef .tc main_v17) = _
  after_results
  rw [W4_main_arg4]
  try rfl

end Cert.KernelIdeal.Run

end
-- ==== Proof.KernelGlue.lean ====
/-
  The re-layings a blockwise program puts around its three stages, read at an index.

  Such a program computes the two projections as plain matrix products over flattened positions — row `n·2048 + s` of
  4096 is position (n, s); the weight is used transposed; the bias is a one-row matrix — and runs attention over the
  32 (batch, head) pairs flattened, pair `n·16 + h`. Row-major order makes each of these a re-reading of the same
  entries: column `h·192 + j` of 3072 is entry (h, j) of [16, 192], column `j` of 1024 is entry (j / 64, j % 64) of
  [16, 64]. So a [4096, 3072] matrix whose entries are the products above, cast to [2, 2048, 16, 192], is the
  specification's projection (`glue_proj`), a [4096, 1024] one cast to [2, 2048, 1024] its output projection
  (`glue_outp`), and the casts between [2, 16, 2048, 64] and [32, 2048, 64] move entry (n, h, s, d) to (n·16 + h, s, d)
  and back.
-/
import proofs.«174977_j37177236914546_2_alg».proof.Proof.AttnSpec
import Idealize.ShloMosaic.Lib.Pipeline.Value
import Idealize.ShloMosaic.Lib.ValueIdx

noncomputable section

open scoped BigOperators

namespace Cert.KernelGlue

open Idealize.ShloMosaic Idealize.ShloMosaic.ValueIdx Cert.AttnSpec

/-- Position (n, s) among the 4096 flattened positions. -/
abbrev rowOf (n : Fin 2) (s : Fin 2048) : Fin 4096 := ⟨n.val * 2048 + s.val, by have := n.isLt; have := s.isLt; omega⟩

/-- The pair (n, h) among the 32 flattened (batch, head) pairs. -/
abbrev bhOf (n : Fin 2) (h : Fin 16) : Fin 32 := ⟨n.val * 16 + h.val, by have := n.isLt; have := h.isLt; omega⟩

/-- Every flattened position is `rowOf` of its quotient and remainder by 2048. -/
theorem row_eq (r : Fin 4096) :
    r = rowOf ⟨r.val / 2048, by have := r.isLt; omega⟩ ⟨r.val % 2048, by omega⟩ :=
  Fin.ext (by show r.val = r.val / 2048 * 2048 + r.val % 2048; omega)

/-- Every flattened pair is `bhOf` of its quotient and remainder by 16. -/
theorem bh_eq (bh : Fin 32) :
    bh = bhOf ⟨bh.val / 16, by have := bh.isLt; omega⟩ ⟨bh.val % 16, by omega⟩ :=
  Fin.ext (by show bh.val = bh.val / 16 * 16 + bh.val % 16; omega)

/-! ## The fused projection as a matrix product over flattened positions -/

/-- A [4096, 3072] matrix whose entry (r, e) is row `r` of the flattened input against column `e` of the transposed
    weight plus entry `e` of the bias row, cast to [2, 2048, 16, 192], is the projection split into heads. -/
theorem glue_proj (y : (⟨3, ![2, 2048, 1024]⟩ : Shape).Idx → EReal) (W : (⟨2, ![3072, 1024]⟩ : Shape).Idx → EReal)
    (b : (⟨1, ![3072]⟩ : Shape).Idx → EReal) (M : (⟨2, ![4096, 3072]⟩ : Shape).Idx → EReal)
    (h0 : (⟨3, ![2, 2048, 1024]⟩ : Shape).ShapeCasts ⟨2, ![4096, 1024]⟩)
    (hT : (⟨2, ![3072, 1024]⟩ : Shape).Transposes [1, 0] ⟨2, ![1024, 3072]⟩)
    (hb : (⟨1, ![3072]⟩ : Shape).ShapeCasts ⟨2, ![1, 3072]⟩)
    (h : (⟨2, ![4096, 3072]⟩ : Shape).ShapeCasts ⟨4, ![2, 2048, 16, 192]⟩)
    (hM : ∀ (r : Fin 4096) (e : Fin 3072), M (ix2 r e)
      = (∑ d : Fin 1024, (shapeCast ⟨2, ![4096, 1024]⟩ y h0) (ix2 r d) * (transpose ⟨2, ![1024, 3072]⟩ [1, 0] W hT) (ix2 d e))
        + (shapeCast ⟨2, ![1, 3072]⟩ b hb) (ix2 0 e)) :
    shapeCast ⟨4, ![2, 2048, 16, 192]⟩ M h = proj y W b := by
  funext i
  obtain ⟨n, s, hh, j, rfl⟩ : ∃ (n : Fin 2) (s : Fin 2048) (hh : Fin 16) (j : Fin 192), i = ix4 n s hh j :=
    ⟨i 0, i 1, i 2, i 3, eq_ix4 i⟩
  have hy : ∀ d : Fin 1024, shapeCast ⟨2, ![4096, 1024]⟩ y h0 (ix2 (rowOf n s) d) = y (ix3 n s d) := fun d =>
    shapeCast_apply y h0 (ix2 (rowOf n s) d) (ix3 n s d) (by
      rw [Shape.rowMajor_val_three, Shape.rowMajor_val_two]
      show (n.val * 2048 + s.val) * 1024 + d.val = (n.val * 2048 + s.val) * 1024 + d.val
      rfl)
  have hW : ∀ (d : Fin 1024) (e : Fin 3072), transpose ⟨2, ![1024, 3072]⟩ [1, 0] W hT (ix2 d e) = W (ix2 e d) := fun d e =>
    transpose_apply [1, 0] W hT (ix2 d e) (ix2 e d) (fun a => match a with
      | ⟨0, _⟩ => rfl
      | ⟨1, _⟩ => rfl)
  have hbias : ∀ e : Fin 3072, shapeCast ⟨2, ![1, 3072]⟩ b hb (ix2 0 e) = b (ix1 e) := fun e =>
    shapeCast_apply b hb (ix2 0 e) (ix1 e) (by
      rw [Shape.rowMajor_val_one, Shape.rowMajor_val_two]
      show e.val = 0 * 3072 + e.val
      omega)
  rw [shapeCast_apply M h (ix4 n s hh j) (ix2 (rowOf n s) (row192 hh j)) (by
      rw [Shape.rowMajor_val_two, Shape.rowMajor_val_four]
      show (n.val * 2048 + s.val) * 3072 + (hh.val * 192 + j.val) = ((n.val * 2048 + s.val) * 16 + hh.val) * 192 + j.val
      omega), hM, proj_apply, hbias]
  simp only [hy, hW]

/-! ## The (batch, head) pairs flattened and unflattened -/

/-- The cast of [2, 16, 2048, 64] to [32, 2048, 64]: entry (n·16 + h, s, d) is entry (n, h, s, d). -/
theorem shapeCast_pairs_apply {α : Type} (x : (⟨4, ![2, 16, 2048, 64]⟩ : Shape).Idx → α)
    (h : (⟨4, ![2, 16, 2048, 64]⟩ : Shape).ShapeCasts ⟨3, ![32, 2048, 64]⟩) (n : Fin 2) (h' : Fin 16) (s : Fin 2048) (d : Fin 64) :
    shapeCast ⟨3, ![32, 2048, 64]⟩ x h (ix3 (bhOf n h') s d) = x (ix4 n h' s d) :=
  shapeCast_apply x h (ix3 (bhOf n h') s d) (ix4 n h' s d) (by
    rw [Shape.rowMajor_val_four, Shape.rowMajor_val_three]
    show ((n.val * 16 + h'.val) * 2048 + s.val) * 64 + d.val = ((n.val * 16 + h'.val) * 2048 + s.val) * 64 + d.val
    rfl)

/-- The cast back of [32, 2048, 64] to [2, 16, 2048, 64]: entry (n, h, s, d) is entry (n·16 + h, s, d). -/
theorem shapeCast_unpairs_apply {α : Type} (O : (⟨3, ![32, 2048, 64]⟩ : Shape).Idx → α)
    (h : (⟨3, ![32, 2048, 64]⟩ : Shape).ShapeCasts ⟨4, ![2, 16, 2048, 64]⟩) (n : Fin 2) (h' : Fin 16) (s : Fin 2048) (d : Fin 64) :
    shapeCast ⟨4, ![2, 16, 2048, 64]⟩ O h (ix4 n h' s d) = O (ix3 (bhOf n h') s d) :=
  shapeCast_apply O h (ix4 n h' s d) (ix3 (bhOf n h') s d) (by
    rw [Shape.rowMajor_val_three, Shape.rowMajor_val_four]
    show ((n.val * 16 + h'.val) * 2048 + s.val) * 64 + d.val = ((n.val * 16 + h'.val) * 2048 + s.val) * 64 + d.val
    rfl)

/-! ## The output projection as a matrix product over flattened positions -/

/-- A [4096, 1024] matrix whose entry (r, e) is row `r` of the flattened heads against column `e` of the transposed
    output weight plus entry `e` of the bias row, cast to [2, 2048, 1024], is the output projection. -/
theorem glue_outp (a : (⟨4, ![2, 2048, 16, 64]⟩ : Shape).Idx → EReal) (Wo : (⟨2, ![1024, 1024]⟩ : Shape).Idx → EReal)
    (bo : (⟨1, ![1024]⟩ : Shape).Idx → EReal) (M : (⟨2, ![4096, 1024]⟩ : Shape).Idx → EReal)
    (h0 : (⟨4, ![2, 2048, 16, 64]⟩ : Shape).ShapeCasts ⟨2, ![4096, 1024]⟩)
    (hT : (⟨2, ![1024, 1024]⟩ : Shape).Transposes [1, 0] ⟨2, ![1024, 1024]⟩)
    (hb : (⟨1, ![1024]⟩ : Shape).ShapeCasts ⟨2, ![1, 1024]⟩)
    (h : (⟨2, ![4096, 1024]⟩ : Shape).ShapeCasts ⟨3, ![2, 2048, 1024]⟩)
    (hM : ∀ (r : Fin 4096) (e : Fin 1024), M (ix2 r e)
      = (∑ j : Fin 1024, (shapeCast ⟨2, ![4096, 1024]⟩ a h0) (ix2 r j) * (transpose ⟨2, ![1024, 1024]⟩ [1, 0] Wo hT) (ix2 j e))
        + (shapeCast ⟨2, ![1, 1024]⟩ bo hb) (ix2 0 e)) :
    shapeCast ⟨3, ![2, 2048, 1024]⟩ M h = outp a Wo bo := by
  funext i
  obtain ⟨n, s, e, rfl⟩ : ∃ (n : Fin 2) (s : Fin 2048) (e : Fin 1024), i = ix3 n s e := ⟨i 0, i 1, i 2, eq_ix3 i⟩
  have ha : ∀ j : Fin 1024, shapeCast ⟨2, ![4096, 1024]⟩ a h0 (ix2 (rowOf n s) j) = a (ix4 n s (headOf j) (colOf j)) := fun j =>
    shapeCast_apply a h0 (ix2 (rowOf n s) j) (ix4 n s (headOf j) (colOf j)) (by
      rw [Shape.rowMajor_val_four, Shape.rowMajor_val_two]
      show ((n.val * 2048 + s.val) * 16 + j.val / 64) * 64 + j.val % 64 = (n.val * 2048 + s.val) * 1024 + j.val
      omega)
  have hW : ∀ (j e : Fin 1024), transpose ⟨2, ![1024, 1024]⟩ [1, 0] Wo hT (ix2 j e) = Wo (ix2 e j) := fun j e =>
    transpose_apply [1, 0] Wo hT (ix2 j e) (ix2 e j) (fun c => match c with
      | ⟨0, _⟩ => rfl
      | ⟨1, _⟩ => rfl)
  have hbias : ∀ e : Fin 1024, shapeCast ⟨2, ![1, 1024]⟩ bo hb (ix2 0 e) = bo (ix1 e) := fun e =>
    shapeCast_apply bo hb (ix2 0 e) (ix1 e) (by
      rw [Shape.rowMajor_val_one, Shape.rowMajor_val_two]
      show e.val = 0 * 1024 + e.val
      omega)
  rw [shapeCast_apply M h (ix3 n s e) (ix2 (rowOf n s) e) (by
      rw [Shape.rowMajor_val_two, Shape.rowMajor_val_three]
      show (n.val * 2048 + s.val) * 1024 + e.val = (n.val * 2048 + s.val) * 1024 + e.val
      rfl), hM, outp_apply, hbias]
  simp only [ha, hW]

end Cert.KernelGlue

end
-- ==== Proof.LibFinite.lean ====
/-
  Real-valued entries of extended-real arrays.

  The ideal reading of a float program computes on the extended reals, where algebraic laws
  such as a * (b - c) = a * b - a * c fail at the infinities. This file states when an
  extended real is a real number (IsReal), a real number that is not negative (IsNonneg) or
  a positive real number (IsPos), shows that these are kept by the arithmetic of the ideal
  instance, and lifts them to arrays: every elementwise, layout, gather, scatter-add,
  reduce-add, dot-product, quotient and reciprocal-square-root operation of the host maps
  arrays of real numbers to arrays of real numbers, under the side conditions stated.
-/
import Idealize.ShloMosaic.PureOps.Ideal.Laws
import Idealize.ShloMosaic.Lib.IdealHost

namespace Cert.LibFinite

open Idealize.ShloMosaic
open scoped BigOperators

/-! ## Scalars -/

/-- An extended real that is a real number: neither infinity. -/
def IsReal (x : EReal) : Prop := ∃ r : ℝ, x = (r : EReal)

/-- An extended real that is a real number and not negative. -/
def IsNonneg (x : EReal) : Prop := ∃ r : ℝ, 0 ≤ r ∧ x = (r : EReal)

/-- An extended real that is a positive real number. -/
def IsPos (x : EReal) : Prop := ∃ r : ℝ, 0 < r ∧ x = (r : EReal)

/-- A real number, read as an extended real, is a real number. -/
theorem isReal_coe (r : ℝ) : IsReal (r : EReal) := ⟨r, rfl⟩

/-- Zero is a real number. -/
theorem isReal_zero : IsReal 0 := ⟨0, rfl⟩

/-- One is a real number. -/
theorem isReal_one : IsReal 1 := ⟨1, rfl⟩

/-- A real number is not the upper infinity. -/
theorem IsReal.ne_top {x : EReal} (h : IsReal x) : x ≠ ⊤ := by
  obtain ⟨r, rfl⟩ := h; exact EReal.coe_ne_top r

/-- A real number is not the lower infinity. -/
theorem IsReal.ne_bot {x : EReal} (h : IsReal x) : x ≠ ⊥ := by
  obtain ⟨r, rfl⟩ := h; exact EReal.coe_ne_bot r

/-- An extended real that is neither infinity is a real number. -/
theorem isReal_of_ne {x : EReal} (hb : x ≠ ⊥) (ht : x ≠ ⊤) : IsReal x := by
  induction x using EReal.rec with
  | bot => exact absurd rfl hb
  | coe r => exact ⟨r, rfl⟩
  | top => exact absurd rfl ht

/-- Being a real number is being neither infinity. -/
theorem isReal_iff {x : EReal} : IsReal x ↔ x ≠ ⊥ ∧ x ≠ ⊤ :=
  ⟨fun h => ⟨h.ne_bot, h.ne_top⟩, fun h => isReal_of_ne h.1 h.2⟩

/-- A real number that is not negative is a real number. -/
theorem IsNonneg.isReal {x : EReal} (h : IsNonneg x) : IsReal x := by
  obtain ⟨r, _, rfl⟩ := h; exact ⟨r, rfl⟩

/-- A positive real number is not negative. -/
theorem IsPos.isNonneg {x : EReal} (h : IsPos x) : IsNonneg x := by
  obtain ⟨r, hr, rfl⟩ := h; exact ⟨r, hr.le, rfl⟩

/-- A positive real number is a real number. -/
theorem IsPos.isReal {x : EReal} (h : IsPos x) : IsReal x := h.isNonneg.isReal

/-- A real number that is not negative is at least zero in the order of the extended reals. -/
theorem IsNonneg.nonneg {x : EReal} (h : IsNonneg x) : 0 ≤ x := by
  obtain ⟨r, hr, rfl⟩ := h; exact EReal.coe_nonneg.2 hr

/-- A positive real number is above zero in the order of the extended reals. -/
theorem IsPos.pos {x : EReal} (h : IsPos x) : 0 < x := by
  obtain ⟨r, hr, rfl⟩ := h; exact EReal.coe_pos.2 hr

/-- A positive real number is not zero. -/
theorem IsPos.ne_zero {x : EReal} (h : IsPos x) : x ≠ 0 := h.pos.ne'

/-- A real number above zero in the order of the extended reals is a positive real number. -/
theorem IsReal.isPos {x : EReal} (h : IsReal x) (hx : 0 < x) : IsPos x := by
  obtain ⟨r, rfl⟩ := h; exact ⟨r, EReal.coe_pos.1 hx, rfl⟩

/-- A real number at least zero in the order of the extended reals is a real number that is not negative. -/
theorem IsReal.isNonneg {x : EReal} (h : IsReal x) (hx : 0 ≤ x) : IsNonneg x := by
  obtain ⟨r, rfl⟩ := h; exact ⟨r, EReal.coe_nonneg.1 hx, rfl⟩

/-- Zero is a real number that is not negative. -/
theorem isNonneg_zero : IsNonneg 0 := ⟨0, le_rfl, rfl⟩

/-- One is a positive real number. -/
theorem isPos_one : IsPos 1 := ⟨1, one_pos, rfl⟩

/-- The sum of two real numbers is a real number. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- The negative of a real number is a real number. -/
theorem IsReal.neg {x : EReal} (hx : IsReal x) : IsReal (-x) := by
  obtain ⟨a, rfl⟩ := hx; exact ⟨-a, (EReal.coe_neg a).symm⟩

/-- The difference of two real numbers is a real number. -/
theorem IsReal.sub {x y : EReal} (hx : IsReal x) (hy : IsReal y) : IsReal (x - y) := by
  obtain ⟨a, rfl⟩ := hx; obtain ⟨b, rfl⟩ := hy; exact ⟨a - b, (EReal.coe_sub a b).symm⟩

/-- The product of two real numbers is a real number. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The greater of two real numbers is a real number. -/
theorem IsReal.max {x y : EReal} (hx : IsReal x) (hy : IsReal y) : IsReal (Max.max x y) := by
  rcases max_choice x y with h | h <;> rw [h] <;> assumption

/-- The lesser of two real numbers is a real number. -/
theorem IsReal.min {x y : EReal} (hx : IsReal x) (hy : IsReal y) : IsReal (Min.min x y) := by
  rcases min_choice x y with h | h <;> rw [h] <;> assumption

/-- The greater of a real number and a real number that is not negative is not negative. -/
theorem IsReal.max_nonneg {x y : EReal} (hx : IsReal x) (hy : IsNonneg y) : IsNonneg (Max.max x y) :=
  (IsReal.max hx hy.isReal).isNonneg (le_trans hy.nonneg (le_max_right x y))

/-- A finite sum of real numbers is a real number. -/
theorem isReal_sum {ι : Type} (s : Finset ι) (f : ι → EReal) (h : ∀ i ∈ s, IsReal (f i)) :
    IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

/-- The sum of two real numbers that are not negative is not negative. -/
theorem IsNonneg.add {x y : EReal} (hx : IsNonneg x) (hy : IsNonneg y) : IsNonneg (x + y) :=
  (hx.isReal.add hy.isReal).isNonneg (add_nonneg hx.nonneg hy.nonneg)

/-- A real number that is not negative plus a positive real number is a positive real number. -/
theorem IsNonneg.add_pos {x y : EReal} (hx : IsNonneg x) (hy : IsPos y) : IsPos (x + y) := by
  obtain ⟨a, ha, rfl⟩ := hx; obtain ⟨b, hb, rfl⟩ := hy
  exact ⟨a + b, by linarith, (EReal.coe_add a b).symm⟩

/-- The product of two real numbers that are not negative is not negative. -/
theorem IsNonneg.mul {x y : EReal} (hx : IsNonneg x) (hy : IsNonneg y) : IsNonneg (x * y) := by
  obtain ⟨a, ha, rfl⟩ := hx; obtain ⟨b, hb, rfl⟩ := hy
  exact ⟨a * b, mul_nonneg ha hb, (EReal.coe_mul a b).symm⟩

/-- The product of two positive real numbers is a positive real number. -/
theorem IsPos.mul {x y : EReal} (hx : IsPos x) (hy : IsPos y) : IsPos (x * y) := by
  obtain ⟨a, ha, rfl⟩ := hx; obtain ⟨b, hb, rfl⟩ := hy
  exact ⟨a * b, mul_pos ha hb, (EReal.coe_mul a b).symm⟩

/-- The square of a real number is a real number that is not negative. -/
theorem IsReal.mul_self {x : EReal} (hx : IsReal x) : IsNonneg (x * x) := by
  obtain ⟨a, rfl⟩ := hx; exact ⟨a * a, mul_self_nonneg a, (EReal.coe_mul a a).symm⟩

/-- A finite sum of real numbers that are not negative is a real number that is not negative. -/
theorem isNonneg_sum {ι : Type} (s : Finset ι) (f : ι → EReal) (h : ∀ i ∈ s, IsNonneg (f i)) :
    IsNonneg (∑ i ∈ s, f i) :=
  (isReal_sum s f fun i hi => (h i hi).isReal).isNonneg (Finset.sum_nonneg fun i hi => (h i hi).nonneg)

/-- The ideal quotient of a real number by a real number that is not zero is a real number. -/
theorem IsReal.div {x y : EReal} (hx : IsReal x) (hy : IsReal y) (h0 : y ≠ 0) : IsReal (Ideal.div x y) := by
  obtain ⟨a, rfl⟩ := hx; obtain ⟨b, rfl⟩ := hy
  have hb : b ≠ 0 := fun e => h0 (by rw [e]; rfl)
  rw [Ideal.div_coe hb]; exact (isReal_coe a).mul (isReal_coe _)

/-- The ideal quotient of a real number that is not negative by a positive real number is not negative. -/
theorem IsNonneg.div {x y : EReal} (hx : IsNonneg x) (hy : IsPos y) : IsNonneg (Ideal.div x y) := by
  obtain ⟨a, ha, rfl⟩ := hx; obtain ⟨b, hb, rfl⟩ := hy
  rw [Ideal.div_coe hb.ne']
  exact IsNonneg.mul ⟨a, ha, rfl⟩ ⟨1 / b, by positivity, rfl⟩

/-- The ideal quotient of two positive real numbers is a positive real number. -/
theorem IsPos.div {x y : EReal} (hx : IsPos x) (hy : IsPos y) : IsPos (Ideal.div x y) := by
  obtain ⟨a, ha, rfl⟩ := hx; obtain ⟨b, hb, rfl⟩ := hy
  rw [Ideal.div_coe hb.ne']
  exact IsPos.mul ⟨a, ha, rfl⟩ ⟨1 / b, by positivity, rfl⟩

/-- The ideal reciprocal square root of a positive real number is a positive real number. -/
theorem IsPos.rsqrt {x : EReal} (hx : IsPos x) : IsPos (Ideal.rsqrt x) := by
  obtain ⟨a, ha, rfl⟩ := hx
  rw [Ideal.rsqrt_coe, if_neg (not_lt.2 ha.le), if_neg ha.ne']
  exact ⟨(Real.sqrt a)⁻¹, inv_pos.2 (Real.sqrt_pos.2 ha), rfl⟩

/-- The affine form of a normalisation: over the real numbers, scaling the centred value and shifting is
    one multiplication and one addition. It fails at the infinities, hence the hypotheses. -/
theorem scale_shift_eq {g h m s b : EReal} (hg : IsReal g) (hh : IsReal h) (hm : IsReal m) (hs : IsReal s)
    (hb : IsReal b) : g * (h - m) * s + b = h * (g * s) + (b - (g * m) * s) := by
  obtain ⟨g, rfl⟩ := hg; obtain ⟨h, rfl⟩ := hh; obtain ⟨m, rfl⟩ := hm; obtain ⟨s, rfl⟩ := hs
  obtain ⟨b, rfl⟩ := hb
  simp only [← EReal.coe_sub, ← EReal.coe_mul, ← EReal.coe_add]
  exact congrArg _ (by ring)

/-! ## Arrays -/

/-- Every entry of a family of extended reals has the property P. -/
def All {ι : Type} (P : EReal → Prop) (f : ι → EReal) : Prop := ∀ i, P (f i)

/-- Every entry of the family is a real number. -/
abbrev AllReal {ι : Type} (f : ι → EReal) : Prop := All IsReal f

/-- Every entry of the family is a real number that is not negative. -/
abbrev AllNonneg {ι : Type} (f : ι → EReal) : Prop := All IsNonneg f

/-- Every entry of the family is a positive real number. -/
abbrev AllPos {ι : Type} (f : ι → EReal) : Prop := All IsPos f

/-- A property that implies another, entry by entry. -/
theorem All.mono {ι : Type} {P Q : EReal → Prop} (h : ∀ x, P x → Q x) {f : ι → EReal} (hf : All P f) : All Q f :=
  fun i => h _ (hf i)

/-- Positive real entries are real entries. -/
theorem allReal_of_allPos {ι : Type} {f : ι → EReal} (hf : AllPos f) : AllReal f := hf.mono fun _ => IsPos.isReal

/-- Real entries that are not negative are real entries. -/
theorem allReal_of_allNonneg {ι : Type} {f : ι → EReal} (hf : AllNonneg f) : AllReal f :=
  hf.mono fun _ => IsNonneg.isReal

/-- Positive real entries are not negative. -/
theorem allNonneg_of_allPos {ι : Type} {f : ι → EReal} (hf : AllPos f) : AllNonneg f :=
  hf.mono fun _ => IsPos.isNonneg

/-- Reading a family through any map of indices keeps a property of all its entries. -/
theorem All.comp {ι κ : Type} {P : EReal → Prop} {f : ι → EReal} (hf : All P f) (g : κ → ι) :
    All P (fun j => f (g j)) := fun j => hf (g j)

section Arrays
variable {s t : Shape} {φ : FTy} {P : EReal → Prop}

/-! ### Constants and layout operations: every entry of the result is an entry of the operand -/

/-- A splat constant has the property of the value its bit pattern denotes. -/
theorem all_constant {b : BitVec φ.bits} (hb : P (Ideal.ofBits φ b)) : All P (constant (F := Ideal) s φ b) :=
  fun _ => hb

/-- A broadcast reads entries of its operand. -/
theorem all_broadcastInDim {dims : Fin s.rank → Fin t.rank} {h : s.BroadcastsInDim t dims} {x : s.Idx → EReal}
    (hx : All P x) : All P (broadcastInDim t dims h x) := fun _ => hx _

/-- A reshape reads entries of its operand. -/
theorem all_shapeCast {h : s.ShapeCasts t} {x : s.Idx → EReal} (hx : All P x) : All P (shapeCast t x h) :=
  fun _ => hx _

/-- A slice reads entries of its operand. -/
theorem all_extractStridedSlice {off : Fin s.rank → Nat} {h : s.Slices off t} {x : s.Idx → EReal} (hx : All P x) :
    All P (extractStridedSlice t off x h) := fun _ => hx _

/-- A gather reads entries of its operand, whatever the indices are. -/
theorem all_gather {si : Shape} {w : Nat} {d : GatherDims s si t} {x : s.Idx → EReal} {idx : IVec si w}
    (hx : All P x) : All P (Host.gather d x idx) := fun _ => hx _

/-- A select whose two branches have the property where they are chosen has it everywhere. -/
theorem all_select_of {c : IVec s 1} {a b : s.Idx → EReal} (ha : ∀ i, c i = 1#1 → P (a i))
    (hb : ∀ i, c i ≠ 1#1 → P (b i)) : All P (select c a b) := by
  intro i
  show P (if c i = 1 then a i else b i)
  split
  · exact ha i ‹_›
  · exact hb i ‹_›

/-- A select between two arrays with the property has it. -/
theorem all_select {c : IVec s 1} {a b : s.Idx → EReal} (ha : All P a) (hb : All P b) : All P (select c a b) :=
  all_select_of (fun i _ => ha i) (fun i _ => hb i)

/-! ### Comparisons read back -/

/-- The ordered comparison greater-than answers 1 exactly when the order says so. -/
theorem cmpf_ogt_eq_one_iff {x y : Ideal φ} : FloatOps.cmpf (F := Ideal) .ogt x y = 1#1 ↔ y < x := by
  rw [Ideal.cmpf_def]; unfold Ideal.cmp
  by_cases h : y < x <;> simp [h]

/-- The ordered comparison less-than answers 1 exactly when the order says so. -/
theorem cmpf_olt_eq_one_iff {x y : Ideal φ} : FloatOps.cmpf (F := Ideal) .olt x y = 1#1 ↔ x < y := by
  rw [Ideal.cmpf_def]; unfold Ideal.cmp
  by_cases h : x < y <;> simp [h]

/-- An extended real whose absolute value is below the upper infinity is a real number. -/
theorem isReal_of_abs_lt_top {x : EReal} (h : Max.max x (-x) < ⊤) : IsReal x := by
  refine isReal_of_ne ?_ ?_
  · rintro rfl; simp at h
  · rintro rfl; simp at h

/-- The finiteness test abs x < inf, answered 1 at every index, says every entry is a real number. -/
theorem allReal_of_abs_lt {x inf : FVec Ideal s φ} (hinf : ∀ i, inf i = ⊤)
    (h : ∀ i, cmpf .olt (Host.absf x) inf i = 1#1) : AllReal x := by
  intro i
  have hi : FloatOps.cmpf (F := Ideal) .olt (FloatOps.hostAbsf (x i)) (inf i) = 1#1 := h i
  rw [cmpf_olt_eq_one_iff, hinf i] at hi
  exact isReal_of_abs_lt_top hi

/-! ### Elementwise arithmetic -/

/-- The elementwise sum of arrays of real numbers is an array of real numbers. -/
theorem allReal_addf {x y : FVec Ideal s φ} (hx : AllReal x) (hy : AllReal y) : AllReal (addf (F := Ideal) x y) :=
  fun i => (hx i).add (hy i)

/-- The elementwise difference of arrays of real numbers is an array of real numbers. -/
theorem allReal_subf {x y : FVec Ideal s φ} (hx : AllReal x) (hy : AllReal y) : AllReal (subf (F := Ideal) x y) :=
  fun i => (hx i).sub (hy i)

/-- The elementwise product of arrays of real numbers is an array of real numbers. -/
theorem allReal_mulf {x y : FVec Ideal s φ} (hx : AllReal x) (hy : AllReal y) : AllReal (mulf (F := Ideal) x y) :=
  fun i => (hx i).mul (hy i)

/-- The elementwise maximum of arrays of real numbers is an array of real numbers. -/
theorem allReal_maximumf {x y : FVec Ideal s φ} (hx : AllReal x) (hy : AllReal y) :
    AllReal (maximumf (F := Ideal) x y) := fun i => IsReal.max (hx i) (hy i)

/-- The elementwise minimum of arrays of real numbers is an array of real numbers. -/
theorem allReal_minimumf {x y : FVec Ideal s φ} (hx : AllReal x) (hy : AllReal y) :
    AllReal (minimumf (F := Ideal) x y) := fun i => IsReal.min (hx i) (hy i)

/-- The elementwise maximum of a real array with one that is not negative is not negative: a rectifier's output. -/
theorem allNonneg_maximumf {x y : FVec Ideal s φ} (hx : AllReal x) (hy : AllNonneg y) :
    AllNonneg (maximumf (F := Ideal) x y) := fun i => IsReal.max_nonneg (hx i) (hy i)

/-- The elementwise square of an array of real numbers is an array of real numbers that are not negative. -/
theorem allNonneg_mulf_self {x : FVec Ideal s φ} (hx : AllReal x) : AllNonneg (mulf (F := Ideal) x x) :=
  fun i => (hx i).mul_self

/-- The elementwise sum of arrays of real numbers that are not negative is one. -/
theorem allNonneg_addf {x y : FVec Ideal s φ} (hx : AllNonneg x) (hy : AllNonneg y) :
    AllNonneg (addf (F := Ideal) x y) := fun i => (hx i).add (hy i)

/-- An array of real numbers that are not negative plus an array of positive real numbers is positive:
    a variance plus its stabilising constant. -/
theorem allPos_addf {x y : FVec Ideal s φ} (hx : AllNonneg x) (hy : AllPos y) : AllPos (addf (F := Ideal) x y) :=
  fun i => (hx i).add_pos (hy i)

/-! ### The host's quotient and reciprocal square root -/

/-- The host's quotient of real numbers by real numbers that are not zero is real. -/
theorem allReal_divf {x y : FVec Ideal s φ} (hx : AllReal x) (hy : AllReal y) (h0 : ∀ i, y i ≠ 0) :
    AllReal (Host.divf x y) := fun i => (hx i).div (hy i) (h0 i)

/-- The host's quotient of real numbers by positive real numbers is real: a mean. -/
theorem allReal_divf_pos {x y : FVec Ideal s φ} (hx : AllReal x) (hy : AllPos y) : AllReal (Host.divf x y) :=
  fun i => (hx i).div (hy i).isReal (hy i).ne_zero

/-- The host's quotient of real numbers that are not negative by positive real numbers is not negative: a variance. -/
theorem allNonneg_divf {x y : FVec Ideal s φ} (hx : AllNonneg x) (hy : AllPos y) : AllNonneg (Host.divf x y) :=
  fun i => (hx i).div (hy i)

/-- The host's reciprocal square root at an index is the ideal instance's of the entry. -/
theorem host_rsqrt_apply (x : FVec Ideal s φ) (i : s.Idx) : Host.rsqrt x i = Ideal.rsqrt (x i) := rfl

/-- The host's reciprocal square root of positive real numbers is positive real numbers. -/
theorem allPos_rsqrt {x : FVec Ideal s φ} (hx : AllPos x) : AllPos (Host.rsqrt x) := fun i => (hx i).rsqrt

/-- The guarded reciprocal square root where(x > z, rsqrt x, b) of a real array x, against a threshold z that is not
    negative and with a real fallback b, is real: the reciprocal square root is taken only where x is positive. -/
theorem allReal_select_gt_rsqrt {x z b : FVec Ideal s φ} (hx : AllReal x) (hz : AllNonneg z) (hb : AllReal b) :
    AllReal (select (cmpf .ogt x z) (Host.rsqrt x) b) :=
  all_select_of
    (fun i hc => ((hx i).isPos (lt_of_le_of_lt (hz i).nonneg (cmpf_ogt_eq_one_iff.1 hc))).rsqrt.isReal)
    (fun i _ => hb i)

/-! ### Sums: scatter-add, reduce-add, dot product -/

/-- The host's scatter-add of real updates into a real operand is real, whatever the indices are: each entry is
    the operand's plus a finite sum of updates. -/
theorem allReal_scatterAdd {si u : Shape} {w : Nat} {d : ScatterDims s si u} {x : FVec Ideal s φ} {idx : IVec si w}
    {upd : FVec Ideal u φ} (hx : AllReal x) (hu : AllReal upd) : AllReal (Host.scatterAdd d x idx upd) := by
  intro i
  show IsReal (Ideal.hostScatterAdd d x idx upd i)
  unfold Ideal.hostScatterAdd
  exact (hx i).add (isReal_sum _ _ fun j _ => hu j)

/-- The host's scatter-add of updates that are not negative into such an operand is not negative. -/
theorem allNonneg_scatterAdd {si u : Shape} {w : Nat} {d : ScatterDims s si u} {x : FVec Ideal s φ} {idx : IVec si w}
    {upd : FVec Ideal u φ} (hx : AllNonneg x) (hu : AllNonneg upd) : AllNonneg (Host.scatterAdd d x idx upd) := by
  intro i
  show IsNonneg (Ideal.hostScatterAdd d x idx upd i)
  unfold Ideal.hostScatterAdd
  exact (hx i).add (isNonneg_sum _ _ fun j _ => hu j)

/-- The host's sum-reduction of a real array from a real initial value is real: each entry is the initial value
    plus a finite sum of entries. -/
theorem allReal_reduceAdd {axes : List (Fin s.rank)} {u : Shape} {x : FVec Ideal s φ} {init : u.Idx → Ideal φ}
    {h : s.ReducesTo axes t} {hu : 0 < u.numel} (hx : AllReal x) (hi : AllReal init) :
    AllReal (Host.reduceAdd x init h hu) := by
  intro j
  show IsReal (Ideal.hostReduceAdd h x (init (Shape.Idx.first hu)) j)
  unfold Ideal.hostReduceAdd
  exact (hi _).add (isReal_sum _ _ fun i _ => hx i)

/-- The host's sum-reduction of an array that is not negative from such an initial value is not negative. -/
theorem allNonneg_reduceAdd {axes : List (Fin s.rank)} {u : Shape} {x : FVec Ideal s φ} {init : u.Idx → Ideal φ}
    {h : s.ReducesTo axes t} {hu : 0 < u.numel} (hx : AllNonneg x) (hi : AllNonneg init) :
    AllNonneg (Host.reduceAdd x init h hu) := by
  intro j
  show IsNonneg (Ideal.hostReduceAdd h x (init (Shape.Idx.first hu)) j)
  unfold Ideal.hostReduceAdd
  exact (hi _).add (isNonneg_sum _ _ fun i _ => hx i)

/-- The host's dot product of real arrays is real, at any dimension numbers: each entry is a finite sum of
    products of entries. -/
theorem allReal_dotGeneral {sl sr so : Shape} {φ₁ φ₂ : FTy} {d : DotDims sl sr so} {prec : Option ContractPrecision}
    {lhs : FVec Ideal sl φ₁} {rhs : FVec Ideal sr φ₂} (hl : AllReal lhs) (hr : AllReal rhs) :
    AllReal (Host.dotGeneral d prec lhs rhs) := by
  intro j
  show IsReal (FloatOps.dotGeneral d prec .single lhs rhs j)
  rw [Ideal.dotGeneral_apply]
  exact isReal_sum _ _ fun k _ => (hl _).mul (hr _)

end Arrays

/-! ## The float literals of a normalisation -/

/-- The f32 pattern 0x46C35000 is the real number 25000. -/
theorem ofBits_f32_25000 : Ideal.ofBits .f32 0x46C35000#32 = ((25000 : ℝ) : EReal) := by
  simp [Ideal.ofBits, Ideal.ieee, -EReal.coe_mul]; norm_num

/-- The f32 pattern 0x47C35000 is the real number 100000. -/
theorem ofBits_f32_100000 : Ideal.ofBits .f32 0x47C35000#32 = ((100000 : ℝ) : EReal) := by
  simp [Ideal.ofBits, Ideal.ieee, -EReal.coe_mul]; norm_num

/-- The f32 pattern 0x3727C5AC, the float nearest to one hundred-thousandth, is the real number 10995116 / 2 ^ 40. -/
theorem ofBits_f32_eps : Ideal.ofBits .f32 0x3727C5AC#32 = ((10995116 * (2 : ℝ) ^ (-40 : ℤ) : ℝ) : EReal) := by
  simp [Ideal.ofBits, Ideal.ieee, -EReal.coe_mul]

/-- The f32 pattern of zero denotes a real number that is not negative. -/
theorem isNonneg_ofBits_f32_zero : IsNonneg (Ideal.ofBits .f32 0x00000000#32) := by
  rw [Ideal.ofBits_zero_f32]; exact isNonneg_zero

/-- The f32 pattern of zero denotes a real number. -/
theorem isReal_ofBits_f32_zero : IsReal (Ideal.ofBits .f32 0x00000000#32) := isNonneg_ofBits_f32_zero.isReal

/-- The f32 pattern of one denotes a positive real number. -/
theorem isPos_ofBits_f32_one : IsPos (Ideal.ofBits .f32 0x3F800000#32) := by
  rw [Ideal.ofBits_one_f32]; exact isPos_one

/-- The f32 pattern of 25000 denotes a positive real number. -/
theorem isPos_ofBits_f32_25000 : IsPos (Ideal.ofBits .f32 0x46C35000#32) :=
  ⟨25000, by norm_num, ofBits_f32_25000⟩

/-- The f32 pattern of 100000 denotes a positive real number. -/
theorem isPos_ofBits_f32_100000 : IsPos (Ideal.ofBits .f32 0x47C35000#32) :=
  ⟨100000, by norm_num, ofBits_f32_100000⟩

/-- The f32 pattern 0x3727C5AC (one hundred-thousandth, rounded) denotes a positive real number. -/
theorem isPos_ofBits_f32_eps : IsPos (Ideal.ofBits .f32 0x3727C5AC#32) :=
  ⟨10995116 * (2 : ℝ) ^ (-40 : ℤ), by positivity, ofBits_f32_eps⟩

/-! ## A closing tactic for operator trees -/

section More
variable {s : Shape} {φ : FTy} {P : EReal → Prop}

/-- A copy has the property of its operand. -/
theorem all_id {x : s.Idx → EReal} (hx : All P x) : All P (id x) := hx

/-- The host's reciprocal square root of positive real numbers is real. -/
theorem allReal_rsqrt {x : FVec Ideal s φ} (hx : AllPos x) : AllReal (Host.rsqrt x) :=
  allReal_of_allPos (allPos_rsqrt hx)

/-- The elementwise product of arrays of real numbers that are not negative is one. -/
theorem allNonneg_mulf {x y : FVec Ideal s φ} (hx : AllNonneg x) (hy : AllNonneg y) :
    AllNonneg (mulf (F := Ideal) x y) := fun i => (hx i).mul (hy i)

/-- The elementwise product of arrays of positive real numbers is one. -/
theorem allPos_mulf {x y : FVec Ideal s φ} (hx : AllPos x) (hy : AllPos y) : AllPos (mulf (F := Ideal) x y) :=
  fun i => (hx i).mul (hy i)

/-- The host's quotient of arrays of positive real numbers is one. -/
theorem allPos_divf {x y : FVec Ideal s φ} (hx : AllPos x) (hy : AllPos y) : AllPos (Host.divf x y) :=
  fun i => (hx i).div (hy i)

end More

/-- Closes a goal AllReal t, AllNonneg t or AllPos t, where t is a tree of the host's operations (elementwise
    arithmetic, rectifier, layout operations, gather, scatter-add, sum-reduction, dot product, quotient by one of
    the positive literals, reciprocal square root of a variance plus its positive constant) over arrays whose
    property is a hypothesis in the context. The rules are chosen by the property asked and the head operation:
    a quotient asks its divisor to be positive, a reciprocal square root asks its operand to be positive, a sum
    is positive when its left term is not negative and its right term is positive, a square is not negative.
    Integer index arrays are arbitrary. -/
macro "all_real" : tactic => `(tactic| with_reducible
  repeat' (first
    | assumption
    | exact isNonneg_ofBits_f32_zero | exact isReal_ofBits_f32_zero
    | exact isPos_ofBits_f32_one | exact isPos_ofBits_f32_one.isNonneg | exact isPos_ofBits_f32_one.isReal
    | exact isPos_ofBits_f32_eps | exact isPos_ofBits_f32_eps.isNonneg | exact isPos_ofBits_f32_eps.isReal
    | exact isPos_ofBits_f32_25000 | exact isPos_ofBits_f32_25000.isNonneg | exact isPos_ofBits_f32_25000.isReal
    | exact isPos_ofBits_f32_100000 | exact isPos_ofBits_f32_100000.isNonneg | exact isPos_ofBits_f32_100000.isReal
    | apply allPos_rsqrt | apply allPos_addf | apply allPos_mulf | apply allPos_divf
    | apply allNonneg_mulf_self | apply allNonneg_mulf | apply allNonneg_addf | apply allNonneg_maximumf
    | apply allNonneg_divf | apply allNonneg_scatterAdd | apply allNonneg_reduceAdd
    | apply allReal_addf | apply allReal_subf | apply allReal_mulf | apply allReal_maximumf | apply allReal_minimumf
    | apply allReal_divf_pos | apply allReal_rsqrt | apply allReal_scatterAdd | apply allReal_reduceAdd
    | apply allReal_dotGeneral | apply allReal_select_gt_rsqrt
    | apply all_constant | apply all_broadcastInDim | apply all_shapeCast | apply all_extractStridedSlice
    | apply all_gather | apply all_id | apply all_select
    | (apply allReal_of_allNonneg; assumption) | (apply allReal_of_allPos; assumption)
    | (apply allNonneg_of_allPos; assumption)))

end Cert.LibFinite
-- ==== Proof.FiniteInputs.lean ====
/-
  From the precondition to real numbers.

  The precondition compares the absolute value of every entry of the five argument arrays with the word of +∞,
  reduces each comparison array by `and` from 1 into one bit, and joins the five bits by `and`; it holds when
  the result is 1. Read backwards: the joint bit is 1 only if each of the five is; a reduction by `and` from 1 is 1
  only if every entry it reduced is; and `|x| < +∞` on the extended reals says `x` is neither infinity. So every
  entry of every argument is the extended real of a real number (`inputs_real`).

  What is built from such arrays by finite sums, products, re-layings, and a softmax row's positive weights stays
  real: the projection and its head slices, every score, the attention output.
-/
import proofs.«174977_j37177236914546_2_alg».proof.Pre_finite_inputs
import proofs.«174977_j37177236914546_2_alg».proof.Proof.LibFinite
import proofs.«174977_j37177236914546_2_alg».proof.Proof.AttnSpec
import Idealize.ShloMosaic.Lib.ReduceAll

noncomputable section

open scoped BigOperators

namespace Cert.FiniteInputs

open Idealize.ShloMosaic Idealize.ShloMosaic.ValueIdx Cert.LibFinite Cert.AttnSpec

/-- The scalar shape has one index. -/
theorem subsingleton_scalarIdx : Subsingleton (⟨0, ![]⟩ : Shape).Idx := ⟨fun a b => funext fun d => d.elim0⟩

/-- The word `0x7F800000` denotes the upper infinity. -/
theorem ofBits_posInf : Ideal.ofBits .f32 0x7F800000#32 = ⊤ := by simp [Ideal.ofBits, Ideal.ieee]

section Pre

variable [Cert.Pre_finite_inputs.Facts]

open Cert.Pre_finite_inputs Cert.Pre_finite_inputs.Facts

/-- The precondition says every entry of each of the five arrays is a real number. -/
theorem inputs_real (y : FVec Ideal S2x2048x1024 .f32) (W : FVec Ideal S3072x1024 .f32) (b : FVec Ideal S3072 .f32)
    (Wo : FVec Ideal S1024x1024 .f32) (bo : FVec Ideal S1024 .f32)
    (h : Cert.Pre_finite_inputs.fn (F := Ideal) y W b Wo bo = fun _ => 1#1) :
    AllReal y ∧ AllReal W ∧ AllReal b ∧ AllReal Wo ∧ AllReal bo := by
  haveI : Subsingleton S_.Idx := subsingleton_scalarIdx
  have h0 : Cert.Pre_finite_inputs.fn (F := Ideal) y W b Wo bo ix0 = 1#1 := congrFun h ix0
  dsimp only [Cert.Pre_finite_inputs.fn, Cert.Pre_finite_inputs.fn_part1, andi] at h0
  obtain ⟨h1, hbo⟩ := IntOp.andi_eq_one.1 h0
  obtain ⟨h2, hWo⟩ := IntOp.andi_eq_one.1 h1
  obtain ⟨h3, hb⟩ := IntOp.andi_eq_one.1 h2
  obtain ⟨hy, hW⟩ := IntOp.andi_eq_one.1 h3
  exact ⟨allReal_of_abs_lt (fun _ => ofBits_posInf) (fun i => Host.reduce_andi_all _ _ _ _ _ hy i),
    allReal_of_abs_lt (fun _ => ofBits_posInf) (fun i => Host.reduce_andi_all _ _ _ _ _ hW i),
    allReal_of_abs_lt (fun _ => ofBits_posInf) (fun i => Host.reduce_andi_all _ _ _ _ _ hb i),
    allReal_of_abs_lt (fun _ => ofBits_posInf) (fun i => Host.reduce_andi_all _ _ _ _ _ hWo i),
    allReal_of_abs_lt (fun _ => ofBits_posInf) (fun i => Host.reduce_andi_all _ _ _ _ _ hbo i)⟩

end Pre

/-! ## The projection and its re-layings -/

/-- A transpose reads entries of its operand. -/
theorem all_transpose {s t : Shape} {P : EReal → Prop} {perm : List (Fin s.rank)} {h : s.Transposes perm t} {x : s.Idx → EReal}
    (hx : All P x) : All P (transpose t perm x h) := fun _ => hx _

/-- The projection of real arrays is real: each entry is a finite sum of products plus a bias entry. -/
theorem allReal_proj {y : (⟨3, ![2, 2048, 1024]⟩ : Shape).Idx → EReal} {W : (⟨2, ![3072, 1024]⟩ : Shape).Idx → EReal}
    {b : (⟨1, ![3072]⟩ : Shape).Idx → EReal} (hy : AllReal y) (hW : AllReal W) (hb : AllReal b) : AllReal (proj y W b) := by
  intro i
  show IsReal (projAt y W b _ _ _ _)
  unfold projAt
  exact (isReal_sum _ _ fun d _ => (hy _).mul (hW _)).add (hb _)

theorem allReal_toHeads {x : (⟨4, ![2, 2048, 16, 192]⟩ : Shape).Idx → EReal}
    (h : (⟨4, ![2, 2048, 16, 192]⟩ : Shape).Transposes [0, 2, 1, 3] ⟨4, ![2, 16, 2048, 192]⟩) (hx : AllReal x) :
    AllReal (toHeads x h) := fun _ => hx _

theorem allReal_slice0 {x : (⟨4, ![2, 16, 2048, 192]⟩ : Shape).Idx → EReal}
    (h : (⟨4, ![2, 16, 2048, 192]⟩ : Shape).Slices ![0, 0, 0, 0] ⟨4, ![2, 16, 2048, 64]⟩) (hx : AllReal x) :
    AllReal (slice0 x h) := fun _ => hx _

theorem allReal_slice64 {x : (⟨4, ![2, 16, 2048, 192]⟩ : Shape).Idx → EReal}
    (h : (⟨4, ![2, 16, 2048, 192]⟩ : Shape).Slices ![0, 0, 0, 64] ⟨4, ![2, 16, 2048, 64]⟩) (hx : AllReal x) :
    AllReal (slice64 x h) := fun _ => hx _

theorem allReal_slice128 {x : (⟨4, ![2, 16, 2048, 192]⟩ : Shape).Idx → EReal}
    (h : (⟨4, ![2, 16, 2048, 192]⟩ : Shape).Slices ![0, 0, 0, 128] ⟨4, ![2, 16, 2048, 64]⟩) (hx : AllReal x) :
    AllReal (slice128 x h) := fun _ => hx _

theorem allReal_fromHeads {x : (⟨4, ![2, 16, 2048, 64]⟩ : Shape).Idx → EReal}
    (h : (⟨4, ![2, 16, 2048, 64]⟩ : Shape).Transposes [0, 2, 1, 3] ⟨4, ![2, 2048, 16, 64]⟩) (hx : AllReal x) :
    AllReal (fromHeads x h) := fun _ => hx _

end Cert.FiniteInputs

end
-- ==== Proof.LibDense.lean ====
/-
  A dense product of two matrices on the extended reals, index by index, and the two array operations that compute it.

  For `x : [n0, nk]` and `w : [nk, n1]` the product is `(x · w)[r, q] = Σ_{k < nk} x[r, k] · w[k, q]` (`denseProd`). A
  contraction whose dimension numbers pair axis 1 of the left operand with axis 0 of the right one, with no batch axes, sums
  exactly these terms: its contraction index is one coordinate `k`, its left operand index at output `(r, q)` is `(r, k)`
  and its right one `(k, q)` (`sum_contr`). So on the extended reals the matrix unit's product into a zero accumulator
  (`matmul_zero_eq`) and the host's `dot_general` (`dotGeneral_eq`) are both `denseProd`: no order of summation, no
  rounding of the operands, no accumulator survives at the ideal instance.
-/
import Idealize.ShloMosaic.PureOps.Ideal.Laws
import Idealize.ShloMosaic.Lib.ValueIdx

noncomputable section

open scoped BigOperators

namespace Cert.LibDense

open Idealize.ShloMosaic Idealize.ShloMosaic.ValueIdx

/-- `(x · w)[r, q] = Σ_k x[r, k] · w[k, q]` on the extended reals. -/
def denseProd {n0 nk n1 : Nat} (x : (⟨2, ![n0, nk]⟩ : Shape).Idx → EReal) (w : (⟨2, ![nk, n1]⟩ : Shape).Idx → EReal) :
    (⟨2, ![n0, n1]⟩ : Shape).Idx → EReal :=
  fun i => ∑ k : Fin nk, x (ix2 (i 0) k) * w (ix2 k (i 1))

theorem denseProd_apply {n0 nk n1 : Nat} (x : (⟨2, ![n0, nk]⟩ : Shape).Idx → EReal) (w : (⟨2, ![nk, n1]⟩ : Shape).Idx → EReal)
    (i : (⟨2, ![n0, n1]⟩ : Shape).Idx) : denseProd x w i = ∑ k : Fin nk, x (ix2 (i 0) k) * w (ix2 k (i 1)) := rfl

/-- A row of a product depends on the same row of the left factor only: if row `p` of `xb` is row `r` of `x` and
    column `q` of `wb` is column `q` of `w`, the products agree at `(p, q)` and `(r, q)` — a row block of `x · w` is
    the product of the row block of `x` with `w`. -/
theorem denseProd_row {nb n0 nk n1 : Nat} (xb : (⟨2, ![nb, nk]⟩ : Shape).Idx → EReal) (x : (⟨2, ![n0, nk]⟩ : Shape).Idx → EReal)
    (wb w : (⟨2, ![nk, n1]⟩ : Shape).Idx → EReal) (p : Fin nb) (r : Fin n0) (q : Fin n1)
    (hx : ∀ k : Fin nk, xb (ix2 p k) = x (ix2 r k)) (hw : ∀ k : Fin nk, wb (ix2 k q) = w (ix2 k q)) :
    denseProd xb wb (ix2 p q) = denseProd x w (ix2 r q) :=
  Finset.sum_congr rfl fun k _ => by
    show xb (ix2 p k) * wb (ix2 k q) = x (ix2 r k) * w (ix2 k q)
    rw [hx k, hw k]

section Plain

variable {n0 nk n1 : Nat} (d : DotDims ⟨2, ![n0, nk]⟩ ⟨2, ![nk, n1]⟩ ⟨2, ![n0, n1]⟩)
  (hr : d.contr.rank = 1) (hs : d.contr.size ⟨0, by omega⟩ = nk)
  (hlc : d.lhsContracting = [1]) (hrc : d.rhsContracting = [0])
  (hl0 : ∀ (i : (⟨2, ![n0, n1]⟩ : Shape).Idx) (q : d.contr.Idx), (d.lhsIdx i q 0).val = (i 0).val)
  (hr1 : ∀ (i : (⟨2, ![n0, n1]⟩ : Shape).Idx) (q : d.contr.Idx), (d.rhsIdx i q 1).val = (i 1).val)

include hr hs hlc hrc hl0 hr1

/-- The contraction's sum over its one-coordinate index is the sum over `k < nk` of row entry times column entry. -/
theorem sum_contr (x : (⟨2, ![n0, nk]⟩ : Shape).Idx → EReal) (w : (⟨2, ![nk, n1]⟩ : Shape).Idx → EReal)
    (i : (⟨2, ![n0, n1]⟩ : Shape).Idx) :
    ∑ q : d.contr.Idx, x (d.lhsIdx i q) * w (d.rhsIdx i q) = denseProd x w i := by
  rw [denseProd_apply, ← Equiv.sum_comp (contrEquiv1 d nk hr hs).symm]
  refine Finset.sum_congr rfl fun k _ => ?_
  have hk := contrEquiv1_symm_val d nk hr hs k
  have el : d.lhsIdx i ((contrEquiv1 d nk hr hs).symm k) = ix2 (i 0) k := funext fun a => Fin.ext (by
    match a with
    | ⟨0, _⟩ => exact hl0 _ _
    | ⟨1, _⟩ => exact (d.lhsIdx_val_of_single hlc i _).trans hk)
  have er : d.rhsIdx i ((contrEquiv1 d nk hr hs).symm k) = ix2 k (i 1) := funext fun a => Fin.ext (by
    match a with
    | ⟨0, _⟩ => exact (d.rhsIdx_val_of_single hrc i _).trans hk
    | ⟨1, _⟩ => exact hr1 _ _)
  rw [el, er]
  rfl

/-- The matrix unit's product into the zero accumulator is the dense product, whatever formats the operands were rounded to. -/
theorem matmul_zero_eq {φ₁ φ₂ : FTy} (prec : Option ContractPrecision) (x : FVec Ideal ⟨2, ![n0, nk]⟩ φ₁)
    (w : FVec Ideal ⟨2, ![nk, n1]⟩ φ₂) :
    FloatOps.matmul d prec x w (constant ⟨2, ![n0, n1]⟩ .f32 0x00000000#32) = denseProd x w :=
  funext fun i => (Ideal.matmul_constant_zero_apply d prec x w i).trans (sum_contr d hr hs hlc hrc hl0 hr1 x w i)

/-- The host's `dot_general` is the dense product, whatever its schedule key. -/
theorem dotGeneral_eq {φ₁ φ₂ : FTy} (prec : Option ContractPrecision) (sched : HostSchedule) (x : FVec Ideal ⟨2, ![n0, nk]⟩ φ₁)
    (w : FVec Ideal ⟨2, ![nk, n1]⟩ φ₂) :
    FloatOps.dotGeneral d prec sched x w = denseProd x w :=
  funext fun i => (Ideal.dotGeneral_apply d prec sched x w i).trans (sum_contr d hr hs hlc hrc hl0 hr1 x w i)

end Plain

end Cert.LibDense

end
-- ==== Proof.LibRowForms.lean ====
/-
  Reading the rank-2 "keepdims" layout operations at an index built from coordinates.

  A lane reduction with keepdims leaves a column: a vector over [n] cast to [n, 1], then broadcast along the lanes to
  [n, m]; a bias row over [1, m] is broadcast down the rows to [n, m]. Each lemma below reads one such operation at
  `ix2 r q` as its operand at the coordinates that entry came from, and the lane sum itself as a sum over the lane
  coordinate. All are stated at arbitrary extents and for any proof of the operation's shape fact.
-/
import Idealize.ShloMosaic.PureOps.Ideal.Laws
import Idealize.ShloMosaic.Lib.ValueIdx
import Idealize.ShloMosaic.Lib.Pipeline.Value

noncomputable section

namespace Cert.LibRowForms

open Idealize.ShloMosaic Idealize.ShloMosaic.ValueIdx

variable {α : Type} {n m : Nat}

/-- A vector over [n] cast to a column [n, 1]: entry (r, 0) is entry r. -/
theorem shapeCast_col_apply (v : (⟨1, ![n]⟩ : Shape).Idx → α) (h : (⟨1, ![n]⟩ : Shape).ShapeCasts ⟨2, ![n, 1]⟩)
    (r : Fin n) (z : Fin 1) : shapeCast ⟨2, ![n, 1]⟩ v h (ix2 r z) = v (ix1 r) :=
  shapeCast_apply v h (ix2 r z) (ix1 r) (by
    rw [Shape.rowMajor_val_one, Shape.rowMajor_val_two]
    show r.val = r.val * 1 + z.val
    have := z.isLt
    omega)

/-- A column [n, 1] broadcast along the lanes to [n, m]: entry (r, q) is the column's entry (r, 0). -/
theorem broadcastTo_col_apply (v : (⟨2, ![n, 1]⟩ : Shape).Idx → α)
    (h : (⟨2, ![n, 1]⟩ : Shape).Broadcasts ⟨2, ![n, m]⟩) (r : Fin n) (q : Fin m) :
    broadcastTo ⟨2, ![n, m]⟩ v h (ix2 r q) = v (ix2 r 0) :=
  broadcastTo_apply v h (ix2 r q) (ix2 r 0) (fun a => match a with
    | ⟨0, _⟩ => by
        show r.val = (if n = 1 then 0 else r.val)
        have := r.isLt
        split <;> omega
    | ⟨1, _⟩ => by
        show 0 = (if (1 : Nat) = 1 then 0 else q.val)
        rw [if_pos rfl])

/-- A row [1, m] broadcast down the rows to [n, m]: entry (r, q) is the row's entry (0, q). -/
theorem broadcastTo_row_apply (v : (⟨2, ![1, m]⟩ : Shape).Idx → α)
    (h : (⟨2, ![1, m]⟩ : Shape).Broadcasts ⟨2, ![n, m]⟩) (r : Fin n) (q : Fin m) :
    broadcastTo ⟨2, ![n, m]⟩ v h (ix2 r q) = v (ix2 0 q) :=
  broadcastTo_apply v h (ix2 r q) (ix2 0 q) (fun a => match a with
    | ⟨0, _⟩ => by
        show 0 = (if (1 : Nat) = 1 then 0 else r.val)
        rw [if_pos rfl]
    | ⟨1, _⟩ => by
        show q.val = (if m = 1 then 0 else q.val)
        have := q.isLt
        split <;> omega)

/-- A shape cast between equal shapes is the identity at every index. -/
theorem shapeCast_same_apply {s : Shape} (v : s.Idx → α) (h : s.ShapeCasts s) (i : s.Idx) : shapeCast s v h i = v i :=
  congrFun (shapeCast_self v h) i

/-- The sum over the lanes of an [n, m] vector of extended reals, read at row r: the sum over the lane coordinate. -/
theorem laneSum_apply {φ : FTy} (src : FVec Ideal ⟨2, ![n, m]⟩ φ) (acc : BitVec φ.bits)
    (h : (⟨2, ![n, m]⟩ : Shape).Reduces [1] ⟨1, ![n]⟩) (hφ : FKind.Formats φ) (hacc : acc = FKind.add.neutral φ hφ)
    (r : Fin n) :
    multiReduction .add [1] ⟨1, ![n]⟩ src acc h hφ hacc (ix1 r) = ∑ k : Fin m, src (ix2 r k) :=
  (Ideal.multiReduction_add_single src acc h hφ hacc (ix1 r)).trans
    (Finset.sum_congr rfl fun k _ => congrArg src (funext fun c => Fin.ext (by
      match c with
      | ⟨0, _⟩ => rfl
      | ⟨1, _⟩ => rfl)))

end Cert.LibRowForms

end
-- ==== Proof.LinPayload.lean ====
/-
  The projection body's arithmetic at one entry of its 512 × 512 result tile, on the extended reals.

  The body takes a block `x` of 512 rows (all 1024 columns), a block `w` of 512 columns (all 1024 rows) and the same
  512 columns `b` of the bias row. It narrows `x` and `w` to bf16 (the identity on extended reals), contracts column
  `d` of `x` against row `d` of `w` into a zero accumulator, and adds the bias row to every row of the product. So
  entry `(p, q)` of the tile is `Σ_{d < 1024} x[p, d] · w[d, q] + b[0, q]`: it depends on row `p` of `x`, column `q` of
  `w` and entry `q` of `b` only. Both projection regions run this same body.
-/
import proofs.«174977_j37177236914546_2_alg».proof.Proof.Gen.KernelIdeal.Skeleton
import proofs.«174977_j37177236914546_2_alg».proof.Proof.LibDense
import proofs.«174977_j37177236914546_2_alg».proof.Proof.LibRowForms

noncomputable section

open scoped BigOperators

namespace Cert.KernelIdeal.LinVal

open Cert.KernelIdeal Cert.KernelIdeal.Gen
open Idealize.ShloMosaic Idealize.ShloMosaic.ValueIdx
open Cert.LibDense Cert.LibRowForms

/-! ## The contraction's operand indices -/

/-- The left operand is read in the output's row: coordinate 0 of its index is the output's coordinate 0. -/
theorem dot_lhs_row (i : S512x512.Idx) (q : dot_S512x1024_S1024x512_S512x512_1_0_0_1_n_n.contr.Idx) :
    (dot_S512x1024_S1024x512_S512x512_1_0_0_1_n_n.lhsIdx i q 0).val = (i 0).val := by
  unfold DotDims.lhsIdx
  rw [dif_neg (show ¬(0 : Fin S512x1024.rank) ∈ dot_S512x1024_S1024x512_S512x512_1_0_0_1_n_n.lhsBatch by decide),
    dif_pos (show (0 : Fin S512x1024.rank) ∈ dot_S512x1024_S1024x512_S512x512_1_0_0_1_n_n.lhsNonContracting by decide)]
  rfl

/-- The right operand is read in the output's column: coordinate 1 of its index is the output's coordinate 1. -/
theorem dot_rhs_col (i : S512x512.Idx) (q : dot_S512x1024_S1024x512_S512x512_1_0_0_1_n_n.contr.Idx) :
    (dot_S512x1024_S1024x512_S512x512_1_0_0_1_n_n.rhsIdx i q 1).val = (i 1).val := by
  unfold DotDims.rhsIdx
  rw [dif_neg (show ¬(1 : Fin S1024x512.rank) ∈ dot_S512x1024_S1024x512_S512x512_1_0_0_1_n_n.rhsBatch by decide),
    dif_pos (show (1 : Fin S1024x512.rank) ∈ dot_S512x1024_S1024x512_S512x512_1_0_0_1_n_n.rhsNonContracting by decide)]
  rfl

/-- The block product into the zero accumulator is the dense product of the two blocks. -/
theorem blockProd_eq {φ₁ φ₂ : FTy} (x : FVec Ideal S512x1024 φ₁) (w : FVec Ideal S1024x512 φ₂) :
    FloatOps.matmul dot_S512x1024_S1024x512_S512x512_1_0_0_1_n_n none x w (constant S512x512 .f32 0x00000000#32)
      = denseProd x w :=
  matmul_zero_eq dot_S512x1024_S1024x512_S512x512_1_0_0_1_n_n rfl rfl rfl rfl dot_lhs_row dot_rhs_col none x w

/-! ## The tile at an entry -/

/-- Entry `(p, q)` of the first projection's tile: row `p` of `x` against column `q` of `w`, plus the bias at `q`. -/
theorem pay0_apply (x : Vec Ideal S512x1024 .f32) (w : Vec Ideal S1024x512 .f32) (b : Vec Ideal S1x512 .f32)
    (p q : Fin 512) :
    k0_pay1 x w b (ix2 p q) = (∑ d : Fin 1024, x (ix2 p d) * w (ix2 d q)) + b (ix2 0 q) := by
  unfold k0_pay1
  refine (addf_apply _ _ (ix2 p q)).trans ?_
  refine congrArg₂ (· + ·) ?_ ?_
  · refine (congrFun (blockProd_eq _ _) (ix2 p q)).trans ?_
    refine (denseProd_apply _ _ (ix2 p q)).trans ?_
    refine Finset.sum_congr rfl fun d _ => ?_
    refine congrArg₂ (· * ·) ?_ ?_
    · exact shapeCast_same_apply x shapeCasts_S512x1024_S512x1024 (ix2 p d)
    · exact shapeCast_same_apply w shapeCasts_S1024x512_S1024x512 (ix2 d q)
  · refine (broadcastTo_row_apply _ broadcasts_S1x512_S512x512 p q).trans ?_
    exact shapeCast_same_apply b shapeCasts_S1x512_S1x512 (ix2 0 q)

/-- Entry `(p, q)` of the output projection's tile: the same body. -/
theorem pay2_apply (x : Vec Ideal S512x1024 .f32) (w : Vec Ideal S1024x512 .f32) (b : Vec Ideal S1x512 .f32)
    (p q : Fin 512) :
    k2_pay1 x w b (ix2 p q) = (∑ d : Fin 1024, x (ix2 p d) * w (ix2 d q)) + b (ix2 0 q) := by
  unfold k2_pay1
  refine (addf_apply _ _ (ix2 p q)).trans ?_
  refine congrArg₂ (· + ·) ?_ ?_
  · refine (congrFun (blockProd_eq _ _) (ix2 p q)).trans ?_
    refine (denseProd_apply _ _ (ix2 p q)).trans ?_
    refine Finset.sum_congr rfl fun d _ => ?_
    refine congrArg₂ (· * ·) ?_ ?_
    · exact shapeCast_same_apply x shapeCasts_S512x1024_S512x1024 (ix2 p d)
    · exact shapeCast_same_apply w shapeCasts_S1024x512_S1024x512 (ix2 d q)
  · refine (broadcastTo_row_apply _ broadcasts_S1x512_S512x512 p q).trans ?_
    exact shapeCast_same_apply b shapeCasts_S1x512_S1x512 (ix2 0 q)

end Cert.KernelIdeal.LinVal

end
-- ==== Proof.LinValue.lean ====
/-
  The two projection regions from the per-point tiles to the whole result array, on the extended reals.

  Each region runs the same body over a grid of 512 × 512 tiles of its result: the point with block indices `(a, b)`
  reads rows `512a … 512a + 511` of the input array (all 1024 columns), columns `512b … 512b + 511` of the weight array (all
  1024 rows) and the same columns of the one-row bias array, and writes tile `(a, b)` of the result. Entry `(p, q)` of
  a tile is row `p` of the row block against column `q` of the column block plus the bias at `q`, so what a point
  writes is the restriction to its tile of ONE function of the three arrays,
  `(r, e) ↦ Σ_{d < 1024} X[r, d] · W[d, e] + B[0, e]`. The tiles cover the result array (entry `(r, e)` lies in tile
  `(r / 512, e / 512)`), so after the region the result array is that function: the first projection on an 8 × 6 grid
  into 4096 × 3072, the output projection on an 8 × 2 grid into 4096 × 1024.
-/
import proofs.«174977_j37177236914546_2_alg».proof.Proof.ILin0
import proofs.«174977_j37177236914546_2_alg».proof.Proof.ILin2
import proofs.«174977_j37177236914546_2_alg».proof.Proof.LinPayload
import Idealize.ShloMosaic.Lib.Pipeline.Value
import Idealize.ShloMosaic.Lib.ValueIdx

noncomputable section

open scoped BigOperators

namespace Cert.KernelIdeal.LinVal

open Cert.KernelIdeal Cert.KernelIdeal.Gen
open Idealize.ShloMosaic Idealize.ShloMosaic.TcCoe Idealize.ShloMosaic.ValueIdx Idealize.SL.Sem
open Idealize.ShloMosaic.Pipeline (Dat)

/-- The zero offsets of every load and store of the body, as a function. -/
theorem off_zero : (![0, 0] : Fin 2 → Nat) = fun _ => 0 := funext fun a => by fin_cases a <;> rfl

-- the buffer contents on entering a region: every statement below is made at an arbitrary such valuation
variable (V : (c : Dev nD) → (b : Ref sig .tc) → Buf (Elt Ideal) ((c : Thread nD τ).loc b))

/-! ## The first projection: the whole result array -/

/-- The first projection of all 4096 rows: entry `(r, e)` is row `r` of `X` against column `e` of `W`, plus the bias at `e`. -/
def proj0 (X : S4096x1024.Idx → EReal) (W : S1024x3072.Idx → EReal) (B : S1x3072.Idx → EReal) : S4096x3072.Idx → EReal :=
  fun i => (∑ d : Fin 1024, X (ix2 (i 0) d) * W (ix2 d (i 1))) + B (ix2 0 (i 1))

theorem proj0_apply (X : S4096x1024.Idx → EReal) (W : S1024x3072.Idx → EReal) (B : S1x3072.Idx → EReal)
    (r : Fin 4096) (e : Fin 3072) :
    proj0 X W B (ix2 r e) = (∑ d : Fin 1024, X (ix2 r d) * W (ix2 d e)) + B (ix2 0 e) := rfl

/-- An entry of a tile is the entry of the whole projection it sits at, once the tile's row of `x` is the array's row,
    its column of `w` the array's column and its bias entry the array's. -/
theorem tile0_entry (X : S4096x1024.Idx → EReal) (W : S1024x3072.Idx → EReal) (B : S1x3072.Idx → EReal)
    (x : Vec Ideal S512x1024 .f32) (w : Vec Ideal S1024x512 .f32) (b : Vec Ideal S1x512 .f32)
    (y : S512x512.Idx) (i : S4096x3072.Idx)
    (hx : ∀ d : Fin 1024, x (ix2 (y 0) d) = X (ix2 (i 0) d))
    (hw : ∀ d : Fin 1024, w (ix2 d (y 1)) = W (ix2 d (i 1)))
    (hb : b (ix2 0 (y 1)) = B (ix2 0 (i 1))) :
    k0_pay1 x w b y = proj0 X W B i := by
  obtain ⟨p, q, rfl⟩ : ∃ (p q : Fin 512), y = ix2 p q := ⟨y 0, y 1, eq_ix2 y⟩
  rw [pay0_apply]
  unfold proj0
  rw [show b (ix2 0 q) = B (ix2 0 (i 1)) from hb]
  exact congrArg (· + B (ix2 0 (i 1))) (Finset.sum_congr rfl fun d _ => by
    rw [show x (ix2 p d) = X (ix2 (i 0) d) from hx d, show w (ix2 d q) = W (ix2 d (i 1)) from hw d])

/-- The printed index maps over the 8 × 6 grid: the row block moves with the tile's row block, the weight and bias
    blocks with the tile's column block, and the tile's block indices stay below 8 and 6. -/
theorem idx_facts0 : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = win0_3.index t (1 : Fin 2)
    ∧ win0_2.index t (0 : Fin 2) = 0 ∧ win0_2.index t (1 : Fin 2) = win0_3.index t (1 : Fin 2)
    ∧ win0_3.index t (0 : Fin 2) ≤ 7 ∧ win0_3.index t (1 : Fin 2) ≤ 5 :=
  (by decide +kernel : ∀ t : Fin grid0.N, _)

/-- Every tile of the 8 × 6 tiling is some point's. -/
theorem idx_onto0 : ∀ (q0 : Fin 8) (q1 : Fin 6), ∃ t : Fin cfg0.N, win0_3.index t = ![q0.val, q1.val] :=
  (by decide +kernel : ∀ (q0 : Fin 8) (q1 : Fin 6), ∃ t : Fin grid0.N, win0_3.index t = ![q0.val, q1.val])

/-- What point `t` writes back is its tile of the whole projection of the arrays as the region finds them: row `p` of
    the point's row block is row `512 · (row block) + p` of the array, column `q` of its weight and bias blocks is
    column `512 · (column block) + q`, and the tile sits at exactly those rows and columns of the result. -/
theorem flushed0_eq (c : Dev nD) (t : Fin cfg0.N) :
    (Lin0.dat (F := Ideal) V c).flushed 3 t
      = ((cfg0.win 3).blk t).view.read (Elt Ideal) (proj0 (V c main_v0) (V c main_v1) (V c main_v2)) := by
  show (cfg0.win 3).cut (grid0.coords t) ((Lin0.dat (F := Ideal) V c).after 3 t) = _
  rw [Lin0.after_3]
  unfold Lin0.tile
  rw [View.canon_unit_zero off_zero]
  simp only [View.ld_unit_zero (S := S512x1024) off_zero, View.ld_unit_zero (S := S1024x512) off_zero,
    View.ld_unit_zero (S := S1x512) off_zero]
  obtain ⟨e0, e1, e2, e3, e4, e5, e6, e7⟩ := idx_facts0 t
  funext j
  show k0_pay1 (Lin0.blk V c 0 t) (Lin0.blk V c 1 t) (Lin0.blk V c 2 t) j
    = proj0 (V c main_v0) (V c main_v1) (V c main_v2) (((cfg0.win 3).blk t).view.emb j)
  refine tile0_entry (V c main_v0) (V c main_v1) (V c main_v2) (Lin0.blk V c 0 t) (Lin0.blk V c 1 t) (Lin0.blk V c 2 t)
    j (((cfg0.win 3).blk t).view.emb j) (fun d => ?_) (fun d => ?_) ?_
  · show V c main_v0 (((cfg0.win 0).blk t).view.emb (ix2 (j 0) d)) = V c main_v0 (ix2 ((((cfg0.win 3).blk t).view.emb j) 0) d)
    refine congrArg (V c main_v0) (funext fun a => Fin.ext ?_)
    match a with
    | ⟨0, _⟩ => show win0_0.index t (0 : Fin 2) * 512 + 1 * (j 0).val = win0_3.index t (0 : Fin 2) * 512 + 1 * (j 0).val; omega
    | ⟨1, _⟩ => show win0_0.index t (1 : Fin 2) * 1024 + 1 * d.val = d.val; omega
  · show V c main_v1 (((cfg0.win 1).blk t).view.emb (ix2 d (j 1))) = V c main_v1 (ix2 d ((((cfg0.win 3).blk t).view.emb j) 1))
    refine congrArg (V c main_v1) (funext fun a => Fin.ext ?_)
    match a with
    | ⟨0, _⟩ => show win0_1.index t (0 : Fin 2) * 1024 + 1 * d.val = d.val; omega
    | ⟨1, _⟩ => show win0_1.index t (1 : Fin 2) * 512 + 1 * (j 1).val = win0_3.index t (1 : Fin 2) * 512 + 1 * (j 1).val; omega
  · show V c main_v2 (((cfg0.win 2).blk t).view.emb (ix2 0 (j 1))) = V c main_v2 (ix2 0 ((((cfg0.win 3).blk t).view.emb j) 1))
    refine congrArg (V c main_v2) (funext fun a => Fin.ext ?_)
    match a with
    | ⟨0, _⟩ => show win0_2.index t (0 : Fin 2) * 1 + 1 * 0 = 0; omega
    | ⟨1, _⟩ => show win0_2.index t (1 : Fin 2) * 512 + 1 * (j 1).val = win0_3.index t (1 : Fin 2) * 512 + 1 * (j 1).val; omega

/-- An entry of the result array is in point `t`'s tile iff each coordinate is in the tile's 512 on its axis. -/
theorem mem_tile0 (t : Fin cfg0.N) (i : S4096x3072.Idx) :
    i ∈ ((cfg0.win 3).blk t).view.set ↔ ∀ a : Fin 2, win0_3.index t a * S512x512.size a ≤ (i a).val
      ∧ (i a).val < win0_3.index t a * S512x512.size a + S512x512.size a := by
  show i ∈ ((View.whole main_v3).slice (win0_3.rect t)).set ↔ _
  rw [View.set_slice_whole, Rect.mem_set_unit]
  exact Iff.rfl

/-- Every entry `(r, e)` of the result array is in the tile of the point with block indices `(r / 512, e / 512)`. -/
theorem cover0 (i : S4096x3072.Idx) :
    ∃ t : Fin cfg0.N, (cfg0.win 3).flush t = true ∧ i ∈ ((cfg0.win 3).blk t).view.set := by
  have hi0 : (i 0).val < 4096 := (i 0).isLt
  have hi1 : (i 1).val < 3072 := (i 1).isLt
  obtain ⟨t, ht⟩ := idx_onto0 ⟨(i 0).val / 512, by omega⟩ ⟨(i 1).val / 512, by omega⟩
  have q0 : win0_3.index t (0 : Fin 2) = (i 0).val / 512 := congrFun ht 0
  have q1 : win0_3.index t (1 : Fin 2) = (i 1).val / 512 := congrFun ht 1
  refine ⟨t, flush0_3 t, ?_⟩
  rw [mem_tile0]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 512 ≤ (i 1).val ∧ (i 1).val < win0_3.index t (1 : Fin 2) * 512 + 512; omega

/-- The result array after the region is the whole projection of the arrays as the region found them: every point
    writes its tile of that one function, and the tiles cover the array. -/
theorem lin0_whole (c : Dev nD) :
    (Lin0.dat (F := Ideal) V c).arrAt 3 cfg0.N = proj0 (V c main_v0) (V c main_v1) (V c main_v2) :=
  (Lin0.dat (F := Ideal) V c).arrAt_eq_of_cover 3 (proj0 (V c main_v0) (V c main_v1) (V c main_v2))
    (fun t _ => flushed0_eq V c t) cover0

/-- Entry `(r, e)` of the first projection's result, with the three arrays the region finds named `X`, `W`, `B`: row `r` of
    `X` against column `e` of `W`, plus the bias at `e`. -/
theorem lin0_array (c : Dev nD) (X : S4096x1024.Idx → EReal) (W : S1024x3072.Idx → EReal) (B : S1x3072.Idx → EReal)
    (hX : V c main_v0 = X) (hW : V c main_v1 = W) (hB : V c main_v2 = B) (r : Fin 4096) (e : Fin 3072) :
    (Lin0.dat (F := Ideal) V c).arrAt 3 cfg0.N (ix2 r e)
      = (∑ d : Fin 1024, X (ix2 r d) * W (ix2 d e)) + B (ix2 0 e) := by
  subst hX hW hB
  exact congrFun (lin0_whole V c) (ix2 r e)

/-! ## The output projection: the whole result array -/

/-- The output projection of all 4096 rows: entry `(r, e)` is row `r` of `X` against column `e` of `W`, plus the bias at `e`. -/
def proj2 (X : S4096x1024.Idx → EReal) (W : S1024x1024.Idx → EReal) (B : S1x1024.Idx → EReal) : S4096x1024.Idx → EReal :=
  fun i => (∑ d : Fin 1024, X (ix2 (i 0) d) * W (ix2 d (i 1))) + B (ix2 0 (i 1))

theorem proj2_apply (X : S4096x1024.Idx → EReal) (W : S1024x1024.Idx → EReal) (B : S1x1024.Idx → EReal)
    (r : Fin 4096) (e : Fin 1024) :
    proj2 X W B (ix2 r e) = (∑ d : Fin 1024, X (ix2 r d) * W (ix2 d e)) + B (ix2 0 e) := rfl

/-- An entry of a tile is the entry of the whole projection it sits at, once the tile's row of `x` is the array's row,
    its column of `w` the array's column and its bias entry the array's. -/
theorem tile2_entry (X : S4096x1024.Idx → EReal) (W : S1024x1024.Idx → EReal) (B : S1x1024.Idx → EReal)
    (x : Vec Ideal S512x1024 .f32) (w : Vec Ideal S1024x512 .f32) (b : Vec Ideal S1x512 .f32)
    (y : S512x512.Idx) (i : S4096x1024.Idx)
    (hx : ∀ d : Fin 1024, x (ix2 (y 0) d) = X (ix2 (i 0) d))
    (hw : ∀ d : Fin 1024, w (ix2 d (y 1)) = W (ix2 d (i 1)))
    (hb : b (ix2 0 (y 1)) = B (ix2 0 (i 1))) :
    k2_pay1 x w b y = proj2 X W B i := by
  obtain ⟨p, q, rfl⟩ : ∃ (p q : Fin 512), y = ix2 p q := ⟨y 0, y 1, eq_ix2 y⟩
  rw [pay2_apply]
  unfold proj2
  rw [show b (ix2 0 q) = B (ix2 0 (i 1)) from hb]
  exact congrArg (· + B (ix2 0 (i 1))) (Finset.sum_congr rfl fun d _ => by
    rw [show x (ix2 p d) = X (ix2 (i 0) d) from hx d, show w (ix2 d q) = W (ix2 d (i 1)) from hw d])

/-- The printed index maps over the 8 × 2 grid: the row block moves with the tile's row block, the weight and bias
    blocks with the tile's column block, and the tile's block indices stay below 8 and 2. -/
theorem idx_facts2 : ∀ t : Fin cfg2.N,
    win2_0.index t (0 : Fin 2) = win2_3.index t (0 : Fin 2) ∧ win2_0.index t (1 : Fin 2) = 0
    ∧ win2_1.index t (0 : Fin 2) = 0 ∧ win2_1.index t (1 : Fin 2) = win2_3.index t (1 : Fin 2)
    ∧ win2_2.index t (0 : Fin 2) = 0 ∧ win2_2.index t (1 : Fin 2) = win2_3.index t (1 : Fin 2)
    ∧ win2_3.index t (0 : Fin 2) ≤ 7 ∧ win2_3.index t (1 : Fin 2) ≤ 1 :=
  (by decide +kernel : ∀ t : Fin grid2.N, _)

/-- Every tile of the 8 × 2 tiling is some point's. -/
theorem idx_onto2 : ∀ (q0 : Fin 8) (q1 : Fin 2), ∃ t : Fin cfg2.N, win2_3.index t = ![q0.val, q1.val] :=
  (by decide +kernel : ∀ (q0 : Fin 8) (q1 : Fin 2), ∃ t : Fin grid2.N, win2_3.index t = ![q0.val, q1.val])

/-- What point `t` writes back is its tile of the whole projection of the arrays as the region finds them: row `p` of
    the point's row block is row `512 · (row block) + p` of the array, column `q` of its weight and bias blocks is
    column `512 · (column block) + q`, and the tile sits at exactly those rows and columns of the result. -/
theorem flushed2_eq (c : Dev nD) (t : Fin cfg2.N) :
    (Lin2.dat (F := Ideal) V c).flushed 3 t
      = ((cfg2.win 3).blk t).view.read (Elt Ideal) (proj2 (V c main_v15) (V c main_v16) (V c main_v17)) := by
  show (cfg2.win 3).cut (grid2.coords t) ((Lin2.dat (F := Ideal) V c).after 3 t) = _
  rw [Lin2.after_3]
  unfold Lin2.tile
  rw [View.canon_unit_zero off_zero]
  simp only [View.ld_unit_zero (S := S512x1024) off_zero, View.ld_unit_zero (S := S1024x512) off_zero,
    View.ld_unit_zero (S := S1x512) off_zero]
  obtain ⟨e0, e1, e2, e3, e4, e5, e6, e7⟩ := idx_facts2 t
  funext j
  show k2_pay1 (Lin2.blk V c 0 t) (Lin2.blk V c 1 t) (Lin2.blk V c 2 t) j
    = proj2 (V c main_v15) (V c main_v16) (V c main_v17) (((cfg2.win 3).blk t).view.emb j)
  refine tile2_entry (V c main_v15) (V c main_v16) (V c main_v17) (Lin2.blk V c 0 t) (Lin2.blk V c 1 t) (Lin2.blk V c 2 t)
    j (((cfg2.win 3).blk t).view.emb j) (fun d => ?_) (fun d => ?_) ?_
  · show V c main_v15 (((cfg2.win 0).blk t).view.emb (ix2 (j 0) d)) = V c main_v15 (ix2 ((((cfg2.win 3).blk t).view.emb j) 0) d)
    refine congrArg (V c main_v15) (funext fun a => Fin.ext ?_)
    match a with
    | ⟨0, _⟩ => show win2_0.index t (0 : Fin 2) * 512 + 1 * (j 0).val = win2_3.index t (0 : Fin 2) * 512 + 1 * (j 0).val; omega
    | ⟨1, _⟩ => show win2_0.index t (1 : Fin 2) * 1024 + 1 * d.val = d.val; omega
  · show V c main_v16 (((cfg2.win 1).blk t).view.emb (ix2 d (j 1))) = V c main_v16 (ix2 d ((((cfg2.win 3).blk t).view.emb j) 1))
    refine congrArg (V c main_v16) (funext fun a => Fin.ext ?_)
    match a with
    | ⟨0, _⟩ => show win2_1.index t (0 : Fin 2) * 1024 + 1 * d.val = d.val; omega
    | ⟨1, _⟩ => show win2_1.index t (1 : Fin 2) * 512 + 1 * (j 1).val = win2_3.index t (1 : Fin 2) * 512 + 1 * (j 1).val; omega
  · show V c main_v17 (((cfg2.win 2).blk t).view.emb (ix2 0 (j 1))) = V c main_v17 (ix2 0 ((((cfg2.win 3).blk t).view.emb j) 1))
    refine congrArg (V c main_v17) (funext fun a => Fin.ext ?_)
    match a with
    | ⟨0, _⟩ => show win2_2.index t (0 : Fin 2) * 1 + 1 * 0 = 0; omega
    | ⟨1, _⟩ => show win2_2.index t (1 : Fin 2) * 512 + 1 * (j 1).val = win2_3.index t (1 : Fin 2) * 512 + 1 * (j 1).val; omega

/-- An entry of the result array is in point `t`'s tile iff each coordinate is in the tile's 512 on its axis. -/
theorem mem_tile2 (t : Fin cfg2.N) (i : S4096x1024.Idx) :
    i ∈ ((cfg2.win 3).blk t).view.set ↔ ∀ a : Fin 2, win2_3.index t a * S512x512.size a ≤ (i a).val
      ∧ (i a).val < win2_3.index t a * S512x512.size a + S512x512.size a := by
  show i ∈ ((View.whole main_v18).slice (win2_3.rect t)).set ↔ _
  rw [View.set_slice_whole, Rect.mem_set_unit]
  exact Iff.rfl

/-- Every entry `(r, e)` of the result array is in the tile of the point with block indices `(r / 512, e / 512)`. -/
theorem cover2 (i : S4096x1024.Idx) :
    ∃ t : Fin cfg2.N, (cfg2.win 3).flush t = true ∧ i ∈ ((cfg2.win 3).blk t).view.set := by
  have hi0 : (i 0).val < 4096 := (i 0).isLt
  have hi1 : (i 1).val < 1024 := (i 1).isLt
  obtain ⟨t, ht⟩ := idx_onto2 ⟨(i 0).val / 512, by omega⟩ ⟨(i 1).val / 512, by omega⟩
  have q0 : win2_3.index t (0 : Fin 2) = (i 0).val / 512 := congrFun ht 0
  have q1 : win2_3.index t (1 : Fin 2) = (i 1).val / 512 := congrFun ht 1
  refine ⟨t, flush2_3 t, ?_⟩
  rw [mem_tile2]
  intro a
  match a with
  | ⟨0, _⟩ => show win2_3.index t (0 : Fin 2) * 512 ≤ (i 0).val ∧ (i 0).val < win2_3.index t (0 : Fin 2) * 512 + 512; omega
  | ⟨1, _⟩ => show win2_3.index t (1 : Fin 2) * 512 ≤ (i 1).val ∧ (i 1).val < win2_3.index t (1 : Fin 2) * 512 + 512; omega

/-- The result array after the region is the whole projection of the arrays as the region found them: every point
    writes its tile of that one function, and the tiles cover the array. -/
theorem lin2_whole (c : Dev nD) :
    (Lin2.dat (F := Ideal) V c).arrAt 3 cfg2.N = proj2 (V c main_v15) (V c main_v16) (V c main_v17) :=
  (Lin2.dat (F := Ideal) V c).arrAt_eq_of_cover 3 (proj2 (V c main_v15) (V c main_v16) (V c main_v17))
    (fun t _ => flushed2_eq V c t) cover2

/-- Entry `(r, e)` of the output projection's result, with the three arrays the region finds named `X`, `W`, `B`: row `r` of
    `X` against column `e` of `W`, plus the bias at `e`. -/
theorem lin2_array (c : Dev nD) (X : S4096x1024.Idx → EReal) (W : S1024x1024.Idx → EReal) (B : S1x1024.Idx → EReal)
    (hX : V c main_v15 = X) (hW : V c main_v16 = W) (hB : V c main_v17 = B) (r : Fin 4096) (e : Fin 1024) :
    (Lin2.dat (F := Ideal) V c).arrAt 3 cfg2.N (ix2 r e)
      = (∑ d : Fin 1024, X (ix2 r d) * W (ix2 d e)) + B (ix2 0 e) := by
  subst hX hW hB
  exact congrFun (lin2_whole V c) (ix2 r e)

end Cert.KernelIdeal.LinVal

end
-- ==== Proof.LibOnlineSoftmax.lean ====
/-
  The chunked ("online") softmax recurrence and the two-pass softmax, on the extended reals.

  One query row has scores cut into K chunks of width C, s j : Fin C → EReal for j < K, and values
  v j of the same shape. The recurrence carries a triple (m, l, a) — running maximum, running sum of
  weights, running weighted sum of the values — starts it at (⊥, 0, 0), and for each chunk replaces it by
      m' = max m (max of the chunk),   α = exp (m - m'),
      l' = α * l + ∑ i, exp (s j i - m'),      a' = α * a + ∑ i, exp (s j i - m') * v j i,
  and at the end returns a / l. The two-pass softmax takes a real shift M (the row maximum, say) and
  returns ∑ j i, (exp (s j i - M) / ∑ j' i', exp (s j' i' - M)) * v j i.

  On the extended reals these are not equal in general (a factor does not move across a sum at the
  infinities). They are equal when every score and every value is a real number: the invariant
  "Closed n" says that after n chunks the running maximum is a real Mn and l, a are the sums over
  the first n chunks of exp (s - Mn) and exp (s - Mn) * v; a step rescales both sums by
  exp (Mn - Mn'), which is exp (x - Mn) * exp (Mn - Mn') = exp (x - Mn') term by term; and the
  quotient of the two sums does not depend on the real shift.
-/
import Idealize.ShloMosaic.PureOps.Ideal

noncomputable section

namespace Cert.LibOnlineSoftmax

open Idealize.ShloMosaic
open scoped BigOperators

variable {K C D N : ℕ}

/-! ### Coercions and chunk maxima -/

/-- The inclusion of the reals commutes with finite sums. -/
theorem coe_sum {ι : Type*} (t : Finset ι) (f : ι → ℝ) :
    (∑ i ∈ t, (f i : EReal)) = ((∑ i ∈ t, f i : ℝ) : EReal) := by
  classical
  induction t using Finset.induction_on with
  | empty => simp
  | insert a t ha ih => rw [Finset.sum_insert ha, Finset.sum_insert ha, ih, EReal.coe_add]

/-- The inclusion of the reals commutes with a double finite sum. -/
theorem coe_sum2 {ι κ : Type*} (t : Finset ι) (u : Finset κ) (f : ι → κ → ℝ) :
    (∑ j ∈ t, ∑ i ∈ u, (f j i : EReal)) = ((∑ j ∈ t, ∑ i ∈ u, f j i : ℝ) : EReal) := by
  rw [← coe_sum]
  exact Finset.sum_congr rfl fun j _ => coe_sum u (f j)

/-- The maximum of finitely many reals, folded from the bottom element, is a real when there is at
    least one. -/
theorem fold_max_coe {ι : Type*} (t : Finset ι) (ht : t.Nonempty) (f : ι → ℝ) :
    ∃ M : ℝ, t.fold max (⊥ : EReal) (fun i => (f i : EReal)) = (M : EReal) := by
  induction ht using Finset.Nonempty.cons_induction with
  | singleton a => exact ⟨f a, by rw [Finset.fold_singleton]; exact max_bot_right _⟩
  | cons a t ha ht ih =>
    obtain ⟨M, hM⟩ := ih
    refine ⟨max (f a) M, ?_⟩
    rw [Finset.fold_cons, hM]
    exact (EReal.coe_strictMono.monotone.map_max).symm

/-- The maximum of a non-empty chunk of reals is a real, and it bounds every entry of the chunk. -/
theorem chunk_max_real (hC : 0 < C) (r : Fin C → ℝ) :
    ∃ Mc : ℝ, (Finset.univ : Finset (Fin C)).fold max (⊥ : EReal) (fun i => (r i : EReal)) = (Mc : EReal)
      ∧ ∀ i, r i ≤ Mc := by
  obtain ⟨Mc, hMc⟩ := fold_max_coe (Finset.univ : Finset (Fin C)) ⟨⟨0, hC⟩, Finset.mem_univ _⟩ r
  refine ⟨Mc, hMc, fun i => ?_⟩
  have h : ((r i : ℝ) : EReal) ≤ (Finset.univ : Finset (Fin C)).fold max (⊥ : EReal) (fun i => (r i : EReal)) :=
    (Finset.le_fold_max _).mpr (Or.inr ⟨i, Finset.mem_univ _, le_refl _⟩)
  rw [hMc] at h
  exact EReal.coe_le_coe_iff.mp h

/-- The maximum of two reals, taken on the extended reals, is the real maximum. -/
theorem max_coe (x y : ℝ) : max (x : EReal) (y : EReal) = ((max x y : ℝ) : EReal) :=
  (EReal.coe_strictMono.monotone.map_max).symm

/-- The weights of a real chunk against a real shift sum to a real. -/
theorem chunk_sum_exp (r : Fin C → ℝ) (M : ℝ) :
    ∑ i, Ideal.exp ((r i : EReal) - (M : EReal)) = ((∑ i, Real.exp (r i - M) : ℝ) : EReal) := by
  rw [← coe_sum]
  exact Finset.sum_congr rfl fun i _ => by rw [← EReal.coe_sub, Ideal.exp_coe]

/-- The weighted values of a real chunk against a real shift sum to a real. -/
theorem chunk_sum_exp_mul (r w : Fin C → ℝ) (M : ℝ) :
    ∑ i, Ideal.exp ((r i : EReal) - (M : EReal)) * (w i : EReal)
      = ((∑ i, Real.exp (r i - M) * w i : ℝ) : EReal) := by
  rw [← coe_sum]
  exact Finset.sum_congr rfl fun i _ => by rw [← EReal.coe_sub, Ideal.exp_coe, ← EReal.coe_mul]

/-! ### The recurrence -/

/-- One step of the recurrence: the state (m, l, a) and a chunk of scores s and values v give
    m' = max m (max of s), α = exp (m - m'), l' = α * l + ∑ exp (s - m'), a' = α * a + ∑ exp (s - m') * v. -/
def step (st : EReal × EReal × EReal) (s v : Fin C → EReal) : EReal × EReal × EReal :=
  (max st.1 ((Finset.univ : Finset (Fin C)).fold max ⊥ s),
   Ideal.exp (st.1 - max st.1 ((Finset.univ : Finset (Fin C)).fold max ⊥ s)) * st.2.1
     + ∑ i, Ideal.exp (s i - max st.1 ((Finset.univ : Finset (Fin C)).fold max ⊥ s)),
   Ideal.exp (st.1 - max st.1 ((Finset.univ : Finset (Fin C)).fold max ⊥ s)) * st.2.2
     + ∑ i, Ideal.exp (s i - max st.1 ((Finset.univ : Finset (Fin C)).fold max ⊥ s)) * v i)

/-- The step on an explicit triple, written out. -/
theorem step_mk (m l a : EReal) (s v : Fin C → EReal) :
    step (m, l, a) s v
      = (max m ((Finset.univ : Finset (Fin C)).fold max ⊥ s),
         Ideal.exp (m - max m ((Finset.univ : Finset (Fin C)).fold max ⊥ s)) * l
           + ∑ i, Ideal.exp (s i - max m ((Finset.univ : Finset (Fin C)).fold max ⊥ s)),
         Ideal.exp (m - max m ((Finset.univ : Finset (Fin C)).fold max ⊥ s)) * a
           + ∑ i, Ideal.exp (s i - max m ((Finset.univ : Finset (Fin C)).fold max ⊥ s)) * v i) := rfl

/-- The first step on a real chunk: from (⊥, 0, 0) the state becomes the chunk's maximum Mc and the
    chunk's two sums against Mc (exp ⊥ = 0 wipes the old state). -/
theorem step_init_real (hC : 0 < C) (r w : Fin C → ℝ) :
    ∃ Mc : ℝ, (∀ i, r i ≤ Mc) ∧
      step ((⊥ : EReal), (0 : EReal), (0 : EReal)) (fun i => (r i : EReal)) (fun i => (w i : EReal))
        = ((Mc : EReal), ((∑ i, Real.exp (r i - Mc) : ℝ) : EReal),
            ((∑ i, Real.exp (r i - Mc) * w i : ℝ) : EReal)) := by
  obtain ⟨Mc, hMc, hle⟩ := chunk_max_real hC r
  refine ⟨Mc, hle, ?_⟩
  rw [step_mk, hMc, max_bot_left, EReal.bot_sub, Ideal.exp_bot, zero_mul, zero_add, zero_add,
    chunk_sum_exp, chunk_sum_exp_mul]

/-- A step from a real state on a real chunk: with Mc the chunk's maximum and M' = max Mn Mc, the new
    state is M', exp (Mn - M') * L + ∑ exp (r - M'), exp (Mn - M') * A + ∑ exp (r - M') * w, all real. -/
theorem step_real (hC : 0 < C) (Mn L A : ℝ) (r w : Fin C → ℝ) :
    ∃ Mc : ℝ, (∀ i, r i ≤ Mc) ∧
      step ((Mn : EReal), (L : EReal), (A : EReal)) (fun i => (r i : EReal)) (fun i => (w i : EReal))
        = (((max Mn Mc : ℝ) : EReal),
           ((Real.exp (Mn - max Mn Mc) * L + ∑ i, Real.exp (r i - max Mn Mc) : ℝ) : EReal),
           ((Real.exp (Mn - max Mn Mc) * A + ∑ i, Real.exp (r i - max Mn Mc) * w i : ℝ) : EReal)) := by
  obtain ⟨Mc, hMc, hle⟩ := chunk_max_real hC r
  refine ⟨Mc, hle, ?_⟩
  rw [step_mk, hMc, max_coe, chunk_sum_exp, chunk_sum_exp_mul, ← EReal.coe_sub, Ideal.exp_coe,
    ← EReal.coe_mul, ← EReal.coe_mul, ← EReal.coe_add, ← EReal.coe_add]

/-! ### Sums over the first n chunks -/

/-- The chunks before the n-th. -/
def before (K n : ℕ) : Finset (Fin K) := Finset.univ.filter (fun j => j.val < n)

theorem mem_before {n : ℕ} (j : Fin K) : j ∈ before K n ↔ j.val < n := by
  simp [before]

/-- The chunks before the (n+1)-st are the n-th together with those before it. -/
theorem before_succ {n : ℕ} (hn : n < K) :
    before K (n + 1) = insert (⟨n, hn⟩ : Fin K) (before K n) := by
  ext j
  rw [Finset.mem_insert, mem_before, mem_before, Nat.lt_succ_iff_lt_or_eq, or_comm, Fin.ext_iff]

theorem not_mem_before_self {n : ℕ} (hn : n < K) : (⟨n, hn⟩ : Fin K) ∉ before K n := by
  rw [mem_before]; exact lt_irrefl n

/-- No chunk comes before the first. -/
theorem before_zero : before K 0 = ∅ := by
  ext j; simp [mem_before]

/-- Every chunk comes before the K-th. -/
theorem before_all : before K K = Finset.univ := by
  ext j; simp [mem_before]

/-- Over real scores the weights of a set of chunks against a real shift sum to a real. -/
theorem sum_exp_coe (t : Finset (Fin K)) (rs : Fin K → Fin C → ℝ) (M : ℝ) :
    ∑ j ∈ t, ∑ i, Ideal.exp ((rs j i : EReal) - (M : EReal))
      = ((∑ j ∈ t, ∑ i, Real.exp (rs j i - M) : ℝ) : EReal) := by
  rw [← coe_sum]
  exact Finset.sum_congr rfl fun j _ => chunk_sum_exp (rs j) M

/-- Over real scores and values the weighted values of a set of chunks sum to a real. -/
theorem sum_exp_mul_coe (t : Finset (Fin K)) (rs rv : Fin K → Fin C → ℝ) (M : ℝ) :
    ∑ j ∈ t, ∑ i, Ideal.exp ((rs j i : EReal) - (M : EReal)) * (rv j i : EReal)
      = ((∑ j ∈ t, ∑ i, Real.exp (rs j i - M) * rv j i : ℝ) : EReal) := by
  rw [← coe_sum]
  exact Finset.sum_congr rfl fun j _ => chunk_sum_exp_mul (rs j) (rv j) M

/-- Changing the shift from M to M' multiplies every weight by exp (M - M'):
    exp (M - M') * exp (x - M) = exp (x - M'). -/
theorem rescale_sum {ι : Type*} (t : Finset ι) (f g : ι → Fin C → ℝ) (M M' : ℝ) :
    Real.exp (M - M') * ∑ j ∈ t, ∑ i, Real.exp (f j i - M) * g j i
      = ∑ j ∈ t, ∑ i, Real.exp (f j i - M') * g j i := by
  rw [Finset.mul_sum]
  refine Finset.sum_congr rfl fun j _ => ?_
  rw [Finset.mul_sum]
  refine Finset.sum_congr rfl fun i _ => ?_
  rw [← mul_assoc, ← Real.exp_add]
  congr 2
  ring

/-- The same for the bare weights. -/
theorem rescale_sum_one {ι : Type*} (t : Finset ι) (f : ι → Fin C → ℝ) (M M' : ℝ) :
    Real.exp (M - M') * ∑ j ∈ t, ∑ i, Real.exp (f j i - M)
      = ∑ j ∈ t, ∑ i, Real.exp (f j i - M') := by
  simpa using rescale_sum t f (fun _ _ => (1 : ℝ)) M M'

/-! ### The invariant -/

/-- After n chunks: the running maximum is a real Mn that bounds every score seen, and the running
    sums are a positive real L and a real A, the sums over the first n chunks of exp (s - Mn) and of
    exp (s - Mn) * v. -/
def Closed (s v : Fin K → Fin C → EReal) (n : ℕ) (st : EReal × EReal × EReal) : Prop :=
  ∃ Mn L A : ℝ, st = ((Mn : EReal), (L : EReal), (A : EReal)) ∧ 0 < L ∧
    (∀ j : Fin K, j.val < n → ∀ i, s j i ≤ (Mn : EReal)) ∧
    (L : EReal) = ∑ j ∈ before K n, ∑ i, Ideal.exp (s j i - (Mn : EReal)) ∧
    (A : EReal) = ∑ j ∈ before K n, ∑ i, Ideal.exp (s j i - (Mn : EReal)) * v j i

/-- The first step establishes the invariant for one chunk. -/
theorem step_first (hK : 0 < K) (hC : 0 < C) (s v : Fin K → Fin C → EReal)
    (hs : ∀ j i, ∃ r : ℝ, s j i = (r : EReal)) (hv : ∀ j i, ∃ r : ℝ, v j i = (r : EReal)) :
    Closed s v 1 (step ((⊥ : EReal), (0 : EReal), (0 : EReal)) (s ⟨0, hK⟩) (v ⟨0, hK⟩)) := by
  choose rs hrs using hs
  choose rv hrv using hv
  obtain rfl : s = fun j i => (rs j i : EReal) := funext fun j => funext (hrs j)
  obtain rfl : v = fun j i => (rv j i : EReal) := funext fun j => funext (hrv j)
  obtain ⟨Mc, hle, hst⟩ := step_init_real hC (rs ⟨0, hK⟩) (rv ⟨0, hK⟩)
  have hb : before K (0 + 1) = {(⟨0, hK⟩ : Fin K)} := by
    rw [before_succ hK, before_zero]; rfl
  rw [zero_add] at hb
  refine ⟨Mc, ∑ i, Real.exp (rs ⟨0, hK⟩ i - Mc), ∑ i, Real.exp (rs ⟨0, hK⟩ i - Mc) * rv ⟨0, hK⟩ i, hst, ?_, ?_, ?_, ?_⟩
  · exact Finset.sum_pos (fun i _ => Real.exp_pos _) ⟨⟨0, hC⟩, Finset.mem_univ _⟩
  · intro j hj i
    have : j = ⟨0, hK⟩ := Fin.ext (by simpa using hj)
    subst this
    exact EReal.coe_le_coe_iff.mpr (hle i)
  · rw [hb, Finset.sum_singleton, chunk_sum_exp]
  · rw [hb, Finset.sum_singleton, chunk_sum_exp_mul]

/-- A further step carries the invariant from n chunks to n + 1. -/
theorem step_next (hC : 0 < C) (s v : Fin K → Fin C → EReal)
    (hs : ∀ j i, ∃ r : ℝ, s j i = (r : EReal)) (hv : ∀ j i, ∃ r : ℝ, v j i = (r : EReal))
    {n : ℕ} (st : EReal × EReal × EReal) (hcl : Closed s v n st) (hn : n < K) :
    Closed s v (n + 1) (step st (s ⟨n, hn⟩) (v ⟨n, hn⟩)) := by
  choose rs hrs using hs
  choose rv hrv using hv
  obtain rfl : s = fun j i => (rs j i : EReal) := funext fun j => funext (hrs j)
  obtain rfl : v = fun j i => (rv j i : EReal) := funext fun j => funext (hrv j)
  obtain ⟨Mn, L, A, rfl, hL, hbd, hLs, hAs⟩ := hcl
  rw [sum_exp_coe, EReal.coe_eq_coe_iff] at hLs
  rw [sum_exp_mul_coe, EReal.coe_eq_coe_iff] at hAs
  obtain ⟨Mc, hle, hst⟩ := step_real hC Mn L A (rs ⟨n, hn⟩) (rv ⟨n, hn⟩)
  refine ⟨max Mn Mc, _, _, hst, ?_, ?_, ?_, ?_⟩
  · exact add_pos_of_pos_of_nonneg (mul_pos (Real.exp_pos _) hL)
      (Finset.sum_nonneg fun i _ => (Real.exp_pos _).le)
  · intro j hj i
    rcases Nat.lt_succ_iff_lt_or_eq.mp hj with h | h
    · exact le_trans (hbd j h i) (EReal.coe_le_coe_iff.mpr (le_max_left _ _))
    · have : j = ⟨n, hn⟩ := Fin.ext h
      subst this
      exact EReal.coe_le_coe_iff.mpr (le_trans (hle i) (le_max_right _ _))
  · rw [sum_exp_coe, EReal.coe_eq_coe_iff, before_succ hn, Finset.sum_insert (not_mem_before_self hn),
      hLs, rescale_sum_one, add_comm]
  · rw [sum_exp_mul_coe, EReal.coe_eq_coe_iff, before_succ hn, Finset.sum_insert (not_mem_before_self hn),
      hAs, rescale_sum, add_comm]

/-- Softmax does not change under a real shift: once all K chunks are in, a / l is the two-pass
    softmax of the whole row against any real M (each weight exp (s - M) divided by the sum of all
    of them, times the value, summed). On the reals exp (x - Mn) = exp (M - Mn) * exp (x - M), and the
    common factor exp (M - Mn) cancels between numerator and denominator. -/
theorem final (s v : Fin K → Fin C → EReal)
    (hs : ∀ j i, ∃ r : ℝ, s j i = (r : EReal)) (hv : ∀ j i, ∃ r : ℝ, v j i = (r : EReal))
    (m l a : EReal) (hcl : Closed s v K (m, l, a)) (M : ℝ) :
    Ideal.div a l
      = ∑ j, ∑ i, Ideal.div (Ideal.exp (s j i - (M : EReal)))
          (∑ j', ∑ i', Ideal.exp (s j' i' - (M : EReal))) * v j i := by
  choose rs hrs using hs
  choose rv hrv using hv
  obtain rfl : s = fun j i => (rs j i : EReal) := funext fun j => funext (hrs j)
  obtain rfl : v = fun j i => (rv j i : EReal) := funext fun j => funext (hrv j)
  obtain ⟨Mn, L, A, hst, hL, -, hLs, hAs⟩ := hcl
  simp only [Prod.mk.injEq] at hst
  obtain ⟨rfl, rfl, rfl⟩ := hst
  rw [before_all, sum_exp_coe, EReal.coe_eq_coe_iff] at hLs
  rw [before_all, sum_exp_mul_coe, EReal.coe_eq_coe_iff] at hAs
  have hLZ : L = Real.exp (M - Mn) * ∑ j : Fin K, ∑ i, Real.exp (rs j i - M) :=
    hLs.trans (rescale_sum_one Finset.univ rs M Mn).symm
  have hAB : A = Real.exp (M - Mn) * ∑ j : Fin K, ∑ i, Real.exp (rs j i - M) * rv j i :=
    hAs.trans (rescale_sum Finset.univ rs rv M Mn).symm
  have he : Real.exp (M - Mn) ≠ 0 := (Real.exp_pos _).ne'
  have hZ : (∑ j : Fin K, ∑ i, Real.exp (rs j i - M)) ≠ 0 := by
    intro h0
    rw [h0, mul_zero] at hLZ
    exact hL.ne' hLZ
  rw [sum_exp_coe]
  simp only [Ideal.div_coe hZ, Ideal.div_coe hL.ne', ← EReal.coe_sub, Ideal.exp_coe, ← EReal.coe_mul]
  rw [coe_sum2, EReal.coe_eq_coe_iff]
  have hR : ∑ j : Fin K, ∑ i, Real.exp (rs j i - M) * (1 / ∑ j : Fin K, ∑ i, Real.exp (rs j i - M)) * rv j i
      = (∑ j : Fin K, ∑ i, Real.exp (rs j i - M) * rv j i) * (1 / ∑ j : Fin K, ∑ i, Real.exp (rs j i - M)) := by
    rw [Finset.sum_mul]
    refine Finset.sum_congr rfl fun j _ => ?_
    rw [Finset.sum_mul]
    exact Finset.sum_congr rfl fun i _ => by ring
  rw [hR, hAB, hLZ]
  field_simp

/-! ### The whole recurrence -/

/-- The state after the first n chunks, from (⊥, 0, 0); past the last chunk it stays put. -/
def run (s v : Fin K → Fin C → EReal) : ℕ → EReal × EReal × EReal
  | 0 => ((⊥ : EReal), (0 : EReal), (0 : EReal))
  | n + 1 => if h : n < K then step (run s v n) (s ⟨n, h⟩) (v ⟨n, h⟩) else run s v n

theorem run_zero (s v : Fin K → Fin C → EReal) : run s v 0 = ((⊥ : EReal), (0 : EReal), (0 : EReal)) := rfl

theorem run_succ (s v : Fin K → Fin C → EReal) {n : ℕ} (h : n < K) :
    run s v (n + 1) = step (run s v n) (s ⟨n, h⟩) (v ⟨n, h⟩) := by
  rw [run, dif_pos h]

/-- The invariant holds after every positive number of chunks. -/
theorem run_closed (hC : 0 < C) (s v : Fin K → Fin C → EReal)
    (hs : ∀ j i, ∃ r : ℝ, s j i = (r : EReal)) (hv : ∀ j i, ∃ r : ℝ, v j i = (r : EReal))
    (n : ℕ) (hn : n < K) : Closed s v (n + 1) (run s v (n + 1)) := by
  induction n with
  | zero => rw [run_succ s v hn, run_zero]; exact step_first hn hC s v hs hv
  | succ n ih =>
    rw [run_succ s v hn]
    exact step_next hC s v hs hv _ (ih (Nat.lt_of_succ_lt hn)) hn

/-- THE LAW: on real scores and values, with at least one chunk of at least one column, the
    recurrence run over all K chunks and divided out at the end is the two-pass softmax against any
    real shift M. -/
theorem run_eq_two_pass (hK : 0 < K) (hC : 0 < C) (s v : Fin K → Fin C → EReal)
    (hs : ∀ j i, ∃ r : ℝ, s j i = (r : EReal)) (hv : ∀ j i, ∃ r : ℝ, v j i = (r : EReal)) (M : ℝ) :
    Ideal.div (run s v K).2.2 (run s v K).2.1
      = ∑ j, ∑ i, Ideal.div (Ideal.exp (s j i - (M : EReal)))
          (∑ j', ∑ i', Ideal.exp (s j' i' - (M : EReal))) * v j i := by
  obtain ⟨n, rfl⟩ : ∃ n, K = n + 1 := ⟨K - 1, by omega⟩
  exact final s v hs hv _ _ _ (run_closed hC s v hs hv n (Nat.lt_succ_self n)) M

/-! ### Scale folding -/

/-- For a real query row, a real key row and a real scale, the scale leaves the sum:
    ∑ (q * c) * k = (∑ q * k) * c. -/
theorem scale_fold (q k : Fin D → EReal) (c : EReal) (hq : ∀ e, ∃ r : ℝ, q e = (r : EReal))
    (hk : ∀ e, ∃ r : ℝ, k e = (r : EReal)) (hc : ∃ r : ℝ, c = (r : EReal)) :
    ∑ e, (q e * c) * k e = (∑ e, q e * k e) * c := by
  obtain ⟨rc, rfl⟩ := hc
  choose rq hrq using hq
  choose rk hrk using hk
  simp only [hrq, hrk, ← EReal.coe_mul]
  rw [coe_sum, coe_sum, ← EReal.coe_mul, EReal.coe_eq_coe_iff, Finset.sum_mul]
  exact Finset.sum_congr rfl fun e _ => by ring

/-! ### The flat row -/

/-- Column j * C + i of a row of N = K * C columns: the i-th column of the j-th chunk. -/
def flat (hN : N = K * C) (j : Fin K) (i : Fin C) : Fin N :=
  ⟨j.val * C + i.val, by
    rw [hN]
    calc j.val * C + i.val < j.val * C + C := Nat.add_lt_add_left i.isLt _
      _ = (j.val + 1) * C := (Nat.succ_mul _ _).symm
      _ ≤ K * C := Nat.mul_le_mul_right _ j.isLt⟩

@[simp] theorem flat_val (hN : N = K * C) (j : Fin K) (i : Fin C) : (flat hN j i).val = j.val * C + i.val := rfl

/-- A sum over the N = K * C columns of a row is the sum over the chunks of the sums within each
    chunk (in any commutative monoid, so on the extended reals too). -/
theorem sum_flat {β : Type*} [AddCommMonoid β] (hN : N = K * C) (f : Fin N → β) :
    ∑ t, f t = ∑ j : Fin K, ∑ i : Fin C, f (flat hN j i) := by
  subst hN
  rw [← Equiv.sum_comp (finProdFinEquiv : Fin K × Fin C ≃ Fin (K * C)) f, Fintype.sum_prod_type]
  refine Finset.sum_congr rfl fun j _ => Finset.sum_congr rfl fun i _ => ?_
  congr 1
  apply Fin.ext
  simp [finProdFinEquiv, Nat.mul_comm, Nat.add_comm]

/-- The flat form of final: for a row s', v' of N = K * C columns whose j-th chunk is the
    contiguous block of C columns from j * C, the recurrence's a / l is the two-pass softmax over
    the N columns. -/
theorem final_flat (hN : N = K * C) (s' v' : Fin N → EReal)
    (hs : ∀ t, ∃ r : ℝ, s' t = (r : EReal)) (hv : ∀ t, ∃ r : ℝ, v' t = (r : EReal))
    (m l a : EReal)
    (hcl : Closed (fun j i => s' (flat hN j i)) (fun j i => v' (flat hN j i)) K (m, l, a)) (M : ℝ) :
    Ideal.div a l
      = ∑ t, Ideal.div (Ideal.exp (s' t - (M : EReal))) (∑ t', Ideal.exp (s' t' - (M : EReal))) * v' t := by
  have h1 := sum_flat hN (fun t => Ideal.exp (s' t - (M : EReal)))
  have h2 := sum_flat hN (fun t => Ideal.div (Ideal.exp (s' t - (M : EReal)))
    (∑ t', Ideal.exp (s' t' - (M : EReal))) * v' t)
  rw [h2, h1]
  exact final _ _ (fun j i => hs _) (fun j i => hv _) m l a hcl M

/-- The flat form of the whole law: the recurrence over the K chunks of a real row of N = K * C
    columns, divided out at the end, is the two-pass softmax over the N columns. -/
theorem run_eq_two_pass_flat (hK : 0 < K) (hC : 0 < C) (hN : N = K * C) (s' v' : Fin N → EReal)
    (hs : ∀ t, ∃ r : ℝ, s' t = (r : EReal)) (hv : ∀ t, ∃ r : ℝ, v' t = (r : EReal)) (M : ℝ) :
    Ideal.div (run (fun j i => s' (flat hN j i)) (fun j i => v' (flat hN j i)) K).2.2
        (run (fun j i => s' (flat hN j i)) (fun j i => v' (flat hN j i)) K).2.1
      = ∑ t, Ideal.div (Ideal.exp (s' t - (M : EReal))) (∑ t', Ideal.exp (s' t' - (M : EReal))) * v' t := by
  obtain ⟨n, rfl⟩ : ∃ n, K = n + 1 := ⟨K - 1, by omega⟩
  exact final_flat hN s' v' hs hv _ _ _
    (run_closed hC _ _ (fun j i => hs _) (fun j i => hv _) n (Nat.lt_succ_self n)) M

end Cert.LibOnlineSoftmax

end
-- ==== Proof.AttnPayloads.lean ====
/-
  The attention kernel's pure values, read entry by entry.

  For one query block q (1024 rows of 64), one key block k and one value block v (512 rows of 64), and the
  running state m, l (columns of 1024) and acc (1024 by 64), each value the kernel computes between its loads
  and stores is written here at an index as the textbook expression over the extended reals:
  the scores sc q k r c = ∑ e, (q r e * 1/8) * k c e; the new row maximum max (m r) (max over c of sc r c);
  the rescaling factor exp (m r - m' r); the weights exp (sc r c - m' r); the new row sum
  exp (m r - m' r) * l r + ∑ c, weight r c; the new accumulator
  exp (m r - m' r) * acc r d + ∑ c, weight r c * v c d; and the final quotient acc r d / l r.
  Together (row_step) they are one step of the online-softmax recurrence of LibOnlineSoftmax on the triple
  (m r, l r, acc r d), with the row's scores as the chunk and column d of v as the values.
-/
import proofs.«174977_j37177236914546_2_alg».proof.Proof.Gen.KernelIdeal.Skeleton
import proofs.«174977_j37177236914546_2_alg».proof.Proof.LibOnlineSoftmax
import proofs.«174977_j37177236914546_2_alg».proof.Proof.LibRowForms
import proofs.«174977_j37177236914546_2_alg».proof.Proof.LibDense
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.AttnPay

open Idealize.ShloMosaic Idealize.ShloMosaic.ValueIdx
open Cert.KernelIdeal Cert.KernelIdeal.Gen
open scoped BigOperators

/-- The score of query row r against key row c: the scale 1/8 (the word 0x3E000000) folded into the query. -/
def sc (q : Vec Ideal S1x1024x64 .f32) (k : Vec Ideal S1x512x64 .f32) (r : Fin 1024) (c : Fin 512) : EReal :=
  ∑ e : Fin 64, (q (ix3 0 r e) * Ideal.ofBits .f32 0x3E000000#32) * k (ix3 0 c e)

/-- The word 0xFF800000 is minus infinity, the bottom of the extended reals. -/
theorem ofBits_neg_inf : Ideal.ofBits .f32 0xFF800000#32 = ⊥ := by
  simp [Ideal.ofBits, Ideal.ieee]

/-- A fold of max depends only on its start value and on the function's values. -/
theorem fold_max_congr {ι : Type} (t : Finset ι) (b b' : EReal) (f g : ι → EReal) (hb : b = b')
    (hfg : ∀ i, f i = g i) : t.fold max b f = t.fold max b' g := by
  subst hb
  exact congrArg (fun f => t.fold max b f) (funext hfg)

/-- Column c put back into row index r of a [1024, 512] array is the index (r, c). -/
theorem lift_row (r : Fin 1024) (c : Fin 512) : reduces_S1024x512_S1024.lift (ix1 r) c = ix2 r c :=
  funext fun a => Fin.ext (by
    match a with
    | ⟨0, _⟩ => rfl
    | ⟨1, _⟩ => rfl)

/-- The product of the scaled query block with the transposed key block, at (r, c), is the score. -/
theorem pay8_apply (q : Vec Ideal S1x1024x64 .f32) (k : Vec Ideal S1x512x64 .f32) (r : Fin 1024) (c : Fin 512) :
    k1_pay8 (F := Ideal) q k (ix2 r c) = sc q k r c := by
  unfold k1_pay8
  refine (congrFun (LibDense.matmul_zero_eq dot_S1024x64_S64x512_S1024x512_1_0_0_1_n_n rfl rfl rfl rfl
    (fun _ _ => rfl) (fun _ _ => rfl) none _ _) (ix2 r c)).trans ?_
  rw [LibDense.denseProd_apply]
  refine Finset.sum_congr rfl fun e _ => ?_
  show ((shapeCast S1024x64 q shapeCasts_S1x1024x64_S1024x64 (ix2 r e) : EReal) * Ideal.ofBits .f32 0x3E000000#32)
      * (transpose S64x512 [1, 0]
          (truncf (F := Ideal) .bf16 (shapeCast S512x64 k shapeCasts_S1x512x64_S512x64) bitsLt_bf16_f32)
          transposes_S512x64_p1_0_S64x512 (ix2 e c) : EReal)
    = (q (ix3 0 r e) * Ideal.ofBits .f32 0x3E000000#32) * k (ix3 0 c e)
  rw [shapeCast_1ab_ab_apply, transpose_ix2_apply, truncf_apply, shapeCast_1ab_ab_apply]

/-- The new row maximum: the old one against the maximum of the row's scores, folded from minus infinity. -/
theorem pay9_apply (q : Vec Ideal S1x1024x64 .f32) (k : Vec Ideal S1x512x64 .f32) (m : Vec Ideal S1024x1 .f32)
    (r : Fin 1024) :
    k1_pay9 (F := Ideal) q k m (ix2 r 0)
      = max (m (ix2 r 0)) ((Finset.univ : Finset (Fin 512)).fold max ⊥ (fun c => sc q k r c)) := by
  unfold k1_pay9
  rw [maximumf_apply, LibRowForms.shapeCast_col_apply]
  refine congrArg (max (m (ix2 r 0))) ?_
  refine (Ideal.multiReduction_maximumf_single (k1_pay8 (F := Ideal) q k) 0xFF800000#32 reduces_S1024x512_S1024
    (.inl rfl) rfl (ix1 r)).trans ?_
  exact fold_max_congr _ _ _ _ _ ofBits_neg_inf fun c =>
    (congrArg (k1_pay8 (F := Ideal) q k) (lift_row r c)).trans (pay8_apply q k r c)

/-- A cast between equal shapes changes nothing. -/
theorem pay2_eq (x : FVec Ideal S1024x1 .f32) : k1_pay2 (F := Ideal) x = x := by
  unfold k1_pay2
  exact shapeCast_self x _

/-- The rescaling factor: exp of the old row maximum minus the new one. -/
theorem pay10_apply (q : Vec Ideal S1x1024x64 .f32) (k : Vec Ideal S1x512x64 .f32) (m : Vec Ideal S1024x1 .f32)
    (r : Fin 1024) :
    k1_pay10 (F := Ideal) q k m (ix2 r 0) = Ideal.exp (m (ix2 r 0) - k1_pay9 (F := Ideal) q k m (ix2 r 0)) := by
  unfold k1_pay10
  rfl

/-- The weights: exp of the score minus the new row maximum. -/
theorem pay11_apply (q : Vec Ideal S1x1024x64 .f32) (k : Vec Ideal S1x512x64 .f32) (m : Vec Ideal S1024x1 .f32)
    (r : Fin 1024) (c : Fin 512) :
    k1_pay11 (F := Ideal) q k m (ix2 r c) = Ideal.exp (sc q k r c - k1_pay9 (F := Ideal) q k m (ix2 r 0)) := by
  unfold k1_pay11
  show Ideal.exp (k1_pay8 (F := Ideal) q k (ix2 r c)
    - broadcastTo S1024x512 (k1_pay9 (F := Ideal) q k m) broadcasts_S1024x1_S1024x512 (ix2 r c)) = _
  rw [pay8_apply, LibRowForms.broadcastTo_col_apply]

/-- The new row sum: the old one rescaled, plus the sum of the row's weights. -/
theorem pay12_apply (q : Vec Ideal S1x1024x64 .f32) (k : Vec Ideal S1x512x64 .f32) (m l : Vec Ideal S1024x1 .f32)
    (r : Fin 1024) :
    k1_pay12 (F := Ideal) q k m l (ix2 r 0)
      = k1_pay10 (F := Ideal) q k m (ix2 r 0) * l (ix2 r 0) + ∑ c : Fin 512, k1_pay11 (F := Ideal) q k m (ix2 r c) := by
  unfold k1_pay12
  rw [LibRowForms.shapeCast_same_apply, addf_apply, mulf_apply, LibRowForms.shapeCast_col_apply]
  refine congrArg (k1_pay10 (F := Ideal) q k m (ix2 r 0) * l (ix2 r 0) + ·) ?_
  exact LibRowForms.laneSum_apply (k1_pay11 (F := Ideal) q k m) 0x00000000#32 reduces_S1024x512_S1024 (.inl rfl) rfl r

/-- The value block, cast from [1, 512, 64] to [512, 64] (and rounded, which is the identity here). -/
theorem pay7_apply (v : Vec Ideal S1x512x64 .f32) (c : Fin 512) (d : Fin 64) :
    k1_pay7 (F := Ideal) v (ix2 c d) = v (ix3 0 c d) := by
  unfold k1_pay7
  rw [truncf_apply, shapeCast_1ab_ab_apply]

/-- The new accumulator: the old one rescaled row by row, plus the product of the weights with the values. -/
theorem pay1_apply (v13 : FVec Ideal S512x64 .bf16) (v21 : FVec Ideal S1024x1 .f32) (v24 : FVec Ideal S1024x512 .f32)
    (acc : Vec Ideal S1024x64 .f32) (r : Fin 1024) (d : Fin 64) :
    k1_pay1 (F := Ideal) v13 v21 v24 acc (ix2 r d)
      = v21 (ix2 r 0) * acc (ix2 r d) + ∑ c : Fin 512, v24 (ix2 r c) * v13 (ix2 c d) := by
  unfold k1_pay1
  rw [LibRowForms.shapeCast_same_apply, addf_apply, mulf_apply, LibRowForms.broadcastTo_col_apply]
  refine congrArg (v21 (ix2 r 0) * acc (ix2 r d) + ·) ?_
  refine (congrFun (LibDense.matmul_zero_eq dot_S1024x512_S512x64_S1024x64_1_0_0_1_n_n rfl rfl rfl rfl
    (fun _ _ => rfl) (fun _ _ => rfl) none _ _) (ix2 r d)).trans ?_
  rw [LibDense.denseProd_apply]
  rfl

/-- The final quotient, cast back to [1, 1024, 64]. -/
theorem pay3_apply (acc : Vec Ideal S1024x64 .f32) (l : Vec Ideal S1024x1 .f32) (r : Fin 1024) (d : Fin 64) :
    k1_pay3 (F := Ideal) acc l (ix3 0 r d) = Ideal.div (acc (ix2 r d)) (l (ix2 r 0)) := by
  unfold k1_pay3
  rw [shapeCast_ab_1ab_apply, divf_apply, LibRowForms.broadcastTo_col_apply]

/-- The running maximum starts at minus infinity. -/
theorem pay4_eq : k1_pay4 (F := Ideal) = fun _ => (⊥ : EReal) := by
  unfold k1_pay4
  funext i
  rw [LibRowForms.shapeCast_same_apply, broadcast_apply]
  exact ofBits_neg_inf

/-- The running sum starts at zero. -/
theorem pay5_eq : k1_pay5 (F := Ideal) = fun _ => (0 : EReal) := by
  unfold k1_pay5
  funext i
  rw [LibRowForms.shapeCast_same_apply, broadcast_apply]
  exact Ideal.ofBits_zero_f32

/-- The accumulator starts at zero. -/
theorem pay6_eq : k1_pay6 (F := Ideal) = fun _ => (0 : EReal) := by
  unfold k1_pay6
  funext i
  rw [LibRowForms.shapeCast_same_apply, broadcast_apply]
  exact Ideal.ofBits_zero_f32

/-- THE ROW STEP: what one key-value block does to row r and column d of the running state is one step of the
    online-softmax recurrence on (m r, l r, acc r d), the chunk being the row's 512 scores against the block and the
    values column d of the value block. -/
theorem row_step (q : Vec Ideal S1x1024x64 .f32) (k v : Vec Ideal S1x512x64 .f32) (m l : Vec Ideal S1024x1 .f32)
    (acc : Vec Ideal S1024x64 .f32) (r : Fin 1024) (d : Fin 64) :
    (k1_pay2 (F := Ideal) (k1_pay9 (F := Ideal) q k m) (ix2 r 0),
     k1_pay12 (F := Ideal) q k m l (ix2 r 0),
     k1_pay1 (F := Ideal) (k1_pay7 (F := Ideal) v) (k1_pay10 (F := Ideal) q k m) (k1_pay11 (F := Ideal) q k m) acc (ix2 r d))
      = LibOnlineSoftmax.step (m (ix2 r 0), l (ix2 r 0), acc (ix2 r d)) (fun c => sc q k r c) (fun c => v (ix3 0 c d)) := by
  rw [LibOnlineSoftmax.step_mk, pay2_eq, pay12_apply, pay1_apply, pay10_apply]
  simp only [pay11_apply, pay7_apply]
  rw [pay9_apply]

/-- The row step, component by component: the new maximum. -/
theorem row_step_m (q : Vec Ideal S1x1024x64 .f32) (k v : Vec Ideal S1x512x64 .f32) (m l : Vec Ideal S1024x1 .f32)
    (acc : Vec Ideal S1024x64 .f32) (r : Fin 1024) (d : Fin 64) :
    k1_pay2 (F := Ideal) (k1_pay9 (F := Ideal) q k m) (ix2 r 0)
      = (LibOnlineSoftmax.step (m (ix2 r 0), l (ix2 r 0), acc (ix2 r d)) (fun c => sc q k r c) (fun c => v (ix3 0 c d))).1 :=
  congrArg Prod.fst (row_step q k v m l acc r d)

/-- The row step, component by component: the new sum. -/
theorem row_step_l (q : Vec Ideal S1x1024x64 .f32) (k v : Vec Ideal S1x512x64 .f32) (m l : Vec Ideal S1024x1 .f32)
    (acc : Vec Ideal S1024x64 .f32) (r : Fin 1024) (d : Fin 64) :
    k1_pay12 (F := Ideal) q k m l (ix2 r 0)
      = (LibOnlineSoftmax.step (m (ix2 r 0), l (ix2 r 0), acc (ix2 r d)) (fun c => sc q k r c) (fun c => v (ix3 0 c d))).2.1 :=
  congrArg (fun p => p.2.1) (row_step q k v m l acc r d)

/-- The row step, component by component: the new accumulator. -/
theorem row_step_a (q : Vec Ideal S1x1024x64 .f32) (k v : Vec Ideal S1x512x64 .f32) (m l : Vec Ideal S1024x1 .f32)
    (acc : Vec Ideal S1024x64 .f32) (r : Fin 1024) (d : Fin 64) :
    k1_pay1 (F := Ideal) (k1_pay7 (F := Ideal) v) (k1_pay10 (F := Ideal) q k m) (k1_pay11 (F := Ideal) q k m) acc (ix2 r d)
      = (LibOnlineSoftmax.step (m (ix2 r 0), l (ix2 r 0), acc (ix2 r d)) (fun c => sc q k r c) (fun c => v (ix3 0 c d))).2.2 :=
  congrArg (fun p => p.2.2) (row_step q k v m l acc r d)

end Cert.KernelIdeal.AttnPay

end
-- ==== Proof.LibSoftmaxRow.lean ====
/-
  One row of masked softmax attention on the extended reals, in the two arrangements a fused kernel and a plain
  reference compute it, and the law that joins them.

  A row has scores `s j` (`j` over the `N` keys) and values `v j`. With `m` the row's maximum and
  `p j = exp (s j - m)`:
    * normalise last:   `(∑ j, p j * v j) / (∑ j, p j)`            (`outK`)
    * normalise first:  `∑ j, (p j / (0 + ∑ j', p j')) * v j`       (`outR`)
  and a score is `(∑ d, (q d * c) * k j d) + b j` (scale folded into the query, `scoreK`) or
  `(∑ d, q d * k j d) * c + b j` (scale applied to the product, `scoreR`), replaced by a fill value where the
  mask is off.

  On the extended reals neither pair is equal in general: moving a factor across a sum and dividing a sum term by
  term both fail at the infinities. They are equal when every input is a real number: then every score is real,
  the maximum of a non-empty row of reals is real, every `p j` is a positive real, so the normaliser is a
  positive real, and both sides are the same real expression.
-/
import Idealize.ShloMosaic.PureOps.Ideal

noncomputable section

namespace Cert.SoftmaxRow

open Idealize.ShloMosaic

variable {N D : ℕ}

/-- The inclusion of the reals commutes with finite sums. -/
theorem coe_sum {ι : Type*} (s : Finset ι) (f : ι → ℝ) :
    (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The maximum of finitely many reals, folded from the bottom element, is a real when there is at least one. -/
theorem fold_max_coe {ι : Type*} (s : Finset ι) (hs : s.Nonempty) (f : ι → ℝ) :
    ∃ M : ℝ, s.fold max (⊥ : EReal) (fun i => (f i : EReal)) = (M : EReal) := by
  induction hs using Finset.Nonempty.cons_induction with
  | singleton a => exact ⟨f a, by rw [Finset.fold_singleton]; exact max_bot_right _⟩
  | cons a s ha hs ih =>
    obtain ⟨M, hM⟩ := ih
    refine ⟨max (f a) M, ?_⟩
    rw [Finset.fold_cons, hM]
    exact (EReal.coe_strictMono.monotone.map_max).symm

/-- A row's maximum: the fold of `max` from the bottom element over the row. -/
def rowMax (s : Fin N → EReal) : EReal := (Finset.univ : Finset (Fin N)).fold max ⊥ s

theorem rowMax_real (hN : 0 < N) (r : Fin N → ℝ) : ∃ M : ℝ, rowMax (fun j => (r j : EReal)) = (M : EReal) :=
  fold_max_coe Finset.univ ⟨⟨0, hN⟩, Finset.mem_univ _⟩ r

/-- Normalise last: the weighted sum of the values divided by the sum of the weights. -/
def outK (s v : Fin N → EReal) : EReal :=
  Ideal.div (∑ j, Ideal.exp (s j - rowMax s) * v j) (∑ j, Ideal.exp (s j - rowMax s))

/-- Normalise first: each weight divided by the sum of the weights (a sum started from `0`, the maximum clamped
    below by the bottom element, as a library softmax spells them), then the weighted sum of the values. -/
def outR (s v : Fin N → EReal) : EReal :=
  ∑ j, Ideal.div (Ideal.exp (s j - max ⊥ (rowMax s))) (0 + ∑ j', Ideal.exp (s j' - max ⊥ (rowMax s))) * v j

/-- The two normalisations agree on a non-empty row of real scores and real values. -/
theorem outR_eq_outK (hN : 0 < N) (s v : Fin N → EReal) (hs : ∀ j, ∃ r : ℝ, s j = r) (hv : ∀ j, ∃ r : ℝ, v j = r) :
    outR s v = outK s v := by
  choose rs hrs using hs
  choose rv hrv using hv
  obtain rfl : s = fun j => (rs j : EReal) := funext hrs
  obtain rfl : v = fun j => (rv j : EReal) := funext hrv
  obtain ⟨M, hM⟩ := rowMax_real hN rs
  unfold outR outK
  rw [hM, max_bot_left]
  have hexp : ∀ j, Ideal.exp ((rs j : EReal) - (M : EReal)) = ((Real.exp (rs j - M) : ℝ) : EReal) := fun j => by
    rw [← EReal.coe_sub, Ideal.exp_coe]
  simp only [hexp]
  rw [zero_add, coe_sum]
  have hL : (∑ j, Real.exp (rs j - M)) ≠ 0 :=
    (Finset.sum_pos (fun j _ => Real.exp_pos _) ⟨⟨0, hN⟩, Finset.mem_univ _⟩).ne'
  simp only [Ideal.div_coe hL, ← EReal.coe_mul]
  rw [coe_sum, coe_sum, ← EReal.coe_mul]
  congr 1
  rw [Finset.sum_mul]
  exact Finset.sum_congr rfl fun j _ => by ring

/-- A score with the scale folded into the query. -/
def scoreK (c fill : EReal) (q : Fin D → EReal) (k : Fin N → Fin D → EReal) (b : Fin N → EReal) (msk : Fin N → BitVec 1)
    (j : Fin N) : EReal :=
  Scalar.select (msk j) ((∑ d, (q d * c) * k j d) + b j) fill

/-- A score with the scale applied to the finished product. -/
def scoreR (c fill : EReal) (q : Fin D → EReal) (k : Fin N → Fin D → EReal) (b : Fin N → EReal) (msk : Fin N → BitVec 1)
    (j : Fin N) : EReal :=
  Scalar.select (msk j) ((∑ d, q d * k j d) * c + b j) fill

/-- For a real query, real keys and a real scale the factor leaves the sum. -/
theorem scoreK_eq_scoreR (c fill : EReal) (q : Fin D → EReal) (k : Fin N → Fin D → EReal) (b : Fin N → EReal)
    (msk : Fin N → BitVec 1) (hc : ∃ r : ℝ, c = r) (hq : ∀ d, ∃ r : ℝ, q d = r) (hk : ∀ j d, ∃ r : ℝ, k j d = r) :
    scoreK c fill q k b msk = scoreR c fill q k b msk := by
  obtain ⟨rc, rfl⟩ := hc
  choose rq hrq using hq
  choose rk hrk using hk
  funext j
  unfold scoreK scoreR
  congr 2
  simp only [hrq, hrk, ← EReal.coe_mul]
  rw [coe_sum, coe_sum, ← EReal.coe_mul]
  congr 1
  rw [Finset.sum_mul]
  exact Finset.sum_congr rfl fun d _ => by ring

/-- With every input real, every score is real. -/
theorem scoreR_real (c fill : EReal) (q : Fin D → EReal) (k : Fin N → Fin D → EReal) (b : Fin N → EReal)
    (msk : Fin N → BitVec 1) (hc : ∃ r : ℝ, c = r) (hf : ∃ r : ℝ, fill = r) (hq : ∀ d, ∃ r : ℝ, q d = r)
    (hk : ∀ j d, ∃ r : ℝ, k j d = r) (hb : ∀ j, ∃ r : ℝ, b j = r) (j : Fin N) :
    ∃ r : ℝ, scoreR c fill q k b msk j = r := by
  obtain ⟨rc, rfl⟩ := hc
  obtain ⟨rf, rfl⟩ := hf
  choose rq hrq using hq
  choose rk hrk using hk
  obtain ⟨rb, hrb⟩ := hb j
  unfold scoreR Scalar.select
  split
  · refine ⟨(∑ d, rq d * rk j d) * rc + rb, ?_⟩
    simp only [hrq, hrk, hrb, ← EReal.coe_mul]
    rw [coe_sum, ← EReal.coe_mul, ← EReal.coe_add]
  · exact ⟨rf, rfl⟩

/-- One output entry, normalise-last over scale-folded scores. -/
def attnK (c fill : EReal) (q : Fin D → EReal) (k : Fin N → Fin D → EReal) (b : Fin N → EReal) (msk : Fin N → BitVec 1)
    (v : Fin N → EReal) : EReal :=
  outK (scoreK c fill q k b msk) v

/-- One output entry, normalise-first over scores scaled after the product. -/
def attnR (c fill : EReal) (q : Fin D → EReal) (k : Fin N → Fin D → EReal) (b : Fin N → EReal) (msk : Fin N → BitVec 1)
    (v : Fin N → EReal) : EReal :=
  outR (scoreR c fill q k b msk) v

/-- THE LAW: on real inputs (a real scale and fill value, a non-empty row) the two arrangements are one number. -/
theorem attnR_eq_attnK (hN : 0 < N) (c fill : EReal) (q : Fin D → EReal) (k : Fin N → Fin D → EReal) (b : Fin N → EReal)
    (msk : Fin N → BitVec 1) (v : Fin N → EReal) (hc : ∃ r : ℝ, c = r) (hf : ∃ r : ℝ, fill = r)
    (hq : ∀ d, ∃ r : ℝ, q d = r) (hk : ∀ j d, ∃ r : ℝ, k j d = r) (hb : ∀ j, ∃ r : ℝ, b j = r)
    (hv : ∀ j, ∃ r : ℝ, v j = r) :
    attnR c fill q k b msk v = attnK c fill q k b msk v := by
  unfold attnR attnK
  rw [scoreK_eq_scoreR c fill q k b msk hc hq hk]
  exact outR_eq_outK hN _ v (scoreR_real c fill q k b msk hc hf hq hk hb) hv

end Cert.SoftmaxRow

end
-- ==== Proof.AttnSpecLaws.lean ====
/-
  The attention stage of the specification as one softmax row, and what real inputs give.

  With the word of −∞ read as the bottom element and the word of 0 as zero, entry (n, h, s, d) of `attn q k v` is the
  normalise-first softmax row of the scores `t ↦ score q k n h s t` against the values `t ↦ v[n, h, t, d]`. The scale's
  word is the real number 1/8. So for real queries, keys and values every score is real, and the entry is equally the
  normalise-last form — the weighted sum of the values divided by the sum of the weights — and is itself real.
-/
import proofs.«174977_j37177236914546_2_alg».proof.Proof.AttnSpec
import proofs.«174977_j37177236914546_2_alg».proof.Proof.LibSoftmaxRow
import proofs.«174977_j37177236914546_2_alg».proof.Proof.LibFinite
import Idealize.ShloMosaic.PureOps.Ideal.Laws

noncomputable section

open scoped BigOperators

namespace Cert.AttnSpecLaws

open Idealize.ShloMosaic Idealize.ShloMosaic.ValueIdx Cert.LibFinite Cert.AttnSpec

/-- The word `0xFF800000` denotes the lower infinity. -/
theorem ofBits_negInf : Ideal.ofBits .f32 0xFF800000#32 = ⊥ := by simp [Ideal.ofBits, Ideal.ieee]

/-- The word `0x3E000000` denotes the real number 1/8. -/
theorem ofBits_eighth : Ideal.ofBits .f32 0x3E000000#32 = ((1 / 8 : ℝ) : EReal) := by
  simp [Ideal.ofBits, Ideal.ieee, -EReal.coe_mul]; norm_num

section Row

variable (q k v : (⟨4, ![2, 16, 2048, 64]⟩ : Shape).Idx → EReal) (n : Fin 2) (h : Fin 16) (s : Fin 2048)

/-- The row's maximum is the softmax row's: the fold from the bottom element, clamped below by it. -/
theorem rowMax_eq : rowMax q k n h s = max ⊥ (Cert.SoftmaxRow.rowMax fun t => score q k n h s t) := by
  unfold rowMax Cert.SoftmaxRow.rowMax
  rw [ofBits_negInf]

/-- An entry of the attention stage is the normalise-first softmax row of its scores and its value column. -/
theorem attnAt_eq_outR (d : Fin 64) :
    attnAt q k v n h s d = Cert.SoftmaxRow.outR (fun t => score q k n h s t) (fun t => v (ix4 n h t d)) := by
  unfold attnAt rowSum Cert.SoftmaxRow.outR
  simp only [rowMax_eq, Ideal.ofBits_zero_f32]

variable {q k v}

/-- A score of real queries against real keys is real. -/
theorem isReal_score (hq : AllReal q) (hk : AllReal k) (t : Fin 2048) : IsReal (score q k n h s t) := by
  unfold score
  exact (isReal_sum _ _ fun e _ => (hq _).mul (hk _)).mul ⟨1 / 8, ofBits_eighth⟩

/-- On real inputs an entry is the normalise-last form: the weighted sum of the value column over the sum of the weights,
    the weights `exp (score - the row's maximum)`. -/
theorem attnAt_eq_outK (hq : AllReal q) (hk : AllReal k) (hv : AllReal v) (d : Fin 64) :
    attnAt q k v n h s d = Cert.SoftmaxRow.outK (fun t => score q k n h s t) (fun t => v (ix4 n h t d)) :=
  (attnAt_eq_outR q k v n h s d).trans
    (Cert.SoftmaxRow.outR_eq_outK (by norm_num) _ _ (fun t => isReal_score n h s hq hk t) (fun t => hv _))

/-- On real inputs an entry of the attention stage is real: a finite sum of real weights times real values over a
    positive sum of weights. -/
theorem isReal_attnAt (hq : AllReal q) (hk : AllReal k) (hv : AllReal v) (d : Fin 64) : IsReal (attnAt q k v n h s d) := by
  rw [attnAt_eq_outK n h s hq hk hv d]
  choose rs hrs using fun t => isReal_score n h s hq hk t
  obtain ⟨M, hM⟩ := Cert.SoftmaxRow.rowMax_real (N := 2048) (by norm_num) rs
  have hfun : (fun t => score q k n h s t) = fun t => (rs t : EReal) := funext hrs
  unfold Cert.SoftmaxRow.outK
  rw [hfun, hM]
  have hp : ∀ t : Fin 2048, IsPos (Ideal.exp ((rs t : EReal) - (M : EReal))) := fun t =>
    ⟨Real.exp (rs t - M), Real.exp_pos _, by rw [← EReal.coe_sub, Ideal.exp_coe]⟩
  refine IsReal.div (isReal_sum _ _ fun t _ => (hp t).isReal.mul (hv _)) (isReal_sum _ _ fun t _ => (hp t).isReal) ?_
  rw [Fin.sum_univ_succ, add_comm]
  exact ((isNonneg_sum _ _ fun t _ => (hp _).isNonneg).add_pos (hp 0)).ne_zero

/-- The attention stage of real arrays is a real array. -/
theorem allReal_attn (hq : AllReal q) (hk : AllReal k) (hv : AllReal v) : AllReal (attn q k v) :=
  fun i => isReal_attnAt _ _ _ hq hk hv _

end Row

end Cert.AttnSpecLaws

end
-- ==== Proof.AttnBridge.lean ====
/-
  The blockwise attention recurrence is the attention stage of the specification, on real inputs.

  A blockwise kernel walks a query row's 2048 keys in 4 blocks of 512. It multiplies the query by the scale before the
  product with the keys, so its score of key `j·512 + i` is `Σ_e (q[n, h, s, e] · c) · k[n, h, j·512 + i, e]` (`S`), and
  it reads column `d` of the same key's value (`Vc`). It carries a running maximum, a running sum of weights and a
  running weighted sum of values from block to block, and divides the last by the second at the end.

  For real queries and keys the scale leaves the sum, so `S` is the specification's score of that key. The recurrence
  over real scores and values is the two-pass softmax against any real shift; shifted by the row's maximum — a real,
  there being a key — it is the specification's entry, whose −∞ clamp and leading zero then vanish.
-/
import proofs.«174977_j37177236914546_2_alg».proof.Proof.AttnSpec
import proofs.«174977_j37177236914546_2_alg».proof.Proof.AttnSpecLaws
import proofs.«174977_j37177236914546_2_alg».proof.Proof.LibOnlineSoftmax
import proofs.«174977_j37177236914546_2_alg».proof.Proof.LibFinite

noncomputable section

open scoped BigOperators

namespace Cert.AttnBridge

open Idealize.ShloMosaic Idealize.ShloMosaic.ValueIdx Cert.LibFinite Cert.AttnSpec Cert.AttnSpecLaws Cert.LibOnlineSoftmax

/-- The score of query row `s` against key `j·512 + i` with the scale folded into the query. -/
def S (q k : (⟨4, ![2, 16, 2048, 64]⟩ : Shape).Idx → EReal) (n : Fin 2) (h : Fin 16) (s : Fin 2048) (j : Fin 4) (i : Fin 512) :
    EReal :=
  ∑ e : Fin 64, (q (ix4 n h s e) * Ideal.ofBits .f32 0x3E000000#32)
    * k (ix4 n h (flat (by decide : 2048 = 4 * 512) j i) e)

/-- Column `d` of the value of key `j·512 + i`. -/
def Vc (v : (⟨4, ![2, 16, 2048, 64]⟩ : Shape).Idx → EReal) (n : Fin 2) (h : Fin 16) (d : Fin 64) (j : Fin 4) (i : Fin 512) :
    EReal :=
  v (ix4 n h (flat (by decide : 2048 = 4 * 512) j i) d)

section Row

variable {q k v : (⟨4, ![2, 16, 2048, 64]⟩ : Shape).Idx → EReal}

/-- On real queries and keys the folded score is the specification's score of the same key. -/
theorem S_eq_score (hq : AllReal q) (hk : AllReal k) (n : Fin 2) (h : Fin 16) (s : Fin 2048) (j : Fin 4) (i : Fin 512) :
    S q k n h s j i = score q k n h s (flat (by decide : 2048 = 4 * 512) j i) :=
  scale_fold (fun e => q (ix4 n h s e)) (fun e => k (ix4 n h (flat (by decide : 2048 = 4 * 512) j i) e))
    (Ideal.ofBits .f32 0x3E000000#32) (fun _ => hq _) (fun _ => hk _) ⟨1 / 8, ofBits_eighth⟩

/-- THE BRIDGE: on real queries, keys and values, the recurrence over the 4 blocks of 512 keys, divided out at the end,
    is the specification's attention entry. -/
theorem flash_eq_attn (hq : AllReal q) (hk : AllReal k) (hv : AllReal v) (n : Fin 2) (h : Fin 16) (s : Fin 2048) (d : Fin 64) :
    Ideal.div (run (S q k n h s) (Vc v n h d) 4).2.2 (run (S q k n h s) (Vc v n h d) 4).2.1 = attnAt q k v n h s d := by
  have hS : S q k n h s = fun j i => (fun t => score q k n h s t) (flat (by decide : 2048 = 4 * 512) j i) :=
    funext fun j => funext fun i => S_eq_score hq hk n h s j i
  have hV : Vc v n h d = fun j i => (fun t => v (ix4 n h t d)) (flat (by decide : 2048 = 4 * 512) j i) := rfl
  choose rs hrs using fun t => isReal_score n h s hq hk t
  obtain ⟨M, hM⟩ := Cert.SoftmaxRow.rowMax_real (N := 2048) (by norm_num) rs
  have hfun : (fun t => score q k n h s t) = fun t => (rs t : EReal) := funext hrs
  have hmax : max ⊥ (Cert.SoftmaxRow.rowMax fun t => score q k n h s t) = (M : EReal) := by
    rw [hfun, hM, max_bot_left]
  rw [hS, hV]
  refine (run_eq_two_pass_flat (by norm_num) (by norm_num) (by decide : 2048 = 4 * 512) (fun t => score q k n h s t)
    (fun t => v (ix4 n h t d)) (fun t => isReal_score n h s hq hk t) (fun t => hv _) M).trans ?_
  rw [attnAt_eq_outR]
  unfold Cert.SoftmaxRow.outR
  rw [hmax, zero_add]

end Row

end Cert.AttnBridge

end
-- ==== Proof.AttnArray.lean ====
/-
  The attention region's result array.

  The region walks 64 tiles — 32 (batch, head) pairs times 2 tiles of 1024 query rows — and, within a tile, 4 blocks of 512
  keys and values; the key-value axis is the fastest, so tile `g` is the points `4g, …, 4g + 3`. At a point the query
  block is rows `(g % 2)·1024 + r` of pair `g / 2` of the query array, the same at the tile's four points; the key and
  value blocks are rows `j·512 + i` of that pair at the tile's point `j` (`blk0_tp`, `blk1_tp`, `blk2_tp`: the windows'
  block indices are decided once over the grid, and a block's entry sits at block index times block size plus its
  own coordinate).

  The result window is written back only at a tile's last point, into the tile's rows of the result array. Those 64 blocks
  cover the array, each entry once, so after the region entry (bh, s, d) of the result array is what the last point of tile
  `bh·2 + s / 1024` left at row `s % 1024`, column `d` (`arr_eq`).

  Given what a tile's last point leaves — the blockwise recurrence over the tile's four points, divided out — the entry is
  the recurrence over the 4 blocks of 512 keys of the pair, for that query row and value column, read off the three arrays
  (`attn_array`). When the three arrays are the queries, keys and values of [2, 16, 2048, 64] with the pairs flattened,
  and those are real, the result array unflattened is the specification's attention stage (`attn_of_arrays`).
-/
import proofs.«174977_j37177236914546_2_alg».proof.Proof.IAttn
import proofs.«174977_j37177236914546_2_alg».proof.Proof.AttnPayloads
import proofs.«174977_j37177236914546_2_alg».proof.Proof.LibOnlineSoftmax
import proofs.«174977_j37177236914546_2_alg».proof.Proof.AttnBridge
import proofs.«174977_j37177236914546_2_alg».proof.Proof.KernelGlue
import proofs.«174977_j37177236914546_2_alg».proof.Proof.LibFinite
import Idealize.ShloMosaic.Lib.Pipeline.Value
import Idealize.ShloMosaic.Lib.ValueIdx

set_option maxRecDepth 16384

noncomputable section

open scoped BigOperators

namespace Cert.KernelIdeal.AttnArr

open Cert.KernelIdeal Cert.KernelIdeal.Gen Cert.KernelIdeal.Attn
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

/-! ## Points and tiles -/

/-- Point `j` of tile `g`: the key-value axis is the fastest, so a tile's four points are consecutive. -/
def tp (g : Fin 64) (j : Fin 4) : Fin cfg1.N :=
  ⟨4 * g.val + j.val, by rw [show cfg1.N = 256 from N_1]; have := g.isLt; have := j.isLt; omega⟩

theorem tp_val (g : Fin 64) (j : Fin 4) : (tp g j).val = 4 * g.val + j.val := rfl

/-- The block indices of the four windows at a point, decided once over the grid: the (batch, head) pair is `t / 8`, the
    query tile `t / 4 % 2`, the key-value block `t % 4`; the last axis is never cut. -/
theorem idx_facts : ∀ t : Fin cfg1.N,
    win1_0.index t (0 : Fin 3) = t.val / 8 ∧ win1_0.index t (1 : Fin 3) = t.val / 4 % 2 ∧ win1_0.index t (2 : Fin 3) = 0
    ∧ win1_1.index t (0 : Fin 3) = t.val / 8 ∧ win1_1.index t (1 : Fin 3) = t.val % 4 ∧ win1_1.index t (2 : Fin 3) = 0
    ∧ win1_2.index t (0 : Fin 3) = t.val / 8 ∧ win1_2.index t (1 : Fin 3) = t.val % 4 ∧ win1_2.index t (2 : Fin 3) = 0
    ∧ win1_3.index t (0 : Fin 3) = t.val / 8 ∧ win1_3.index t (1 : Fin 3) = t.val / 4 % 2 ∧ win1_3.index t (2 : Fin 3) = 0 :=
  (by decide +kernel : ∀ t : Fin grid1.N, _)

/-! ## The blocks as entries of the arrays -/

section Blocks

variable (c : Dev nD) (Q K Vv : S32x2048x64.Idx → EReal)

/-- The query block at a point: rows `(t / 4 % 2)·1024 + r` of pair `t / 8`. -/
theorem blk0_at (hQ : V c main_v9 = Q) (t : Fin cfg1.N) (r : Fin 1024) (e : Fin 64) :
    blk V c 0 t (ix3 0 r e)
      = Q (ix3 (⟨t.val / 8, by have := lt_of_lt_of_eq t.isLt (show cfg1.N = 256 from N_1); omega⟩ : Fin 32)
          (⟨t.val / 4 % 2 * 1024 + r.val, by have := r.isLt; omega⟩ : Fin 2048) e) := by
  obtain ⟨e0, e1, e2, -⟩ := idx_facts t
  unfold blk
  rw [View.read_apply]
  show V c main_v9 _ = _
  rw [hQ]
  refine congrArg Q (funext fun a => Fin.ext ?_)
  match a with
  | ⟨0, _⟩ => show win1_0.index t (0 : Fin 3) * 1 + 1 * 0 = t.val / 8; rw [e0]; omega
  | ⟨1, _⟩ => show win1_0.index t (1 : Fin 3) * 1024 + 1 * r.val = t.val / 4 % 2 * 1024 + r.val; rw [e1]; omega
  | ⟨2, _⟩ => show win1_0.index t (2 : Fin 3) * 64 + 1 * e.val = e.val; rw [e2]; omega

/-- The key block at a point: rows `(t % 4)·512 + i` of pair `t / 8`. -/
theorem blk1_at (hK : V c main_v10 = K) (t : Fin cfg1.N) (i : Fin 512) (e : Fin 64) :
    blk V c 1 t (ix3 0 i e)
      = K (ix3 (⟨t.val / 8, by have := lt_of_lt_of_eq t.isLt (show cfg1.N = 256 from N_1); omega⟩ : Fin 32)
          (⟨t.val % 4 * 512 + i.val, by have := i.isLt; omega⟩ : Fin 2048) e) := by
  obtain ⟨-, -, -, e0, e1, e2, -⟩ := idx_facts t
  unfold blk
  rw [View.read_apply]
  show V c main_v10 _ = _
  rw [hK]
  refine congrArg K (funext fun a => Fin.ext ?_)
  match a with
  | ⟨0, _⟩ => show win1_1.index t (0 : Fin 3) * 1 + 1 * 0 = t.val / 8; rw [e0]; omega
  | ⟨1, _⟩ => show win1_1.index t (1 : Fin 3) * 512 + 1 * i.val = t.val % 4 * 512 + i.val; rw [e1]; omega
  | ⟨2, _⟩ => show win1_1.index t (2 : Fin 3) * 64 + 1 * e.val = e.val; rw [e2]; omega

/-- The value block at a point: the same rows of the value array. -/
theorem blk2_at (hV : V c main_v11 = Vv) (t : Fin cfg1.N) (i : Fin 512) (e : Fin 64) :
    blk V c 2 t (ix3 0 i e)
      = Vv (ix3 (⟨t.val / 8, by have := lt_of_lt_of_eq t.isLt (show cfg1.N = 256 from N_1); omega⟩ : Fin 32)
          (⟨t.val % 4 * 512 + i.val, by have := i.isLt; omega⟩ : Fin 2048) e) := by
  obtain ⟨-, -, -, -, -, -, e0, e1, e2, -⟩ := idx_facts t
  unfold blk
  rw [View.read_apply]
  show V c main_v11 _ = _
  rw [hV]
  refine congrArg Vv (funext fun a => Fin.ext ?_)
  match a with
  | ⟨0, _⟩ => show win1_2.index t (0 : Fin 3) * 1 + 1 * 0 = t.val / 8; rw [e0]; omega
  | ⟨1, _⟩ => show win1_2.index t (1 : Fin 3) * 512 + 1 * i.val = t.val % 4 * 512 + i.val; rw [e1]; omega
  | ⟨2, _⟩ => show win1_2.index t (2 : Fin 3) * 64 + 1 * e.val = e.val; rw [e2]; omega

/-- Tile `g` belongs to pair `g / 2` and is its query tile `g % 2`; at every one of its points the query block is the same. -/
theorem blk0_tp (hQ : V c main_v9 = Q) (g : Fin 64) (j : Fin 4) (r : Fin 1024) (e : Fin 64) :
    blk V c 0 (tp g j) (ix3 0 r e)
      = Q (ix3 (⟨g.val / 2, by have := g.isLt; omega⟩ : Fin 32)
          (⟨g.val % 2 * 1024 + r.val, by have := r.isLt; omega⟩ : Fin 2048) e) := by
  rw [blk0_at V c Q hQ]
  refine congrArg Q (funext fun a => Fin.ext ?_)
  have := g.isLt; have := j.isLt
  match a with
  | ⟨0, _⟩ => show (4 * g.val + j.val) / 8 = g.val / 2; omega
  | ⟨1, _⟩ => show (4 * g.val + j.val) / 4 % 2 * 1024 + r.val = g.val % 2 * 1024 + r.val; omega
  | ⟨2, _⟩ => rfl

/-- At point `j` of tile `g` the key block is keys `j·512 + i` of pair `g / 2`. -/
theorem blk1_tp (hK : V c main_v10 = K) (g : Fin 64) (j : Fin 4) (i : Fin 512) (e : Fin 64) :
    blk V c 1 (tp g j) (ix3 0 i e)
      = K (ix3 (⟨g.val / 2, by have := g.isLt; omega⟩ : Fin 32)
          (⟨j.val * 512 + i.val, by have := j.isLt; have := i.isLt; omega⟩ : Fin 2048) e) := by
  rw [blk1_at V c K hK]
  refine congrArg K (funext fun a => Fin.ext ?_)
  have := g.isLt; have := j.isLt
  match a with
  | ⟨0, _⟩ => show (4 * g.val + j.val) / 8 = g.val / 2; omega
  | ⟨1, _⟩ => show (4 * g.val + j.val) % 4 * 512 + i.val = j.val * 512 + i.val; omega
  | ⟨2, _⟩ => rfl

/-- And the value block the same rows of the value array. -/
theorem blk2_tp (hV : V c main_v11 = Vv) (g : Fin 64) (j : Fin 4) (i : Fin 512) (e : Fin 64) :
    blk V c 2 (tp g j) (ix3 0 i e)
      = Vv (ix3 (⟨g.val / 2, by have := g.isLt; omega⟩ : Fin 32)
          (⟨j.val * 512 + i.val, by have := j.isLt; have := i.isLt; omega⟩ : Fin 2048) e) := by
  rw [blk2_at V c Vv hV]
  refine congrArg Vv (funext fun a => Fin.ext ?_)
  have := g.isLt; have := j.isLt
  match a with
  | ⟨0, _⟩ => show (4 * g.val + j.val) / 8 = g.val / 2; omega
  | ⟨1, _⟩ => show (4 * g.val + j.val) % 4 * 512 + i.val = j.val * 512 + i.val; omega
  | ⟨2, _⟩ => rfl

end Blocks

/-! ## The result array -/

/-- The tile of the result array that holds row `s` of pair `bh`. -/
def tileOf (bh : Fin 32) (s : Fin 2048) : Fin 64 := ⟨bh.val * 2 + s.val / 1024, by have := bh.isLt; have := s.isLt; omega⟩

/-- The row's place in its tile. -/
def rowIn (s : Fin 2048) : Fin 1024 := ⟨s.val % 1024, Nat.mod_lt _ (by norm_num)⟩

/-- The array the result window's write-backs assemble: entry (bh, s, d) is what the last point of the entry's tile
    left in the window's buffer at the entry's place in the tile. -/
def G (c : Dev nD) : S32x2048x64.Idx → EReal := fun i =>
  outAt V c (tp (tileOf ⟨(i 0).val, (i 0).isLt⟩ ⟨(i 1).val, (i 1).isLt⟩) 3)
    (ix3 0 (rowIn ⟨(i 1).val, (i 1).isLt⟩) (⟨(i 2).val, (i 2).isLt⟩ : Fin 64))

/-- Where the result window's block at a point sits in the array. -/
theorem emb3 (t : Fin cfg1.N) (p : Fin 1) (r : Fin 1024) (d : Fin 64) :
    ((cfg1.win 3).blk t).view.emb (ix3 p r d)
      = (ix3 (⟨t.val / 8, by have := lt_of_lt_of_eq t.isLt (show cfg1.N = 256 from N_1); omega⟩ : Fin 32)
          (⟨t.val / 4 % 2 * 1024 + r.val, by have := r.isLt; omega⟩ : Fin 2048) d : S32x2048x64.Idx) := by
  obtain ⟨-, -, -, -, -, -, -, -, -, e0, e1, e2⟩ := idx_facts t
  funext a
  apply Fin.ext
  have := p.isLt
  match a with
  | ⟨0, _⟩ => show win1_3.index t (0 : Fin 3) * 1 + 1 * p.val = t.val / 8; rw [e0]; omega
  | ⟨1, _⟩ => show win1_3.index t (1 : Fin 3) * 1024 + 1 * r.val = t.val / 4 % 2 * 1024 + r.val; rw [e1]; omega
  | ⟨2, _⟩ => show win1_3.index t (2 : Fin 3) * 64 + 1 * d.val = d.val; rw [e2]; omega

/-- What a flushing point writes back is its block of that array. -/
theorem flushed_eq (c : Dev nD) (t : Fin cfg1.N) (hf : (cfg1.win 3).flush t = true) :
    (dat V c).flushed 3 t = ((cfg1.win 3).blk t).view.read (Elt Ideal) (G V c) := by
  have h3 : t.val % 4 = 3 := (flush1_3 t).mp hf
  have hN : t.val < 256 := lt_of_lt_of_eq t.isLt (show cfg1.N = 256 from N_1)
  show (cfg1.win 3).cut (grid1.coords t) ((dat V c).after 3 t) = _
  rw [after_3]
  funext y
  obtain ⟨p, r, d, rfl⟩ : ∃ (p : Fin 1) (r : Fin 1024) (d : Fin 64), y = ix3 p r d := ⟨y 0, y 1, y 2, eq_ix3 y⟩
  rw [View.read_apply, emb3]
  show outAt V c t (ix3 p r d) = G V c _
  unfold G
  have ht : tp (tileOf (⟨t.val / 8, by omega⟩ : Fin 32) (⟨t.val / 4 % 2 * 1024 + r.val, by have := r.isLt; omega⟩ : Fin 2048)) 3 = t :=
    Fin.ext (by have := r.isLt; show 4 * (t.val / 8 * 2 + (t.val / 4 % 2 * 1024 + r.val) / 1024) + 3 = t.val; omega)
  have hp : p = 0 := Subsingleton.elim _ _
  subst hp
  show outAt V c t (ix3 0 r d) = outAt V c (tp (tileOf (⟨t.val / 8, _⟩ : Fin 32) (⟨t.val / 4 % 2 * 1024 + r.val, _⟩ : Fin 2048)) 3)
    (ix3 0 (rowIn (⟨t.val / 4 % 2 * 1024 + r.val, _⟩ : Fin 2048)) (⟨d.val, _⟩ : Fin 64))
  rw [ht]
  refine congrArg (outAt V c t) (funext fun a => Fin.ext ?_)
  have := r.isLt
  match a with
  | ⟨0, _⟩ => rfl
  | ⟨1, _⟩ => show r.val = (t.val / 4 % 2 * 1024 + r.val) % 1024; omega
  | ⟨2, _⟩ => rfl

/-- Every entry of the result array is in the block of its tile's last point, which writes back. -/
theorem cover (i : S32x2048x64.Idx) :
    ∃ t : Fin cfg1.N, (cfg1.win 3).flush t = true ∧ i ∈ ((cfg1.win 3).blk t).view.set := by
  have h0 : (i 0).val < 32 := (i 0).isLt
  have h1 : (i 1).val < 2048 := (i 1).isLt
  have h2 : (i 2).val < 64 := (i 2).isLt
  refine ⟨tp (tileOf ⟨(i 0).val, h0⟩ ⟨(i 1).val, h1⟩) 3, (flush1_3 _).mpr (by show (4 * ((i 0).val * 2 + (i 1).val / 1024) + 3) % 4 = 3; omega), ?_⟩
  obtain ⟨-, -, -, -, -, -, -, -, -, e0, e1, e2⟩ := idx_facts (tp (tileOf ⟨(i 0).val, h0⟩ ⟨(i 1).val, h1⟩) 3)
  have hv : (tp (tileOf ⟨(i 0).val, h0⟩ ⟨(i 1).val, h1⟩) 3).val = 4 * ((i 0).val * 2 + (i 1).val / 1024) + 3 := rfl
  rw [hv] at e0 e1
  show i ∈ ((View.whole main_v12).slice (win1_3.rect (tp (tileOf ⟨(i 0).val, h0⟩ ⟨(i 1).val, h1⟩) 3))).set
  rw [View.set_slice_whole, Rect.mem_set_unit]
  intro a
  match a with
  | ⟨0, _⟩ =>
    show win1_3.index (tp (tileOf ⟨(i 0).val, h0⟩ ⟨(i 1).val, h1⟩) 3) (0 : Fin 3) * 1 ≤ (i 0).val
      ∧ (i 0).val < win1_3.index (tp (tileOf ⟨(i 0).val, h0⟩ ⟨(i 1).val, h1⟩) 3) (0 : Fin 3) * 1 + 1
    rw [e0]; omega
  | ⟨1, _⟩ =>
    show win1_3.index (tp (tileOf ⟨(i 0).val, h0⟩ ⟨(i 1).val, h1⟩) 3) (1 : Fin 3) * 1024 ≤ (i 1).val
      ∧ (i 1).val < win1_3.index (tp (tileOf ⟨(i 0).val, h0⟩ ⟨(i 1).val, h1⟩) 3) (1 : Fin 3) * 1024 + 1024
    rw [e1]; omega
  | ⟨2, _⟩ =>
    show win1_3.index (tp (tileOf ⟨(i 0).val, h0⟩ ⟨(i 1).val, h1⟩) 3) (2 : Fin 3) * 64 ≤ (i 2).val
      ∧ (i 2).val < win1_3.index (tp (tileOf ⟨(i 0).val, h0⟩ ⟨(i 1).val, h1⟩) 3) (2 : Fin 3) * 64 + 64
    rw [e2]; omega

/-- THE RESULT ARRAY after the region: entry (bh, s, d) is what the last point of tile `bh·2 + s / 1024` left at row
    `s % 1024`, column `d` of the window's buffer. -/
theorem arr_eq (c : Dev nD) (bh : Fin 32) (s : Fin 2048) (d : Fin 64) :
    (dat V c).arrAt 3 cfg1.N (ix3 bh s d)
      = outAt V c (tp (tileOf bh s) 3) (ix3 0 (rowIn s) d) :=
  congrFun ((dat V c).arrAt_eq_of_cover 3 (G V c) (flushed_eq V c) cover) (ix3 bh s d)

/-! ## The result array as the blockwise recurrence over the arrays -/

section Array

variable (c : Dev nD) (Q K Vv : S32x2048x64.Idx → EReal)

/-- The score of query row `s` of pair `bh` against key `j·512 + i`, the scale folded into the query. -/
def Sf (bh : Fin 32) (s : Fin 2048) (j : Fin 4) (i : Fin 512) : EReal :=
  ∑ e : Fin 64, (Q (ix3 bh s e) * Ideal.ofBits .f32 0x3E000000#32)
    * K (ix3 bh (LibOnlineSoftmax.flat (by decide : 2048 = 4 * 512) j i) e)

/-- Column `d` of the value of key `j·512 + i` of pair `bh`. -/
def Vf (bh : Fin 32) (d : Fin 64) (j : Fin 4) (i : Fin 512) : EReal :=
  Vv (ix3 bh (LibOnlineSoftmax.flat (by decide : 2048 = 4 * 512) j i) d)

/-- Given that a tile's last point leaves, at every row and column, the recurrence over the tile's four points divided out
    (`hT`), entry (bh, s, d) of the result array is the recurrence over the 4 blocks of 512 keys of pair `bh` for query row
    `s` and value column `d`, divided out: the tile's blocks are those rows of the three arrays. -/
theorem attn_array (hQ : V c main_v9 = Q) (hK : V c main_v10 = K) (hV : V c main_v11 = Vv)
    (hT : ∀ (g : Fin 64) (r : Fin 1024) (d : Fin 64), outAt V c (tp g 3) (ix3 0 r d)
      = Ideal.div
          (LibOnlineSoftmax.run (fun j i => AttnPay.sc (blk V c 0 (tp g j)) (blk V c 1 (tp g j)) r i)
            (fun j i => blk V c 2 (tp g j) (ix3 0 i d)) 4).2.2
          (LibOnlineSoftmax.run (fun j i => AttnPay.sc (blk V c 0 (tp g j)) (blk V c 1 (tp g j)) r i)
            (fun j i => blk V c 2 (tp g j) (ix3 0 i d)) 4).2.1)
    (bh : Fin 32) (s : Fin 2048) (d : Fin 64) :
    (dat V c).arrAt 3 cfg1.N (ix3 bh s d)
      = Ideal.div (LibOnlineSoftmax.run (Sf Q K bh s) (Vf Vv bh d) 4).2.2 (LibOnlineSoftmax.run (Sf Q K bh s) (Vf Vv bh d) 4).2.1 := by
  have hb := bh.isLt
  have hs := s.isLt
  have hS : (fun (j : Fin 4) (i : Fin 512) =>
      AttnPay.sc (blk V c 0 (tp (tileOf bh s) j)) (blk V c 1 (tp (tileOf bh s) j)) (rowIn s) i) = Sf Q K bh s := by
    funext j i
    unfold AttnPay.sc Sf
    refine Finset.sum_congr rfl fun e _ => ?_
    have hq : blk V c 0 (tp (tileOf bh s) j) (ix3 0 (rowIn s) e) = Q (ix3 bh s e) :=
      (blk0_tp V c Q hQ (tileOf bh s) j (rowIn s) e).trans (congrArg Q (funext fun a => Fin.ext (by
        match a with
        | ⟨0, _⟩ => show (bh.val * 2 + s.val / 1024) / 2 = bh.val; omega
        | ⟨1, _⟩ => show (bh.val * 2 + s.val / 1024) % 2 * 1024 + s.val % 1024 = s.val; omega
        | ⟨2, _⟩ => rfl)))
    have hk : blk V c 1 (tp (tileOf bh s) j) (ix3 0 i e)
        = K (ix3 bh (LibOnlineSoftmax.flat (by decide : 2048 = 4 * 512) j i) e) :=
      (blk1_tp V c K hK (tileOf bh s) j i e).trans (congrArg K (funext fun a => Fin.ext (by
        match a with
        | ⟨0, _⟩ => show (bh.val * 2 + s.val / 1024) / 2 = bh.val; omega
        | ⟨1, _⟩ => rfl
        | ⟨2, _⟩ => rfl)))
    rw [hq, hk]
  have hVc : (fun (j : Fin 4) (i : Fin 512) => blk V c 2 (tp (tileOf bh s) j) (ix3 0 i d)) = Vf Vv bh d := by
    funext j i
    unfold Vf
    exact (blk2_tp V c Vv hV (tileOf bh s) j i d).trans (congrArg Vv (funext fun a => Fin.ext (by
      match a with
      | ⟨0, _⟩ => show (bh.val * 2 + s.val / 1024) / 2 = bh.val; omega
      | ⟨1, _⟩ => rfl
      | ⟨2, _⟩ => rfl)))
  rw [arr_eq, hT, hS, hVc]

end Array

/-! ## The result array, unflattened, is the attention stage -/

/-- With the three operand arrays the queries, keys and values of [2, 16, 2048, 64], (batch, head) pairs flattened, all
    real, and a tile's last point leaving the recurrence divided out (`hT`): the result array, its pairs unflattened, is
    the specification's attention of the three. -/
theorem attn_of_arrays (c : Dev nD) (q k v : (⟨4, ![2, 16, 2048, 64]⟩ : Shape).Idx → EReal)
    (hq : Cert.LibFinite.AllReal q) (hk : Cert.LibFinite.AllReal k) (hv : Cert.LibFinite.AllReal v)
    (h : (⟨4, ![2, 16, 2048, 64]⟩ : Shape).ShapeCasts ⟨3, ![32, 2048, 64]⟩)
    (h' : (⟨3, ![32, 2048, 64]⟩ : Shape).ShapeCasts ⟨4, ![2, 16, 2048, 64]⟩)
    (hQ : V c main_v9 = shapeCast ⟨3, ![32, 2048, 64]⟩ q h) (hK : V c main_v10 = shapeCast ⟨3, ![32, 2048, 64]⟩ k h)
    (hV : V c main_v11 = shapeCast ⟨3, ![32, 2048, 64]⟩ v h)
    (hT : ∀ (g : Fin 64) (r : Fin 1024) (d : Fin 64), outAt V c (tp g 3) (ix3 0 r d)
      = Ideal.div
          (LibOnlineSoftmax.run (fun j i => AttnPay.sc (blk V c 0 (tp g j)) (blk V c 1 (tp g j)) r i)
            (fun j i => blk V c 2 (tp g j) (ix3 0 i d)) 4).2.2
          (LibOnlineSoftmax.run (fun j i => AttnPay.sc (blk V c 0 (tp g j)) (blk V c 1 (tp g j)) r i)
            (fun j i => blk V c 2 (tp g j) (ix3 0 i d)) 4).2.1) :
    shapeCast ⟨4, ![2, 16, 2048, 64]⟩ ((dat V c).arrAt 3 cfg1.N) h' = Cert.AttnSpec.attn q k v := by
  funext i
  obtain ⟨n, hh, s, d, rfl⟩ : ∃ (n : Fin 2) (hh : Fin 16) (s : Fin 2048) (d : Fin 64), i = ix4 n hh s d :=
    ⟨i 0, i 1, i 2, i 3, eq_ix4 i⟩
  have hS : Sf (shapeCast ⟨3, ![32, 2048, 64]⟩ q h) (shapeCast ⟨3, ![32, 2048, 64]⟩ k h) (Cert.KernelGlue.bhOf n hh) s
      = Cert.AttnBridge.S q k n hh s := by
    funext j i
    unfold Sf Cert.AttnBridge.S
    refine Finset.sum_congr rfl fun e _ => ?_
    rw [Cert.KernelGlue.shapeCast_pairs_apply, Cert.KernelGlue.shapeCast_pairs_apply]
  have hVf : Vf (shapeCast ⟨3, ![32, 2048, 64]⟩ v h) (Cert.KernelGlue.bhOf n hh) d = Cert.AttnBridge.Vc v n hh d := by
    funext j i
    unfold Vf Cert.AttnBridge.Vc
    rw [Cert.KernelGlue.shapeCast_pairs_apply]
  refine (Cert.KernelGlue.shapeCast_unpairs_apply ((dat V c).arrAt 3 cfg1.N) h' n hh s d).trans ?_
  refine (attn_array V c _ _ _ hQ hK hV hT (Cert.KernelGlue.bhOf n hh) s d).trans ?_
  rw [hS, hVf]
  exact Cert.AttnBridge.flash_eq_attn hq hk hv n hh s d

end Cert.KernelIdeal.AttnArr

end
-- ==== Proof.AttnTile.lean ====
/-
  A tile of the attention kernel: its four key-value points, one after the other, run the online-softmax recurrence.

  The grid's points come in tiles of four (point 4 g + j is step j of tile g). The three scratch arrays — running row
  maximum, running row sum, running weighted sum of values — are reset at a tile's first point and carried from each
  point to the next, each point applying the kernel's pure values (P) to the point's query, key and value blocks and the
  state before it; the tile's last point also writes the quotient of the weighted sum by the row sum. Read at one row r
  and one output column d, the state is a triple of extended reals, P is one step of the recurrence of LibOnlineSoftmax
  on that triple (the row step of AttnPayloads), the reset state is (⊥, 0, 0), and so after step j the triple is the
  recurrence run over the first j + 1 blocks, and the tile's result is its final quotient.

  Everything is stated over an arbitrary family of blocks Q, Kb, Vb indexed by the points, an arbitrary state family st
  and result family out, with the three recursion equations as hypotheses.
-/
import proofs.«174977_j37177236914546_2_alg».proof.Proof.Gen.KernelIdeal.Skeleton
import proofs.«174977_j37177236914546_2_alg».proof.Proof.LibOnlineSoftmax
import proofs.«174977_j37177236914546_2_alg».proof.Proof.AttnPayloads

noncomputable section

namespace Cert.KernelIdeal.AttnTile

open Idealize.ShloMosaic Idealize.ShloMosaic.ValueIdx
open Cert.KernelIdeal Cert.KernelIdeal.Gen
open Cert.LibOnlineSoftmax (step run run_zero run_succ)

/-- The scratch state: running row maximum, running row sum, running weighted sum of values. -/
abbrev St (F : FTy → Type) [FloatOps F] : Type := Vec F S1024x1 .f32 × Vec F S1024x1 .f32 × Vec F S1024x64 .f32

/-- What one grid point makes of the state before it, from its query, key and value blocks: the kernel's stored values. -/
def P {F : FTy → Type} [FloatOps F] (q : Vec F S1x1024x64 .f32) (k v : Vec F S1x512x64 .f32) (s : St F) : St F :=
  (k1_pay2 (k1_pay9 q k s.1), k1_pay12 q k s.1 s.2.1, k1_pay1 (k1_pay7 v) (k1_pay10 q k s.1) (k1_pay11 q k s.1) s.2.2)

/-- The state read at row r and output column d: a triple of extended reals. -/
def at3 (s : St Ideal) (r : Fin 1024) (d : Fin 64) : EReal × EReal × EReal :=
  (s.1 (ix2 r 0), s.2.1 (ix2 r 0), s.2.2 (ix2 r d))

/-- At a row and a column, a point's effect is one step of the recurrence: the chunk is the row's 512 scores against the
    point's key block, the values are column d of the point's value block. -/
theorem P_at (q : Vec Ideal S1x1024x64 .f32) (k v : Vec Ideal S1x512x64 .f32) (s : St Ideal) (r : Fin 1024) (d : Fin 64) :
    at3 (P q k v s) r d = step (at3 s r d) (fun c => AttnPay.sc q k r c) (fun c => v (ix3 0 c d)) :=
  AttnPay.row_step q k v s.1 s.2.1 s.2.2 r d

/-- The reset state is (⊥, 0, 0) at every row and column. -/
theorem init_at (r : Fin 1024) (d : Fin 64) :
    at3 (k1_pay4 (F := Ideal), k1_pay5 (F := Ideal), k1_pay6 (F := Ideal)) r d = ((⊥ : EReal), (0 : EReal), (0 : EReal)) := by
  unfold at3
  rw [AttnPay.pay4_eq, AttnPay.pay5_eq, AttnPay.pay6_eq]

section Tile

variable {N : ℕ} (hN : N = 256)

/-- Step j of tile g: the point 4 g + j. -/
def tp (g : Fin 64) (j : Fin 4) : Fin N := ⟨4 * g.val + j.val, by have := g.isLt; have := j.isLt; omega⟩

theorem tp_val (g : Fin 64) (j : Fin 4) : (tp hN g j : Fin N).val = 4 * g.val + j.val := rfl

variable (Q : Fin N → Vec Ideal S1x1024x64 .f32) (Kb Vb : Fin N → Vec Ideal S1x512x64 .f32)
  (st : (n : ℕ) → n < N → St Ideal) (out : Fin N → Vec Ideal S1x1024x64 .f32)

/-- The state family does not see the proof of its bound. -/
theorem st_congr {n n' : ℕ} (h : n = n') (hn : n < N) (hn' : n' < N) : st n hn = st n' hn' := by
  subst h; rfl

/-- The scores of row r against the four key blocks of tile g, block by block. -/
def tileS (g : Fin 64) (r : Fin 1024) : Fin 4 → Fin 512 → EReal :=
  fun j i => AttnPay.sc (Q (tp hN g j)) (Kb (tp hN g j)) r i

/-- Column d of the four value blocks of tile g, block by block. -/
def tileV (g : Fin 64) (d : Fin 64) : Fin 4 → Fin 512 → EReal :=
  fun j i => Vb (tp hN g j) (ix3 0 i d)

variable
  (hE1 : ∀ t : Fin N, t.val % 4 = 0 →
    st t.val t.isLt = P (Q t) (Kb t) (Vb t) (k1_pay4 (F := Ideal), k1_pay5 (F := Ideal), k1_pay6 (F := Ideal)))
  (hE2 : ∀ t : Fin N, ¬ t.val % 4 = 0 →
    st t.val t.isLt = P (Q t) (Kb t) (Vb t) (st (t.val - 1) (Nat.lt_of_le_of_lt (Nat.sub_le _ _) t.isLt)))
  (hE3 : ∀ t : Fin N, t.val % 4 = 3 →
    out t = k1_pay3 (F := Ideal) (st t.val t.isLt).2.2 (st t.val t.isLt).2.1)

include hE1 hE2 in
/-- After step n of tile g the state at (r, d) is the recurrence run over the tile's first n + 1 blocks. -/
theorem state_run (g : Fin 64) (r : Fin 1024) (d : Fin 64) (n : ℕ) (hn : n < 4) :
    at3 (st (tp hN g ⟨n, hn⟩ : Fin N).val (tp hN g ⟨n, hn⟩ : Fin N).isLt) r d
      = run (tileS hN Q Kb g r) (tileV hN Vb g d) (n + 1) := by
  induction n with
  | zero =>
    rw [hE1 (tp hN g ⟨0, hn⟩) (by rw [tp_val]; show (4 * g.val + 0) % 4 = 0; omega), P_at, init_at, run_succ _ _ hn, run_zero]
    rfl
  | succ n ih =>
    have hn' : n < 4 := Nat.lt_of_succ_lt hn
    rw [hE2 (tp hN g ⟨n + 1, hn⟩) (by rw [tp_val]; show ¬ (4 * g.val + (n + 1)) % 4 = 0; omega), P_at,
      st_congr st (show (tp hN g ⟨n + 1, hn⟩ : Fin N).val - 1 = (tp hN g ⟨n, hn'⟩ : Fin N).val from by
        rw [tp_val, tp_val]; show 4 * g.val + (n + 1) - 1 = 4 * g.val + n; omega) _ (tp hN g ⟨n, hn'⟩ : Fin N).isLt,
      ih hn', run_succ _ _ hn]
    rfl

include hE1 hE2 in
/-- (T1) After step j of tile g, the state at row r and column d — maximum, sum, weighted sum — is the recurrence run
    over the first j + 1 key-value blocks of the tile. -/
theorem tile_state (g : Fin 64) (j : Fin 4) (r : Fin 1024) (d : Fin 64) :
    ((st (tp hN g j : Fin N).val (tp hN g j : Fin N).isLt).1 (ix2 r 0),
     (st (tp hN g j : Fin N).val (tp hN g j : Fin N).isLt).2.1 (ix2 r 0),
     (st (tp hN g j : Fin N).val (tp hN g j : Fin N).isLt).2.2 (ix2 r d))
      = run (fun j' i => AttnPay.sc (Q (tp hN g j')) (Kb (tp hN g j')) r i) (fun j' i => Vb (tp hN g j') (ix3 0 i d))
          (j.val + 1) := by
  obtain ⟨n, hn⟩ := j
  exact state_run hN Q Kb Vb st hE1 hE2 g r d n hn

include hE1 hE2 hE3 in
/-- (T2) The tile's result at row r and column d is the recurrence over the tile's four blocks, divided out. -/
theorem tile_out (g : Fin 64) (r : Fin 1024) (d : Fin 64) :
    out (tp hN g 3) (ix3 0 r d)
      = Ideal.div
          (run (fun j' i => AttnPay.sc (Q (tp hN g j')) (Kb (tp hN g j')) r i) (fun j' i => Vb (tp hN g j') (ix3 0 i d)) 4).2.2
          (run (fun j' i => AttnPay.sc (Q (tp hN g j')) (Kb (tp hN g j')) r i) (fun j' i => Vb (tp hN g j') (ix3 0 i d)) 4).2.1 := by
  have h : at3 (st (tp hN g 3 : Fin N).val (tp hN g 3 : Fin N).isLt) r d
      = run (fun j' i => AttnPay.sc (Q (tp hN g j')) (Kb (tp hN g j')) r i) (fun j' i => Vb (tp hN g j') (ix3 0 i d)) 4 :=
    state_run hN Q Kb Vb st hE1 hE2 g r d 3 (by omega)
  rw [hE3 (tp hN g 3) (by rw [tp_val]; show (4 * g.val + 3) % 4 = 3; omega), AttnPay.pay3_apply, ← h]
  rfl

end Tile

end Cert.KernelIdeal.AttnTile

end
-- ==== Proof.IAttnPay.lean ====
/-
  The attention region, part three: what the scratch buffers hold after a point, in closed form. Every store of the body
  writes its buffer whole, so each buffer after a point is the payload of its last store, and every load reads either a
  block, what the point before left, or — at a tile's first point — the reset value just stored. Hence one step function:
  from the point's three blocks and the previous (maximum, sum, weighted sum) to the next, the same at every point, started
  from (−∞, 0, 0) at a tile's first point; and the result tile at a last point is the weighted sum divided by the sum.
-/
import proofs.«174977_j37177236914546_2_alg».proof.Proof.Gen.KernelIdeal.Launch
import proofs.«174977_j37177236914546_2_alg».proof.Proof.Gen.KernelIdeal.Skeleton
import proofs.«174977_j37177236914546_2_alg».proof.Proof.Gen.KernelIdeal.Points
import proofs.«174977_j37177236914546_2_alg».proof.Proof.IAttn
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- ONE POINT'S STEP on the scratch contents: the new running maximum, running sum and running weighted sum from the
    point's query, key and value blocks and the previous three. -/
def P (q : Vec F S1x1024x64 .f32) (k v : Vec F S1x512x64 .f32) (s : St F) : St F :=
  (k1_pay2 (k1_pay9 q k s.1), k1_pay12 q k s.1 s.2.1, k1_pay1 (k1_pay7 v) (k1_pay10 q k s.1) (k1_pay11 q k s.1) s.2.2)

theorem hz2 : (![0, 0] : Fin 2 → Nat) = fun _ => 0 := by funext a; fin_cases a <;> rfl
theorem hz3 : (![0, 0, 0] : Fin 3 → Nat) = fun _ => 0 := by funext a; fin_cases a <;> rfl

/-- Reading back, through a whole scratch buffer, contents built to be read there gives those contents. -/
theorem readM (h : (scM : Memref sig .tc .vmem S1024x1 .f32).IsWhole) (X : Vec F S1024x1 .f32) :
    View.read (Elt F) (View.whole cc1_scratch0) (h.unread X) = X := h.read_unread X
theorem readL (h : (scL : Memref sig .tc .vmem S1024x1 .f32).IsWhole) (X : Vec F S1024x1 .f32) :
    View.read (Elt F) (View.whole cc1_scratch1) (h.unread X) = X := h.read_unread X
theorem readA (h : (scA : Memref sig .tc .vmem S1024x64 .f32).IsWhole) (X : Vec F S1024x64 .f32) :
    View.read (Elt F) (View.whole cc1_scratch2) (h.unread X) = X := h.read_unread X

set_option maxHeartbeats 1600000 in
/-- A tile's first point: the step from the reset values. -/
theorem stFirst_eq (c : Dev nD) (t : Fin cfg1.N) (h0 : t.val % 4 = 0) :
    stFirst V c t h0 = P (blk V c 0 t) (blk V c 1 t) (blk V c 2 t) (k1_pay4, k1_pay5, k1_pay6) := by
  unfold stFirst stOf P
  refine Prod.ext ?_ (Prod.ext ?_ ?_)
  · dsimp only
    unfold rFirst
    rw [View.read_writes_eq_canon _ _ _ (coverFirstM c _ _ _ _ _ _ _ _ _ _ _ _ _ _ _ _ _ _ _ _)]
    unfold runFirst; dsimp only; sl_unfold_run_names
    rw [View.canon_cons_unit_zero (S := S1024x1) hz2]
    simp only [View.readAt_eq_ld, Memref.IsWhole.read_unread, readM, readL, readA, View.ld_unit_zero (S := S1x1024x64) hz3, View.ld_unit_zero (S := S1x512x64) hz3, View.ld_unit_zero (S := S1024x1) hz2, View.ld_unit_zero (S := S1024x64) hz2, View.readCov_unit_zero (S := S1024x1) _ hz2, View.readCov_unit_zero (S := S1024x64) _ hz2]
  · dsimp only
    unfold rFirst
    rw [View.read_writes_eq_canon _ _ _ (coverFirstL c _ _ _ _ _ _ _ _ _ _ _ _ _ _ _ _ _ _ _ _)]
    unfold runFirst; dsimp only; sl_unfold_run_names
    rw [View.canon_cons_unit_zero (S := S1024x1) hz2]
    simp only [View.readAt_eq_ld, Memref.IsWhole.read_unread, readM, readL, readA, View.ld_unit_zero (S := S1x1024x64) hz3, View.ld_unit_zero (S := S1x512x64) hz3, View.ld_unit_zero (S := S1024x1) hz2, View.ld_unit_zero (S := S1024x64) hz2, View.readCov_unit_zero (S := S1024x1) _ hz2, View.readCov_unit_zero (S := S1024x64) _ hz2]
  · dsimp only
    unfold rFirst
    rw [View.read_writes_eq_canon _ _ _ (coverFirstA c _ _ _ _ _ _ _ _ _ _ _ _ _ _ _ _ _ _ _ _)]
    unfold runFirst; dsimp only; sl_unfold_run_names
    rw [View.canon_cons_unit_zero (S := S1024x64) hz2]
    simp only [View.readAt_eq_ld, Memref.IsWhole.read_unread, readM, readL, readA, View.ld_unit_zero (S := S1x1024x64) hz3, View.ld_unit_zero (S := S1x512x64) hz3, View.ld_unit_zero (S := S1024x1) hz2, View.ld_unit_zero (S := S1024x64) hz2, View.readCov_unit_zero (S := S1024x1) _ hz2, View.readCov_unit_zero (S := S1024x64) _ hz2]

set_option maxHeartbeats 1600000 in
/-- A middle point: the step from what the point before left. -/
theorem stMid_eq (c : Dev nD) (t : Fin cfg1.N) (h0 : ¬t.val % 4 = 0) (h1 : ¬t.val % 4 = 3) (s : St F) :
    stMid V c t h0 h1 s = P (blk V c 0 t) (blk V c 1 t) (blk V c 2 t) s := by
  unfold stMid stOf P
  refine Prod.ext ?_ (Prod.ext ?_ ?_)
  · dsimp only
    unfold rMid
    rw [View.read_writes_eq_canon _ _ _ (coverMidM c _ _ _ _ _ _ _ _ _ _ _ _ _ _ _ _ _ _ _ _ _ _ _)]
    unfold runMid; dsimp only; sl_unfold_run_names
    rw [View.canon_cons_unit_zero (S := S1024x1) hz2]
    simp only [View.readAt_eq_ld, Memref.IsWhole.read_unread, readM, readL, readA, View.ld_unit_zero (S := S1x1024x64) hz3, View.ld_unit_zero (S := S1x512x64) hz3, View.ld_unit_zero (S := S1024x1) hz2, View.ld_unit_zero (S := S1024x64) hz2, View.readCov_unit_zero (S := S1024x1) _ hz2, View.readCov_unit_zero (S := S1024x64) _ hz2]
  · dsimp only
    unfold rMid
    rw [View.read_writes_eq_canon _ _ _ (coverMidL c _ _ _ _ _ _ _ _ _ _ _ _ _ _ _ _ _ _ _ _ _ _ _)]
    unfold runMid; dsimp only; sl_unfold_run_names
    rw [View.canon_cons_unit_zero (S := S1024x1) hz2]
    simp only [View.readAt_eq_ld, Memref.IsWhole.read_unread, readM, readL, readA, View.ld_unit_zero (S := S1x1024x64) hz3, View.ld_unit_zero (S := S1x512x64) hz3, View.ld_unit_zero (S := S1024x1) hz2, View.ld_unit_zero (S := S1024x64) hz2, View.readCov_unit_zero (S := S1024x1) _ hz2, View.readCov_unit_zero (S := S1024x64) _ hz2]
  · dsimp only
    unfold rMid
    rw [View.read_writes_eq_canon _ _ _ (coverMidA c _ _ _ _ _ _ _ _ _ _ _ _ _ _ _ _ _ _ _ _ _ _ _)]
    unfold runMid; dsimp only; sl_unfold_run_names
    rw [View.canon_cons_unit_zero (S := S1024x64) hz2]
    simp only [View.readAt_eq_ld, Memref.IsWhole.read_unread, readM, readL, readA, View.ld_unit_zero (S := S1x1024x64) hz3, View.ld_unit_zero (S := S1x512x64) hz3, View.ld_unit_zero (S := S1024x1) hz2, View.ld_unit_zero (S := S1024x64) hz2, View.readCov_unit_zero (S := S1024x1) _ hz2, View.readCov_unit_zero (S := S1024x64) _ hz2]

set_option maxHeartbeats 1600000 in
/-- A last point: the same step. -/
theorem stLast_eq (c : Dev nD) (t : Fin cfg1.N) (h0 : ¬t.val % 4 = 0) (h1 : t.val % 4 = 3) (s : St F) :
    stLast V c t h0 h1 s = P (blk V c 0 t) (blk V c 1 t) (blk V c 2 t) s := by
  unfold stLast stOf P
  refine Prod.ext ?_ (Prod.ext ?_ ?_)
  · dsimp only
    unfold rLast
    rw [View.read_writes_eq_canon _ _ _ (coverLastM c _ _ _ _ _ _ _ _ _ _ _ _ _ _ _ _ _ _ _ _ _ _ _)]
    unfold runLast; dsimp only; sl_unfold_run_names
    rw [View.canon_cons_unit_zero (S := S1024x1) hz2]
    simp only [View.readAt_eq_ld, Memref.IsWhole.read_unread, readM, readL, readA, View.ld_unit_zero (S := S1x1024x64) hz3, View.ld_unit_zero (S := S1x512x64) hz3, View.ld_unit_zero (S := S1024x1) hz2, View.ld_unit_zero (S := S1024x64) hz2, View.readCov_unit_zero (S := S1024x1) _ hz2, View.readCov_unit_zero (S := S1024x64) _ hz2]
  · dsimp only
    unfold rLast
    rw [View.read_writes_eq_canon _ _ _ (coverLastL c _ _ _ _ _ _ _ _ _ _ _ _ _ _ _ _ _ _ _ _ _ _ _)]
    unfold runLast; dsimp only; sl_unfold_run_names
    rw [View.canon_cons_unit_zero (S := S1024x1) hz2]
    simp only [View.readAt_eq_ld, Memref.IsWhole.read_unread, readM, readL, readA, View.ld_unit_zero (S := S1x1024x64) hz3, View.ld_unit_zero (S := S1x512x64) hz3, View.ld_unit_zero (S := S1024x1) hz2, View.ld_unit_zero (S := S1024x64) hz2, View.readCov_unit_zero (S := S1024x1) _ hz2, View.readCov_unit_zero (S := S1024x64) _ hz2]
  · dsimp only
    unfold rLast
    rw [View.read_writes_eq_canon _ _ _ (coverLastA c _ _ _ _ _ _ _ _ _ _ _ _ _ _ _ _ _ _ _ _ _ _ _)]
    unfold runLast; dsimp only; sl_unfold_run_names
    rw [View.canon_cons_unit_zero (S := S1024x64) hz2]
    simp only [View.readAt_eq_ld, Memref.IsWhole.read_unread, readM, readL, readA, View.ld_unit_zero (S := S1x1024x64) hz3, View.ld_unit_zero (S := S1x512x64) hz3, View.ld_unit_zero (S := S1024x1) hz2, View.ld_unit_zero (S := S1024x64) hz2, View.readCov_unit_zero (S := S1024x1) _ hz2, View.readCov_unit_zero (S := S1024x64) _ hz2]

set_option maxHeartbeats 1600000 in
/-- The result tile at a last point: the new weighted sum divided, row by row, by the new sum. -/
theorem outLast_eq (c : Dev nD) (t : Fin cfg1.N) (h0 : ¬t.val % 4 = 0) (h1 : t.val % 4 = 3) (s : St F) :
    outLast V c t h0 h1 s
      = k1_pay3 (P (blk V c 0 t) (blk V c 1 t) (blk V c 2 t) s).2.2 (P (blk V c 0 t) (blk V c 1 t) (blk V c 2 t) s).2.1 := by
  unfold outLast P rLast
  rw [View.read_writes_eq_canon _ _ _ (coverLastO c _ _ _ _ _ _ _ _ _ _ _ _ _ _ _ _ _ _ _ _ _ _ _)]
  unfold runLast; dsimp only; sl_unfold_run_names
  rw [View.canon_cons_unit_zero (S := S1x1024x64) hz3]
  simp only [View.readAt_eq_ld, Memref.IsWhole.read_unread, readM, readL, readA, View.ld_unit_zero (S := S1x1024x64) hz3, View.ld_unit_zero (S := S1x512x64) hz3, View.ld_unit_zero (S := S1024x1) hz2, View.ld_unit_zero (S := S1024x64) hz2, View.readCov_unit_zero (S := S1024x1) _ hz2, View.readCov_unit_zero (S := S1024x64) _ hz2]

/-! ## The recursion in closed form -/

theorem stAt_start (c : Dev nD) (t : Fin cfg1.N) (h0 : t.val % 4 = 0) :
    stAt V c t.val t.isLt = P (blk V c 0 t) (blk V c 1 t) (blk V c 2 t) (k1_pay4, k1_pay5, k1_pay6) :=
  (stAt_first V c t h0).trans (stFirst_eq V c t h0)

theorem stAt_next (c : Dev nD) (t : Fin cfg1.N) (h0 : ¬t.val % 4 = 0) :
    stAt V c t.val t.isLt
      = P (blk V c 0 t) (blk V c 1 t) (blk V c 2 t) (stAt V c (t.val - 1) (Nat.lt_of_le_of_lt (Nat.sub_le _ _) t.isLt)) := by
  by_cases h1 : t.val % 4 = 3
  · exact (stAt_last V c t h0 h1).trans (stLast_eq V c t h0 h1 _)
  · exact (stAt_mid V c t h0 h1).trans (stMid_eq V c t h0 h1 _)

theorem outAt_last (c : Dev nD) (t : Fin cfg1.N) (h1 : t.val % 4 = 3) :
    outAt V c t = k1_pay3 (stAt V c t.val t.isLt).2.2 (stAt V c t.val t.isLt).2.1 := by
  have h0 : ¬t.val % 4 = 0 := by omega
  unfold outAt; rw [dif_pos h1, outLast_eq V c t h0 h1, stAt_next V c t h0]

end Cert.KernelIdeal.Attn

end
-- ==== Proof.AttnValue.lean ====
/-
  The attention region's value.

  A tile's four points run the blockwise recurrence on the scratch contents, started afresh at the tile's first point,
  and the tile's last point leaves the weighted sum divided by the sum of weights (the tile theorem, applied to the
  region's own blocks, scratch contents and result tiles). With the result array read tile by tile, the recurrence read
  off the three operand arrays, and the recurrence equal to the specification's attention on real inputs, the region's
  result array — its (batch, head) pairs unflattened — is the specification's attention of the queries, keys and values.
-/
import proofs.«174977_j37177236914546_2_alg».proof.Proof.AttnArray
import proofs.«174977_j37177236914546_2_alg».proof.Proof.AttnTile
import proofs.«174977_j37177236914546_2_alg».proof.Proof.IAttnPay

set_option maxRecDepth 16384

noncomputable section

open scoped BigOperators

namespace Cert.KernelIdeal.AttnArr

open Cert.KernelIdeal Cert.KernelIdeal.Gen Cert.KernelIdeal.Attn
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

/-- What a tile's last point leaves in the result window's buffer, at row `r` and column `d`: the recurrence over the
    tile's four points — each point's scores of the row against its key block, and column `d` of its value block —
    divided out. -/
theorem tile_value (c : Dev nD) (g : Fin 64) (r : Fin 1024) (d : Fin 64) :
    outAt V c (tp g 3) (ix3 0 r d)
      = Ideal.div
          (LibOnlineSoftmax.run (fun j i => AttnPay.sc (blk V c 0 (tp g j)) (blk V c 1 (tp g j)) r i)
            (fun j i => blk V c 2 (tp g j) (ix3 0 i d)) 4).2.2
          (LibOnlineSoftmax.run (fun j i => AttnPay.sc (blk V c 0 (tp g j)) (blk V c 1 (tp g j)) r i)
            (fun j i => blk V c 2 (tp g j) (ix3 0 i d)) 4).2.1 :=
  Cert.KernelIdeal.AttnTile.tile_out (N := cfg1.N) N_1 (fun t => blk V c 0 t) (fun t => blk V c 1 t) (fun t => blk V c 2 t)
    (fun n hn => stAt V c n hn) (fun t => outAt V c t)
    (fun t h0 => stAt_start V c t h0) (fun t h0 => stAt_next V c t h0) (fun t h1 => outAt_last V c t h1) g r d

/-- THE REGION'S VALUE: with the three operand arrays the queries, keys and values of [2, 16, 2048, 64], (batch, head)
    pairs flattened, all real, the result array after the region, its pairs unflattened, is the specification's attention. -/
theorem attn_value (c : Dev nD) (q k v : (⟨4, ![2, 16, 2048, 64]⟩ : Shape).Idx → EReal)
    (hq : Cert.LibFinite.AllReal q) (hk : Cert.LibFinite.AllReal k) (hv : Cert.LibFinite.AllReal v)
    (h : (⟨4, ![2, 16, 2048, 64]⟩ : Shape).ShapeCasts ⟨3, ![32, 2048, 64]⟩)
    (h' : (⟨3, ![32, 2048, 64]⟩ : Shape).ShapeCasts ⟨4, ![2, 16, 2048, 64]⟩)
    (hQ : V c main_v9 = shapeCast ⟨3, ![32, 2048, 64]⟩ q h) (hK : V c main_v10 = shapeCast ⟨3, ![32, 2048, 64]⟩ k h)
    (hV : V c main_v11 = shapeCast ⟨3, ![32, 2048, 64]⟩ v h) :
    shapeCast ⟨4, ![2, 16, 2048, 64]⟩ ((Attn.dat (F := Ideal) V c).arrAt 3 cfg1.N) h' = Cert.AttnSpec.attn q k v :=
  attn_of_arrays V c q k v hq hk hv h h' hQ hK hV (tile_value V c)

end Cert.KernelIdeal.AttnArr

end
-- ==== Proof.IRunChain.lean ====
/-
  The result buffer as the attention layer of the five arguments.

  Three facts about the regions' output arrays enter as hypotheses: each projection's output array is, entry by entry,
  the rows of its first operand against the columns of its second plus the bias row; and the attention's output array,
  regrouped by (batch, head), is the specification's attention of the three operands whenever those are the regrouped
  casts of real arrays. With what each region is entered with (the stretches' own terms) the chain closes: the first
  projection's output, split into heads, is the specification's projection of the arguments; its three slices by head
  are real because the arguments are; the attention of them, moved back to position-major and flattened, is the second
  projection's first operand; and the second projection's output, reshaped, is the specification's output projection.
-/
import proofs.«174977_j37177236914546_2_alg».proof.Proof.IRunEntries
import proofs.«174977_j37177236914546_2_alg».proof.Proof.KernelGlue
import proofs.«174977_j37177236914546_2_alg».proof.Proof.AttnSpec
import proofs.«174977_j37177236914546_2_alg».proof.Proof.FiniteInputs
import proofs.«174977_j37177236914546_2_alg».proof.Proof.LinValue
import proofs.«174977_j37177236914546_2_alg».proof.Proof.IFrame
import proofs.«174977_j37177236914546_2_alg».proof.Proof.AttnValue

set_option maxRecDepth 16384

noncomputable section

open scoped BigOperators

namespace Cert.KernelIdeal.Run

open Cert.KernelIdeal Cert.KernelIdeal.Gen
open Idealize.ShloMosaic Idealize.ShloMosaic.TcCoe Idealize.ShloMosaic.ValueIdx
open Idealize.ShloMosaic.Pipeline (Dat Cfg)
open Cert.AttnSpec Cert.KernelGlue Cert.LibFinite Cert.FiniteInputs

variable (At : AttnAcct (F := Ideal)) (m : (ℓ : Loc nD τ sig) → Buf (Elt Ideal) ℓ)

/-! ## The five arguments of a core, as arrays of extended reals -/

abbrev arg0 (c : Dev nD) : (⟨3, ![2, 2048, 1024]⟩ : Shape).Idx → EReal := m ((c : Thread nD τ).loc main_arg0)
abbrev arg1 (c : Dev nD) : (⟨2, ![3072, 1024]⟩ : Shape).Idx → EReal := m ((c : Thread nD τ).loc main_arg1)
abbrev arg2 (c : Dev nD) : (⟨1, ![3072]⟩ : Shape).Idx → EReal := m ((c : Thread nD τ).loc main_arg2)
abbrev arg3 (c : Dev nD) : (⟨2, ![1024, 1024]⟩ : Shape).Idx → EReal := m ((c : Thread nD τ).loc main_arg3)
abbrev arg4 (c : Dev nD) : (⟨1, ![1024]⟩ : Shape).Idx → EReal := m ((c : Thread nD τ).loc main_arg4)

/-! ## The chain -/

/-- The first projection's output array, split into heads, is the specification's projection of the arguments: its
    three operands are the flattened input, the transposed weight and the bias row, and its entries are their products. -/
theorem proj_value
    (hLin0 : ∀ (V : Entry Ideal) (c : Dev nD) (X : S4096x1024.Idx → EReal) (W : S1024x3072.Idx → EReal) (B : S1x3072.Idx → EReal),
      V c main_v0 = X → V c main_v1 = W → V c main_v2 = B → ∀ (r : Fin 4096) (e : Fin 3072),
      (Lin0.dat (F := Ideal) V c).arrAt 3 cfg0.N (ix2 r e) = (∑ d : Fin 1024, X (ix2 r d) * W (ix2 d e)) + B (ix2 0 e))
    (c : Dev nD) :
    shapeCast S2x2048x16x192 (s := S4096x3072) ((Lin0.dat (ent0 m) c).arrAt 3 cfg0.N) shapeCasts_S4096x3072_S2x2048x16x192
      = proj (arg0 m c) (arg1 m c) (arg2 m c) :=
  glue_proj (arg0 m c) (arg1 m c) (arg2 m c) ((Lin0.dat (ent0 m) c).arrAt 3 cfg0.N)
    shapeCasts_S2x2048x1024_S4096x1024 transposes_S3072x1024_S1024x3072_1_0 shapeCasts_S3072_S1x3072
    shapeCasts_S4096x3072_S2x2048x16x192
    (fun r e => hLin0 (ent0 m) c _ _ _ (ent0_main_v0 m c) (ent0_main_v1 m c) (ent0_main_v2 m c) r e)

/-- THE KERNEL'S VALUE. With the three regions' output arrays as the hypotheses state them and the first three
    arguments real, the result buffer at the end is the attention layer of the five arguments. -/
theorem kernel_value_of
    (hLin0 : ∀ (V : Entry Ideal) (c : Dev nD) (X : S4096x1024.Idx → EReal) (W : S1024x3072.Idx → EReal) (B : S1x3072.Idx → EReal),
      V c main_v0 = X → V c main_v1 = W → V c main_v2 = B → ∀ (r : Fin 4096) (e : Fin 3072),
      (Lin0.dat (F := Ideal) V c).arrAt 3 cfg0.N (ix2 r e) = (∑ d : Fin 1024, X (ix2 r d) * W (ix2 d e)) + B (ix2 0 e))
    (hLin2 : ∀ (V : Entry Ideal) (c : Dev nD) (X : S4096x1024.Idx → EReal) (W : S1024x1024.Idx → EReal) (B : S1x1024.Idx → EReal),
      V c main_v15 = X → V c main_v16 = W → V c main_v17 = B → ∀ (r : Fin 4096) (e : Fin 1024),
      (Lin2.dat (F := Ideal) V c).arrAt 3 cfg2.N (ix2 r e) = (∑ d : Fin 1024, X (ix2 r d) * W (ix2 d e)) + B (ix2 0 e))
    (hAttn : ∀ (V : Entry Ideal) (c : Dev nD) (q k v : (⟨4, ![2, 16, 2048, 64]⟩ : Shape).Idx → EReal),
      AllReal q → AllReal k → AllReal v →
      V c main_v9 = shapeCast S32x2048x64 q shapeCasts_S2x16x2048x64_S32x2048x64 →
      V c main_v10 = shapeCast S32x2048x64 k shapeCasts_S2x16x2048x64_S32x2048x64 →
      V c main_v11 = shapeCast S32x2048x64 v shapeCasts_S2x16x2048x64_S32x2048x64 →
      shapeCast S2x16x2048x64 (s := S32x2048x64) ((At.dat V c).arrAt 3 cfg1.N) shapeCasts_S32x2048x64_S2x16x2048x64 = attn q k v)
    (c : Dev nD) (hy : AllReal (arg0 m c)) (hW : AllReal (arg1 m c)) (hb : AllReal (arg2 m c))
    (hT : (⟨4, ![2, 2048, 16, 192]⟩ : Shape).Transposes [0, 2, 1, 3] ⟨4, ![2, 16, 2048, 192]⟩)
    (h0 : (⟨4, ![2, 16, 2048, 192]⟩ : Shape).Slices ![0, 0, 0, 0] ⟨4, ![2, 16, 2048, 64]⟩)
    (h64 : (⟨4, ![2, 16, 2048, 192]⟩ : Shape).Slices ![0, 0, 0, 64] ⟨4, ![2, 16, 2048, 64]⟩)
    (h128 : (⟨4, ![2, 16, 2048, 192]⟩ : Shape).Slices ![0, 0, 0, 128] ⟨4, ![2, 16, 2048, 64]⟩)
    (hT' : (⟨4, ![2, 16, 2048, 64]⟩ : Shape).Transposes [0, 2, 1, 3] ⟨4, ![2, 2048, 16, 64]⟩) :
    W7 At m c (Proc.devRef .tc main_v19)
      = layer (arg0 m c) (arg1 m c) (arg2 m c) (arg3 m c) (arg4 m c) hT h0 h64 h128 hT' := by
  have hproj := proj_value m hLin0 c
  have hP : AllReal (toHeads (proj (arg0 m c) (arg1 m c) (arg2 m c)) hT) := allReal_toHeads hT (allReal_proj hy hW hb)
  -- the attention's three operands are the regrouped casts of the projection's three slices by head
  have e9 : ent1 m c main_v9
      = shapeCast S32x2048x64 (slice0 (toHeads (proj (arg0 m c) (arg1 m c) (arg2 m c)) hT) h0) shapeCasts_S2x16x2048x64_S32x2048x64 := by
    rw [ent1_main_v9, hproj]; try rfl
  have e10 : ent1 m c main_v10
      = shapeCast S32x2048x64 (slice64 (toHeads (proj (arg0 m c) (arg1 m c) (arg2 m c)) hT) h64) shapeCasts_S2x16x2048x64_S32x2048x64 := by
    rw [ent1_main_v10, hproj]; try rfl
  have e11 : ent1 m c main_v11
      = shapeCast S32x2048x64 (slice128 (toHeads (proj (arg0 m c) (arg1 m c) (arg2 m c)) hT) h128) shapeCasts_S2x16x2048x64_S32x2048x64 := by
    rw [ent1_main_v11, hproj]; try rfl
  have hA := hAttn (ent1 m) c _ _ _ (allReal_slice0 h0 hP) (allReal_slice64 h64 hP) (allReal_slice128 h128 hP) e9 e10 e11
  -- the second projection's first operand is that attention, position-major again and flattened
  have e15 : ent2 At m c main_v15
      = shapeCast S4096x1024 (s := S2x2048x16x64)
          (fromHeads (attn (slice0 (toHeads (proj (arg0 m c) (arg1 m c) (arg2 m c)) hT) h0)
            (slice64 (toHeads (proj (arg0 m c) (arg1 m c) (arg2 m c)) hT) h64)
            (slice128 (toHeads (proj (arg0 m c) (arg1 m c) (arg2 m c)) hT) h128)) hT')
          shapeCasts_S2x2048x16x64_S4096x1024 := by
    rw [ent2_main_v15, hA]; try rfl
  rw [result_arr]
  unfold layer
  exact glue_outp _ (arg3 m c) (arg4 m c) ((Lin2.dat (ent2 At m) c).arrAt 3 cfg2.N)
    shapeCasts_S2x2048x16x64_S4096x1024 transposes_S1024x1024_S1024x1024_1_0 shapeCasts_S1024_S1x1024
    shapeCasts_S4096x1024_S2x2048x1024
    (fun r e => hLin2 (ent2 At m) c _ _ _ e15 (ent2_main_v16 At m c) (ent2_main_v17 At m c) r e)

/-- THE KERNEL'S VALUE under the precondition, at the attention region's own account. Both projections' output arrays
    are the matrix products of their operands (every point writes its tile of that one function and the tiles cover the
    array); the precondition makes the arguments real; what is left as a hypothesis is the attention region's output
    array, regrouped, as the specification's attention of its three operands. -/
theorem kernel_value_given [Cert.Pre_finite_inputs.Facts]
    (hAttn : ∀ (V : Entry Ideal) (c : Dev nD) (q k v : (⟨4, ![2, 16, 2048, 64]⟩ : Shape).Idx → EReal),
      AllReal q → AllReal k → AllReal v →
      V c main_v9 = shapeCast S32x2048x64 q shapeCasts_S2x16x2048x64_S32x2048x64 →
      V c main_v10 = shapeCast S32x2048x64 k shapeCasts_S2x16x2048x64_S32x2048x64 →
      V c main_v11 = shapeCast S32x2048x64 v shapeCasts_S2x16x2048x64_S32x2048x64 →
      shapeCast S2x16x2048x64 (s := S32x2048x64) (((attnAcct (F := Ideal)).dat V c).arrAt 3 cfg1.N) shapeCasts_S32x2048x64_S2x16x2048x64
        = attn q k v)
    (m : (ℓ : Loc nD τ sig) → Buf (Elt Ideal) ℓ) (c : Dev nD)
    (hpre : Cert.Pre_finite_inputs.fn (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      = fun _ => 1#1) :
    W7 (attnAcct (F := Ideal)) m c (Proc.devRef .tc main_v19)
      = layer (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) transposes_S2x2048x16x192_S2x16x2048x192_0_2_1_3
          slices_S2x16x2048x192_S2x16x2048x64_0_0_0_0 slices_S2x16x2048x192_S2x16x2048x64_0_0_0_64
          slices_S2x16x2048x192_S2x16x2048x64_0_0_0_128 transposes_S2x16x2048x64_S2x2048x16x64_0_2_1_3 := by
  obtain ⟨hy, hW, hb, -, -⟩ := inputs_real _ _ _ _ _ hpre
  exact kernel_value_of (attnAcct (F := Ideal)) m
    (fun V c X W B hX hW hB r e => LinVal.lin0_array V c X W B hX hW hB r e)
    (fun V c X W B hX hW hB r e => LinVal.lin2_array V c X W B hX hW hB r e)
    hAttn c hy hW hb _ _ _ _ _

/-- THE KERNEL'S VALUE. Under the precondition the result buffer at the end of the program is the attention layer of
    the five argument arrays: the attention region's output array, regrouped by (batch, head), is the specification's
    attention of its three operands, which closes the chain. -/
theorem kernel_value [Cert.Pre_finite_inputs.Facts]
    (m : (ℓ : Loc nD τ sig) → Buf (Elt Ideal) ℓ) (c : Dev nD)
    (hpre : Cert.Pre_finite_inputs.fn (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      = fun _ => 1#1) :
    W7 (attnAcct (F := Ideal)) m c (Proc.devRef .tc main_v19)
      = layer (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) transposes_S2x2048x16x192_S2x16x2048x192_0_2_1_3
          slices_S2x16x2048x192_S2x16x2048x64_0_0_0_0 slices_S2x16x2048x192_S2x16x2048x64_0_0_0_64
          slices_S2x16x2048x192_S2x16x2048x64_0_0_0_128 transposes_S2x16x2048x64_S2x2048x16x64_0_2_1_3 :=
  kernel_value_given
    (fun V c q k v hq hk hv hQ hK hV => Cert.KernelIdeal.AttnArr.attn_value V c q k v hq hk hv _ _ hQ hK hV) m c hpre

/-- info: 'Cert.KernelIdeal.Run.kernel_value' depends on axioms: [propext, Classical.choice, Quot.sound] -/
#guard_msgs in #print axioms kernel_value

end Cert.KernelIdeal.Run

end
-- ==== Proof.lean ====
/-
  A multi-head self-attention layer — fused query/key/value projection, scaled dot-product attention with a softmax over
  all 2048 keys, output projection — computed by three tiled kernels against the plain formulation.

  The kernel program multiplies 512-row by 512-column tiles for the two projections, and for the attention walks, per
  (batch, head) pair and tile of 1024 queries, over four blocks of 512 keys and values, keeping a running row maximum m,
  running row sum l and running weighted sum a, rescaled by exp(m − m') whenever the maximum grows, and dividing a by l
  after the last block; the scale 1/8 is applied to the queries. The reference multiplies whole matrices, scales the
  scores, subtracts the row maximum, exponentiates, divides by the row sum and multiplies by the values.

  Frames: each program terminates from every memory, faults nowhere and leaves its five argument arrays as launched.
  For the kernel programs this is the run through their three regions, the attention region's invariant holding its three
  scratch buffers at the recursion's contents between points; for the reference it is its run with the result dropped.

  Value: on the extended reals both programs end at the same array provided every input entry is a real number. The
  projections agree term by term (the same sums, the row-major reshapes and the weight transposes read at an index). For
  the attention, the rescaled running sums after the four blocks are Σ exp(s − M₄) and Σ exp(s − M₄)·v over all keys
  with M₄ the row maximum, so a / l is the softmax-weighted sum of the values; and Σ_e (q_e / 8)·k_e = (Σ_e q_e·k_e) / 8.
  Both steps cancel or distribute over sums and hold because the entries are real — the precondition. The idealized
  kernel is the kernel's own text read over the extended reals: nothing was rewritten, so that conjunct is trivial.
-/
import proofs.«174977_j37177236914546_2_alg».proof.Defs
import proofs.«174977_j37177236914546_2_alg».proof.Proof.Gen.Kernel
import proofs.«174977_j37177236914546_2_alg».proof.Proof.Gen.KernelIdeal
import proofs.«174977_j37177236914546_2_alg».proof.Proof.Gen.ReferenceIdeal
import proofs.«174977_j37177236914546_2_alg».proof.Proof.Gen.ReferenceIdeal.Run
import proofs.«174977_j37177236914546_2_alg».proof.Proof.Gen.ReferenceIdeal.Read
import proofs.«174977_j37177236914546_2_alg».proof.Proof.Gen.Pre_finite_inputs
import proofs.«174977_j37177236914546_2_alg».proof.Proof.BFrame
import proofs.«174977_j37177236914546_2_alg».proof.Proof.IFrame
import proofs.«174977_j37177236914546_2_alg».proof.Proof.RefStages
import proofs.«174977_j37177236914546_2_alg».proof.Proof.IRunChain
import Idealize.ShloMosaic.Adequacy
import Idealize.ShloMosaic.Init

noncomputable section

namespace Cert.Proof

open Idealize.ShloMosaic Idealize.SL.Sem

/-- The word-level kernel program runs to the end and leaves its arguments as launched. -/
theorem frame_kernel : Cert.frame_Kernel := fun m ρ _ => Cert.Kernel.Run.frame (F := Bits) m ρ

/-- So does the same program read over the extended reals. -/
theorem frame_kernel_ideal : Cert.frame_KernelIdeal := fun m ρ _ => Cert.KernelIdeal.Run.frame (F := Ideal) m ρ

/-- The reference's run, its result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- No operation was rewritten in passing to the extended reals. -/
theorem preserves : Cert.preserves_Kernel_KernelIdeal := trivial

/-- From memories agreeing on the five arguments, all of whose entries are real, both programs end with the attention
    layer of those arguments in their result arrays. -/
theorem algebraic : Cert.algebraic_KernelIdeal_ReferenceIdeal := by
  intro m ρ m' ρ' hpre hagree
  refine ⟨fun c => Cert.KernelIdeal.Run.W7 (Cert.KernelIdeal.Run.attnAcct (F := Ideal)) m c (Proc.devRef .tc Cert.KernelIdeal.main_v19),
    Cert.KernelIdeal.Run.result (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.RefStages.ref_result m' c, (hagree c).1, (hagree c).2.1, (hagree c).2.2.1, (hagree c).2.2.2.1, (hagree c).2.2.2.2]
  exact (Cert.KernelIdeal.Run.kernel_value m c (hpre c)).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
